-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128 .f32) (main_arg9 : FVec F S128 .f32) (main_arg10 : FVec F S1x128 .f32) (main_arg11 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S1x128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x600000 32) (main_arg2 : FVec F S128x256 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S1x128 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x1 : Shape := ⟨2, ![1, 1]⟩
abbrev S2x1x128 : Shape := ⟨3, ![2, 1, 128]⟩
abbrev S6000x128 : Shape := ⟨2, ![6000, 128]⟩
abbrev S1x1x128 : Shape := ⟨3, ![1, 1, 128]⟩
abbrev S2x128 : Shape := ⟨2, ![2, 128]⟩
abbrev S100x1x6000 : Shape := ⟨3, ![100, 1, 6000]⟩
abbrev S1x1x6000 : Shape := ⟨3, ![1, 1, 6000]⟩
abbrev S128x6000 : Shape := ⟨2, ![128, 6000]⟩
abbrev S1x6000 : Shape := ⟨2, ![1, 6000]⟩

abbrev nBuf : Space → Nat
  | .hbm => 105
  | .vmem => 37
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x256, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S50000x128, .bf16⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .bf16⟩
  | .hbm, ⟨24, _⟩ => ⟨S1x600000, .i32⟩
  | .hbm, ⟨25, _⟩ => ⟨S600000, .i32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S128x128, .f32⟩
  | .hbm, ⟨36, _⟩ => ⟨S128x128, .f32⟩
  | .hbm, ⟨37, _⟩ => ⟨S128x128, .bf16⟩
  | .hbm, ⟨38, _⟩ => ⟨S128x128, .f32⟩
  | .hbm, ⟨39, _⟩ => ⟨S128x128, .f32⟩
  | .hbm, ⟨40, _⟩ => ⟨S128x128, .bf16⟩
  | .hbm, ⟨41, _⟩ => ⟨S1x128, .f32⟩
  | .hbm, ⟨42, _⟩ => ⟨S128x128, .f32⟩
  | .hbm, ⟨43, _⟩ => ⟨S128x128, .bf16⟩
  | .hbm, ⟨44, _⟩ => ⟨S1x128, .f32⟩
  | .hbm, ⟨45, _⟩ => ⟨S1x128, .bf16⟩
  | .hbm, ⟨46, _⟩ => ⟨S1x1, .f32⟩
  | .hbm, ⟨47, _⟩ => ⟨S600000x128, .bf16⟩
  | .hbm, ⟨48, _⟩ => ⟨S2x1x128, .f32⟩
  | .hbm, ⟨49, _⟩ => ⟨S2x1x128, .f32⟩
  | .hbm, ⟨50, _⟩ => ⟨S2x128, .f32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S2x128, .f32⟩
  | .hbm, ⟨55, _⟩ => ⟨S_, .f32⟩
  | .hbm, ⟨56, _⟩ => ⟨S128, .f32⟩
  | .hbm, ⟨57, _⟩ => ⟨S1x128, .f32⟩
  | .hbm, ⟨58, _⟩ => ⟨S_, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S600000x128, .bf16⟩
  | .hbm, ⟨76, _⟩ => ⟨S2x1x128, .f32⟩
  | .hbm, ⟨77, _⟩ => ⟨S2x1x128, .f32⟩
  | .hbm, ⟨78, _⟩ => ⟨S2x128, .f32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S2x128, .f32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S_, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S_, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S100x1x6000, .f32⟩
  | .hbm, ⟨104, _⟩ => ⟨S600000, .f32⟩
  | .local _ .vmem, ⟨0, _⟩ => ⟨S6000x128, .bf16⟩
  | .local _ .vmem, ⟨1, _⟩ => ⟨S6000x128, .bf16⟩
  | .local _ .vmem, ⟨2, _⟩ => ⟨S6000x128, .bf16⟩
  | .local _ .vmem, ⟨3, _⟩ => ⟨S6000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S6000x128, .bf16⟩
  | .local _ .vmem, ⟨8, _⟩ => ⟨S6000x128, .bf16⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x128, .f32⟩
  | .local _ .vmem, ⟨14, _⟩ => ⟨S1x128, .f32⟩
  | .local _ .vmem, ⟨15, _⟩ => ⟨S6000x128, .bf16⟩
  | .local _ .vmem, ⟨16, _⟩ => ⟨S6000x128, .bf16⟩
  | .local _ .vmem, ⟨17, _⟩ => ⟨S1x128, .f32⟩
  | .local _ .vmem, ⟨18, _⟩ => ⟨S1x128, .f32⟩
  | .local _ .vmem, ⟨19, _⟩ => ⟨S128x128, .bf16⟩
  | .local _ .vmem, ⟨20, _⟩ => ⟨S1x128, .f32⟩
  | .local _ .vmem, ⟨21, _⟩ => ⟨S6000x128, .bf16⟩
  | .local _ .vmem, ⟨22, _⟩ => ⟨S6000x128, .bf16⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S1x1x128, .f32⟩
  | .local _ .vmem, ⟨27, _⟩ => ⟨S1x128, .f32⟩
  | .local _ .vmem, ⟨28, _⟩ => ⟨S1x128, .f32⟩
  | .local _ .vmem, ⟨29, _⟩ => ⟨S6000x128, .bf16⟩
  | .local _ .vmem, ⟨30, _⟩ => ⟨S6000x128, .bf16⟩
  | .local _ .vmem, ⟨31, _⟩ => ⟨S1x128, .f32⟩
  | .local _ .vmem, ⟨32, _⟩ => ⟨S1x128, .f32⟩
  | .local _ .vmem, ⟨33, _⟩ => ⟨S1x128, .bf16⟩
  | .local _ .vmem, ⟨34, _⟩ => ⟨S1x1, .f32⟩
  | .local _ .vmem, ⟨35, _⟩ => ⟨S1x1x6000, .f32⟩
  | .local _ .vmem, ⟨36, _⟩ => ⟨S1x1x6000, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_8 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem7_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v35 : BitVec 1 := Scalar.cmpi .eq arg1 c49_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S6000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S6000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S6000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![2, 50], ![false, false]⟩

def k1_cond2 (i : grid1.Coords) : BitVec 1 :=
  let arg1 : BitVec 32 := BitVec.ofNat 32 (i 1).val
  let c49_i32 : BitVec 32 := 49#32
  let v41 : BitVec 1 := Scalar.cmpi .eq arg1 c49_i32
  let v42 : BitVec 32 := Scalar.extui v41
  let c0_i32_23 : BitVec 32 := 0#32
  let v43 : BitVec 1 := Scalar.cmpi .ne v42 c0_i32_23
  v43

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S6000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S6000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S6000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x6000 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S6000x128 : S1x128.Broadcasts S6000x128
  reduces_S6000x128_S128 : S6000x128.Reduces [0] S128
  packedbf16_S6000x128_S6000x128_0_0 : (Rect.unit (s := S6000x128) ![0, 0] S6000x128.size inb_S6000x128_S6000x128_0_0).PackedRows (EltTy.packing .bf16)
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S2x1x128_S2x128 : S2x1x128.ShapeCasts S2x128
  reducesTo_S2x128_S128_d0 : S2x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  transposes_S6000x128_p1_0_S128x6000 : S6000x128.Transposes [1, 0] S128x6000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x6000 : S1x1.Broadcasts S1x6000
  shapeCasts_S1x6000_S1x1x6000 : S1x6000.ShapeCasts S1x1x6000
  inb_S1x1x6000_S1x1x6000_0_0_0 : ∀ a, (![0, 0, 0] : Fin 3 → Nat) a + S1x1x6000.size a ≤ S1x1x6000.size a
  h_S1x1x6000 : 0 < S1x1x6000.numel
  shapeCasts_S100x1x6000_S600000 : S100x1x6000.ShapeCasts S600000
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  dot_S1x128_S128x6000_S1x6000_1_0_0_1_n_n_wf : DotDims.WF S1x128 S128x6000 S1x6000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .bf16 = 32 ∨ (Rect.block (s := S600000x128) S6000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .bf16 = 32 ∨ (Rect.block (s := S600000x128) S6000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6000x128.size a ≤ S600000x128.size a
  hwx0_5 : ∀ i : grid0.Coords, EltTy.bits .bf16 = 32 ∨ (Rect.block (s := S600000x128) S6000x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x128.size a
  hwx0_7 : ∀ i : grid0.Coords, EltTy.bits .f32 = 32 ∨ (Rect.block (s := S2x1x128) S1x1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .bf16 = 32 ∨ (Rect.block (s := S600000x128) S6000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x128.size a ≤ S600000x128.size a
  hwx1_5 : ∀ i : grid1.Coords, EltTy.bits .bf16 = 32 ∨ (Rect.block (s := S600000x128) S6000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S2x1x128.size a
  hwx1_6 : ∀ i : grid1.Coords, EltTy.bits .f32 = 32 ∨ (Rect.block (s := S2x1x128) S1x1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x128.size a ≤ S2x1x128.size a
  hwx1_7 : ∀ i : grid1.Coords, EltTy.bits .f32 = 32 ∨ (Rect.block (s := S2x1x128) S1x1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .bf16 = 32 ∨ (Rect.block (s := S600000x128) S6000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .bf16 = 32 ∨ (Rect.block (s := S1x128) S1x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x6000.size a ≤ S100x1x6000.size a
  hwx2_5 : ∀ i : grid2.Coords, EltTy.bits .f32 = 32 ∨ (Rect.block (s := S100x1x6000) S1x1x6000.size (cc2_transform_5 i) (hinb2_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S1x128_S128x6000_S1x6000_1_0_0_1_n_n : DotDims S1x128 S128x6000 S1x6000 where
  lhsContracting := [1]
  rhsContracting := [0]
  lhsNonContracting := [0]
  rhsNonContracting := [1]
  lhsBatch := []
  rhsBatch := []
  wf := dot_S1x128_S128x6000_S1x6000_1_0_0_1_n_n_wf

abbrev win0_0 : Pipeline.Window sig grid0 :=
  Pipeline.Window.ofSpec (Memref.whole main_v9) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31_0) S6000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v31_1) S1x1x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v31_2) S1x1x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v31_0) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52_0) S6000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52_1) S1x1x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v52_2) S1x1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun i => !(k1_cond2 i == 1#1) | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v52_0) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S1x1x6000.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x256 : Shape := ⟨2, ![128, 256]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x256 : Shape := ⟨2, ![600000, 256]⟩
abbrev S1x1 : Shape := ⟨2, ![1, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x600000, .i32⟩
  | 2 => ⟨S128x256, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x128, .f32⟩
  | 11 => ⟨S1, .f32⟩
  | 12 => ⟨S1x600000, .i32⟩
  | 13 => ⟨S600000, .i32⟩
  | 14 => ⟨S_, .i32⟩
  | 15 => ⟨S600000, .i32⟩
  | 16 => ⟨S600000, .i1⟩
  | 17 => ⟨S_, .i32⟩
  | 18 => ⟨S600000, .i32⟩
  | 19 => ⟨S600000, .i32⟩
  | 20 => ⟨S600000, .i32⟩
  | 21 => ⟨S600000x1, .i32⟩
  | 22 => ⟨S600000x128, .f32⟩
  | 23 => ⟨S1x600000, .i32⟩
  | 24 => ⟨S600000, .i32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S600000x256, .f32⟩
  | 35 => ⟨S600000x128, .f32⟩
  | 36 => ⟨S1x128, .f32⟩
  | 37 => ⟨S600000x128, .f32⟩
  | 38 => ⟨S600000x128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S600000x128, .f32⟩
  | 52 => ⟨S600000x128, .f32⟩
  | 53 => ⟨S600000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S600000x128, .f32⟩
  | 69 => ⟨S600000x128, .f32⟩
  | 70 => ⟨S_, .f32⟩
  | 71 => ⟨S128, .f32⟩
  | 72 => ⟨S128, .f32⟩
  | 73 => ⟨S128, .f32⟩
  | 74 => ⟨S1x128, .f32⟩
  | 75 => ⟨S600000x128, .f32⟩
  | 76 => ⟨S600000x128, .f32⟩
  | 77 => ⟨S1x128, .f32⟩
  | 78 => ⟨S600000x128, .f32⟩
  | 79 => ⟨S600000x128, .f32⟩
  | 80 => ⟨S1x128, .f32⟩
  | 81 => ⟨S600000x128, .f32⟩
  | 82 => ⟨S600000x128, .f32⟩
  | 83 => ⟨S_, .f32⟩
  | 84 => ⟨S600000x128, .f32⟩
  | 85 => ⟨S600000x128, .f32⟩
  | 86 => ⟨S600000x128, .f32⟩
  | 87 => ⟨S1x128, .f32⟩
  | 88 => ⟨S600000x128, .f32⟩
  | 89 => ⟨S600000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S600000x128, .f32⟩
  | 103 => ⟨S600000x128, .f32⟩
  | 104 => ⟨S600000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S600000x128, .f32⟩
  | 120 => ⟨S600000x128, .f32⟩
  | 121 => ⟨S_, .f32⟩
  | 122 => ⟨S128, .f32⟩
  | 123 => ⟨S128, .f32⟩
  | 124 => ⟨S128, .f32⟩
  | 125 => ⟨S1x128, .f32⟩
  | 126 => ⟨S600000x128, .f32⟩
  | 127 => ⟨S600000x128, .f32⟩
  | _ => ⟨S50000x128, .f32⟩

abbrev hbmTy0_1 (i : Nat) : BufTy := match i % 128 with
  | 0 => ⟨S1x128, .f32⟩
  | 1 => ⟨S600000x128, .f32⟩
  | 2 => ⟨S600000x128, .f32⟩
  | 3 => ⟨S1x128, .f32⟩
  | 4 => ⟨S600000x128, .f32⟩
  | 5 => ⟨S600000x128, .f32⟩
  | 6 => ⟨S_, .f32⟩
  | 7 => ⟨S600000x128, .f32⟩
  | 8 => ⟨S600000x128, .f32⟩
  | 9 => ⟨S600000x1, .f32⟩
  | 10 => ⟨S1x1, .f32⟩
  | 11 => ⟨S600000x1, .f32⟩
  | 12 => ⟨S600000x1, .f32⟩
  | 13 => ⟨S600000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst_5 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_call1_cst : Ref sig .tc := ⟨.hbm, 83, rfl⟩
abbrev main_call1_v0 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_6 : Ref sig .tc := ⟨.hbm, 90, rfl⟩
abbrev main_v47 : Ref sig .tc := ⟨.hbm, 91, rfl⟩
abbrev main_cst_7 : Ref sig .tc := ⟨.hbm, 92, rfl⟩
abbrev main_v48 : Ref sig .tc := ⟨.hbm, 93, rfl⟩
abbrev main_v49 : Ref sig .tc := ⟨.hbm, 94, rfl⟩
abbrev main_c_8 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_9 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_call3_cst : Ref sig .tc := ⟨.hbm, 134, rfl⟩
abbrev main_call3_v0 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S2x600000_S1x600000_1_0 : S2x600000.Slices ![1, 0] S1x600000
  concatenates_S600000x128_S600000x128_S600000x256_d1 : Shape.Concatenates [S600000x128, S600000x128] S600000x256 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S128_d0 : S600000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  dot_S600000x256_S128x256_S600000x128_1_1_0_0_n_n_wf : DotDims.WF S600000x256 S128x256 S600000x128 [1] [1] [0] [0] [] []
  dot_S600000x128_S128x128_S600000x128_1_1_0_0_n_n_wf : DotDims.WF S600000x128 S128x128 S600000x128 [1] [1] [0] [0] [] []
  dot_S600000x128_S1x128_S600000x1_1_1_0_0_n_n_wf : DotDims.WF S600000x128 S1x128 S600000x1 [1] [1] [0] [0] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S128x256_S600000x128_1_1_0_0_n_n : DotDims S600000x256 S128x256 S600000x128 where
  lhsContracting := [1]
  rhsContracting := [1]
  lhsNonContracting := [0]
  rhsNonContracting := [0]
  lhsBatch := []
  rhsBatch := []
  wf := dot_S600000x256_S128x256_S600000x128_1_1_0_0_n_n_wf
def dot_S600000x128_S128x128_S600000x128_1_1_0_0_n_n : DotDims S600000x128 S128x128 S600000x128 where
  lhsContracting := [1]
  rhsContracting := [1]
  lhsNonContracting := [0]
  rhsNonContracting := [0]
  lhsBatch := []
  rhsBatch := []
  wf := dot_S600000x128_S128x128_S600000x128_1_1_0_0_n_n_wf
def dot_S600000x128_S1x128_S600000x1_1_1_0_0_n_n : DotDims S600000x128 S1x128 S600000x1 where
  lhsContracting := [1]
  rhsContracting := [1]
  lhsNonContracting := [0]
  rhsNonContracting := [0]
  lhsBatch := []
  rhsBatch := []
  wf := dot_S600000x128_S1x128_S600000x1_1_1_0_0_n_n_wf

class Facts : Prop extends Facts₀ where

variable [Facts]
-- ==== Proof.KbL1Kit.lean ====
/-
  The first pallas_call (first linear layer with running column sums) on any staging memrefs: what is shared by its three control cases — the blocks of its
  windows, at which grid points each conditional is taken (the first and the last inner step of each outer index), where
  the two column-sum outputs are idle, and the staging and scratch memrefs the body is called with.
-/
import proofs.«128831_j68624987455985_2_alg».proof.Proof.Gen.Kernel.Launch
import proofs.«128831_j68624987455985_2_alg».proof.Proof.Gen.Kernel.Skeleton
import proofs.«128831_j68624987455985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional: the inner grid coordinate is zero. -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 50 = 0 :=
  (by decide +kernel : ∀ t : Fin grid0.N, cond_0 (grid0.coords t) ↔ t.val % 50 = 0)
/-- The second conditional: the inner grid coordinate is the last one. -/
abbrev cond_1 (i : grid0.Coords) : Prop := k0_cond2 i = 1#1
theorem hcond_1 : ∀ t : Fin cfg0.N, cond_1 (grid0.coords t) ↔ t.val % 50 = 49 :=
  (by decide +kernel : ∀ t : Fin grid0.N, cond_1 (grid0.coords t) ↔ t.val % 50 = 49)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem idleAt_6 : ∀ t : Fin cfg0.N, ¬cond_1 (grid0.coords t) → cfg0.idle 6 (grid0.coords t) = true := by decide +kernel
theorem noFlush_6 : ∀ t : Fin cfg0.N, ¬cond_1 (grid0.coords t) → (cfg0.win 6).flush t = false := by decide +kernel
theorem liveAt_6 : ∀ t : Fin cfg0.N, cond_1 (grid0.coords t) → cfg0.idle 6 (grid0.coords t) = false := by decide +kernel
theorem idleAt_7 : ∀ t : Fin cfg0.N, ¬cond_1 (grid0.coords t) → cfg0.idle 7 (grid0.coords t) = true := by decide +kernel
theorem noFlush_7 : ∀ t : Fin cfg0.N, ¬cond_1 (grid0.coords t) → (cfg0.win 7).flush t = false := by decide +kernel
theorem liveAt_7 : ∀ t : Fin cfg0.N, cond_1 (grid0.coords t) → cfg0.idle 7 (grid0.coords t) = false := by decide +kernel

/-! ## The memrefs the body is called with -/

abbrev VO5 : View sig .tc .vmem S6000x128 .bf16 := (Memref.whole cc0_stg5_0 : Memref sig .tc .vmem S6000x128 .bf16).view
abbrev VO6 : View sig .tc .vmem S1x1x128 .f32 := (Memref.whole cc0_stg6_0 : Memref sig .tc .vmem S1x1x128 .f32).view
abbrev VO7 : View sig .tc .vmem S1x1x128 .f32 := (Memref.whole cc0_stg7_0 : Memref sig .tc .vmem S1x1x128 .f32).view
abbrev ms_0 (t : Fin cfg0.N) : Memref sig .tc .vmem S6000x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S6000x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S6000x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1x128 .f32 := win0_7.stage (cfg0.slots t 7)
abbrev hs_7 (t : Fin cfg0.N) : (ms_7 t).IsWhole := hstage0_7 ((cfg0.slots t 7).cast nbuf0_7)
/-- The two running column sums: whole scoped buffers of the kernel's own. -/
abbrev scM_0 : Memref sig .tc .vmem S1x128 .f32 := Memref.whole cc0_scratch0
abbrev scM_1 : Memref sig .tc .vmem S1x128 .f32 := Memref.whole cc0_scratch1
abbrev VS_0 : View sig .tc .vmem S1x128 .f32 := scM_0.view
abbrev VS_1 : View sig .tc .vmem S1x128 .f32 := scM_1.view

/-- The scoped buffers no window stages, other than the two running sums. -/
abbrev restBut (c : Dev nD) : sProp 𝕄 := Pipeline.scopedRestBut (Ix := Unit) (Name := ℕ) (U := UR sig nD τ) (Lvl := ℕ) (Val := Elt F) spec0 c [cc0_scratch0, cc0_scratch1]

/-- The region's invariant before its first point with the two running sums as memrefs owned at some contents. -/
theorem PhiA_eq (c : Dev nD) :
    (Pipeline.ΦA spec0 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA restBut
  rw [Pipeline.scopedRest_split_of_list spec0 c [cc0_scratch0, cc0_scratch1] (by decide) (by decide)]
  simp only [scM_0, scM_1, owns_whole]; try rfl

end Cert.Kernel.Layer1

end
-- ==== Proof.KbL1RunA.lean ====
/-
  The whole-body run of this pallas_call's kernel at the first inner step: both running sums are set to zero before this block's column sums are added. The pieces each buffer ends with are found by running the
  body symbolically.
-/
import proofs.«128831_j68624987455985_2_alg».proof.Proof.KbL1Kit

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_A (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Layer1

end
-- ==== Proof.KbL1RunB.lean ====
/-
  The whole-body run of this pallas_call's kernel at a middle inner step: this block's column sums are added to the running sums the step before left. The pieces each buffer ends with are found by running the
  body symbolically.
-/
import proofs.«128831_j68624987455985_2_alg».proof.Proof.KbL1RunA

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_B (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Layer1

end
-- ==== Proof.KbL1RunC.lean ====
/-
  The whole-body run of this pallas_call's kernel at the last inner step: after adding this block's column sums, the running sums are stored to the two column-sum outputs. The pieces each buffer ends with are found by running the
  body symbolically.
-/
import proofs.«128831_j68624987455985_2_alg».proof.Proof.KbL1RunB

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_C (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Layer1

end
-- ==== Proof.KbL1Acc.lean ====
/-
  The first pallas_call (first linear layer with running column sums): what each control case leaves in the three outputs and in the two running column sums, what
  they hold point by point along the grid (the sums carried from one inner step to the next, restarted at the first inner step
  of each outer index), the invariant that carries the two sums between points, the pipeline's proof data, and the body
  obligation at every point.
-/
import proofs.«128831_j68624987455985_2_alg».proof.Proof.KbL1RunC

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem cover_A_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S6000x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).1 S6000x128.size (by sl_kernel_rfl) y
def out_A_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S6000x128 .bf16 :=
  VO5.read (Elt F) (VO5.writes (Elt F) VO5.junk (kernelRun_A c i arg2 harg2 arg3 harg3 arg4 harg4 arg5 harg5 arg6 harg6 arg7 harg7 arg8 harg8 arg9 harg9 arg10 harg10 arg11 harg11 hc0 hc1 x0 x1 x2 x3 x4).1)

def out_A_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x1x128 .f32 :=
  VO6.read (Elt F) (VO6.writes (Elt F) VO6.junk (kernelRun_A c i arg2 harg2 arg3 harg3 arg4 harg4 arg5 harg5 arg6 harg6 arg7 harg7 arg8 harg8 arg9 harg9 arg10 harg10 arg11 harg11 hc0 hc1 x0 x1 x2 x3 x4).2.1)

def out_A_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x1x128 .f32 :=
  VO7.read (Elt F) (VO7.writes (Elt F) VO7.junk (kernelRun_A c i arg2 harg2 arg3 harg3 arg4 harg4 arg5 harg5 arg6 harg6 arg7 harg7 arg8 harg8 arg9 harg9 arg10 harg10 arg11 harg11 hc0 hc1 x0 x1 x2 x3 x4).2.2.1)

theorem scover_A_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.1 S1x128.size (by sl_kernel_rfl) y
def sout_A_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x128 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 hc0 hc1 x0 x1 x2 x3 x4).2.2.2.1)

theorem scover_A_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.2.1 S1x128.size (by sl_kernel_rfl) y
def sout_A_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x128 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 hc0 hc1 x0 x1 x2 x3 x4).2.2.2.2.1)

theorem cover_B_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S6000x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_B_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_B c i arg2 harg2 arg3 harg3 arg4 harg4 arg5 harg5 arg6 harg6 arg7 harg7 arg8 harg8 arg9 harg9 arg10 harg10 arg11 harg11 hc0 hc1 x0 x1 x2 x3 x4 xs0 xs1).1)

def out_B_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.1)

def out_B_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_B_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_B_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_B_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_B_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1)

theorem cover_C_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S6000x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_C_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_C c i arg2 harg2 arg3 harg3 arg4 harg4 arg5 harg5 arg6 harg6 arg7 harg7 arg8 harg8 arg9 harg9 arg10 harg10 arg11 harg11 hc0 hc1 x0 x1 x2 x3 x4 xs0 xs1).1)

theorem cover_C_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.1 S1x1x128.size (by sl_kernel_rfl) y
def out_C_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.1)

theorem cover_C_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1 S1x1x128.size (by sl_kernel_rfl) y
def out_C_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_C_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_C_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_C_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_C_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1)

variable (V : (c : Dev nD) → (b : Ref sig .tc) → Buf (Elt F) ((c : Thread nD τ).loc b))

/-- The five buffers (three outputs, two running sums) as one tuple. -/
abbrev Outs : Type := Vec F S6000x128 .bf16 × Vec F S1x1x128 .f32 × Vec F S1x1x128 .f32 × Vec F S1x128 .f32 × Vec F S1x128 .f32

/-- What a point of this case leaves, given the running sums the point before left. -/
def atA (c : Dev nD) (t : Fin cfg0.N) (h0 : t.val % 50 = 0) (h1 : ¬t.val % 50 = 49) : Outs (F := F) :=
  (out_A_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t))

/-- What a point of this case leaves, given the running sums the point before left. -/
def atB (c : Dev nD) (t : Fin cfg0.N) (h0 : ¬t.val % 50 = 0) (h1 : ¬t.val % 50 = 49) (p0 : Vec F S1x128 .f32) (p1 : Vec F S1x128 .f32) : Outs (F := F) :=
  (out_B_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1)

/-- What a point of this case leaves, given the running sums the point before left. -/
def atC (c : Dev nD) (t : Fin cfg0.N) (h0 : ¬t.val % 50 = 0) (h1 : t.val % 50 = 49) (p0 : Vec F S1x128 .f32) (p1 : Vec F S1x128 .f32) : Outs (F := F) :=
  (out_C_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1)

/-- THE ACCUMULATION: what the three outputs' staging buffers and the two running sums hold after the body at position `n`. -/
def outsAt (c : Dev nD) : (n : ℕ) → n < cfg0.N → Outs (F := F)
  | 0, hn => atA V c ⟨0, hn⟩ (Nat.zero_mod _) (by show ¬(0 : ℕ) % 50 = 49; decide)
  | n + 1, hn =>
    if h0 : (n + 1) % 50 = 0 then
      if h1 : (n + 1) % 50 = 49 then False.elim (by omega)
      else atA V c ⟨n + 1, hn⟩ h0 h1
    else
      if h1 : (n + 1) % 50 = 49 then atC V c ⟨n + 1, hn⟩ h0 h1 (outsAt c n (Nat.lt_of_succ_lt hn)).2.2.2.1 (outsAt c n (Nat.lt_of_succ_lt hn)).2.2.2.2
      else atB V c ⟨n + 1, hn⟩ h0 h1 (outsAt c n (Nat.lt_of_succ_lt hn)).2.2.2.1 (outsAt c n (Nat.lt_of_succ_lt hn)).2.2.2.2

theorem outsAt_A (c : Dev nD) (t : Fin cfg0.N) (h0 : t.val % 50 = 0) (h1 : ¬t.val % 50 = 49) :
    outsAt V c t.val t.isLt = atA V c t h0 h1 := by
  obtain ⟨n, hn⟩ := t
  cases n with
  | zero => rfl
  | succ n => exact (dif_pos h0).trans ((dif_neg h1).trans rfl)

theorem outsAt_B (c : Dev nD) (t : Fin cfg0.N) (h0 : ¬t.val % 50 = 0) (h1 : ¬t.val % 50 = 49) :
    outsAt V c t.val t.isLt = atB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 50 = 0) (h1 : t.val % 50 = 49) :
    outsAt V c t.val t.isLt = atC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point the scoped rest at anything; afterwards the two
    running sums at what the point before left in them, the other scoped buffers at anything, the generator register at some state. -/
def PhiS (c : Dev nD) : (n : ℕ) → n ≤ cfg0.N → sProp 𝕄
  | 0, _ => Pipeline.ΦA spec0 c
  | n + 1, hn => iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r)) := rfl

theorem PhiS_pos (c : Dev nD) (n : ℕ) (h : n ≤ cfg0.N) (hz : n ≠ 0) :
    PhiS V c n h = iprop(iprop(iprop(owns (c : Thread nD τ) scM_0 fullShare (outsAt V c (n - 1) (by omega)).2.2.2.1 ∗ owns (c : Thread nD τ) scM_1 fullShare (outsAt V c (n - 1) (by omega)).2.2.2.2) ∗ restBut (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]
theorem after_6 (c : Dev nD) (t : Fin cfg0.N) : (dat V c).after 6 t = (outsAt V c t.val t.isLt).2.1 := by dsimp only [dat]
theorem after_7 (c : Dev nD) (t : Fin cfg0.N) : (dat V c).after 7 t = (outsAt V c t.val t.isLt).2.2.1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

end Cert.Kernel.Layer1

end
-- ==== Proof.KbL1Body.lean ====
/-
  The first pallas_call (first linear layer with running column sums): the body at any grid point meets the pipeline's obligation — the inputs' memrefs hold their
  blocks, the case the point is in decides which run applies, the invariant hands the body the two running sums at what the
  point before left and takes them back at this point's contents.
-/
import proofs.«128831_j68624987455985_2_alg».proof.Proof.KbL1Acc

set_option maxRecDepth 16384

noncomputable section

namespace Cert.Kernel.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 100 := lt_of_lt_of_eq t.isLt (show cfg0.N = 100 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 50 = 0
  · have h1 : ¬t.val % 50 = 49 := by omega
    have hc1 : ¬cond_1 (grid0.coords t) := fun h => h1 ((hcond_1 t).mp h)
    rw [Dat.leavesExact_idle (dat V c) 6 t (idleAt_6 t hc1) (noFlush_6 t hc1), Dat.leavesExact_idle (dat V c) 7 t (idleAt_7 t hc1) (noFlush_7 t hc1)]
    rw [outsAt_A V c t h0 h1]
    unfold atA out_A_5 sout_A_0 sout_A_1; (try dsimp only)
    by_cases hz : t.val = 0
    ·
        rw [PhiS_castSucc V c t, PhiS_zero V c _ _ hz, PhiA_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
    ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
  · have hc0 : ¬cond_0 (grid0.coords t) := fun h => h0 ((hcond_0 t).mp h)
    have hz : t.val ≠ 0 := fun e => h0 (by rw [e])
    by_cases h1 : t.val % 50 = 49
    · rw [show (dat V c).leavesExact 6 t = owns (c : Thread nD τ) (ms_6 t) fullShare ((dat V c).after 6 t) from by
        unfold Dat.leavesExact; rw [liveAt_6 t ((hcond_1 t).mpr h1)], after_6]
      rw [show (dat V c).leavesExact 7 t = owns (c : Thread nD τ) (ms_7 t) fullShare ((dat V c).after 7 t) from by
        unfold Dat.leavesExact; rw [liveAt_7 t ((hcond_1 t).mpr h1)], after_7]
      rw [outsAt_C V c t h0 h1]
      unfold atC out_C_5 out_C_6 out_C_7 sout_C_0 sout_C_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_C c (grid0.coords t) _ _ _ _ _ _ _ _ _ _ _ _ _ _ _ _ _ _ _ _ hc0 ((hcond_1 t).mpr h1) (iblk V c 0 t) (iblk V c 1 t) (iblk V c 2 t) (iblk V c 3 t) (iblk V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover_C_7 c _ _ _ _ _ _ _ _ _ _ _ _ _ _ _ _ _ _ _ _ _ _ _ _ _ _ _ _ _ _)
    · have hc1 : ¬cond_1 (grid0.coords t) := fun h => h1 ((hcond_1 t).mp h)
      rw [Dat.leavesExact_idle (dat V c) 6 t (idleAt_6 t hc1) (noFlush_6 t hc1), Dat.leavesExact_idle (dat V c) 7 t (idleAt_7 t hc1) (noFlush_7 t hc1)]
      rw [outsAt_B V c t h0 h1]
      unfold atB out_B_5 sout_B_0 sout_B_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ _ _ _ _ hc0 hc1 (iblk V c 0 t) (iblk V c 1 t) (iblk V c 2 t) (iblk V c 3 t) (iblk V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the named contents of the two sums are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 100 := N_0; omega)

end Cert.Kernel.Layer1

end
-- ==== Proof.KbL2Kit.lean ====
/-
  The second pallas_call (normalise, second linear layer, running column sums) on any staging memrefs: what is shared by its three control cases — the blocks of its
  windows, at which grid points each conditional is taken (the first and the last inner step of each outer index), where
  the two column-sum outputs are idle, and the staging and scratch memrefs the body is called with.
-/
import proofs.«128831_j68624987455985_2_alg».proof.Proof.Gen.Kernel.Launch
import proofs.«128831_j68624987455985_2_alg».proof.Proof.Gen.Kernel.Skeleton
import proofs.«128831_j68624987455985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional: the inner grid coordinate is zero. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 50 = 0 :=
  (by decide +kernel : ∀ t : Fin grid1.N, cond_0 (grid1.coords t) ↔ t.val % 50 = 0)
/-- The second conditional: the inner grid coordinate is the last one. -/
abbrev cond_1 (i : grid1.Coords) : Prop := k1_cond2 i = 1#1
theorem hcond_1 : ∀ t : Fin cfg1.N, cond_1 (grid1.coords t) ↔ t.val % 50 = 49 :=
  (by decide +kernel : ∀ t : Fin grid1.N, cond_1 (grid1.coords t) ↔ t.val % 50 = 49)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
theorem idleAt_6 : ∀ t : Fin cfg1.N, ¬cond_1 (grid1.coords t) → cfg1.idle 6 (grid1.coords t) = true := by decide +kernel
theorem noFlush_6 : ∀ t : Fin cfg1.N, ¬cond_1 (grid1.coords t) → (cfg1.win 6).flush t = false := by decide +kernel
theorem liveAt_6 : ∀ t : Fin cfg1.N, cond_1 (grid1.coords t) → cfg1.idle 6 (grid1.coords t) = false := by decide +kernel
theorem idleAt_7 : ∀ t : Fin cfg1.N, ¬cond_1 (grid1.coords t) → cfg1.idle 7 (grid1.coords t) = true := by decide +kernel
theorem noFlush_7 : ∀ t : Fin cfg1.N, ¬cond_1 (grid1.coords t) → (cfg1.win 7).flush t = false := by decide +kernel
theorem liveAt_7 : ∀ t : Fin cfg1.N, cond_1 (grid1.coords t) → cfg1.idle 7 (grid1.coords t) = false := by decide +kernel

/-! ## The memrefs the body is called with -/

abbrev VO5 : View sig .tc .vmem S6000x128 .bf16 := (Memref.whole cc1_stg5_0 : Memref sig .tc .vmem S6000x128 .bf16).view
abbrev VO6 : View sig .tc .vmem S1x1x128 .f32 := (Memref.whole cc1_stg6_0 : Memref sig .tc .vmem S1x1x128 .f32).view
abbrev VO7 : View sig .tc .vmem S1x1x128 .f32 := (Memref.whole cc1_stg7_0 : Memref sig .tc .vmem S1x1x128 .f32).view
abbrev ms_0 (t : Fin cfg1.N) : Memref sig .tc .vmem S6000x128 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x128 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S6000x128 .bf16 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x1x128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x1x128 .f32 := win1_7.stage (cfg1.slots t 7)
abbrev hs_7 (t : Fin cfg1.N) : (ms_7 t).IsWhole := hstage1_7 ((cfg1.slots t 7).cast nbuf1_7)
/-- The two running column sums: whole scoped buffers of the kernel's own. -/
abbrev scM_0 : Memref sig .tc .vmem S1x128 .f32 := Memref.whole cc1_scratch0
abbrev scM_1 : Memref sig .tc .vmem S1x128 .f32 := Memref.whole cc1_scratch1
abbrev VS_0 : View sig .tc .vmem S1x128 .f32 := scM_0.view
abbrev VS_1 : View sig .tc .vmem S1x128 .f32 := scM_1.view

/-- The scoped buffers no window stages, other than the two running sums. -/
abbrev restBut (c : Dev nD) : sProp 𝕄 := Pipeline.scopedRestBut (Ix := Unit) (Name := ℕ) (U := UR sig nD τ) (Lvl := ℕ) (Val := Elt F) spec1 c [cc1_scratch0, cc1_scratch1]

/-- The region's invariant before its first point with the two running sums as memrefs owned at some contents. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA restBut
  rw [Pipeline.scopedRest_split_of_list spec1 c [cc1_scratch0, cc1_scratch1] (by decide) (by decide)]
  simp only [scM_0, scM_1, owns_whole]; try rfl

end Cert.Kernel.Layer2

end
-- ==== Proof.KbL2RunA.lean ====
/-
  The whole-body run of this pallas_call's kernel at the first inner step: both running sums are set to zero before this block's column sums are added. The pieces each buffer ends with are found by running the
  body symbolically.
-/
import proofs.«128831_j68624987455985_2_alg».proof.Proof.KbL2Kit

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_A (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Layer2

end
-- ==== Proof.KbL2RunB.lean ====
/-
  The whole-body run of this pallas_call's kernel at a middle inner step: this block's column sums are added to the running sums the step before left. The pieces each buffer ends with are found by running the
  body symbolically.
-/
import proofs.«128831_j68624987455985_2_alg».proof.Proof.KbL2RunA

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_B (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.Kernel.Layer2

end
-- ==== Proof.KbL2RunC.lean ====
/-
  The whole-body run of this pallas_call's kernel at the last inner step: after adding this block's column sums, the running sums are stored to the two column-sum outputs. The pieces each buffer ends with are found by running the
  body symbolically.
-/
import proofs.«128831_j68624987455985_2_alg».proof.Proof.KbL2RunB

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_C (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Layer2

end
-- ==== Proof.KbL2Acc.lean ====
/-
  The second pallas_call (normalise, second linear layer, running column sums): what each control case leaves in the three outputs and in the two running column sums, what
  they hold point by point along the grid (the sums carried from one inner step to the next, restarted at the first inner step
  of each outer index), the invariant that carries the two sums between points, the pipeline's proof data, and the body
  obligation at every point.
-/
import proofs.«128831_j68624987455985_2_alg».proof.Proof.KbL2RunC

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem cover_A_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S6000x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).1 S6000x128.size (by sl_kernel_rfl) y
def out_A_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S6000x128 .bf16 :=
  VO5.read (Elt F) (VO5.writes (Elt F) VO5.junk (kernelRun_A c i arg2 harg2 arg3 harg3 arg4 harg4 arg5 harg5 arg6 harg6 arg7 harg7 arg8 harg8 arg9 harg9 arg10 harg10 arg11 harg11 hc0 hc1 x0 x1 x2 x3 x4).1)

def out_A_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x1x128 .f32 :=
  VO6.read (Elt F) (VO6.writes (Elt F) VO6.junk (kernelRun_A c i arg2 harg2 arg3 harg3 arg4 harg4 arg5 harg5 arg6 harg6 arg7 harg7 arg8 harg8 arg9 harg9 arg10 harg10 arg11 harg11 hc0 hc1 x0 x1 x2 x3 x4).2.1)

def out_A_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x1x128 .f32 :=
  VO7.read (Elt F) (VO7.writes (Elt F) VO7.junk (kernelRun_A c i arg2 harg2 arg3 harg3 arg4 harg4 arg5 harg5 arg6 harg6 arg7 harg7 arg8 harg8 arg9 harg9 arg10 harg10 arg11 harg11 hc0 hc1 x0 x1 x2 x3 x4).2.2.1)

theorem scover_A_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.1 S1x128.size (by sl_kernel_rfl) y
def sout_A_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x128 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 hc0 hc1 x0 x1 x2 x3 x4).2.2.2.1)

theorem scover_A_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.2.1 S1x128.size (by sl_kernel_rfl) y
def sout_A_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x128 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 hc0 hc1 x0 x1 x2 x3 x4).2.2.2.2.1)

theorem cover_B_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S6000x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_B_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_B c i arg2 harg2 arg3 harg3 arg4 harg4 arg5 harg5 arg6 harg6 arg7 harg7 arg8 harg8 arg9 harg9 arg10 harg10 arg11 harg11 hc0 hc1 x0 x1 x2 x3 x4 xs0 xs1).1)

def out_B_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.1)

def out_B_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_B_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_B_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_B_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_B_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1)

theorem cover_C_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S6000x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_C_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_C c i arg2 harg2 arg3 harg3 arg4 harg4 arg5 harg5 arg6 harg6 arg7 harg7 arg8 harg8 arg9 harg9 arg10 harg10 arg11 harg11 hc0 hc1 x0 x1 x2 x3 x4 xs0 xs1).1)

theorem cover_C_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.1 S1x1x128.size (by sl_kernel_rfl) y
def out_C_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.1)

theorem cover_C_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1 S1x1x128.size (by sl_kernel_rfl) y
def out_C_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_C_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_C_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_C_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_C_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1)

variable (V : (c : Dev nD) → (b : Ref sig .tc) → Buf (Elt F) ((c : Thread nD τ).loc b))

/-- The five buffers (three outputs, two running sums) as one tuple. -/
abbrev Outs : Type := Vec F S6000x128 .bf16 × Vec F S1x1x128 .f32 × Vec F S1x1x128 .f32 × Vec F S1x128 .f32 × Vec F S1x128 .f32

/-- What a point of this case leaves, given the running sums the point before left. -/
def atA (c : Dev nD) (t : Fin cfg1.N) (h0 : t.val % 50 = 0) (h1 : ¬t.val % 50 = 49) : Outs (F := F) :=
  (out_A_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t))

/-- What a point of this case leaves, given the running sums the point before left. -/
def atB (c : Dev nD) (t : Fin cfg1.N) (h0 : ¬t.val % 50 = 0) (h1 : ¬t.val % 50 = 49) (p0 : Vec F S1x128 .f32) (p1 : Vec F S1x128 .f32) : Outs (F := F) :=
  (out_B_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1)

/-- What a point of this case leaves, given the running sums the point before left. -/
def atC (c : Dev nD) (t : Fin cfg1.N) (h0 : ¬t.val % 50 = 0) (h1 : t.val % 50 = 49) (p0 : Vec F S1x128 .f32) (p1 : Vec F S1x128 .f32) : Outs (F := F) :=
  (out_C_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1)

/-- THE ACCUMULATION: what the three outputs' staging buffers and the two running sums hold after the body at position `n`. -/
def outsAt (c : Dev nD) : (n : ℕ) → n < cfg1.N → Outs (F := F)
  | 0, hn => atA V c ⟨0, hn⟩ (Nat.zero_mod _) (by show ¬(0 : ℕ) % 50 = 49; decide)
  | n + 1, hn =>
    if h0 : (n + 1) % 50 = 0 then
      if h1 : (n + 1) % 50 = 49 then False.elim (by omega)
      else atA V c ⟨n + 1, hn⟩ h0 h1
    else
      if h1 : (n + 1) % 50 = 49 then atC V c ⟨n + 1, hn⟩ h0 h1 (outsAt c n (Nat.lt_of_succ_lt hn)).2.2.2.1 (outsAt c n (Nat.lt_of_succ_lt hn)).2.2.2.2
      else atB V c ⟨n + 1, hn⟩ h0 h1 (outsAt c n (Nat.lt_of_succ_lt hn)).2.2.2.1 (outsAt c n (Nat.lt_of_succ_lt hn)).2.2.2.2

theorem outsAt_A (c : Dev nD) (t : Fin cfg1.N) (h0 : t.val % 50 = 0) (h1 : ¬t.val % 50 = 49) :
    outsAt V c t.val t.isLt = atA V c t h0 h1 := by
  obtain ⟨n, hn⟩ := t
  cases n with
  | zero => rfl
  | succ n => exact (dif_pos h0).trans ((dif_neg h1).trans rfl)

theorem outsAt_B (c : Dev nD) (t : Fin cfg1.N) (h0 : ¬t.val % 50 = 0) (h1 : ¬t.val % 50 = 49) :
    outsAt V c t.val t.isLt = atB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt_C (c : Dev nD) (t : Fin cfg1.N) (h0 : ¬t.val % 50 = 0) (h1 : t.val % 50 = 49) :
    outsAt V c t.val t.isLt = atC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point the scoped rest at anything; afterwards the two
    running sums at what the point before left in them, the other scoped buffers at anything, the generator register at some state. -/
def PhiS (c : Dev nD) : (n : ℕ) → n ≤ cfg1.N → sProp 𝕄
  | 0, _ => Pipeline.ΦA spec1 c
  | n + 1, hn => iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare (outsAt V c (n - 1) (by omega)).2.2.2.1 ∗ owns (c : Thread nD τ) scM_1 fullShare (outsAt V c (n - 1) (by omega)).2.2.2.2) ∗ restBut (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]
theorem after_6 (c : Dev nD) (t : Fin cfg1.N) : (dat V c).after 6 t = (outsAt V c t.val t.isLt).2.1 := by dsimp only [dat]
theorem after_7 (c : Dev nD) (t : Fin cfg1.N) : (dat V c).after 7 t = (outsAt V c t.val t.isLt).2.2.1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

end Cert.Kernel.Layer2

end
-- ==== Proof.KbL2Body.lean ====
/-
  The second pallas_call (normalise, second linear layer, running column sums): the body at any grid point meets the pipeline's obligation — the inputs' memrefs hold their
  blocks, the case the point is in decides which run applies, the invariant hands the body the two running sums at what the
  point before left and takes them back at this point's contents.
-/
import proofs.«128831_j68624987455985_2_alg».proof.Proof.KbL2Acc

set_option maxRecDepth 16384

noncomputable section

namespace Cert.Kernel.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 100 := lt_of_lt_of_eq t.isLt (show cfg1.N = 100 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 50 = 0
  · have h1 : ¬t.val % 50 = 49 := by omega
    have hc1 : ¬cond_1 (grid1.coords t) := fun h => h1 ((hcond_1 t).mp h)
    rw [Dat.leavesExact_idle (dat V c) 6 t (idleAt_6 t hc1) (noFlush_6 t hc1), Dat.leavesExact_idle (dat V c) 7 t (idleAt_7 t hc1) (noFlush_7 t hc1)]
    rw [outsAt_A V c t h0 h1]
    unfold atA out_A_5 sout_A_0 sout_A_1; (try dsimp only)
    by_cases hz : t.val = 0
    ·
        rw [PhiS_castSucc V c t, PhiS_zero V c _ _ hz, PhiA_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid1.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
    ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid1.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
  · have hc0 : ¬cond_0 (grid1.coords t) := fun h => h0 ((hcond_0 t).mp h)
    have hz : t.val ≠ 0 := fun e => h0 (by rw [e])
    by_cases h1 : t.val % 50 = 49
    · rw [show (dat V c).leavesExact 6 t = owns (c : Thread nD τ) (ms_6 t) fullShare ((dat V c).after 6 t) from by
        unfold Dat.leavesExact; rw [liveAt_6 t ((hcond_1 t).mpr h1)], after_6]
      rw [show (dat V c).leavesExact 7 t = owns (c : Thread nD τ) (ms_7 t) fullShare ((dat V c).after 7 t) from by
        unfold Dat.leavesExact; rw [liveAt_7 t ((hcond_1 t).mpr h1)], after_7]
      rw [outsAt_C V c t h0 h1]
      unfold atC out_C_5 out_C_6 out_C_7 sout_C_0 sout_C_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_C c (grid1.coords t) _ _ _ _ _ _ _ _ _ _ _ _ _ _ _ _ _ _ _ _ hc0 ((hcond_1 t).mpr h1) (iblk V c 0 t) (iblk V c 1 t) (iblk V c 2 t) (iblk V c 3 t) (iblk V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover_C_7 c _ _ _ _ _ _ _ _ _ _ _ _ _ _ _ _ _ _ _ _ _ _ _ _ _ _ _ _ _ _)
    · have hc1 : ¬cond_1 (grid1.coords t) := fun h => h1 ((hcond_1 t).mp h)
      rw [Dat.leavesExact_idle (dat V c) 6 t (idleAt_6 t hc1) (noFlush_6 t hc1), Dat.leavesExact_idle (dat V c) 7 t (idleAt_7 t hc1) (noFlush_7 t hc1)]
      rw [outsAt_B V c t h0 h1]
      unfold atB out_B_5 sout_B_0 sout_B_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid1.coords t) _ _ _ _ _ _ _ _ _ _ _ _ _ _ _ _ _ _ _ _ hc0 hc1 (iblk V c 0 t) (iblk V c 1 t) (iblk V c 2 t) (iblk V c 3 t) (iblk V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the named contents of the two sums are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout (c : Dev nD) : (dat V c).Φ (Fin.last cfg1.N) ⊢ Pipeline.ΦA spec1 c :=
  Phi_out V c _ (by rw [Fin.val_last]; have : cfg1.N = 100 := N_1; omega)

end Cert.Kernel.Layer2

end
-- ==== Proof.KbProj.lean ====
/-
  The third pallas_call (the output projection) on any staging memrefs: what its one store leaves in the output
  block as a function of the five input blocks, the body's triple, and the proof data of its pipeline at the
  contents `V` the region is entered with. The block of edges `t` is rows `6000·t … 6000·t + 5999` of the
  activations; the scale, shift, weight row and bias are the same block at every point.
-/
import proofs.«128831_j68624987455985_2_alg».proof.Proof.Gen.Kernel.Launch
import proofs.«128831_j68624987455985_2_alg».proof.Proof.Gen.Kernel.Skeleton
import proofs.«128831_j68624987455985_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S6000x128 := Rect.unit (s := S6000x128) ![0, 0] S6000x128.size inb_S6000x128_S6000x128_0_0
abbrev rIn1 : Rect S1x128 := Rect.unit (s := S1x128) ![0, 0] S1x128.size inb_S1x128_S1x128_0_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rIn4 : Rect S1x1 := Rect.unit (s := S1x1) ![0, 0] S1x1.size inb_S1x1_S1x1_0_0
abbrev rOut : Rect S1x1x6000 := Rect.unit (s := S1x1x6000) ![0, 0, 0] S1x1x6000.size inb_S1x1x6000_S1x1x6000_0_0_0

/-- The output block after the body, from the input blocks: its one store as a piece. -/
def out5 (x0 : Vec F S6000x128 .bf16) (x1 : Vec F S1x128 .f32) (x2 : Vec F S1x128 .f32) (x3 : Vec F S1x128 .bf16) (x4 : Vec F S1x1 .f32) : Vec F S1x1x6000 .f32 :=
  View.canon [⟨rOut, k2_pay1 (View.ld x0 rIn0) (View.ld x1 rIn1) (View.ld x2 rIn2) (View.ld x3 rIn3) (View.ld x4 rIn4)⟩]

/-- The one store covers the block. -/
theorem cover5 (p0 : Vec F S1x1x6000 .f32) (y : S1x1x6000.Idx) :
    ∃ pc ∈ ([⟨rOut, p0⟩] : List (View.Piece (Elt F) S1x1x6000 .f32)), y ∈ pc.1.set :=
  View.cover_of_tiled [⟨rOut, p0⟩] S1x1x6000.size (by rfl) y

set_option maxHeartbeats 1000000 in
/-- The body on whole staging memrefs, the inputs' at read contents and the output's at anything, runs to the
    continuation holding the inputs' as they were and the output's at `out5` of the inputs'. -/
theorem sound_kernel (c : Dev nD) (E : Set ℕ) (i : grid2.Coords) (arg1 : Memref sig .tc .vmem S6000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .bf16) (harg4 : arg4.IsWhole) (arg5 : Memref sig .tc .vmem S1x1 .f32) (harg5 : arg5.IsWhole) (arg6 : Memref sig .tc .vmem S1x1x6000 .f32) (harg6 : arg6.IsWhole)
    (x0 : Vec F S6000x128 .bf16) (x1 : Vec F S1x128 .f32) (x2 : Vec F S1x128 .f32) (x3 : Vec F S1x128 .bf16) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc2__mlp3_kernel i arg1 harg1 arg2 harg2 arg3 harg3 arg4 harg4 arg5 harg5 arg6 harg6) K := by
  simp only [cc2__mlp3_kernel_eq_skeleton]; unfold cc2__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t`
    each input's buffer at its block and the output's at `out5` of the input blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = out5 (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Proj

end
-- ==== Proof.KbWhole.lean ====
/-
  The whole run of the program: its three pallas_calls among four stretches of host operations. The contents of every
  unscoped buffer at each boundary are a fold from the launch memory (a host stretch applies its operations; a region
  leaves its arrays at what its write-backs make of them); the run ends with every unscoped buffer at the last
  valuation, from which both the unchanged arguments and the result array are read.
-/
import proofs.«128831_j68624987455985_2_alg».proof.Proof.KbL1Body
import proofs.«128831_j68624987455985_2_alg».proof.Proof.KbL2Body
import proofs.«128831_j68624987455985_2_alg».proof.Proof.KbProj
import proofs.«128831_j68624987455985_2_alg».proof.Proof.Gen.Kernel.Regions
import Idealize.ShloMosaic.Lib.Pipeline.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Layer1.dat (V1 m) c).arrAt w cfg0.N
theorem W2_arr (c : Dev nD) (w : Fin cfg0.W) :
    W2 m c (Proc.devRef .tc (Pipeline.arrRef spec0 w)) = (Layer1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (Layer2.dat (V3 m) c).arrAt w cfg1.N
theorem W4_arr (c : Dev nD) (w : Fin cfg1.W) :
    W4 m c (Proc.devRef .tc (Pipeline.arrRef spec1 w)) = (Layer2.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Layer2.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (Proj.dat (V5 m) c).arrAt w cfg2.N
theorem W6_arr (c : Dev nD) (w : Fin cfg2.W) :
    W6 m c (Proc.devRef .tc (Pipeline.arrRef spec2 w)) = (Proj.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Proj.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

/-! ### The arguments end as launched: no host operation writes one and no region's window stages one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (r := main_arg9) (by decide)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (r := main_arg10) (by decide)
    _ = W5 m c (Proc.devRef .tc main_arg10) := W6_of_ne m c main_arg10 (by decide)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps3 _ hostOps3_writes (r := main_arg11) (by decide)
    _ = W5 m c (Proc.devRef .tc main_arg11) := W6_of_ne m c main_arg11 (by decide)
    _ = W4 m c (Proc.devRef .tc main_arg11) := StableHlo.after_of_writes_sub hostOps2 _ hostOps2_writes (r := main_arg11) (by decide)
    _ = W3 m c (Proc.devRef .tc main_arg11) := W4_of_ne m c main_arg11 (by decide)
    _ = W2 m c (Proc.devRef .tc main_arg11) := StableHlo.after_of_writes_sub hostOps1 _ hostOps1_writes (r := main_arg11) (by decide)
    _ = W1 m c (Proc.devRef .tc main_arg11) := W2_of_ne m c main_arg11 (by decide)
    _ = W0 m c (Proc.devRef .tc main_arg11) := StableHlo.after_of_writes_sub hostOps0 _ hostOps0_writes (r := main_arg11) (by decide)
    _ = m ((c : Thread nD τ).loc main_arg11) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => Layer1.dat (V1 m) c
  | ⟨1, _⟩ => fun c => Layer2.dat (V3 m) c
  | ⟨2, _⟩ => fun c => Proj.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Layer1.hout (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Layer2.hout (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Proj.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, with every
    unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(iprop(StableHlo.held (c : Thread nD τ) (Pipeline.ucRefs τ sig) (W7 m c) ∗ ∃ r, prngReg c r) ∗ ∃ W, owes (c : Thread nD τ) (0 : CellTallies nD τ sig Unit) W)
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run m ρ)

/-- The run with the result array named: it ends at the last valuation read at the result's buffer. -/
theorem run_result : θ_run defs (onTc (τ := τ) (main (F := F))) ⟨m, fun _ => 0, ρ⟩ (fun r => ∀ c : Dev nD,
      r.2.mem ((c.tc : Thread nD τ).loc main_v74) = W7 m c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v74 (by decide)), (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run m ρ)

end Cert.Kernel.Whole

end
-- ==== Proof.KiL1Kit.lean ====
/-
  The first pallas_call (first linear layer with running column sums) on any staging memrefs: what is shared by its three control cases — the blocks of its
  windows, at which grid points each conditional is taken (the first and the last inner step of each outer index), where
  the two column-sum outputs are idle, and the staging and scratch memrefs the body is called with.
-/
import proofs.«128831_j68624987455985_2_alg».proof.Proof.Gen.KernelIdeal.Launch
import proofs.«128831_j68624987455985_2_alg».proof.Proof.Gen.KernelIdeal.Skeleton
import proofs.«128831_j68624987455985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional: the inner grid coordinate is zero. -/
abbrev cond_0 (i : grid0.Coords) : Prop := (Scalar.cmpi .ne (Scalar.extui (Scalar.cmpi .eq (BitVec.ofNat 32 (i 1).val) 0#32)) 0#32) = 1#1
theorem hcond_0 : ∀ t : Fin cfg0.N, cond_0 (grid0.coords t) ↔ t.val % 50 = 0 :=
  (by decide +kernel : ∀ t : Fin grid0.N, cond_0 (grid0.coords t) ↔ t.val % 50 = 0)
/-- The second conditional: the inner grid coordinate is the last one. -/
abbrev cond_1 (i : grid0.Coords) : Prop := k0_cond2 i = 1#1
theorem hcond_1 : ∀ t : Fin cfg0.N, cond_1 (grid0.coords t) ↔ t.val % 50 = 49 :=
  (by decide +kernel : ∀ t : Fin grid0.N, cond_1 (grid0.coords t) ↔ t.val % 50 = 49)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem idleAt_6 : ∀ t : Fin cfg0.N, ¬cond_1 (grid0.coords t) → cfg0.idle 6 (grid0.coords t) = true := by decide +kernel
theorem noFlush_6 : ∀ t : Fin cfg0.N, ¬cond_1 (grid0.coords t) → (cfg0.win 6).flush t = false := by decide +kernel
theorem liveAt_6 : ∀ t : Fin cfg0.N, cond_1 (grid0.coords t) → cfg0.idle 6 (grid0.coords t) = false := by decide +kernel
theorem idleAt_7 : ∀ t : Fin cfg0.N, ¬cond_1 (grid0.coords t) → cfg0.idle 7 (grid0.coords t) = true := by decide +kernel
theorem noFlush_7 : ∀ t : Fin cfg0.N, ¬cond_1 (grid0.coords t) → (cfg0.win 7).flush t = false := by decide +kernel
theorem liveAt_7 : ∀ t : Fin cfg0.N, cond_1 (grid0.coords t) → cfg0.idle 7 (grid0.coords t) = false := by decide +kernel

/-! ## The memrefs the body is called with -/

abbrev VO5 : View sig .tc .vmem S6000x128 .bf16 := (Memref.whole cc0_stg5_0 : Memref sig .tc .vmem S6000x128 .bf16).view
abbrev VO6 : View sig .tc .vmem S1x1x128 .f32 := (Memref.whole cc0_stg6_0 : Memref sig .tc .vmem S1x1x128 .f32).view
abbrev VO7 : View sig .tc .vmem S1x1x128 .f32 := (Memref.whole cc0_stg7_0 : Memref sig .tc .vmem S1x1x128 .f32).view
abbrev ms_0 (t : Fin cfg0.N) : Memref sig .tc .vmem S6000x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S6000x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S6000x128 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1x128 .f32 := win0_7.stage (cfg0.slots t 7)
abbrev hs_7 (t : Fin cfg0.N) : (ms_7 t).IsWhole := hstage0_7 ((cfg0.slots t 7).cast nbuf0_7)
/-- The two running column sums: whole scoped buffers of the kernel's own. -/
abbrev scM_0 : Memref sig .tc .vmem S1x128 .f32 := Memref.whole cc0_scratch0
abbrev scM_1 : Memref sig .tc .vmem S1x128 .f32 := Memref.whole cc0_scratch1
abbrev VS_0 : View sig .tc .vmem S1x128 .f32 := scM_0.view
abbrev VS_1 : View sig .tc .vmem S1x128 .f32 := scM_1.view

/-- The scoped buffers no window stages, other than the two running sums. -/
abbrev restBut (c : Dev nD) : sProp 𝕄 := Pipeline.scopedRestBut (Ix := Unit) (Name := ℕ) (U := UR sig nD τ) (Lvl := ℕ) (Val := Elt F) spec0 c [cc0_scratch0, cc0_scratch1]

/-- The region's invariant before its first point with the two running sums as memrefs owned at some contents. -/
theorem PhiA_eq (c : Dev nD) :
    (Pipeline.ΦA spec0 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA restBut
  rw [Pipeline.scopedRest_split_of_list spec0 c [cc0_scratch0, cc0_scratch1] (by decide) (by decide)]
  simp only [scM_0, scM_1, owns_whole]; try rfl

end Cert.KernelIdeal.Layer1

end
-- ==== Proof.KiL1RunA.lean ====
/-
  The whole-body run of this pallas_call's kernel at the first inner step: both running sums are set to zero before this block's column sums are added. The pieces each buffer ends with are found by running the
  body symbolically.
-/
import proofs.«128831_j68624987455985_2_alg».proof.Proof.KiL1Kit

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_A (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Layer1

end
-- ==== Proof.KiL1RunB.lean ====
/-
  The whole-body run of this pallas_call's kernel at a middle inner step: this block's column sums are added to the running sums the step before left. The pieces each buffer ends with are found by running the
  body symbolically.
-/
import proofs.«128831_j68624987455985_2_alg».proof.Proof.KiL1RunA

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_B (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Layer1

end
-- ==== Proof.KiL1RunC.lean ====
/-
  The whole-body run of this pallas_call's kernel at the last inner step: after adding this block's column sums, the running sums are stored to the two column-sum outputs. The pieces each buffer ends with are found by running the
  body symbolically.
-/
import proofs.«128831_j68624987455985_2_alg».proof.Proof.KiL1RunB

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_C (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__mlp1_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__mlp1_kernel_eq_skeleton]; unfold cc0__mlp1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Layer1

end
-- ==== Proof.KiL1Acc.lean ====
/-
  The first pallas_call (first linear layer with running column sums): what each control case leaves in the three outputs and in the two running column sums, what
  they hold point by point along the grid (the sums carried from one inner step to the next, restarted at the first inner step
  of each outer index), the invariant that carries the two sums between points, the pipeline's proof data, and the body
  obligation at every point.
-/
import proofs.«128831_j68624987455985_2_alg».proof.Proof.KiL1RunC

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cover_A_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S6000x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).1 S6000x128.size (by sl_kernel_rfl) y
def out_A_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S6000x128 .bf16 :=
  VO5.read (Elt F) (VO5.writes (Elt F) VO5.junk (kernelRun_A c i arg2 harg2 arg3 harg3 arg4 harg4 arg5 harg5 arg6 harg6 arg7 harg7 arg8 harg8 arg9 harg9 arg10 harg10 arg11 harg11 hc0 hc1 x0 x1 x2 x3 x4).1)

def out_A_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x1x128 .f32 :=
  VO6.read (Elt F) (VO6.writes (Elt F) VO6.junk (kernelRun_A c i arg2 harg2 arg3 harg3 arg4 harg4 arg5 harg5 arg6 harg6 arg7 harg7 arg8 harg8 arg9 harg9 arg10 harg10 arg11 harg11 hc0 hc1 x0 x1 x2 x3 x4).2.1)

def out_A_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x1x128 .f32 :=
  VO7.read (Elt F) (VO7.writes (Elt F) VO7.junk (kernelRun_A c i arg2 harg2 arg3 harg3 arg4 harg4 arg5 harg5 arg6 harg6 arg7 harg7 arg8 harg8 arg9 harg9 arg10 harg10 arg11 harg11 hc0 hc1 x0 x1 x2 x3 x4).2.2.1)

theorem scover_A_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.1 S1x128.size (by sl_kernel_rfl) y
def sout_A_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x128 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 hc0 hc1 x0 x1 x2 x3 x4).2.2.2.1)

theorem scover_A_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.2.1 S1x128.size (by sl_kernel_rfl) y
def sout_A_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) : Vec F S1x128 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 hc0 hc1 x0 x1 x2 x3 x4).2.2.2.2.1)

theorem cover_B_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S6000x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_B_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_B c i arg2 harg2 arg3 harg3 arg4 harg4 arg5 harg5 arg6 harg6 arg7 harg7 arg8 harg8 arg9 harg9 arg10 harg10 arg11 harg11 hc0 hc1 x0 x1 x2 x3 x4 xs0 xs1).1)

def out_B_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.1)

def out_B_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_B_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_B_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_B_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_B_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1)

theorem cover_C_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S6000x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_C_5 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_C c i arg2 harg2 arg3 harg3 arg4 harg4 arg5 harg5 arg6 harg6 arg7 harg7 arg8 harg8 arg9 harg9 arg10 harg10 arg11 harg11 hc0 hc1 x0 x1 x2 x3 x4 xs0 xs1).1)

theorem cover_C_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.1 S1x1x128.size (by sl_kernel_rfl) y
def out_C_6 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.1)

theorem cover_C_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1 S1x1x128.size (by sl_kernel_rfl) y
def out_C_7 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_C_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_C_0 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_C_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_C_1 (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1)

variable (V : (c : Dev nD) → (b : Ref sig .tc) → Buf (Elt F) ((c : Thread nD τ).loc b))

/-- The five buffers (three outputs, two running sums) as one tuple. -/
abbrev Outs : Type := Vec F S6000x128 .bf16 × Vec F S1x1x128 .f32 × Vec F S1x1x128 .f32 × Vec F S1x128 .f32 × Vec F S1x128 .f32

/-- What a point of this case leaves, given the running sums the point before left. -/
def atA (c : Dev nD) (t : Fin cfg0.N) (h0 : t.val % 50 = 0) (h1 : ¬t.val % 50 = 49) : Outs (F := F) :=
  (out_A_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t))

/-- What a point of this case leaves, given the running sums the point before left. -/
def atB (c : Dev nD) (t : Fin cfg0.N) (h0 : ¬t.val % 50 = 0) (h1 : ¬t.val % 50 = 49) (p0 : Vec F S1x128 .f32) (p1 : Vec F S1x128 .f32) : Outs (F := F) :=
  (out_B_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1)

/-- What a point of this case leaves, given the running sums the point before left. -/
def atC (c : Dev nD) (t : Fin cfg0.N) (h0 : ¬t.val % 50 = 0) (h1 : t.val % 50 = 49) (p0 : Vec F S1x128 .f32) (p1 : Vec F S1x128 .f32) : Outs (F := F) :=
  (out_C_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1)

/-- THE ACCUMULATION: what the three outputs' staging buffers and the two running sums hold after the body at position `n`. -/
def outsAt (c : Dev nD) : (n : ℕ) → n < cfg0.N → Outs (F := F)
  | 0, hn => atA V c ⟨0, hn⟩ (Nat.zero_mod _) (by show ¬(0 : ℕ) % 50 = 49; decide)
  | n + 1, hn =>
    if h0 : (n + 1) % 50 = 0 then
      if h1 : (n + 1) % 50 = 49 then False.elim (by omega)
      else atA V c ⟨n + 1, hn⟩ h0 h1
    else
      if h1 : (n + 1) % 50 = 49 then atC V c ⟨n + 1, hn⟩ h0 h1 (outsAt c n (Nat.lt_of_succ_lt hn)).2.2.2.1 (outsAt c n (Nat.lt_of_succ_lt hn)).2.2.2.2
      else atB V c ⟨n + 1, hn⟩ h0 h1 (outsAt c n (Nat.lt_of_succ_lt hn)).2.2.2.1 (outsAt c n (Nat.lt_of_succ_lt hn)).2.2.2.2

theorem outsAt_A (c : Dev nD) (t : Fin cfg0.N) (h0 : t.val % 50 = 0) (h1 : ¬t.val % 50 = 49) :
    outsAt V c t.val t.isLt = atA V c t h0 h1 := by
  obtain ⟨n, hn⟩ := t
  cases n with
  | zero => rfl
  | succ n => exact (dif_pos h0).trans ((dif_neg h1).trans rfl)

theorem outsAt_B (c : Dev nD) (t : Fin cfg0.N) (h0 : ¬t.val % 50 = 0) (h1 : ¬t.val % 50 = 49) :
    outsAt V c t.val t.isLt = atB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt_C (c : Dev nD) (t : Fin cfg0.N) (h0 : ¬t.val % 50 = 0) (h1 : t.val % 50 = 49) :
    outsAt V c t.val t.isLt = atC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point the scoped rest at anything; afterwards the two
    running sums at what the point before left in them, the other scoped buffers at anything, the generator register at some state. -/
def PhiS (c : Dev nD) : (n : ℕ) → n ≤ cfg0.N → sProp 𝕄
  | 0, _ => Pipeline.ΦA spec0 c
  | n + 1, hn => iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r)) := rfl

theorem PhiS_pos (c : Dev nD) (n : ℕ) (h : n ≤ cfg0.N) (hz : n ≠ 0) :
    PhiS V c n h = iprop(iprop(iprop(owns (c : Thread nD τ) scM_0 fullShare (outsAt V c (n - 1) (by omega)).2.2.2.1 ∗ owns (c : Thread nD τ) scM_1 fullShare (outsAt V c (n - 1) (by omega)).2.2.2.2) ∗ restBut (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (outsAt V c t.val t.isLt).1 := by dsimp only [dat]
theorem after_6 (c : Dev nD) (t : Fin cfg0.N) : (dat V c).after 6 t = (outsAt V c t.val t.isLt).2.1 := by dsimp only [dat]
theorem after_7 (c : Dev nD) (t : Fin cfg0.N) : (dat V c).after 7 t = (outsAt V c t.val t.isLt).2.2.1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

end Cert.KernelIdeal.Layer1

end
-- ==== Proof.KiL1Body.lean ====
/-
  The first pallas_call (first linear layer with running column sums): the body at any grid point meets the pipeline's obligation — the inputs' memrefs hold their
  blocks, the case the point is in decides which run applies, the invariant hands the body the two running sums at what the
  point before left and takes them back at this point's contents.
-/
import proofs.«128831_j68624987455985_2_alg».proof.Proof.KiL1Acc

set_option maxRecDepth 16384

noncomputable section

namespace Cert.KernelIdeal.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 100 := lt_of_lt_of_eq t.isLt (show cfg0.N = 100 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 50 = 0
  · have h1 : ¬t.val % 50 = 49 := by omega
    have hc1 : ¬cond_1 (grid0.coords t) := fun h => h1 ((hcond_1 t).mp h)
    rw [Dat.leavesExact_idle (dat V c) 6 t (idleAt_6 t hc1) (noFlush_6 t hc1), Dat.leavesExact_idle (dat V c) 7 t (idleAt_7 t hc1) (noFlush_7 t hc1)]
    rw [outsAt_A V c t h0 h1]
    unfold atA out_A_5 sout_A_0 sout_A_1; (try dsimp only)
    by_cases hz : t.val = 0
    ·
        rw [PhiS_castSucc V c t, PhiS_zero V c _ _ hz, PhiA_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
    ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid0.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
  · have hc0 : ¬cond_0 (grid0.coords t) := fun h => h0 ((hcond_0 t).mp h)
    have hz : t.val ≠ 0 := fun e => h0 (by rw [e])
    by_cases h1 : t.val % 50 = 49
    · rw [show (dat V c).leavesExact 6 t = owns (c : Thread nD τ) (ms_6 t) fullShare ((dat V c).after 6 t) from by
        unfold Dat.leavesExact; rw [liveAt_6 t ((hcond_1 t).mpr h1)], after_6]
      rw [show (dat V c).leavesExact 7 t = owns (c : Thread nD τ) (ms_7 t) fullShare ((dat V c).after 7 t) from by
        unfold Dat.leavesExact; rw [liveAt_7 t ((hcond_1 t).mpr h1)], after_7]
      rw [outsAt_C V c t h0 h1]
      unfold atC out_C_5 out_C_6 out_C_7 sout_C_0 sout_C_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_C c (grid0.coords t) _ _ _ _ _ _ _ _ _ _ _ _ _ _ _ _ _ _ _ _ hc0 ((hcond_1 t).mpr h1) (iblk V c 0 t) (iblk V c 1 t) (iblk V c 2 t) (iblk V c 3 t) (iblk V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover_C_7 c _ _ _ _ _ _ _ _ _ _ _ _ _ _ _ _ _ _ _ _ _ _ _ _ _ _ _ _ _ _)
    · have hc1 : ¬cond_1 (grid0.coords t) := fun h => h1 ((hcond_1 t).mp h)
      rw [Dat.leavesExact_idle (dat V c) 6 t (idleAt_6 t hc1) (noFlush_6 t hc1), Dat.leavesExact_idle (dat V c) 7 t (idleAt_7 t hc1) (noFlush_7 t hc1)]
      rw [outsAt_B V c t h0 h1]
      unfold atB out_B_5 sout_B_0 sout_B_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid0.coords t) _ _ _ _ _ _ _ _ _ _ _ _ _ _ _ _ _ _ _ _ hc0 hc1 (iblk V c 0 t) (iblk V c 1 t) (iblk V c 2 t) (iblk V c 3 t) (iblk V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the named contents of the two sums are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout (c : Dev nD) : (dat V c).Φ (Fin.last cfg0.N) ⊢ Pipeline.ΦA spec0 c :=
  Phi_out V c _ (by rw [Fin.val_last]; have : cfg0.N = 100 := N_0; omega)

end Cert.KernelIdeal.Layer1

end
-- ==== Proof.KiL2Kit.lean ====
/-
  The second pallas_call (normalise, second linear layer, running column sums) on any staging memrefs: what is shared by its three control cases — the blocks of its
  windows, at which grid points each conditional is taken (the first and the last inner step of each outer index), where
  the two column-sum outputs are idle, and the staging and scratch memrefs the body is called with.
-/
import proofs.«128831_j68624987455985_2_alg».proof.Proof.Gen.KernelIdeal.Launch
import proofs.«128831_j68624987455985_2_alg».proof.Proof.Gen.KernelIdeal.Skeleton
import proofs.«128831_j68624987455985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals -/

/-- The first conditional: the inner grid coordinate is zero. -/
abbrev cond_0 (i : grid1.Coords) : Prop := (Scalar.cmpi .ne (Scalar.extui (Scalar.cmpi .eq (BitVec.ofNat 32 (i 1).val) 0#32)) 0#32) = 1#1
theorem hcond_0 : ∀ t : Fin cfg1.N, cond_0 (grid1.coords t) ↔ t.val % 50 = 0 :=
  (by decide +kernel : ∀ t : Fin grid1.N, cond_0 (grid1.coords t) ↔ t.val % 50 = 0)
/-- The second conditional: the inner grid coordinate is the last one. -/
abbrev cond_1 (i : grid1.Coords) : Prop := k1_cond2 i = 1#1
theorem hcond_1 : ∀ t : Fin cfg1.N, cond_1 (grid1.coords t) ↔ t.val % 50 = 49 :=
  (by decide +kernel : ∀ t : Fin grid1.N, cond_1 (grid1.coords t) ↔ t.val % 50 = 49)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
theorem idleAt_6 : ∀ t : Fin cfg1.N, ¬cond_1 (grid1.coords t) → cfg1.idle 6 (grid1.coords t) = true := by decide +kernel
theorem noFlush_6 : ∀ t : Fin cfg1.N, ¬cond_1 (grid1.coords t) → (cfg1.win 6).flush t = false := by decide +kernel
theorem liveAt_6 : ∀ t : Fin cfg1.N, cond_1 (grid1.coords t) → cfg1.idle 6 (grid1.coords t) = false := by decide +kernel
theorem idleAt_7 : ∀ t : Fin cfg1.N, ¬cond_1 (grid1.coords t) → cfg1.idle 7 (grid1.coords t) = true := by decide +kernel
theorem noFlush_7 : ∀ t : Fin cfg1.N, ¬cond_1 (grid1.coords t) → (cfg1.win 7).flush t = false := by decide +kernel
theorem liveAt_7 : ∀ t : Fin cfg1.N, cond_1 (grid1.coords t) → cfg1.idle 7 (grid1.coords t) = false := by decide +kernel

/-! ## The memrefs the body is called with -/

abbrev VO5 : View sig .tc .vmem S6000x128 .bf16 := (Memref.whole cc1_stg5_0 : Memref sig .tc .vmem S6000x128 .bf16).view
abbrev VO6 : View sig .tc .vmem S1x1x128 .f32 := (Memref.whole cc1_stg6_0 : Memref sig .tc .vmem S1x1x128 .f32).view
abbrev VO7 : View sig .tc .vmem S1x1x128 .f32 := (Memref.whole cc1_stg7_0 : Memref sig .tc .vmem S1x1x128 .f32).view
abbrev ms_0 (t : Fin cfg1.N) : Memref sig .tc .vmem S6000x128 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x128 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x128 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S6000x128 .bf16 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x1x128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x1x128 .f32 := win1_7.stage (cfg1.slots t 7)
abbrev hs_7 (t : Fin cfg1.N) : (ms_7 t).IsWhole := hstage1_7 ((cfg1.slots t 7).cast nbuf1_7)
/-- The two running column sums: whole scoped buffers of the kernel's own. -/
abbrev scM_0 : Memref sig .tc .vmem S1x128 .f32 := Memref.whole cc1_scratch0
abbrev scM_1 : Memref sig .tc .vmem S1x128 .f32 := Memref.whole cc1_scratch1
abbrev VS_0 : View sig .tc .vmem S1x128 .f32 := scM_0.view
abbrev VS_1 : View sig .tc .vmem S1x128 .f32 := scM_1.view

/-- The scoped buffers no window stages, other than the two running sums. -/
abbrev restBut (c : Dev nD) : sProp 𝕄 := Pipeline.scopedRestBut (Ix := Unit) (Name := ℕ) (U := UR sig nD τ) (Lvl := ℕ) (Val := Elt F) spec1 c [cc1_scratch0, cc1_scratch1]

/-- The region's invariant before its first point with the two running sums as memrefs owned at some contents. -/
theorem PhiA_eq (c : Dev nD) :
    (Pipeline.ΦA spec1 c : sProp 𝕄)
      = iprop(iprop(iprop((∃ d, owns (c : Thread nD τ) scM_0 fullShare d) ∗ (∃ d, owns (c : Thread nD τ) scM_1 fullShare d)) ∗ restBut (F := F) c) ∗ (∃ r, prngReg c r)) := by
  unfold Pipeline.ΦA restBut
  rw [Pipeline.scopedRest_split_of_list spec1 c [cc1_scratch0, cc1_scratch1] (by decide) (by decide)]
  simp only [scM_0, scM_1, owns_whole]; try rfl

end Cert.KernelIdeal.Layer2

end
-- ==== Proof.KiL2RunA.lean ====
/-
  The whole-body run of this pallas_call's kernel at the first inner step: both running sums are set to zero before this block's column sums are added. The pieces each buffer ends with are found by running the
  body symbolically.
-/
import proofs.«128831_j68624987455985_2_alg».proof.Proof.KiL2Kit

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_A (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Layer2

end
-- ==== Proof.KiL2RunB.lean ====
/-
  The whole-body run of this pallas_call's kernel at a middle inner step: this block's column sums are added to the running sums the step before left. The pieces each buffer ends with are found by running the
  body symbolically.
-/
import proofs.«128831_j68624987455985_2_alg».proof.Proof.KiL2RunA

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_B (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (xi6 : Vec F S1x1x128 .f32) (xi7 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, [], [], ?_, ?_, fun xi6 xi7 E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    iexists _; iexact HS1

end Cert.KernelIdeal.Layer2

end
-- ==== Proof.KiL2RunC.lean ====
/-
  The whole-body run of this pallas_call's kernel at the last inner step: after adding this block's column sums, the running sums are stored to the two column-sum outputs. The pieces each buffer ends with are found by running the
  body symbolically.
-/
import proofs.«128831_j68624987455985_2_alg».proof.Proof.KiL2RunB

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- What the body's stores leave in each output's and each running sum's memref, as pieces (last first), with the proof that
    on whole staging memrefs the body runs to the continuation holding them. -/
noncomputable def kernelRun_C (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    Σ' (L5 : List (View.Piece (Elt F) S6000x128 .bf16)) (L6 : List (View.Piece (Elt F) S1x1x128 .f32)) (L7 : List (View.Piece (Elt F) S1x1x128 .f32)) (LS0 : List (View.Piece (Elt F) S1x128 .f32)), { LS1 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__mlp2_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__mlp2_kernel_eq_skeleton]; unfold cc1__mlp2_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Layer2

end
-- ==== Proof.KiL2Acc.lean ====
/-
  The second pallas_call (normalise, second linear layer, running column sums): what each control case leaves in the three outputs and in the two running column sums, what
  they hold point by point along the grid (the sums carried from one inner step to the next, restarted at the first inner step
  of each outer index), the invariant that carries the two sums between points, the pipeline's proof data, and the body
  obligation at every point.
-/
import proofs.«128831_j68624987455985_2_alg».proof.Proof.KiL2RunC

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cover_A_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S6000x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).1 S6000x128.size (by sl_kernel_rfl) y
def out_A_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S6000x128 .bf16 :=
  VO5.read (Elt F) (VO5.writes (Elt F) VO5.junk (kernelRun_A c i arg2 harg2 arg3 harg3 arg4 harg4 arg5 harg5 arg6 harg6 arg7 harg7 arg8 harg8 arg9 harg9 arg10 harg10 arg11 harg11 hc0 hc1 x0 x1 x2 x3 x4).1)

def out_A_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x1x128 .f32 :=
  VO6.read (Elt F) (VO6.writes (Elt F) VO6.junk (kernelRun_A c i arg2 harg2 arg3 harg3 arg4 harg4 arg5 harg5 arg6 harg6 arg7 harg7 arg8 harg8 arg9 harg9 arg10 harg10 arg11 harg11 hc0 hc1 x0 x1 x2 x3 x4).2.1)

def out_A_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x1x128 .f32 :=
  VO7.read (Elt F) (VO7.writes (Elt F) VO7.junk (kernelRun_A c i arg2 harg2 arg3 harg3 arg4 harg4 arg5 harg5 arg6 harg6 arg7 harg7 arg8 harg8 arg9 harg9 arg10 harg10 arg11 harg11 hc0 hc1 x0 x1 x2 x3 x4).2.2.1)

theorem scover_A_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.1 S1x128.size (by sl_kernel_rfl) y
def sout_A_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x128 .f32 :=
  VS_0.read (Elt F) (VS_0.writes (Elt F) VS_0.junk (kernelRun_A c i arg2 harg2 arg3 harg3 arg4 harg4 arg5 harg5 arg6 harg6 arg7 harg7 arg8 harg8 arg9 harg9 arg10 harg10 arg11 harg11 hc0 hc1 x0 x1 x2 x3 x4).2.2.2.1)

theorem scover_A_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) (y : S1x128.Idx) :
    ∃ pc ∈ (kernelRun_A c i arg2 harg2 arg3 harg3 arg4 harg4 arg5 harg5 arg6 harg6 arg7 harg7 arg8 harg8 arg9 harg9 arg10 harg10 arg11 harg11 hc0 hc1 x0 x1 x2 x3 x4).2.2.2.2.1, y ∈ pc.1.set :=
  View.cover_of_tiledL (kernelRun_A c i arg2 harg2 arg3 harg3 arg4 harg4 arg5 harg5 arg6 harg6 arg7 harg7 arg8 harg8 arg9 harg9 arg10 harg10 arg11 harg11 hc0 hc1 x0 x1 x2 x3 x4).2.2.2.2.1 S1x128.size (by sl_kernel_rfl) y
def sout_A_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) : Vec F S1x128 .f32 :=
  VS_1.read (Elt F) (VS_1.writes (Elt F) VS_1.junk (kernelRun_A c i arg2 harg2 arg3 harg3 arg4 harg4 arg5 harg5 arg6 harg6 arg7 harg7 arg8 harg8 arg9 harg9 arg10 harg10 arg11 harg11 hc0 hc1 x0 x1 x2 x3 x4).2.2.2.2.1)

theorem cover_B_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S6000x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_B_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_B c i arg2 harg2 arg3 harg3 arg4 harg4 arg5 harg5 arg6 harg6 arg7 harg7 arg8 harg8 arg9 harg9 arg10 harg10 arg11 harg11 hc0 hc1 x0 x1 x2 x3 x4 xs0 xs1).1)

def out_B_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.1)

def out_B_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_B_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_B_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_B_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_B_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_B c i arg2 harg2 arg3 harg3 arg4 harg4 arg5 harg5 arg6 harg6 arg7 harg7 arg8 harg8 arg9 harg9 arg10 harg10 arg11 harg11 hc0 hc1 x0 x1 x2 x3 x4 xs0 xs1).2.2.2.2.1)

theorem cover_C_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S6000x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).1 S6000x128.size (by sl_kernel_rfl) y
def out_C_5 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S6000x128 .bf16 :=
  VO5.read (Elt F) (VO5.writes (Elt F) VO5.junk (kernelRun_C c i arg2 harg2 arg3 harg3 arg4 harg4 arg5 harg5 arg6 harg6 arg7 harg7 arg8 harg8 arg9 harg9 arg10 harg10 arg11 harg11 hc0 hc1 x0 x1 x2 x3 x4 xs0 xs1).1)

theorem cover_C_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.1 S1x1x128.size (by sl_kernel_rfl) y
def out_C_6 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO6.read (Elt F) (VO6.writes (Elt F) VO6.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.1)

theorem cover_C_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1 S1x1x128.size (by sl_kernel_rfl) y
def out_C_7 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x1x128 .f32 :=
  VO7.read (Elt F) (VO7.writes (Elt F) VO7.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.1)

theorem scover_C_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1 S1x128.size (by sl_kernel_rfl) y
def sout_C_0 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_0.read (Elt F) (VS_0.writes (Elt F) VS_0.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.1)

theorem scover_C_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) (y : S1x128.Idx) :
    ∃ pc ∈ (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1, y ∈ pc.1.set :=
  View.cover_of_tiledL (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1 S1x128.size (by sl_kernel_rfl) y
def sout_C_1 (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) : Vec F S1x128 .f32 :=
  VS_1.read (Elt F) (VS_1.writes (Elt F) VS_1.junk (kernelRun_C c i arg2 harg2 arg3 harg3 arg4 harg4 arg5 harg5 arg6 harg6 arg7 harg7 arg8 harg8 arg9 harg9 arg10 harg10 arg11 harg11 hc0 hc1 x0 x1 x2 x3 x4 xs0 xs1).2.2.2.2.1)

variable (V : (c : Dev nD) → (b : Ref sig .tc) → Buf (Elt F) ((c : Thread nD τ).loc b))

/-- The five buffers (three outputs, two running sums) as one tuple. -/
abbrev Outs : Type := Vec F S6000x128 .bf16 × Vec F S1x1x128 .f32 × Vec F S1x1x128 .f32 × Vec F S1x128 .f32 × Vec F S1x128 .f32

/-- What a point of this case leaves, given the running sums the point before left. -/
def atA (c : Dev nD) (t : Fin cfg1.N) (h0 : t.val % 50 = 0) (h1 : ¬t.val % 50 = 49) : Outs (F := F) :=
  (out_A_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), out_A_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t))

/-- What a point of this case leaves, given the running sums the point before left. -/
def atB (c : Dev nD) (t : Fin cfg1.N) (h0 : ¬t.val % 50 = 0) (h1 : ¬t.val % 50 = 49) (p0 : Vec F S1x128 .f32) (p1 : Vec F S1x128 .f32) : Outs (F := F) :=
  (out_B_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, out_B_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1, sout_B_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) p0 p1)

/-- What a point of this case leaves, given the running sums the point before left. -/
def atC (c : Dev nD) (t : Fin cfg1.N) (h0 : ¬t.val % 50 = 0) (h1 : t.val % 50 = 49) (p0 : Vec F S1x128 .f32) (p1 : Vec F S1x128 .f32) : Outs (F := F) :=
  (out_C_5 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_6 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, out_C_7 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_0 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1, sout_C_1 c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) p0 p1)

/-- THE ACCUMULATION: what the three outputs' staging buffers and the two running sums hold after the body at position `n`. -/
def outsAt (c : Dev nD) : (n : ℕ) → n < cfg1.N → Outs (F := F)
  | 0, hn => atA V c ⟨0, hn⟩ (Nat.zero_mod _) (by show ¬(0 : ℕ) % 50 = 49; decide)
  | n + 1, hn =>
    if h0 : (n + 1) % 50 = 0 then
      if h1 : (n + 1) % 50 = 49 then False.elim (by omega)
      else atA V c ⟨n + 1, hn⟩ h0 h1
    else
      if h1 : (n + 1) % 50 = 49 then atC V c ⟨n + 1, hn⟩ h0 h1 (outsAt c n (Nat.lt_of_succ_lt hn)).2.2.2.1 (outsAt c n (Nat.lt_of_succ_lt hn)).2.2.2.2
      else atB V c ⟨n + 1, hn⟩ h0 h1 (outsAt c n (Nat.lt_of_succ_lt hn)).2.2.2.1 (outsAt c n (Nat.lt_of_succ_lt hn)).2.2.2.2

theorem outsAt_A (c : Dev nD) (t : Fin cfg1.N) (h0 : t.val % 50 = 0) (h1 : ¬t.val % 50 = 49) :
    outsAt V c t.val t.isLt = atA V c t h0 h1 := by
  obtain ⟨n, hn⟩ := t
  cases n with
  | zero => rfl
  | succ n => exact (dif_pos h0).trans ((dif_neg h1).trans rfl)

theorem outsAt_B (c : Dev nD) (t : Fin cfg1.N) (h0 : ¬t.val % 50 = 0) (h1 : ¬t.val % 50 = 49) :
    outsAt V c t.val t.isLt = atB V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt_C (c : Dev nD) (t : Fin cfg1.N) (h0 : ¬t.val % 50 = 0) (h1 : t.val % 50 = 49) :
    outsAt V c t.val t.isLt = atC V c t h0 h1 (outsAt V c (t.val - 1) (Nat.lt_of_le_of_lt (Nat.sub_le _ _) t.isLt)).2.2.2.1 (outsAt V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-- The region invariant before position `n`: before the first point the scoped rest at anything; afterwards the two
    running sums at what the point before left in them, the other scoped buffers at anything, the generator register at some state. -/
def PhiS (c : Dev nD) : (n : ℕ) → n ≤ cfg1.N → sProp 𝕄
  | 0, _ => Pipeline.ΦA spec1 c
  | n + 1, hn => iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(iprop(owns (c : Thread nD τ) scM_0 fullShare (outsAt V c n hn).2.2.2.1 ∗ owns (c : Thread nD τ) scM_1 fullShare (outsAt V c n hn).2.2.2.2) ∗ restBut (F := F) c) ∗ (∃ r, prngReg c r)) := rfl

theorem PhiS_pos (c : Dev nD) (n : ℕ) (h : n ≤ cfg1.N) (hz : n ≠ 0) :
    PhiS V c n h = iprop(iprop(iprop(owns (c : Thread nD τ) scM_0 fullShare (outsAt V c (n - 1) (by omega)).2.2.2.1 ∗ owns (c : Thread nD τ) scM_1 fullShare (outsAt V c (n - 1) (by omega)).2.2.2.2) ∗ restBut (F := F) c) ∗ (∃ r, prngReg c r)) := by
  cases n with
  | zero => exact absurd rfl hz
  | succ n => rfl

/-! ## The pipeline's proof data -/

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
    | ⟨6, _⟩ => (outsAt V c t.val t.isLt).2.1
    | ⟨7, _⟩ => (outsAt V c t.val t.isLt).2.2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]
theorem after_6 (c : Dev nD) (t : Fin cfg1.N) : (dat V c).after 6 t = (outsAt V c t.val t.isLt).2.1 := by dsimp only [dat]
theorem after_7 (c : Dev nD) (t : Fin cfg1.N) : (dat V c).after 7 t = (outsAt V c t.val t.isLt).2.2.1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

end Cert.KernelIdeal.Layer2

end
-- ==== Proof.KiL2Body.lean ====
/-
  The second pallas_call (normalise, second linear layer, running column sums): the body at any grid point meets the pipeline's obligation — the inputs' memrefs hold their
  blocks, the case the point is in decides which run applies, the invariant hands the body the two running sums at what the
  point before left and takes them back at this point's contents.
-/
import proofs.«128831_j68624987455985_2_alg».proof.Proof.KiL2Acc

set_option maxRecDepth 16384

noncomputable section

namespace Cert.KernelIdeal.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 100 := lt_of_lt_of_eq t.isLt (show cfg1.N = 100 from N_1)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 50 = 0
  · have h1 : ¬t.val % 50 = 49 := by omega
    have hc1 : ¬cond_1 (grid1.coords t) := fun h => h1 ((hcond_1 t).mp h)
    rw [Dat.leavesExact_idle (dat V c) 6 t (idleAt_6 t hc1) (noFlush_6 t hc1), Dat.leavesExact_idle (dat V c) 7 t (idleAt_7 t hc1) (noFlush_7 t hc1)]
    rw [outsAt_A V c t h0 h1]
    unfold atA out_A_5 sout_A_0 sout_A_1; (try dsimp only)
    by_cases hz : t.val = 0
    ·
        rw [PhiS_castSucc V c t, PhiS_zero V c _ _ hz, PhiA_eq]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid1.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
    ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_A c (grid1.coords t) _ _ _ _ _ _ _ _ _ _ _ _ _ _ _ _ _ _ _ _ ((hcond_0 t).mpr h0) hc1 (iblk V c 0 t) (iblk V c 1 t) (iblk V c 2 t) (iblk V c 3 t) (iblk V c 4 t)).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexists _; iexact HS0
        isplitl [HS1]; · iexists _; iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_A_0 c _ _ _ _ _ _ _ _ _ _ _ _ _ _ _ _ _ _ _ _ _ _ _ _ _ _ _ _)
              · unfold owns; iexists _; isplitr
                swap; · iexact HS1
                ipureintro; exact View.read_writes_of_cover _ _ _ _ _ (scover_A_1 c _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_A_5 c _ _ _ _ _ _ _ _ _ _ _ _ _ _ _ _ _ _ _ _ _ _ _ _ _ _ _ _)
        isplitl [H6]; · iexists _; iexact H6
        iexists _; iexact H7
  · have hc0 : ¬cond_0 (grid1.coords t) := fun h => h0 ((hcond_0 t).mp h)
    have hz : t.val ≠ 0 := fun e => h0 (by rw [e])
    by_cases h1 : t.val % 50 = 49
    · rw [show (dat V c).leavesExact 6 t = owns (c : Thread nD τ) (ms_6 t) fullShare ((dat V c).after 6 t) from by
        unfold Dat.leavesExact; rw [liveAt_6 t ((hcond_1 t).mpr h1)], after_6]
      rw [show (dat V c).leavesExact 7 t = owns (c : Thread nD τ) (ms_7 t) fullShare ((dat V c).after 7 t) from by
        unfold Dat.leavesExact; rw [liveAt_7 t ((hcond_1 t).mpr h1)], after_7]
      rw [outsAt_C V c t h0 h1]
      unfold atC out_C_5 out_C_6 out_C_7 sout_C_0 sout_C_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_C c (grid1.coords t) _ _ _ _ _ _ _ _ _ _ _ _ _ _ _ _ _ _ _ _ hc0 ((hcond_1 t).mpr h1) (iblk V c 0 t) (iblk V c 1 t) (iblk V c 2 t) (iblk V c 3 t) (iblk V c 4 t) _ _).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        iintro ⟨H0, H1, H2, H3, H4, ⟨%e5, H5⟩, ⟨%e6, H6⟩, ⟨%e7, H7⟩, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_C_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_C_5 c _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover_C_7 c _ _ _ _ _ _ _ _ _ _ _ _ _ _ _ _ _ _ _ _ _ _ _ _ _ _ _ _ _ _)
    · have hc1 : ¬cond_1 (grid1.coords t) := fun h => h1 ((hcond_1 t).mp h)
      rw [Dat.leavesExact_idle (dat V c) 6 t (idleAt_6 t hc1) (noFlush_6 t hc1), Dat.leavesExact_idle (dat V c) 7 t (idleAt_7 t hc1) (noFlush_7 t hc1)]
      rw [outsAt_B V c t h0 h1]
      unfold atB out_B_5 sout_B_0 sout_B_1; (try dsimp only)
      ·
        rw [PhiS_castSucc V c t, PhiS_pos V c _ _ hz]
        iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun_B c (grid1.coords t) _ _ _ _ _ _ _ _ _ _ _ _ _ _ _ _ _ _ _ _ hc0 hc1 (iblk V c 0 t) (iblk V c 1 t) (iblk V c 2 t) (iblk V c 3 t) (iblk V c 4 t) _ _).2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [H7]; · iexact H7
        isplitl [HS0]; · iexact HS0
        isplitl [HS1]; · iexact HS1
        iintro ⟨H0, H1, H2, H3, H4, ⟨%e5, H5⟩, H6, H7, ⟨%es0, HS0⟩, ⟨%es1, HS1⟩⟩
        isplitl [HS0 HS1 Hrest Hg]
        · isplitl [HS0 HS1 Hrest]
          · isplitl [HS0 HS1]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _ _ _ _ _ _ _ _)
              · unfold owns; iexists _; isplitr
                swap; · iexact HS1
                ipureintro; exact View.read_writes_of_cover _ _ _ _ _ (scover_B_1 c _ _ _ _ _ _ _ _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover_B_5 c _ _ _ _ _ _ _ _ _ _ _ _ _ _ _ _ _ _ _ _ _ _ _ _ _ _ _ _ _ _)
        isplitl [H6]; · iexists _; iexact H6
        iexists _; iexact H7

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the scoped rest back: the named contents of the two sums are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

/-- The same after the last point. -/
theorem hout (c : Dev nD) : (dat V c).Φ (Fin.last cfg1.N) ⊢ Pipeline.ΦA spec1 c :=
  Phi_out V c _ (by rw [Fin.val_last]; have : cfg1.N = 100 := N_1; omega)

end Cert.KernelIdeal.Layer2

end
-- ==== Proof.KiProj.lean ====
/-
  The third pallas_call (the output projection) on any staging memrefs: what its one store leaves in the output
  block as a function of the five input blocks, the body's triple, and the proof data of its pipeline at the
  contents `V` the region is entered with. The block of edges `t` is rows `6000·t … 6000·t + 5999` of the
  activations; the scale, shift, weight row and bias are the same block at every point.
-/
import proofs.«128831_j68624987455985_2_alg».proof.Proof.Gen.KernelIdeal.Launch
import proofs.«128831_j68624987455985_2_alg».proof.Proof.Gen.KernelIdeal.Skeleton
import proofs.«128831_j68624987455985_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rIn0 : Rect S6000x128 := Rect.unit (s := S6000x128) ![0, 0] S6000x128.size inb_S6000x128_S6000x128_0_0
abbrev rIn1 : Rect S1x128 := Rect.unit (s := S1x128) ![0, 0] S1x128.size inb_S1x128_S1x128_0_0
abbrev rIn2 : Rect S1x128 := Rect.unit (s := S1x128) ![0, 0] S1x128.size inb_S1x128_S1x128_0_0
abbrev rIn3 : Rect S1x128 := Rect.unit (s := S1x128) ![0, 0] S1x128.size inb_S1x128_S1x128_0_0
abbrev rIn4 : Rect S1x1 := Rect.unit (s := S1x1) ![0, 0] S1x1.size inb_S1x1_S1x1_0_0
abbrev rOut : Rect S1x1x6000 := Rect.unit (s := S1x1x6000) ![0, 0, 0] S1x1x6000.size inb_S1x1x6000_S1x1x6000_0_0_0

/-- The output block after the body, from the input blocks: its one store as a piece. -/
def out5 (x0 : Vec F S6000x128 .bf16) (x1 : Vec F S1x128 .f32) (x2 : Vec F S1x128 .f32) (x3 : Vec F S1x128 .bf16) (x4 : Vec F S1x1 .f32) : Vec F S1x1x6000 .f32 :=
  View.canon [⟨rOut, k2_pay1 (View.ld x0 rIn0) (View.ld x1 rIn1) (View.ld x2 rIn2) (View.ld x3 rIn3) (View.ld x4 rIn4)⟩]

/-- The one store covers the block. -/
theorem cover5 (p0 : Vec F S1x1x6000 .f32) (y : S1x1x6000.Idx) :
    ∃ pc ∈ ([⟨rOut, p0⟩] : List (View.Piece (Elt F) S1x1x6000 .f32)), y ∈ pc.1.set :=
  View.cover_of_tiled [⟨rOut, p0⟩] S1x1x6000.size (by rfl) y

set_option maxHeartbeats 1000000 in
/-- The body on whole staging memrefs, the inputs' at read contents and the output's at anything, runs to the
    continuation holding the inputs' as they were and the output's at `out5` of the inputs'. -/
theorem sound_kernel (c : Dev nD) (E : Set ℕ) (i : grid2.Coords) (arg1 : Memref sig .tc .vmem S6000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .bf16) (harg4 : arg4.IsWhole) (arg5 : Memref sig .tc .vmem S1x1 .f32) (harg5 : arg5.IsWhole) (arg6 : Memref sig .tc .vmem S1x1x6000 .f32) (harg6 : arg6.IsWhole)
    (x0 : Vec F S6000x128 .bf16) (x1 : Vec F S1x128 .f32) (x2 : Vec F S1x128 .f32) (x3 : Vec F S1x128 .bf16) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5 x0 x1 x2 x3 x4)) -∗ K ⟨⟩))
      ⊢ wp frame (wpE (defs₀ (F := F)) Variants.none c none) E (cc2__mlp3_kernel i arg1 harg1 arg2 harg2 arg3 harg3 arg4 harg4 arg5 harg5 arg6 harg6) K := by
  simp only [cc2__mlp3_kernel_eq_skeleton]; unfold cc2__mlp3_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t`
    each input's buffer at its block and the output's at `out5` of the input blocks; the invariant the scoped rest and
    the generator register, untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = out5 (iblk V c 0 t) (iblk V c 1 t) (iblk V c 2 t) (iblk V c 3 t) (iblk V c 4 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

/-- The body at any point: the inputs' memrefs hold their blocks, so the body's triple applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Proj

end
-- ==== Proof.KiWhole.lean ====
/-
  The whole run of the program: its three pallas_calls among four stretches of host operations. The contents of every
  unscoped buffer at each boundary are a fold from the launch memory (a host stretch applies its operations; a region
  leaves its arrays at what its write-backs make of them); the run ends with every unscoped buffer at the last
  valuation, from which both the unchanged arguments and the result array are read.
-/
import proofs.«128831_j68624987455985_2_alg».proof.Proof.KiL1Body
import proofs.«128831_j68624987455985_2_alg».proof.Proof.KiL2Body
import proofs.«128831_j68624987455985_2_alg».proof.Proof.KiProj
import proofs.«128831_j68624987455985_2_alg».proof.Proof.Gen.KernelIdeal.Regions
import Idealize.ShloMosaic.Lib.Pipeline.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (Layer1.dat (V1 m) c).arrAt w cfg0.N
theorem W2_arr (c : Dev nD) (w : Fin cfg0.W) :
    W2 m c (Proc.devRef .tc (Pipeline.arrRef spec0 w)) = (Layer1.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Layer1.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (Layer2.dat (V3 m) c).arrAt w cfg1.N
theorem W4_arr (c : Dev nD) (w : Fin cfg1.W) :
    W4 m c (Proc.devRef .tc (Pipeline.arrRef spec1 w)) = (Layer2.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Layer2.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (Proj.dat (V5 m) c).arrAt w cfg2.N
theorem W6_arr (c : Dev nD) (w : Fin cfg2.W) :
    W6 m c (Proc.devRef .tc (Pipeline.arrRef spec2 w)) = (Proj.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Proj.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

abbrev W7 : Dev nD → Valuation τ sig (Elt F) := fun c => StableHlo.after hostOps3 (W6 m c)

/-! ### The arguments end as launched: no host operation writes one and no region's window stages one -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps3 _ hostOps3_writes (r := main_arg0) (by decide)
    _ = W5 m c (Proc.devRef .tc main_arg0) := W6_of_ne m c main_arg0 (by decide)
    _ = W4 m c (Proc.devRef .tc main_arg0) := StableHlo.after_of_writes_sub hostOps2 _ hostOps2_writes (r := main_arg0) (by decide)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps3 _ hostOps3_writes (r := main_arg1) (by decide)
    _ = W5 m c (Proc.devRef .tc main_arg1) := W6_of_ne m c main_arg1 (by decide)
    _ = W4 m c (Proc.devRef .tc main_arg1) := StableHlo.after_of_writes_sub hostOps2 _ hostOps2_writes (r := main_arg1) (by decide)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W7_main_arg2 (c : Dev nD) : W7 m c (Proc.devRef .tc main_arg2) = m ((c : Thread nD τ).loc main_arg2) :=
  calc W7 m c (Proc.devRef .tc main_arg2)
    _ = W6 m c (Proc.devRef .tc main_arg2) := StableHlo.after_of_writes_sub hostOps3 _ hostOps3_writes (r := main_arg2) (by decide)
    _ = W5 m c (Proc.devRef .tc main_arg2) := W6_of_ne m c main_arg2 (by decide)
    _ = W4 m c (Proc.devRef .tc main_arg2) := StableHlo.after_of_writes_sub hostOps2 _ hostOps2_writes (r := main_arg2) (by decide)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W7_main_arg3 (c : Dev nD) : W7 m c (Proc.devRef .tc main_arg3) = m ((c : Thread nD τ).loc main_arg3) :=
  calc W7 m c (Proc.devRef .tc main_arg3)
    _ = W6 m c (Proc.devRef .tc main_arg3) := StableHlo.after_of_writes_sub hostOps3 _ hostOps3_writes (r := main_arg3) (by decide)
    _ = W5 m c (Proc.devRef .tc main_arg3) := W6_of_ne m c main_arg3 (by decide)
    _ = W4 m c (Proc.devRef .tc main_arg3) := StableHlo.after_of_writes_sub hostOps2 _ hostOps2_writes (r := main_arg3) (by decide)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W7_main_arg4 (c : Dev nD) : W7 m c (Proc.devRef .tc main_arg4) = m ((c : Thread nD τ).loc main_arg4) :=
  calc W7 m c (Proc.devRef .tc main_arg4)
    _ = W6 m c (Proc.devRef .tc main_arg4) := StableHlo.after_of_writes_sub hostOps3 _ hostOps3_writes (r := main_arg4) (by decide)
    _ = W5 m c (Proc.devRef .tc main_arg4) := W6_of_ne m c main_arg4 (by decide)
    _ = W4 m c (Proc.devRef .tc main_arg4) := StableHlo.after_of_writes_sub hostOps2 _ hostOps2_writes (r := main_arg4) (by decide)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

theorem W7_main_arg5 (c : Dev nD) : W7 m c (Proc.devRef .tc main_arg5) = m ((c : Thread nD τ).loc main_arg5) :=
  calc W7 m c (Proc.devRef .tc main_arg5)
    _ = W6 m c (Proc.devRef .tc main_arg5) := StableHlo.after_of_writes_sub hostOps3 _ hostOps3_writes (r := main_arg5) (by decide)
    _ = W5 m c (Proc.devRef .tc main_arg5) := W6_of_ne m c main_arg5 (by decide)
    _ = W4 m c (Proc.devRef .tc main_arg5) := StableHlo.after_of_writes_sub hostOps2 _ hostOps2_writes (r := main_arg5) (by decide)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := StableHlo.after_of_writes_sub hostOps0 _ hostOps0_writes (r := main_arg5) (by decide)
    _ = m ((c : Thread nD τ).loc main_arg5) := rfl

theorem W7_main_arg6 (c : Dev nD) : W7 m c (Proc.devRef .tc main_arg6) = m ((c : Thread nD τ).loc main_arg6) :=
  calc W7 m c (Proc.devRef .tc main_arg6)
    _ = W6 m c (Proc.devRef .tc main_arg6) := StableHlo.after_of_writes_sub hostOps3 _ hostOps3_writes (r := main_arg6) (by decide)
    _ = W5 m c (Proc.devRef .tc main_arg6) := W6_of_ne m c main_arg6 (by decide)
    _ = W4 m c (Proc.devRef .tc main_arg6) := StableHlo.after_of_writes_sub hostOps2 _ hostOps2_writes (r := main_arg6) (by decide)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := StableHlo.after_of_writes_sub hostOps0 _ hostOps0_writes (r := main_arg6) (by decide)
    _ = m ((c : Thread nD τ).loc main_arg6) := rfl

theorem W7_main_arg7 (c : Dev nD) : W7 m c (Proc.devRef .tc main_arg7) = m ((c : Thread nD τ).loc main_arg7) :=
  calc W7 m c (Proc.devRef .tc main_arg7)
    _ = W6 m c (Proc.devRef .tc main_arg7) := StableHlo.after_of_writes_sub hostOps3 _ hostOps3_writes (r := main_arg7) (by decide)
    _ = W5 m c (Proc.devRef .tc main_arg7) := W6_of_ne m c main_arg7 (by decide)
    _ = W4 m c (Proc.devRef .tc main_arg7) := StableHlo.after_of_writes_sub hostOps2 _ hostOps2_writes (r := main_arg7) (by decide)
    _ = W3 m c (Proc.devRef .tc main_arg7) := W4_of_ne m c main_arg7 (by decide)
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := StableHlo.after_of_writes_sub hostOps0 _ hostOps0_writes (r := main_arg7) (by decide)
    _ = m ((c : Thread nD τ).loc main_arg7) := rfl

theorem W7_main_arg8 (c : Dev nD) : W7 m c (Proc.devRef .tc main_arg8) = m ((c : Thread nD τ).loc main_arg8) :=
  calc W7 m c (Proc.devRef .tc main_arg8)
    _ = W6 m c (Proc.devRef .tc main_arg8) := StableHlo.after_of_writes_sub hostOps3 _ hostOps3_writes (r := main_arg8) (by decide)
    _ = W5 m c (Proc.devRef .tc main_arg8) := W6_of_ne m c main_arg8 (by decide)
    _ = W4 m c (Proc.devRef .tc main_arg8) := StableHlo.after_of_writes_sub hostOps2 _ hostOps2_writes (r := main_arg8) (by decide)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := StableHlo.after_of_writes_sub hostOps0 _ hostOps0_writes (r := main_arg8) (by decide)
    _ = m ((c : Thread nD τ).loc main_arg8) := rfl

theorem W7_main_arg9 (c : Dev nD) : W7 m c (Proc.devRef .tc main_arg9) = m ((c : Thread nD τ).loc main_arg9) :=
  calc W7 m c (Proc.devRef .tc main_arg9)
    _ = W6 m c (Proc.devRef .tc main_arg9) := StableHlo.after_of_writes_sub hostOps3 _ hostOps3_writes (r := main_arg9) (by decide)
    _ = W5 m c (Proc.devRef .tc main_arg9) := W6_of_ne m c main_arg9 (by decide)
    _ = W4 m c (Proc.devRef .tc main_arg9) := StableHlo.after_of_writes_sub hostOps2 _ hostOps2_writes (r := main_arg9) (by decide)
    _ = W3 m c (Proc.devRef .tc main_arg9) := W4_of_ne m c main_arg9 (by decide)
    _ = W2 m c (Proc.devRef .tc main_arg9) := StableHlo.after_of_writes_sub hostOps1 _ hostOps1_writes (r := main_arg9) (by decide)
    _ = W1 m c (Proc.devRef .tc main_arg9) := W2_of_ne m c main_arg9 (by decide)
    _ = W0 m c (Proc.devRef .tc main_arg9) := StableHlo.after_of_writes_sub hostOps0 _ hostOps0_writes (r := main_arg9) (by decide)
    _ = m ((c : Thread nD τ).loc main_arg9) := rfl

theorem W7_main_arg10 (c : Dev nD) : W7 m c (Proc.devRef .tc main_arg10) = m ((c : Thread nD τ).loc main_arg10) :=
  calc W7 m c (Proc.devRef .tc main_arg10)
    _ = W6 m c (Proc.devRef .tc main_arg10) := StableHlo.after_of_writes_sub hostOps3 _ hostOps3_writes (r := main_arg10) (by decide)
    _ = W5 m c (Proc.devRef .tc main_arg10) := W6_of_ne m c main_arg10 (by decide)
    _ = W4 m c (Proc.devRef .tc main_arg10) := StableHlo.after_of_writes_sub hostOps2 _ hostOps2_writes (r := main_arg10) (by decide)
    _ = W3 m c (Proc.devRef .tc main_arg10) := W4_of_ne m c main_arg10 (by decide)
    _ = W2 m c (Proc.devRef .tc main_arg10) := StableHlo.after_of_writes_sub hostOps1 _ hostOps1_writes (r := main_arg10) (by decide)
    _ = W1 m c (Proc.devRef .tc main_arg10) := W2_of_ne m c main_arg10 (by decide)
    _ = W0 m c (Proc.devRef .tc main_arg10) := StableHlo.after_of_writes_sub hostOps0 _ hostOps0_writes (r := main_arg10) (by decide)
    _ = m ((c : Thread nD τ).loc main_arg10) := rfl

theorem W7_main_arg11 (c : Dev nD) : W7 m c (Proc.devRef .tc main_arg11) = m ((c : Thread nD τ).loc main_arg11) :=
  calc W7 m c (Proc.devRef .tc main_arg11)
    _ = W6 m c (Proc.devRef .tc main_arg11) := StableHlo.after_of_writes_sub hostOps3 _ hostOps3_writes (r := main_arg11) (by decide)
    _ = W5 m c (Proc.devRef .tc main_arg11) := W6_of_ne m c main_arg11 (by decide)
    _ = W4 m c (Proc.devRef .tc main_arg11) := StableHlo.after_of_writes_sub hostOps2 _ hostOps2_writes (r := main_arg11) (by decide)
    _ = W3 m c (Proc.devRef .tc main_arg11) := W4_of_ne m c main_arg11 (by decide)
    _ = W2 m c (Proc.devRef .tc main_arg11) := StableHlo.after_of_writes_sub hostOps1 _ hostOps1_writes (r := main_arg11) (by decide)
    _ = W1 m c (Proc.devRef .tc main_arg11) := W2_of_ne m c main_arg11 (by decide)
    _ = W0 m c (Proc.devRef .tc main_arg11) := StableHlo.after_of_writes_sub hostOps0 _ hostOps0_writes (r := main_arg11) (by decide)
    _ = m ((c : Thread nD τ).loc main_arg11) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => Layer1.dat (V1 m) c
  | ⟨1, _⟩ => fun c => Layer2.dat (V3 m) c
  | ⟨2, _⟩ => fun c => Proj.dat (V5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from Layer1.hout (V1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    refine (show (pdats m 1 c).Φ (Fin.last _) ⊢ Pipeline.ΦA spec1 c from Layer2.hout (V3 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Proj.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)) ]

theorem main_run (c : Dev nD) : main (F := F) c = Pipeline.Seg.run (segs m) := (main_chain c).trans (by chain_rfl)

set_option backward.isDefEq.respectTransparency.types false in
/-- Every weakly fair execution of the program from memory `m` with zero counters terminates, nothing faulting, with every
    unscoped buffer of every core at the last valuation. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ R c)
        ⊢ iprop(iprop(StableHlo.held (c : Thread nD τ) (Pipeline.ucRefs τ sig) (W7 m c) ∗ ∃ r, prngReg c r) ∗ ∃ W, owes (c : Thread nD τ) (0 : CellTallies nD τ sig Unit) W)
      iintro ⟨Hh, ⟨Hp, Ho⟩⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run m ρ)

/-- The run with the result array named: it ends at the last valuation read at the result's buffer. -/
theorem run_result : θ_run defs (onTc (τ := τ) (main (F := F))) ⟨m, fun _ => 0, ρ⟩ (fun r => ∀ c : Dev nD,
      r.2.mem ((c.tc : Thread nD τ).loc main_v74) = W7 m c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v74 (by decide)), (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c),
    (h c _ (mem_uc main_arg8 (by decide))).trans (W7_main_arg8 m c),
    (h c _ (mem_uc main_arg9 (by decide))).trans (W7_main_arg9 m c),
    (h c _ (mem_uc main_arg10 (by decide))).trans (W7_main_arg10 m c),
    (h c _ (mem_uc main_arg11 (by decide))).trans (W7_main_arg11 m c)⟩) (run m ρ)

end Cert.KernelIdeal.Whole

end
-- ==== Proof.RefOps.lean ====
/-
  The reference program's @main as a list of host operations, in five stretches cut at the layers.

  The program calls three outlined functions: the variance (twice), which itself calls a select against a constant,
  and the clip at zero (twice). Each call is the callee's operations written over that call's own buffers; with them
  @main is one straight line of 130 operations, and running @main is running that line.
-/
import proofs.«128831_j68624987455985_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first affine layer: the two endpoint rows of every edge looked up and joined, times `W1ᵀ`, plus `b1`. -/
abbrev w0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.nullary main_c (constantI S_ 32 0#32),
    StableHlo.unary main_c main_v2 (broadcastInDim S600000 ![] bcast_S_S600000 : (⟨S_, .i32⟩ : BufTy).Contents (Elt F) → (⟨S600000, .i32⟩ : BufTy).Contents (Elt F)),
    StableHlo.binary main_v1 main_v2 main_v3 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v4 (broadcastInDim S600000 ![] bcast_S_S600000 : (⟨S_, .i32⟩ : BufTy).Contents (Elt F) → (⟨S600000, .i32⟩ : BufTy).Contents (Elt F)),
    StableHlo.binary main_v1 main_v4 main_v5 (addi : (⟨S600000, .i32⟩ : BufTy).Contents (Elt F) → (⟨S600000, .i32⟩ : BufTy).Contents (Elt F) → (⟨S600000, .i32⟩ : BufTy).Contents (Elt F)),
    StableHlo.ternary main_v3 main_v5 main_v1 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v6 main_v7 (broadcastInDim S600000x1 ![0] bcast_S600000_S600000x1_0 : (⟨S600000, .i32⟩ : BufTy).Contents (Elt F) → (⟨S600000x1, .i32⟩ : BufTy).Contents (Elt F)),
    StableHlo.binary main_arg0 main_v7 main_v8 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.unary main_arg1 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000,
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v10 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v10 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v10 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.binary main_v8 main_v17 main_v18 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    StableHlo.binary main_v18 main_arg2 main_v19 ((fun l r => Host.dotGeneral dot_S600000x256_S128x256_S600000x128_1_1_0_0_n_n none l r) : (⟨S600000x256, .f32⟩ : BufTy).Contents (Elt F) → (⟨S128x256, .f32⟩ : BufTy).Contents (Elt F) → (⟨S600000x128, .f32⟩ : BufTy).Contents (Elt F)),
    StableHlo.unary main_arg3 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S600000x128 ![0, 1] bcast_S1x128_S600000x128_0_1 : (⟨S1x128, .f32⟩ : BufTy).Contents (Elt F) → (⟨S600000x128, .f32⟩ : BufTy).Contents (Elt F)),
    StableHlo.binary main_v19 main_v21 main_v22 (addf : (⟨S600000x128, .f32⟩ : BufTy).Contents (Elt F) → (⟨S600000x128, .f32⟩ : BufTy).Contents (Elt F) → (⟨S600000x128, .f32⟩ : BufTy).Contents (Elt F)) ]

/-- The first normalisation: column means, the variance (the outlined function's operations at this call's buffers), scale, shift and clip. -/
abbrev w1 : List (HloOp τ sig (Elt F)) :=
  [ StableHlo.nullary main_cst (constant S_ .f32 0x00000000#32),
    StableHlo.binary main_v22 main_cst main_v23 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    StableHlo.nullary main_cst_3 (constant S_ .f32 0x49127C00#32),
    StableHlo.unary main_cst_3 main_v24 (broadcastInDim S128 ![] bcast_S_S128 : (⟨S_, .f32⟩ : BufTy).Contents (Elt F) → (⟨S128, .f32⟩ : BufTy).Contents (Elt F)),
    StableHlo.binary main_v23 main_v24 main_v25 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (.of main_v22 : StableHlo.TRef sig ⟨S600000x128, .f32⟩) main_call0.cst main_call0.v0 (fun x v => Host.reduceAdd x v reducesTo_S600000x128_S128_d0 h_S_),
    StableHlo.TRef.unary main_call0.v0 main_call0.v1 (broadcastInDim S1x128 ![1] bcast_S128_S1x128_1),
    StableHlo.TRef.nullary main_call0.cst_0 (constant S_ .f32 0x49127C00#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S600000x128 ![0, 1] bcast_S1x128_S600000x128_0_1),
    StableHlo.TRef.binary (.of main_v22 : StableHlo.TRef sig ⟨S600000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x49127C00#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S600000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v25 main_v27 (broadcastInDim S1x128 ![1] bcast_S128_S1x128_1 : (⟨S128, .f32⟩ : BufTy).Contents (Elt F) → (⟨S1x128, .f32⟩ : BufTy).Contents (Elt F)),
    StableHlo.unary main_v27 main_v28 (broadcastInDim S600000x128 ![0, 1] bcast_S1x128_S600000x128_0_1 : (⟨S1x128, .f32⟩ : BufTy).Contents (Elt F) → (⟨S600000x128, .f32⟩ : BufTy).Contents (Elt F)),
    StableHlo.binary main_v22 main_v28 main_v29 (subf : (⟨S600000x128, .f32⟩ : BufTy).Contents (Elt F) → (⟨S600000x128, .f32⟩ : BufTy).Contents (Elt F) → (⟨S600000x128, .f32⟩ : BufTy).Contents (Elt F)),
    StableHlo.nullary main_cst_5 (constant S_ .f32 0x3727C5AC#32),
    StableHlo.unary main_cst_5 main_v30 (broadcastInDim S128 ![] bcast_S_S128 : (⟨S_, .f32⟩ : BufTy).Contents (Elt F) → (⟨S128, .f32⟩ : BufTy).Contents (Elt F)),
    StableHlo.binary main_v26 main_v30 main_v31 (addf : (⟨S128, .f32⟩ : BufTy).Contents (Elt F) → (⟨S128, .f32⟩ : BufTy).Contents (Elt F) → (⟨S128, .f32⟩ : BufTy).Contents (Elt F)),
    StableHlo.unary main_v31 main_v32 (Host.rsqrt : (⟨S128, .f32⟩ : BufTy).Contents (Elt F) → (⟨S128, .f32⟩ : BufTy).Contents (Elt F)),
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S600000x128 ![0, 1] bcast_S1x128_S600000x128_0_1 : (⟨S1x128, .f32⟩ : BufTy).Contents (Elt F) → (⟨S600000x128, .f32⟩ : BufTy).Contents (Elt F)),
    StableHlo.binary main_v29 main_v34 main_v35 (mulf : (⟨S600000x128, .f32⟩ : BufTy).Contents (Elt F) → (⟨S600000x128, .f32⟩ : BufTy).Contents (Elt F) → (⟨S600000x128, .f32⟩ : BufTy).Contents (Elt F)),
    StableHlo.unary main_arg4 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S600000x128 ![0, 1] bcast_S1x128_S600000x128_0_1 : (⟨S1x128, .f32⟩ : BufTy).Contents (Elt F) → (⟨S600000x128, .f32⟩ : BufTy).Contents (Elt F)),
    StableHlo.binary main_v35 main_v37 main_v38 (mulf : (⟨S600000x128, .f32⟩ : BufTy).Contents (Elt F) → (⟨S600000x128, .f32⟩ : BufTy).Contents (Elt F) → (⟨S600000x128, .f32⟩ : BufTy).Contents (Elt F)),
    StableHlo.unary main_arg5 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S600000x128 ![0, 1] bcast_S1x128_S600000x128_0_1 : (⟨S1x128, .f32⟩ : BufTy).Contents (Elt F) → (⟨S600000x128, .f32⟩ : BufTy).Contents (Elt F)),
    StableHlo.binary main_v38 main_v40 main_v41 (addf : (⟨S600000x128, .f32⟩ : BufTy).Contents (Elt F) → (⟨S600000x128, .f32⟩ : BufTy).Contents (Elt F) → (⟨S600000x128, .f32⟩ : BufTy).Contents (Elt F)),
    StableHlo.TRef.nullary main_call1.cst (constant S_ .f32 0x00000000#32),
    StableHlo.TRef.unary main_call1.cst main_call1.v0 (broadcastInDim S600000x128 ![] bcast_S_S600000x128),
    StableHlo.TRef.binary (.of main_v41 : StableHlo.TRef sig ⟨S600000x128, .f32⟩) main_call1.v0 main_call1.v1 maximumf ]

/-- The second affine layer and its column means. -/
abbrev w2 : List (HloOp τ sig (Elt F)) :=
  [ StableHlo.binary main_v42 main_arg6 main_v43 ((fun l r => Host.dotGeneral dot_S600000x128_S128x128_S600000x128_1_1_0_0_n_n none l r) : (⟨S600000x128, .f32⟩ : BufTy).Contents (Elt F) → (⟨S128x128, .f32⟩ : BufTy).Contents (Elt F) → (⟨S600000x128, .f32⟩ : BufTy).Contents (Elt F)),
    StableHlo.unary main_arg7 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S600000x128 ![0, 1] bcast_S1x128_S600000x128_0_1 : (⟨S1x128, .f32⟩ : BufTy).Contents (Elt F) → (⟨S600000x128, .f32⟩ : BufTy).Contents (Elt F)),
    StableHlo.binary main_v43 main_v45 main_v46 (addf : (⟨S600000x128, .f32⟩ : BufTy).Contents (Elt F) → (⟨S600000x128, .f32⟩ : BufTy).Contents (Elt F) → (⟨S600000x128, .f32⟩ : BufTy).Contents (Elt F)),
    StableHlo.nullary main_cst_6 (constant S_ .f32 0x00000000#32),
    StableHlo.binary main_v46 main_cst_6 main_v47 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    StableHlo.nullary main_cst_7 (constant S_ .f32 0x49127C00#32),
    StableHlo.unary main_cst_7 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)) ]

/-- The second normalisation: the variance, scale, shift and clip. -/
abbrev w3 : List (HloOp τ sig (Elt F)) :=
  [ StableHlo.nullary main_c_8 (constantI S_ 32 0#32),
    StableHlo.TRef.nullary main_call2.cst (constant S_ .f32 0x00000000#32),
    StableHlo.TRef.binary (.of main_v46 : StableHlo.TRef sig ⟨S600000x128, .f32⟩) main_call2.cst main_call2.v0 (fun x v => Host.reduceAdd x v reducesTo_S600000x128_S128_d0 h_S_),
    StableHlo.TRef.unary main_call2.v0 main_call2.v1 (broadcastInDim S1x128 ![1] bcast_S128_S1x128_1),
    StableHlo.TRef.nullary main_call2.cst_0 (constant S_ .f32 0x49127C00#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S600000x128 ![0, 1] bcast_S1x128_S600000x128_0_1),
    StableHlo.TRef.binary (.of main_v46 : StableHlo.TRef sig ⟨S600000x128, .f32⟩) main_call2.v4 main_call2.v5 subf,
    StableHlo.TRef.binary main_call2.v5 main_call2.v5 main_call2.v6 mulf,
    StableHlo.TRef.unary (.of main_c_8 : StableHlo.TRef sig ⟨S_, .i32⟩) main_call2.v7 (sitofp .f32),
    StableHlo.TRef.nullary main_call2.cst_1 (constant S_ .f32 0x49127C00#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S600000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S600000x128 ![0, 1] bcast_S1x128_S600000x128_0_1 : (⟨S1x128, .f32⟩ : BufTy).Contents (Elt F) → (⟨S600000x128, .f32⟩ : BufTy).Contents (Elt F)),
    StableHlo.binary main_v46 main_v52 main_v53 (subf : (⟨S600000x128, .f32⟩ : BufTy).Contents (Elt F) → (⟨S600000x128, .f32⟩ : BufTy).Contents (Elt F) → (⟨S600000x128, .f32⟩ : BufTy).Contents (Elt F)),
    StableHlo.nullary main_cst_9 (constant S_ .f32 0x3727C5AC#32),
    StableHlo.unary main_cst_9 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S600000x128 ![0, 1] bcast_S1x128_S600000x128_0_1 : (⟨S1x128, .f32⟩ : BufTy).Contents (Elt F) → (⟨S600000x128, .f32⟩ : BufTy).Contents (Elt F)),
    StableHlo.binary main_v53 main_v58 main_v59 (mulf : (⟨S600000x128, .f32⟩ : BufTy).Contents (Elt F) → (⟨S600000x128, .f32⟩ : BufTy).Contents (Elt F) → (⟨S600000x128, .f32⟩ : BufTy).Contents (Elt F)),
    StableHlo.unary main_arg8 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S600000x128 ![0, 1] bcast_S1x128_S600000x128_0_1 : (⟨S1x128, .f32⟩ : BufTy).Contents (Elt F) → (⟨S600000x128, .f32⟩ : BufTy).Contents (Elt F)),
    StableHlo.binary main_v59 main_v61 main_v62 (mulf : (⟨S600000x128, .f32⟩ : BufTy).Contents (Elt F) → (⟨S600000x128, .f32⟩ : BufTy).Contents (Elt F) → (⟨S600000x128, .f32⟩ : BufTy).Contents (Elt F)),
    StableHlo.unary main_arg9 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S600000x128 ![0, 1] bcast_S1x128_S600000x128_0_1 : (⟨S1x128, .f32⟩ : BufTy).Contents (Elt F) → (⟨S600000x128, .f32⟩ : BufTy).Contents (Elt F)),
    StableHlo.binary main_v62 main_v64 main_v65 (addf : (⟨S600000x128, .f32⟩ : BufTy).Contents (Elt F) → (⟨S600000x128, .f32⟩ : BufTy).Contents (Elt F) → (⟨S600000x128, .f32⟩ : BufTy).Contents (Elt F)),
    StableHlo.TRef.nullary main_call3.cst (constant S_ .f32 0x00000000#32),
    StableHlo.TRef.unary main_call3.cst main_call3.v0 (broadcastInDim S600000x128 ![] bcast_S_S600000x128),
    StableHlo.TRef.binary (.of main_v65 : StableHlo.TRef sig ⟨S600000x128, .f32⟩) main_call3.v0 main_call3.v1 maximumf ]

/-- The last affine layer, onto one value per edge. -/
abbrev w4 : List (HloOp τ sig (Elt F)) :=
  [ StableHlo.binary main_v66 main_arg10 main_v67 ((fun l r => Host.dotGeneral dot_S600000x128_S1x128_S600000x1_1_1_0_0_n_n none l r) : (⟨S600000x128, .f32⟩ : BufTy).Contents (Elt F) → (⟨S1x128, .f32⟩ : BufTy).Contents (Elt F) → (⟨S600000x1, .f32⟩ : BufTy).Contents (Elt F)),
    StableHlo.unary main_arg11 main_v68 (broadcastInDim S1x1 ![1] bcast_S1_S1x1_1 : (⟨S1, .f32⟩ : BufTy).Contents (Elt F) → (⟨S1x1, .f32⟩ : BufTy).Contents (Elt F)),
    StableHlo.unary main_v68 main_v69 (broadcastInDim S600000x1 ![0, 1] bcast_S1x1_S600000x1_0_1 : (⟨S1x1, .f32⟩ : BufTy).Contents (Elt F) → (⟨S600000x1, .f32⟩ : BufTy).Contents (Elt F)),
    StableHlo.binary main_v67 main_v69 main_v70 (addf : (⟨S600000x1, .f32⟩ : BufTy).Contents (Elt F) → (⟨S600000x1, .f32⟩ : BufTy).Contents (Elt F) → (⟨S600000x1, .f32⟩ : BufTy).Contents (Elt F)),
    StableHlo.reshape main_v70 main_v71 rfl shapeCasts_S600000x1_S600000 ]

/-- @main's operations, in order. -/
abbrev ops : List (HloOp τ sig (Elt F)) := w0 ++ (w1 ++ (w2 ++ (w3 ++ w4)))

set_option maxRecDepth 8192 in
set_option maxHeartbeats 4000000 in
/-- The first sixty statements are the first three stretches: the outlined functions unfolded at their calls, the
    sequencing reassociated. -/
theorem main_part0_eq (c : Dev nD) : main_part0 (F := F) c = seq (w0 ++ (w1 ++ w2)) := by
  rw [seq_append, seq_append]
  simp only [main_part0, w0, w1, w2, fn_var.body, fn_where.body, fn_relu.body, seq, bind_assoc, pure_bind]
  rfl

set_option maxRecDepth 8192 in
set_option maxHeartbeats 4000000 in
/-- The remaining statements are the last two stretches. -/
theorem main_part1_eq (c : Dev nD) : main_part1 (F := F) c = seq (w3 ++ w4) := by
  rw [seq_append]
  simp only [main_part1, w3, w4, fn_var.body, fn_where.body, fn_relu.body, seq, bind_assoc, pure_bind]

/-- @main is the straight line of its operations. -/
theorem main_eq (c : Dev nD) : main (F := F) c = seq ops := by
  have e : (ops : List (HloOp τ sig (Elt F))) = (w0 ++ (w1 ++ w2)) ++ (w3 ++ w4) := by
    simp only [ops, List.append_assoc]
  rw [e, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w0_sub : (w0 : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub ..⟩

set_option maxRecDepth 8192 in
theorem w1_sub : (w1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem w2_sub : (w2 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub ..⟩

set_option maxRecDepth 8192 in
theorem w3_sub : (w3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem w4_sub : (w4 : List (HloOp τ sig (Elt F))).Forall fun op => op.bufs ⊆ tcRefs τ sig :=
  ⟨binary_bufs_sub .., unary_bufs_sub .., unary_bufs_sub .., binary_bufs_sub .., reshape_bufs_sub ..⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp w0_sub op h, List.forall_iff_forall_mem.mp w1_sub op h,
      List.forall_iff_forall_mem.mp w2_sub op h, List.forall_iff_forall_mem.mp w3_sub op h,
      List.forall_iff_forall_mem.mp w4_sub op h]

end Cert.ReferenceIdeal.RefRun

end
-- ==== Proof.RefStages.lean ====
/-
  The reference's layers as whole-array functions, and what each stretch of @main leaves in its result buffer.

  Each stretch of operations reads a few buffers and writes its own; at its result buffer it leaves one layer's function
  of what it read. Composed along the five stretches, the result buffer of @main holds `refOut` of the twelve argument
  arrays: affine, normalise and clip, affine, normalise and clip, affine.
-/
import proofs.«128831_j68624987455985_2_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The layers -/

/-- Row `r` of the edge table as a vector of node numbers. -/
def endpointVec (r : ℕ) (h : S2x600000.Slices ![r, 0] S1x600000) (ei : IVec S2x600000 32) : IVec S600000 32 :=
  shapeCast S600000 (extractStridedSlice S1x600000 ![r, 0] ei h) shapeCasts_S1x600000_S600000

/-- A negative node number counted from the end: `v < 0 ? v + 50000 : v`. -/
def wrapNeg (v : IVec S600000 32) : IVec S600000 32 :=
  select (cmpi .slt v (broadcastInDim S600000 ![] bcast_S_S600000 (constantI S_ 32 0#32)))
    (addi v (broadcastInDim S600000 ![] bcast_S_S600000 (constantI S_ 32 50000#32))) v

/-- The node numbers of endpoint `r` as an index column. -/
def endpointCol (r : ℕ) (h : S2x600000.Slices ![r, 0] S1x600000) (ei : IVec S2x600000 32) : IVec S600000x1 32 :=
  broadcastInDim S600000x1 ![0] bcast_S600000_S600000x1_0 (wrapNeg (endpointVec r h ei))

/-- Every edge's feature row: the source node's features beside the target node's. -/
def feat (x : FVec F S50000x128 .f32) (ei : IVec S2x600000 32) : FVec F S600000x256 .f32 :=
  concatenate S600000x256 1
    [⟨S600000x128, Host.gather gather_S50000x128_S600000x1_S600000x128_1_0_n_n_0_1_1128 x (endpointCol 0 slices_S2x600000_S1x600000_0_0 ei)⟩,
     ⟨S600000x128, Host.gather gather_S50000x128_S600000x1_S600000x128_1_0_n_n_0_1_1128 x (endpointCol 1 slices_S2x600000_S1x600000_1_0 ei)⟩]
    concatenates_S600000x128_S600000x128_S600000x256_d1

/-- A vector of 128 entries repeated down the 600000 rows. -/
def rows128 (v : FVec F S128 .f32) : FVec F S600000x128 .f32 :=
  broadcastInDim S600000x128 ![0, 1] bcast_S1x128_S600000x128_0_1 (broadcastInDim S1x128 ![1] bcast_S128_S1x128_1 v)

/-- The first affine layer. -/
def lin1 (x : FVec F S50000x128 .f32) (ei : IVec S2x600000 32) (W1 : FVec F S128x256 .f32) (b1 : FVec F S128 .f32) :
    FVec F S600000x128 .f32 :=
  addf (Host.dotGeneral dot_S600000x256_S128x256_S600000x128_1_1_0_0_n_n none (feat x ei) W1) (rows128 b1)

/-- The second affine layer. -/
def lin2 (y : FVec F S600000x128 .f32) (W2 : FVec F S128x128 .f32) (b2 : FVec F S128 .f32) : FVec F S600000x128 .f32 :=
  addf (Host.dotGeneral dot_S600000x128_S128x128_S600000x128_1_1_0_0_n_n none y W2) (rows128 b2)

/-- The last affine layer, its one column read back as a vector. -/
def lin3 (y : FVec F S600000x128 .f32) (W3 : FVec F S1x128 .f32) (b3 : FVec F S1 .f32) : FVec F S600000 .f32 :=
  shapeCast S600000
    (addf (Host.dotGeneral dot_S600000x128_S1x128_S600000x1_1_1_0_0_n_n none y W3)
      (broadcastInDim S600000x1 ![0, 1] bcast_S1x1_S600000x1_0_1 (broadcastInDim S1x1 ![1] bcast_S1_S1x1_1 b3)))
    shapeCasts_S600000x1_S600000

/-- The column sums from zero. -/
def colSum (h : FVec F S600000x128 .f32) : FVec F S128 .f32 :=
  Host.reduceAdd h (constant S_ .f32 0x00000000#32) reducesTo_S600000x128_S128_d0 h_S_

/-- The column means: the column sums over the row count. -/
def colMean (h : FVec F S600000x128 .f32) : FVec F S128 .f32 :=
  Host.divf (colSum h) (broadcastInDim S128 ![] bcast_S_S128 (constant S_ .f32 0x49127C00#32))

/-- The variance's divisor: the row count less the correction, the integer zero converted. -/
def varCountV : FVec F S_ .f32 :=
  subf (constant S_ .f32 0x49127C00#32) (sitofp .f32 (constantI S_ 32 0#32))

/-- The deviations from the column means, the means laid out as one row first and divided there. -/
def devs (h : FVec F S600000x128 .f32) : FVec F S600000x128 .f32 :=
  subf h (broadcastInDim S600000x128 ![0, 1] bcast_S1x128_S600000x128_0_1
    (Host.divf (broadcastInDim S1x128 ![1] bcast_S128_S1x128_1 (colSum h))
      (broadcastInDim S1x128 ![] bcast_S_S1x128 (constant S_ .f32 0x49127C00#32))))

/-- The column variances: the column sums of the squared deviations over the divisor, where the divisor is positive. -/
def colVar (h : FVec F S600000x128 .f32) : FVec F S128 .f32 :=
  select (broadcastInDim S128 ![] bcast_S_S128 (cmpf .ogt (varCountV (F := F)) (constant S_ .f32 0x00000000#32)))
    (Host.divf (colSum (mulf (devs h) (devs h))) (broadcastInDim S128 ![] bcast_S_S128 varCountV))
    (broadcastInDim S128 ![] bcast_S_S128 (id (constant S_ .f32 0x7FC00000#32)))

/-- Normalise by given column means and the column variances, scale, shift, clip below at zero. -/
def bnreluAt (h : FVec F S600000x128 .f32) (mean g be : FVec F S128 .f32) : FVec F S600000x128 .f32 :=
  maximumf
    (addf
      (mulf
        (mulf (subf h (rows128 mean))
          (rows128 (Host.rsqrt (addf (colVar h) (broadcastInDim S128 ![] bcast_S_S128 (constant S_ .f32 0x3727C5AC#32))))))
        (rows128 g))
      (rows128 be))
    (broadcastInDim S600000x128 ![] bcast_S_S600000x128 (constant S_ .f32 0x00000000#32))

/-- Normalise by the array's own column means. -/
def bnrelu (h : FVec F S600000x128 .f32) (g be : FVec F S128 .f32) : FVec F S600000x128 .f32 :=
  bnreluAt h (colMean h) g be

/-- The reference's result as a function of the twelve argument arrays. -/
def refOut (x : FVec F S50000x128 .f32) (ei : IVec S2x600000 32) (W1 : FVec F S128x256 .f32) (b1 g1 be1 : FVec F S128 .f32)
    (W2 : FVec F S128x128 .f32) (b2 g2 be2 : FVec F S128 .f32) (W3 : FVec F S1x128 .f32) (b3 : FVec F S1 .f32) :
    FVec F S600000 .f32 :=
  lin3 (bnrelu (lin2 (bnrelu (lin1 x ei W1 b1) g1 be1) W2 b2) g2 be2) W3 b3

/-! ## What each stretch writes, and what it leaves alone -/

/-- The buffers stretch `w0` writes. -/
abbrev w0_W : List (Ref sig .tc) := [main_v0, main_v1, main_c, main_v2, main_v3, main_c_0, main_v4, main_v5, main_v6, main_v7, main_v8, main_v9, main_v10, main_c_1, main_v11, main_v12, main_c_2, main_v13, main_v14, main_v15, main_v16, main_v17, main_v18, main_v19, main_v20, main_v21, main_v22]
set_option maxRecDepth 8192 in
theorem w0_writes : (w0 : List (HloOp τ sig (Elt F))).Forall fun op =>
    op.writes ⊆ (w0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `w0` does not write keeps its contents through it. -/
theorem w0_keep (V : Valuation τ sig (Elt F)) (r : Ref sig .tc) (h : r ∉ w0_W) :
    after w0 V (Proc.devRef .tc r) = V (Proc.devRef .tc r) :=
  after_of_writes_sub w0 V w0_writes h

/-- The buffers stretch `w1` writes. -/
abbrev w1_W : List (Ref sig .tc) := [main_cst, main_v23, main_cst_3, main_v24, main_v25, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v26, main_v27, main_v28, main_v29, main_cst_5, main_v30, main_v31, main_v32, main_v33, main_v34, main_v35, main_v36, main_v37, main_v38, main_v39, main_v40, main_v41, main_call1_cst, main_call1_v0, main_v42]
set_option maxRecDepth 8192 in
theorem w1_writes : (w1 : List (HloOp τ sig (Elt F))).Forall fun op =>
    op.writes ⊆ (w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `w1` does not write keeps its contents through it. -/
theorem w1_keep (V : Valuation τ sig (Elt F)) (r : Ref sig .tc) (h : r ∉ w1_W) :
    after w1 V (Proc.devRef .tc r) = V (Proc.devRef .tc r) :=
  after_of_writes_sub w1 V w1_writes h

/-- The buffers stretch `w2` writes. -/
abbrev w2_W : List (Ref sig .tc) := [main_v43, main_v44, main_v45, main_v46, main_cst_6, main_v47, main_cst_7, main_v48, main_v49]
set_option maxRecDepth 8192 in
theorem w2_writes : (w2 : List (HloOp τ sig (Elt F))).Forall fun op =>
    op.writes ⊆ (w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `w2` does not write keeps its contents through it. -/
theorem w2_keep (V : Valuation τ sig (Elt F)) (r : Ref sig .tc) (h : r ∉ w2_W) :
    after w2 V (Proc.devRef .tc r) = V (Proc.devRef .tc r) :=
  after_of_writes_sub w2 V w2_writes h

/-- The buffers stretch `w3` writes. -/
abbrev w3_W : List (Ref sig .tc) := [main_c_8, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v50, main_v51, main_v52, main_v53, main_cst_9, main_v54, main_v55, main_v56, main_v57, main_v58, main_v59, main_v60, main_v61, main_v62, main_v63, main_v64, main_v65, main_call3_cst, main_call3_v0, main_v66]
set_option maxRecDepth 8192 in
theorem w3_writes : (w3 : List (HloOp τ sig (Elt F))).Forall fun op =>
    op.writes ⊆ (w3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `w3` does not write keeps its contents through it. -/
theorem w3_keep (V : Valuation τ sig (Elt F)) (r : Ref sig .tc) (h : r ∉ w3_W) :
    after w3 V (Proc.devRef .tc r) = V (Proc.devRef .tc r) :=
  after_of_writes_sub w3 V w3_writes h

/-- The buffers stretch `w4` writes. -/
abbrev w4_W : List (Ref sig .tc) := [main_v67, main_v68, main_v69, main_v70, main_v71]
set_option maxRecDepth 8192 in
theorem w4_writes : (w4 : List (HloOp τ sig (Elt F))).Forall fun op =>
    op.writes ⊆ (w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch `w4` does not write keeps its contents through it. -/
theorem w4_keep (V : Valuation τ sig (Elt F)) (r : Ref sig .tc) (h : r ∉ w4_W) :
    after w4 V (Proc.devRef .tc r) = V (Proc.devRef .tc r) :=
  after_of_writes_sub w4 V w4_writes h

end Cert.ReferenceIdeal.RefRun

end
-- ==== Proof.RefWindows.lean ====
/-
  What each stretch of @main leaves at its result buffer: one layer's function of the buffers it read.
-/
import proofs.«128831_j68624987455985_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the layers' bodies are never opened here: both sides are the same operations applied to the same buffers
attribute [local irreducible] Host.reduceAdd Host.gather concatenate broadcastInDim extractStridedSlice

set_option maxRecDepth 8192 in
set_option maxHeartbeats 4000000 in
/-- The first stretch leaves the first affine layer of the arguments. -/
theorem w0_out (V : Valuation τ sig (Elt F)) :
    after w0 V (Proc.devRef .tc main_v22) = lin1 (V (Proc.devRef .tc main_arg0)) (V (Proc.devRef .tc main_arg1)) (V (Proc.devRef .tc main_arg2)) (V (Proc.devRef .tc main_arg3)) := by
  simp only [w0]
  after_results_simp
  rfl

set_option maxRecDepth 8192 in
set_option maxHeartbeats 4000000 in
/-- The second stretch normalises and clips what the first left. -/
theorem w1_out (V : Valuation τ sig (Elt F)) :
    after w1 V (Proc.devRef .tc main_v42) = bnrelu (V (Proc.devRef .tc main_v22)) (V (Proc.devRef .tc main_arg4)) (V (Proc.devRef .tc main_arg5)) := by
  simp only [w1]
  after_results_simp
  rfl

set_option maxRecDepth 8192 in
set_option maxHeartbeats 4000000 in
/-- The third stretch leaves the second affine layer … -/
theorem w2_out (V : Valuation τ sig (Elt F)) :
    after w2 V (Proc.devRef .tc main_v46) = lin2 (V (Proc.devRef .tc main_v42)) (V (Proc.devRef .tc main_arg6)) (V (Proc.devRef .tc main_arg7)) := by
  simp only [w2]
  after_results_simp
  rfl

set_option maxRecDepth 8192 in
set_option maxHeartbeats 4000000 in
/-- … and its column means. -/
theorem w2_mean (V : Valuation τ sig (Elt F)) :
    after w2 V (Proc.devRef .tc main_v49) = colMean (lin2 (V (Proc.devRef .tc main_v42)) (V (Proc.devRef .tc main_arg6)) (V (Proc.devRef .tc main_arg7))) := by
  simp only [w2]
  after_results_simp
  rfl

set_option maxRecDepth 8192 in
set_option maxHeartbeats 4000000 in
/-- The fourth stretch normalises by the means it is handed, and clips. -/
theorem w3_out (V : Valuation τ sig (Elt F)) :
    after w3 V (Proc.devRef .tc main_v66) = bnreluAt (V (Proc.devRef .tc main_v46)) (V (Proc.devRef .tc main_v49)) (V (Proc.devRef .tc main_arg8)) (V (Proc.devRef .tc main_arg9)) := by
  simp only [w3]
  after_results_simp
  rfl

set_option maxRecDepth 8192 in
set_option maxHeartbeats 4000000 in
/-- The last stretch leaves the last affine layer as a vector. -/
theorem w4_out (V : Valuation τ sig (Elt F)) :
    after w4 V (Proc.devRef .tc main_v71) = lin3 (V (Proc.devRef .tc main_v66)) (V (Proc.devRef .tc main_arg10)) (V (Proc.devRef .tc main_arg11)) := by
  simp only [w4]
  after_results_simp
  rfl

end Cert.ReferenceIdeal.RefRun

end
-- ==== Proof.RefRun.lean ====
/-
  The reference's run: every weakly fair execution of @main terminates, with the result buffer at `refOut` of the
  twelve argument arrays as the launch found them, and the argument arrays unchanged.

  The five stretches run in a row; each hands its result to the next and leaves the arguments alone, so the result
  buffer ends at the layers composed.
-/
import proofs.«128831_j68624987455985_2_alg».proof.Proof.RefWindows

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations are the five stretches in a row. -/
theorem after_ops (V : Valuation τ sig (Elt F)) :
    after ops V = after w4 (after w3 (after w2 (after w1 (after w0 V)))) := by
  simp only [ops, after_append]

/-- A buffer none of the stretches writes keeps its contents to the end. -/
theorem ops_keep (V : Valuation τ sig (Elt F)) (r : Ref sig .tc) (h0 : r ∉ w0_W) (h1 : r ∉ w1_W) (h2 : r ∉ w2_W)
    (h3 : r ∉ w3_W) (h4 : r ∉ w4_W) : after ops V (Proc.devRef .tc r) = V (Proc.devRef .tc r) := by
  rw [after_ops, w4_keep _ r h4, w3_keep _ r h3, w2_keep _ r h2, w1_keep _ r h1, w0_keep _ r h0]

/-- The result buffer ends at the layers composed over the arguments. -/
theorem ops_out (V : Valuation τ sig (Elt F)) :
    after ops V (Proc.devRef .tc main_v71)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, w4_out, w3_out, w3_keep _ main_arg10 (by decide), w3_keep _ main_arg11 (by decide),
    w2_out, w2_mean, w2_keep _ main_arg8 (by decide), w2_keep _ main_arg9 (by decide), w2_keep _ main_arg10 (by decide),
    w2_keep _ main_arg11 (by decide),
    w1_out, w1_keep _ main_arg6 (by decide), w1_keep _ main_arg7 (by decide), w1_keep _ main_arg8 (by decide),
    w1_keep _ main_arg9 (by decide), w1_keep _ main_arg10 (by decide), w1_keep _ main_arg11 (by decide),
    w0_out, w0_keep _ main_arg4 (by decide), w0_keep _ main_arg5 (by decide), w0_keep _ main_arg6 (by decide),
    w0_keep _ main_arg7 (by decide), w0_keep _ main_arg8 (by decide), w0_keep _ main_arg9 (by decide),
    w0_keep _ main_arg10 (by decide), w0_keep _ main_arg11 (by decide)]
  rfl

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v71).trans (ops_out (launchContents m c)),
      (h c main_arg0).trans (ops_keep (launchContents m c) main_arg0 (by decide) (by decide) (by decide) (by decide) (by decide)),
      (h c main_arg1).trans (ops_keep (launchContents m c) main_arg1 (by decide) (by decide) (by decide) (by decide) (by decide)),
      (h c main_arg2).trans (ops_keep (launchContents m c) main_arg2 (by decide) (by decide) (by decide) (by decide) (by decide)),
      (h c main_arg3).trans (ops_keep (launchContents m c) main_arg3 (by decide) (by decide) (by decide) (by decide) (by decide)),
      (h c main_arg4).trans (ops_keep (launchContents m c) main_arg4 (by decide) (by decide) (by decide) (by decide) (by decide)),
      (h c main_arg5).trans (ops_keep (launchContents m c) main_arg5 (by decide) (by decide) (by decide) (by decide) (by decide)),
      (h c main_arg6).trans (ops_keep (launchContents m c) main_arg6 (by decide) (by decide) (by decide) (by decide) (by decide)),
      (h c main_arg7).trans (ops_keep (launchContents m c) main_arg7 (by decide) (by decide) (by decide) (by decide) (by decide)),
      (h c main_arg8).trans (ops_keep (launchContents m c) main_arg8 (by decide) (by decide) (by decide) (by decide) (by decide)),
      (h c main_arg9).trans (ops_keep (launchContents m c) main_arg9 (by decide) (by decide) (by decide) (by decide) (by decide)),
      (h c main_arg10).trans (ops_keep (launchContents m c) main_arg10 (by decide) (by decide) (by decide) (by decide) (by decide)),
      (h c main_arg11).trans (ops_keep (launchContents m c) main_arg11 (by decide) (by decide) (by decide) (by decide) (by decide))⟩)
    (run_seq scopedRefs_eq scopedSems_eq defs main (fun _ => ops) main_eq (fun _ => ops_sub) m ρ)

/-- The same run with the result dropped: @main terminates and leaves its twelve argument arrays unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => (h c).2) (run m ρ)

end Cert.ReferenceIdeal.RefRun

end
-- ==== Proof.RefSpec.lean ====
/-
  The reference's value, element by element, over the extended reals.

  A three-layer perceptron over gathered edge features with batch normalisation in training mode.  Edge `e` names two
  nodes; its feature row is the first node's 128 features followed by the second node's.  Each hidden layer is an affine
  map `h(e,o) = Σ_k y(e,k)·W(o,k) + b(o)`, normalised per output feature `o` over all 600000 edges — the mean is the
  column sum over the edge count, the variance the mean of squared deviations from that mean — scaled, shifted and
  clipped below at zero.  The last layer is an affine map onto one output per edge.

  Nothing here mentions a program: the arrays are functions of literal index types and the float literals stay as the
  bit patterns they are written with (`0x49127C00` the edge count 600000, `0x3727C5AC` the variance's offset,
  `0x00000000` zero, `0x7FC00000` the value taken when the count is not positive).
-/
import Idealize.ShloMosaic.PureOps.Ideal
import Idealize.ShloMosaic.Lib.ValueIdx

noncomputable section

open scoped BigOperators

namespace Cert.RefSpec

open Idealize.ShloMosaic Idealize.ShloMosaic.ValueIdx

/-- The node an edge's endpoint names: row `r` (0 the source, 1 the target) of the edge table at edge `e`, a negative
    number counted from the end (`+ 50000`), then read as a signed integer and clamped into `[0, 49999]`. -/
def node (ei : IVec ⟨2, ![2, 600000]⟩ 32) (r : Fin 2) (e : Fin 600000) : Fin 50000 :=
  ⟨min (Scalar.select (IntOp.cmpi .slt (ei (ix2 r e)) 0#32) (IntOp.addi (ei (ix2 r e)) 50000#32) (ei (ix2 r e))).toInt.toNat
      (50000 - 1), by omega⟩

/-- The feature row of edge `e`: the source node's 128 features, then the target node's. -/
def row (x : FVec Ideal ⟨2, ![50000, 128]⟩ .f32) (ei : IVec ⟨2, ![2, 600000]⟩ 32) (e : Fin 600000) (k : Fin 256) : EReal :=
  if h : k.val < 128 then x (ix2 (node ei 0 e) ⟨k.val, h⟩)
  else x (ix2 (node ei 1 e) ⟨k.val - 128, by have := k.isLt; omega⟩)

/-- An affine layer with `K` inputs and `O` outputs: `Σ_k y(e,k)·W(o,k) + b(o)`. -/
def affine {K O : ℕ} (y : Fin 600000 → Fin K → EReal) (W : FVec Ideal ⟨2, ![O, K]⟩ .f32) (b : FVec Ideal ⟨1, ![O]⟩ .f32)
    (e : Fin 600000) (o : Fin O) : EReal :=
  (∑ k : Fin K, y e k * W (ix2 o k)) + b (ix1 o)

/-- The batch mean of feature `o`: zero plus the sum over the edges, over the edge count. -/
def mean (h : Fin 600000 → Fin 128 → EReal) (o : Fin 128) : EReal :=
  Ideal.div (Ideal.ofBits .f32 0x00000000#32 + ∑ e : Fin 600000, h e o) (Ideal.ofBits .f32 0x49127C00#32)

/-- The divisor of the variance: the edge count less the correction `0`, the integer zero converted. -/
def varCount : EReal := Ideal.ofBits .f32 0x49127C00#32 - (((0#32 : BitVec 32).toInt : ℝ) : EReal)

/-- The batch variance of feature `o`: zero plus the sum of the squared deviations from the mean, over `varCount`;
    taken only when `varCount` is positive. -/
def var (h : Fin 600000 → Fin 128 → EReal) (o : Fin 128) : EReal :=
  Scalar.select (Ideal.cmp .ogt varCount (Ideal.ofBits .f32 0x00000000#32))
    (Ideal.div (Ideal.ofBits .f32 0x00000000#32 + ∑ e : Fin 600000, (h e o - mean h o) * (h e o - mean h o)) varCount)
    (Ideal.ofBits .f32 0x7FC00000#32)

/-- Normalise, scale by `g`, shift by `be`, clip below at zero. -/
def bnrelu (h : Fin 600000 → Fin 128 → EReal) (g be : FVec Ideal ⟨1, ![128]⟩ .f32) (e : Fin 600000) (o : Fin 128) : EReal :=
  max ((h e o - mean h o) * Ideal.rsqrt (var h o + Ideal.ofBits .f32 0x3727C5AC#32) * g (ix1 o) + be (ix1 o))
    (Ideal.ofBits .f32 0x00000000#32)

variable (x : FVec Ideal ⟨2, ![50000, 128]⟩ .f32) (ei : IVec ⟨2, ![2, 600000]⟩ 32)
  (W1 : FVec Ideal ⟨2, ![128, 256]⟩ .f32) (b1 g1 be1 : FVec Ideal ⟨1, ![128]⟩ .f32)
  (W2 : FVec Ideal ⟨2, ![128, 128]⟩ .f32) (b2 g2 be2 : FVec Ideal ⟨1, ![128]⟩ .f32)
  (W3 : FVec Ideal ⟨2, ![1, 128]⟩ .f32) (b3 : FVec Ideal ⟨1, ![1]⟩ .f32)

/-- The first layer before normalisation. -/
def h1 : Fin 600000 → Fin 128 → EReal := affine (row x ei) W1 b1
/-- The first layer's output. -/
def y1 : Fin 600000 → Fin 128 → EReal := bnrelu (h1 x ei W1 b1) g1 be1
/-- The second layer before normalisation. -/
def h2 : Fin 600000 → Fin 128 → EReal := affine (y1 x ei W1 b1 g1 be1) W2 b2
/-- The second layer's output. -/
def y2 : Fin 600000 → Fin 128 → EReal := bnrelu (h2 x ei W1 b1 g1 be1 W2 b2) g2 be2
/-- The result at edge `e`: the last affine map's one output. -/
def out (e : Fin 600000) : EReal := affine (y2 x ei W1 b1 g1 be1 W2 b2 g2 be2) W3 b3 e (0 : Fin 1)

end Cert.RefSpec

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibJoinCols.lean ====
/-
  Two matrices side by side, read at any column.

  Joining `[R, n₁]` and `[R, n₂]` along the column axis gives `[R, C]` with `C = n₁ + n₂`: a column `l < n₁` reads the
  first matrix at column `l`, a column `l ≥ n₁` reads the second at column `l - n₁`. As a row: row `r` of the join is the
  row of the first followed by the row of the second (`Cert.Lib.rowJoin`).
-/
import proofs.«128831_j68624987455985_2_alg».proof.Proof.LibPair

noncomputable section

namespace Cert.Lib

open Idealize.ShloMosaic Idealize.ShloMosaic.ValueIdx

variable {α : Type}

/-- A row of `n₁` entries followed by a row of `n₂` entries, as one row of `C = n₁ + n₂` entries. -/
def rowJoin (n₁ : ℕ) {n₂ C : ℕ} (hC : C = n₁ + n₂) (u : Fin n₁ → α) (v : Fin n₂ → α) : Fin C → α :=
  fun l => if h : l.val < n₁ then u ⟨l.val, h⟩ else v ⟨l.val - n₁, by have := l.isLt; omega⟩

/-- Row `r` of two matrices joined side by side is the join of their rows `r`. -/
theorem pair_cols_apply {R n₁ n₂ C : ℕ} (hC : C = n₁ + n₂) (x₁ : (⟨2, ![R, n₁]⟩ : Shape).Idx → α)
    (x₂ : (⟨2, ![R, n₂]⟩ : Shape).Idx → α)
    (h : Shape.Concatenates [⟨2, ![R, n₁]⟩, ⟨2, ![R, n₂]⟩] ⟨2, ![R, C]⟩ 1) (r : Fin R) (l : Fin C) :
    concatenate ⟨2, ![R, C]⟩ 1 [⟨⟨2, ![R, n₁]⟩, x₁⟩, ⟨⟨2, ![R, n₂]⟩, x₂⟩] h (ix2 r l)
      = rowJoin n₁ hC (fun k => x₁ (ix2 r k)) (fun k => x₂ (ix2 r k)) l := by
  unfold rowJoin
  by_cases hl : l.val < n₁
  · rw [dif_pos hl]
    exact pair_cols_left x₁ x₂ h r ⟨l.val, hl⟩ l.isLt
  · rw [dif_neg hl]
    have hlt : l.val - n₁ < n₂ := by have := l.isLt; omega
    have e : l = ⟨n₁ + (l.val - n₁), by have := l.isLt; omega⟩ := Fin.ext (by show l.val = n₁ + (l.val - n₁); omega)
    have hr := pair_cols_right x₁ x₂ h r ⟨l.val - n₁, hlt⟩ (by show n₁ + (l.val - n₁) < C; have := l.isLt; omega)
    exact (congrArg (fun z => concatenate ⟨2, ![R, C]⟩ 1 [⟨⟨2, ![R, n₁]⟩, x₁⟩, ⟨⟨2, ![R, n₂]⟩, x₂⟩] h (ix2 r z)) e).trans hr

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.LibSlabs.lean ====
/-
  Slabs, unit axes and row broadcasts, read at an index.

  Layout operations that stacked arrays meet on both sides of a kernel and its reference. On the host: a one-row array
  broadcast down `R` rows; an array given a new leading unit axis by a broadcast; slab `l` of an array stacked along its first
  axis, cut out by a slice and its unit axis dropped (rank 3 to a matrix, rank 2 to a vector); a matrix given a unit axis
  between its two axes by a reshape. In a kernel: the unit-stride rectangle that is slab `l` of a rank-3 buffer, its own
  index `(0, p, k)` placed at `(l, p, k)`, and a load through it. Each is stated over any element type and over literal
  coordinates, so that it fires on indices built by `ix1`, `ix2`, `ix3`.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type}

/-! ## Host broadcasts -/

/-- A one-row array broadcast to `R` rows (axes kept in place) reads, at `(r, n)`, the row's entry `n`. -/
theorem rows_of_oneRow {R N : ℕ} (hb2 : (⟨2, ![1, N]⟩ : Shape).BroadcastsInDim ⟨2, ![R, N]⟩ (![0, 1] : Fin 2 → Fin 2))
    (v : (⟨2, ![1, N]⟩ : Shape).Idx → α) (r : Fin R) (n : Fin N) :
    broadcastInDim ⟨2, ![R, N]⟩ ![0, 1] hb2 v (ix2 r n) = v (ix2 (0 : Fin 1) n) :=
  broadcastInDim_apply _ hb2 v (ix2 r n) (ix2 (0 : Fin 1) n) (fun a => match a with
    | ⟨0, _⟩ => by
      show (0 : ℕ) = if (1 : ℕ) = 1 then 0 else r.val
      rw [if_pos rfl]
    | ⟨1, _⟩ => by
      show n.val = if N = 1 then 0 else n.val
      have h1 : n.val < N := n.isLt
      split
      · omega
      · rfl)

/-- A matrix broadcast under a new leading unit axis reads, at `(0, p, k)`, the matrix's `(p, k)`. -/
theorem addUnit_bcast_at {a b : ℕ} (hb : (⟨2, ![a, b]⟩ : Shape).BroadcastsInDim ⟨3, ![1, a, b]⟩ (![1, 2] : Fin 2 → Fin 3))
    (v : (⟨2, ![a, b]⟩ : Shape).Idx → α) (u : Fin 1) (p : Fin a) (k : Fin b) :
    broadcastInDim ⟨3, ![1, a, b]⟩ ![1, 2] hb v (ix3 u p k) = v (ix2 p k) :=
  broadcastInDim_apply _ hb v (ix3 u p k) (ix2 p k) (fun ax => match ax with
    | ⟨0, _⟩ => by
      show p.val = if a = 1 then 0 else p.val
      have h1 : p.val < a := p.isLt
      split
      · omega
      · rfl
    | ⟨1, _⟩ => by
      show k.val = if b = 1 then 0 else k.val
      have h1 : k.val < b := k.isLt
      split
      · omega
      · rfl)

/-! ## A layer's slab of a stacked host array -/

/-- Slab `l` of an array stacked along its first axis, its unit axis dropped: entry `(p, k)` is the array's `(l, p, k)`. -/
theorem hostSlab3 {n0 a b l : ℕ} (hl : l < n0) (X : (⟨3, ![n0, a, b]⟩ : Shape).Idx → α)
    (hs : (⟨3, ![n0, a, b]⟩ : Shape).Slices ![l, 0, 0] ⟨3, ![1, a, b]⟩)
    (hc : (⟨3, ![1, a, b]⟩ : Shape).ShapeCasts ⟨2, ![a, b]⟩) (p : Fin a) (k : Fin b) :
    shapeCast ⟨2, ![a, b]⟩ (extractStridedSlice ⟨3, ![1, a, b]⟩ ![l, 0, 0] X hs) hc (ix2 p k) = X (ix3 (⟨l, hl⟩ : Fin n0) p k) := by
  rw [shapeCast_1ab_ab_apply]
  exact extractStridedSlice_apply _ X hs _ _ (fun ax => match ax with
    | ⟨0, _⟩ => (Nat.add_zero l).symm
    | ⟨1, _⟩ => (Nat.zero_add _).symm
    | ⟨2, _⟩ => (Nat.zero_add _).symm)

/-- Row `l` of a matrix as a vector: entry `n` is the matrix's `(l, n)`. -/
theorem hostSlab2 {n0 a l : ℕ} (hl : l < n0) (X : (⟨2, ![n0, a]⟩ : Shape).Idx → α)
    (hs : (⟨2, ![n0, a]⟩ : Shape).Slices ![l, 0] ⟨2, ![1, a]⟩)
    (hc : (⟨2, ![1, a]⟩ : Shape).ShapeCasts ⟨1, ![a]⟩) (n : Fin a) :
    shapeCast ⟨1, ![a]⟩ (extractStridedSlice ⟨2, ![1, a]⟩ ![l, 0] X hs) hc (ix1 n) = X (ix2 (⟨l, hl⟩ : Fin n0) n) := by
  rw [shapeCast_1a_a_apply]
  exact slice2_axis0_apply l X hs (0 : Fin 1) n ⟨l, hl⟩ (Nat.add_zero l).symm

/-- A matrix with a unit axis put between its two axes: entry `(l, 0, n)` is the matrix's `(l, n)`. -/
theorem midUnit_at {a b : ℕ} (X : (⟨2, ![a, b]⟩ : Shape).Idx → α)
    (h : (⟨2, ![a, b]⟩ : Shape).ShapeCasts ⟨3, ![a, 1, b]⟩) (l : Fin a) (u : Fin 1) (n : Fin b) :
    shapeCast ⟨3, ![a, 1, b]⟩ X h (ix3 l u n) = X (ix2 l n) :=
  shapeCast_apply X h _ _ (by
    have hu : u.val = 0 := by omega
    rw [Shape.rowMajor_val_three, Shape.rowMajor_val_two]
    show l.val * b + n.val = (l.val * 1 + u.val) * b + n.val
    rw [hu, Nat.mul_one, Nat.add_zero])

/-! ## A layer's slab of a stacked buffer in a kernel -/

/-- Slab `l` of a buffer stacked along its first axis: its own index `(0, p, k)` sits at `(l, p, k)`. -/
theorem slab_emb {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (x : (⟨3, ![1, a, b]⟩ : Shape).Idx) :
    (Rect.unit (s := ⟨3, ![n0, a, b]⟩) off ![1, a, b] inb).emb x = ix3 (⟨l, hl⟩ : Fin n0) (x 1) (x 2) := by
  subst ho
  funext ax
  match ax with
  | ⟨0, _⟩ =>
    have h0 : (x 0).val < 1 := (x 0).isLt
    exact Fin.ext (show l + 1 * (x 0).val = l by omega)
  | ⟨1, _⟩ => exact Fin.ext (show 0 + 1 * (x 1).val = (x 1).val by omega)
  | ⟨2, _⟩ => exact Fin.ext (show 0 + 1 * (x 2).val = (x 2).val by omega)

/-- What a load of slab `l` reads at `(0, p, k)` — the buffer's contents at the slab's embedded index — is the contents
    at `(l, p, k)`. -/
theorem ld_slab {n0 a b l : ℕ} {off : Fin 3 → ℕ} (ho : off = ![l, 0, 0])
    (inb : ∀ ax, off ax + (![1, a, b] : Fin 3 → ℕ) ax ≤ (⟨3, ![n0, a, b]⟩ : Shape).size ax) (hl : l < n0)
    (X : (⟨3, ![n0, a, b]⟩ : Shape).Idx → α) (u : Fin 1) (p : Fin a) (k : Fin b) :
    X ((Rect.unit (s := ⟨3, ![n0, a, b]⟩) off ![1, a, b] inb).emb (ix3 u p k)) = X (ix3 (⟨l, hl⟩ : Fin n0) p k) :=
  congrArg X (slab_emb ho inb hl (ix3 u p k))

end Cert.Lib

end
-- ==== Proof.LibColumnBack.lean ====
/-
  A column read back as a vector.

  An `[a, 1]` column reshaped to a vector of `a` entries reads, at `i`, the column's entry `(i, 0)`: the inverse of laying
  a vector as a column.
-/
import Idealize.ShloMosaic.Lib.ValueIdx
import Idealize.ShloMosaic.Lib.Pipeline.Value

noncomputable section

namespace Cert.Lib

open Idealize.ShloMosaic Idealize.ShloMosaic.ValueIdx

variable {α : Type}

/-- An `[a, 1]` column cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib

end
-- ==== Proof.RefValueLin.lean ====
/-
  The affine layers read at an index, over the extended reals.

  A product of rows with rows at `(e, o)` is the sum over the contracted coordinate; a vector repeated down the rows
  reads the vector's entry; the joined feature row of an edge reads the source node's row, then the target node's; a
  node's row is looked up at the edge table's entry, a negative number counted from the end, read signed and clamped.
-/
import proofs.«128831_j68624987455985_2_alg».proof.Proof.RefStages
import proofs.«128831_j68624987455985_2_alg».proof.Proof.RefSpec
import proofs.«128831_j68624987455985_2_alg».proof.Proof.LibRowsDot
import proofs.«128831_j68624987455985_2_alg».proof.Proof.LibEdgeRows
import proofs.«128831_j68624987455985_2_alg».proof.Proof.LibJoinCols
import proofs.«128831_j68624987455985_2_alg».proof.Proof.LibAsRow
import proofs.«128831_j68624987455985_2_alg».proof.Proof.LibSlabs
import proofs.«128831_j68624987455985_2_alg».proof.Proof.LibColumnBack

noncomputable section

open scoped BigOperators

namespace Cert.ReferenceIdeal.RefValue

open Cert.ReferenceIdeal Cert.ReferenceIdeal.Gen Cert.ReferenceIdeal.RefRun Idealize.ShloMosaic Idealize.ShloMosaic.ValueIdx Cert.Lib

/-- A vector repeated down the rows reads, at `(e, o)`, its entry `o`. -/
theorem rows128_apply (v : FVec Ideal S128 .f32) (e : Fin 600000) (o : Fin 128) : rows128 v (ix2 e o) = v (ix1 o) :=
  (rows_of_oneRow bcast_S1x128_S600000x128_0_1 _ e o).trans
    (congrFun (broadcastInDim_eq_asRow v bcast_S128_S1x128_1) (ix2 (0 : Fin 1) o))

/-- The second affine layer at `(e, o)`. -/
theorem lin2_apply (y : FVec Ideal S600000x128 .f32) (W : FVec Ideal S128x128 .f32) (b : FVec Ideal S128 .f32)
    (e : Fin 600000) (o : Fin 128) :
    lin2 y W b (ix2 e o) = (∑ c : Fin 128, y (ix2 e c) * W (ix2 o c)) + b (ix1 o) := by
  show Host.dotGeneral dot_S600000x128_S128x128_S600000x128_1_1_0_0_n_n none y W (ix2 e o) + rows128 b (ix2 e o) = _
  rw [rows128_apply]
  exact congrArg (· + b (ix1 o))
    (dotGeneral_rows_apply dot_S600000x128_S128x128_S600000x128_1_1_0_0_n_n_wf none .single y W e o)

/-- The last affine layer at `e`. -/
theorem lin3_apply (y : FVec Ideal S600000x128 .f32) (W : FVec Ideal S1x128 .f32) (b : FVec Ideal S1 .f32) (e : Fin 600000) :
    lin3 y W b (ix1 e) = (∑ c : Fin 128, y (ix2 e c) * W (ix2 (0 : Fin 1) c)) + b (ix1 (0 : Fin 1)) := by
  unfold lin3
  rw [shapeCast_a1_a_apply]
  show Host.dotGeneral dot_S600000x128_S1x128_S600000x1_1_1_0_0_n_n none y W (ix2 e (0 : Fin 1))
      + broadcastInDim S600000x1 ![0, 1] bcast_S1x1_S600000x1_0_1 (broadcastInDim S1x1 ![1] bcast_S1_S1x1_1 b) (ix2 e (0 : Fin 1)) = _
  have hb : broadcastInDim S600000x1 ![0, 1] bcast_S1x1_S600000x1_0_1 (broadcastInDim S1x1 ![1] bcast_S1_S1x1_1 b) (ix2 e (0 : Fin 1))
      = b (ix1 (0 : Fin 1)) :=
    (rows_of_oneRow bcast_S1x1_S600000x1_0_1 _ e (0 : Fin 1)).trans
      (congrFun (broadcastInDim_eq_asRow b bcast_S1_S1x1_1) (ix2 (0 : Fin 1) (0 : Fin 1)))
  rw [hb]
  exact congrArg (· + b (ix1 (0 : Fin 1)))
    (dotGeneral_rows_apply dot_S600000x128_S1x128_S600000x1_1_1_0_0_n_n_wf none .single y W e (0 : Fin 1))

/-- Row `r` of the edge table, as a vector, at `e`. -/
theorem endpointVec_apply (r : ℕ) (hr : r < 2) (h : S2x600000.Slices ![r, 0] S1x600000) (ei : IVec S2x600000 32) (e : Fin 600000) :
    endpointVec r h ei (ix1 e) = ei (ix2 (⟨r, hr⟩ : Fin 2) e) :=
  hostSlab2 hr ei h shapeCasts_S1x600000_S600000 e

/-- A scalar integer repeated over the edges reads the scalar. -/
theorem splatI_apply (c : BitVec 32) (e : Fin 600000) :
    broadcastInDim S600000 ![] bcast_S_S600000 (constantI S_ 32 c) (ix1 e) = c :=
  splat_apply (constantI S_ 32 c) bcast_S_S600000 (ix1 e)

/-- The index column of endpoint `r` at `(e, 0)`: the table's entry, a negative number counted from the end. -/
theorem endpointCol_apply (r : ℕ) (hr : r < 2) (h : S2x600000.Slices ![r, 0] S1x600000) (ei : IVec S2x600000 32) (e : Fin 600000) :
    endpointCol r h ei (ix2 e (0 : Fin 1))
      = Scalar.select (IntOp.cmpi .slt (ei (ix2 (⟨r, hr⟩ : Fin 2) e)) 0#32) (IntOp.addi (ei (ix2 (⟨r, hr⟩ : Fin 2) e)) 50000#32)
          (ei (ix2 (⟨r, hr⟩ : Fin 2) e)) := by
  have hc : endpointCol r h ei (ix2 e (0 : Fin 1)) = wrapNeg (endpointVec r h ei) (ix1 e) :=
    broadcastInDim_apply _ bcast_S600000_S600000x1_0 _ (ix2 e (0 : Fin 1)) (ix1 e) (fun a => match a with
      | ⟨0, _⟩ => by
        show e.val = if (600000 : ℕ) = 1 then 0 else e.val
        rw [if_neg (by decide)])
  rw [hc]
  show Scalar.select (IntOp.cmpi .slt (endpointVec r h ei (ix1 e)) (broadcastInDim S600000 ![] bcast_S_S600000 (constantI S_ 32 0#32) (ix1 e)))
      (IntOp.addi (endpointVec r h ei (ix1 e)) (broadcastInDim S600000 ![] bcast_S_S600000 (constantI S_ 32 50000#32) (ix1 e)))
      (endpointVec r h ei (ix1 e)) = _
  rw [splatI_apply, splatI_apply, endpointVec_apply r hr]

/-- A node's feature row looked up for endpoint `r`, at `(e, k)`. -/
theorem gatherRow_apply (x : FVec Ideal S50000x128 .f32) (r : ℕ) (hr : r < 2) (h : S2x600000.Slices ![r, 0] S1x600000)
    (ei : IVec S2x600000 32) (e : Fin 600000) (k : Fin 128) :
    Host.gather gather_S50000x128_S600000x1_S600000x128_1_0_n_n_0_1_1128 x (endpointCol r h ei) (ix2 e k)
      = x (ix2 (Cert.RefSpec.node ei ⟨r, hr⟩ e) k) := by
  have hg := gather_rowsTake_apply (N := 50000) (D := 128) (R := 600000) (by decide)
    gather_S50000x128_S600000x1_S600000x128_1_0_n_n_0_1_1128_wf x (endpointCol r h ei) e k
  refine hg.trans ?_
  refine congrArg x ?_
  refine congrArg (fun n : Fin 50000 => ix2 n k) (Fin.ext ?_)
  show min (endpointCol r h ei (ix2 e (0 : Fin 1))).toInt.toNat (50000 - 1) = _
  rw [endpointCol_apply r hr]
  rfl

/-- The joined feature row of edge `e` at column `k`. -/
theorem feat_apply (x : FVec Ideal S50000x128 .f32) (ei : IVec S2x600000 32) (e : Fin 600000) (k : Fin 256) :
    feat x ei (ix2 e k) = Cert.RefSpec.row x ei e k := by
  unfold feat
  rw [pair_cols_apply (n₁ := 128) (n₂ := 128) (C := 256) rfl]
  unfold rowJoin Cert.RefSpec.row
  split
  · exact gatherRow_apply x 0 (by decide) _ ei e _
  · exact gatherRow_apply x 1 (by decide) _ ei e _

/-- The first affine layer at `(e, o)`. -/
theorem lin1_apply (x : FVec Ideal S50000x128 .f32) (ei : IVec S2x600000 32) (W : FVec Ideal S128x256 .f32) (b : FVec Ideal S128 .f32)
    (e : Fin 600000) (o : Fin 128) :
    lin1 x ei W b (ix2 e o) = Cert.RefSpec.h1 x ei W b e o := by
  show Host.dotGeneral dot_S600000x256_S128x256_S600000x128_1_1_0_0_n_n none (feat x ei) W (ix2 e o) + rows128 b (ix2 e o) = _
  rw [rows128_apply]
  refine (congrArg (· + b (ix1 o))
    (dotGeneral_rows_apply dot_S600000x256_S128x256_S600000x128_1_1_0_0_n_n_wf none .single (feat x ei) W e o)).trans ?_
  show (∑ k : Fin 256, feat x ei (ix2 e k) * W (ix2 o k)) + b (ix1 o) = (∑ k : Fin 256, Cert.RefSpec.row x ei e k * W (ix2 o k)) + b (ix1 o)
  rw [Finset.sum_congr rfl fun k _ => by rw [feat_apply]]

end Cert.ReferenceIdeal.RefValue

end
-- ==== Proof.RefValueBn.lean ====
/-
  The normalisation read at an index, over the extended reals.

  A column sum from zero is zero plus the sum down the column; the column mean is that over the row count; the
  deviations subtract the mean laid out as a row; the variance sums their squares and divides where the divisor is
  positive; the layer subtracts the mean, multiplies by the reciprocal root of the shifted variance and by the scale,
  adds the shift, and clips below at zero.
-/
import proofs.«128831_j68624987455985_2_alg».proof.Proof.RefValueLin

noncomputable section

open scoped BigOperators

namespace Cert.ReferenceIdeal.RefValue

open Cert.ReferenceIdeal Cert.ReferenceIdeal.Gen Cert.ReferenceIdeal.RefRun Idealize.ShloMosaic Idealize.ShloMosaic.ValueIdx Cert.Lib

/-- Dropping the row axis of the 600000 × 128 arrays leaves the 128 columns. -/
theorem hRed : S600000x128.Reduces [0] S128 := by decide

/-- The entry of column `o` in row `e`. -/
theorem lift_eq (o : Fin 128) (e : Fin 600000) : hRed.lift (ix1 o) e = ix2 e o := by
  funext c
  refine Fin.ext ?_
  match c with
  | ⟨0, _⟩ => rfl
  | ⟨1, _⟩ => rfl

/-- A column sum from zero, at column `o`. -/
theorem colSum_apply (h : FVec Ideal S600000x128 .f32) (o : Fin 128) :
    colSum h (ix1 o) = Ideal.ofBits .f32 0x00000000#32 + ∑ e : Fin 600000, h (ix2 e o) := by
  show Ideal.hostReduceAdd reducesTo_S600000x128_S128_d0 h (Ideal.ofBits .f32 0x00000000#32) (ix1 o) = _
  rw [Ideal.hostReduceAdd_single reducesTo_S600000x128_S128_d0 hRed]
  exact congrArg (Ideal.ofBits .f32 0x00000000#32 + ·) (Finset.sum_congr rfl fun e _ => congrArg h (lift_eq o e))

/-- The column mean at column `o`. -/
theorem colMean_apply (h : FVec Ideal S600000x128 .f32) (o : Fin 128) :
    colMean h (ix1 o) = Cert.RefSpec.mean (fun e o => h (ix2 e o)) o := by
  show Ideal.div (colSum h (ix1 o)) (broadcastInDim S128 ![] bcast_S_S128 (constant (F := Ideal) S_ .f32 0x49127C00#32) (ix1 o)) = _
  rw [colSum_apply, splat_apply]
  rfl

/-- A deviation from the column mean. -/
theorem devs_apply (h : FVec Ideal S600000x128 .f32) (e : Fin 600000) (o : Fin 128) :
    devs h (ix2 e o) = h (ix2 e o) - Cert.RefSpec.mean (fun e o => h (ix2 e o)) o := by
  show h (ix2 e o) - broadcastInDim S600000x128 ![0, 1] bcast_S1x128_S600000x128_0_1
      (Host.divf (broadcastInDim S1x128 ![1] bcast_S128_S1x128_1 (colSum h))
        (broadcastInDim S1x128 ![] bcast_S_S1x128 (constant (F := Ideal) S_ .f32 0x49127C00#32))) (ix2 e o) = _
  rw [rows_of_oneRow]
  show h (ix2 e o) - Ideal.div (broadcastInDim S1x128 ![1] bcast_S128_S1x128_1 (colSum h) (ix2 (0 : Fin 1) o))
      (broadcastInDim S1x128 ![] bcast_S_S1x128 (constant (F := Ideal) S_ .f32 0x49127C00#32) (ix2 (0 : Fin 1) o)) = _
  rw [congrFun (broadcastInDim_eq_asRow (colSum h) bcast_S128_S1x128_1) (ix2 (0 : Fin 1) o), splat_apply]
  show h (ix2 e o) - Ideal.div (colSum h (ix1 o)) (Ideal.ofBits .f32 0x49127C00#32) = _
  rw [colSum_apply]
  rfl

/-- The column variance at column `o`. -/
theorem colVar_apply (h : FVec Ideal S600000x128 .f32) (o : Fin 128) :
    colVar h (ix1 o) = Cert.RefSpec.var (fun e o => h (ix2 e o)) o := by
  show Scalar.select
      (broadcastInDim S128 ![] bcast_S_S128 (cmpf .ogt (varCountV (F := Ideal)) (constant (F := Ideal) S_ .f32 0x00000000#32)) (ix1 o))
      (Ideal.div (colSum (mulf (devs h) (devs h)) (ix1 o)) (broadcastInDim S128 ![] bcast_S_S128 (varCountV (F := Ideal)) (ix1 o)))
      (broadcastInDim S128 ![] bcast_S_S128 (id (constant (F := Ideal) S_ .f32 0x7FC00000#32)) (ix1 o)) = _
  rw [splat_apply, splat_apply, splat_apply, colSum_apply]
  have hd : ∀ e : Fin 600000, mulf (devs h) (devs h) (ix2 e o)
      = (h (ix2 e o) - Cert.RefSpec.mean (fun e o => h (ix2 e o)) o) * (h (ix2 e o) - Cert.RefSpec.mean (fun e o => h (ix2 e o)) o) :=
    fun e => by
      show devs h (ix2 e o) * devs h (ix2 e o) = _
      rw [devs_apply]
  rw [Finset.sum_congr rfl fun e _ => hd e]
  rfl

/-- The normalised, scaled, shifted and clipped layer at `(e, o)`. -/
theorem bnrelu_apply (h : FVec Ideal S600000x128 .f32) (g be : FVec Ideal S128 .f32) (e : Fin 600000) (o : Fin 128) :
    bnrelu h g be (ix2 e o) = Cert.RefSpec.bnrelu (fun e o => h (ix2 e o)) g be e o := by
  show max
      ((h (ix2 e o) - rows128 (colMean h) (ix2 e o))
          * rows128 (Host.rsqrt (addf (colVar h) (broadcastInDim S128 ![] bcast_S_S128 (constant (F := Ideal) S_ .f32 0x3727C5AC#32)))) (ix2 e o)
          * rows128 g (ix2 e o)
        + rows128 be (ix2 e o))
      (broadcastInDim S600000x128 ![] bcast_S_S600000x128 (constant (F := Ideal) S_ .f32 0x00000000#32) (ix2 e o)) = _
  rw [rows128_apply, rows128_apply, rows128_apply, rows128_apply, splat_apply, colMean_apply]
  show max
      ((h (ix2 e o) - Cert.RefSpec.mean (fun e o => h (ix2 e o)) o)
          * Ideal.rsqrt (colVar h (ix1 o) + broadcastInDim S128 ![] bcast_S_S128 (constant (F := Ideal) S_ .f32 0x3727C5AC#32) (ix1 o))
          * g (ix1 o)
        + be (ix1 o))
      (Ideal.ofBits .f32 0x00000000#32) = _
  rw [colVar_apply, splat_apply]
  rfl

end Cert.ReferenceIdeal.RefValue

end
-- ==== Proof.RefValue.lean ====
/-
  The reference's result read at an index: entry `e` of `refOut` is the specification's `out` at `e`.

  Each layer, read entry by entry, is the specification's layer of the previous layer read entry by entry; the three
  affine maps and the two normalisations compose.
-/
import proofs.«128831_j68624987455985_2_alg».proof.Proof.RefValueBn

noncomputable section

open scoped BigOperators

namespace Cert.ReferenceIdeal.RefValue

open Cert.ReferenceIdeal Cert.ReferenceIdeal.Gen Cert.ReferenceIdeal.RefRun Idealize.ShloMosaic Idealize.ShloMosaic.ValueIdx Cert.Lib

variable (x : FVec Ideal S50000x128 .f32) (ei : IVec S2x600000 32)
  (W1 : FVec Ideal S128x256 .f32) (b1 g1 be1 : FVec Ideal S128 .f32)
  (W2 : FVec Ideal S128x128 .f32) (b2 g2 be2 : FVec Ideal S128 .f32)
  (W3 : FVec Ideal S1x128 .f32) (b3 : FVec Ideal S1 .f32)

/-- The first affine layer, entry by entry. -/
theorem lin1_fun : (fun e o => lin1 x ei W1 b1 (ix2 e o)) = Cert.RefSpec.h1 x ei W1 b1 :=
  funext fun e => funext fun o => lin1_apply x ei W1 b1 e o

/-- A normalisation, entry by entry. -/
theorem bnrelu_fun (h : FVec Ideal S600000x128 .f32) (g be : FVec Ideal S128 .f32) :
    (fun e o => bnrelu h g be (ix2 e o)) = Cert.RefSpec.bnrelu (fun e o => h (ix2 e o)) g be :=
  funext fun e => funext fun o => bnrelu_apply h g be e o

/-- The second affine layer, entry by entry. -/
theorem lin2_fun (y : FVec Ideal S600000x128 .f32) (W : FVec Ideal S128x128 .f32) (b : FVec Ideal S128 .f32) :
    (fun e o => lin2 y W b (ix2 e o)) = Cert.RefSpec.affine (fun e c => y (ix2 e c)) W b :=
  funext fun e => funext fun o => lin2_apply y W b e o

/-- THE REFERENCE READ AT AN EDGE: entry `e` of the result is the specification's value at `e`. -/
theorem refOut_apply (e : Fin 600000) :
    refOut (F := Ideal) x ei W1 b1 g1 be1 W2 b2 g2 be2 W3 b3 (ix1 e) = Cert.RefSpec.out x ei W1 b1 g1 be1 W2 b2 g2 be2 W3 b3 e := by
  unfold refOut
  rw [lin3_apply]
  show Cert.RefSpec.affine (fun e c => bnrelu (lin2 (bnrelu (lin1 x ei W1 b1) g1 be1) W2 b2) g2 be2 (ix2 e c)) W3 b3 e (0 : Fin 1) = _
  rw [bnrelu_fun, lin2_fun, bnrelu_fun, lin1_fun]
  rfl

/-- The same as whole arrays. -/
theorem refOut_eq :
    refOut (F := Ideal) x ei W1 b1 g1 be1 W2 b2 g2 be2 W3 b3
      = fun i => Cert.RefSpec.out x ei W1 b1 g1 be1 W2 b2 g2 be2 W3 b3 (i 0) :=
  funext fun i => (congrArg _ (eq_ix1 i)).trans (refOut_apply x ei W1 b1 g1 be1 W2 b2 g2 be2 W3 b3 (i 0))

end Cert.ReferenceIdeal.RefValue

end
-- ==== Proof.RefRunSpec.lean ====
/-
  The reference's run against the specification: every weakly fair execution of @main, read over the extended reals,
  terminates with entry `e` of the result at the specification's value at `e` of the argument arrays, and the argument
  arrays unchanged.
-/
import proofs.«128831_j68624987455985_2_alg».proof.Proof.RefRun
import proofs.«128831_j68624987455985_2_alg».proof.Proof.RefValue

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.ValueIdx

/-- The run, with the result named by the specification. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71)
          = (fun i => Cert.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans (refOut_eq _ _ _ _ _ _ _ _ _ _ _ _), (h c).2⟩) (run (F := Ideal) m ρ)

end Cert.ReferenceIdeal.RefValue

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.KiPreReal.lean ====
/-
  From the precondition to real entries: the certificate's precondition says, array by array, that every float input
  has absolute value below +∞; an extended real with that property is a real. Every law used later that fails at the
  infinities (distributing a factor over a sum, cancelling a mean) is applied to these reals.
-/
import proofs.«128831_j68624987455985_2_alg».proof.Defs
import proofs.«128831_j68624987455985_2_alg».proof.Proof.LibRealEntries
import Idealize.ShloMosaic.Lib.ReduceAll
import Idealize.ShloMosaic.Lib.ValueIdx

noncomputable section

namespace Cert.Proof.PreReal

open Idealize.ShloMosaic Idealize.SL.Sem Cert.Lib Cert.Pre_finite_inputs

instance : Subsingleton S_.Idx := ⟨fun a b => funext fun d => d.elim0⟩

/-- Under the precondition every float argument array of the idealized kernel program holds only reals, on every core. -/
theorem reals_of_pre [hPre : Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4))
    ∧ AllReal (m ((c.tc : Thread Cert.KernelIdeal.nD Cert.KernelIdeal.τ).loc Cert.KernelIdeal.main_arg5))
    ∧ AllReal (m ((c.tc : Thread Cert.KernelIdeal.nD Cert.KernelIdeal.τ).loc Cert.KernelIdeal.main_arg6))
    ∧ AllReal (m ((c.tc : Thread Cert.KernelIdeal.nD Cert.KernelIdeal.τ).loc Cert.KernelIdeal.main_arg7))
    ∧ AllReal (m ((c.tc : Thread Cert.KernelIdeal.nD Cert.KernelIdeal.τ).loc Cert.KernelIdeal.main_arg8))
    ∧ AllReal (m ((c.tc : Thread Cert.KernelIdeal.nD Cert.KernelIdeal.τ).loc Cert.KernelIdeal.main_arg9))
    ∧ AllReal (m ((c.tc : Thread Cert.KernelIdeal.nD Cert.KernelIdeal.τ).loc Cert.KernelIdeal.main_arg10))
    ∧ AllReal (m ((c.tc : Thread Cert.KernelIdeal.nD Cert.KernelIdeal.τ).loc Cert.KernelIdeal.main_arg11)) := by
  have h := congrFun (hpre c) ValueIdx.ix0
  dsimp only [Cert.Pre_finite_inputs.fn, Cert.Pre_finite_inputs.fn_part1, Cert.Pre_finite_inputs.fn_part2, Cert.Pre_finite_inputs.fn_part3, andi] at h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  exact ⟨allReal_of_all_abs_lt _ _ (fun _ => rfl) _ _ _ _ h, allReal_of_all_abs_lt _ _ (fun _ => rfl) _ _ _ _ h2,
    allReal_of_all_abs_lt _ _ (fun _ => rfl) _ _ _ _ h3,
    allReal_of_all_abs_lt _ _ (fun _ => rfl) _ _ _ _ h4,
    allReal_of_all_abs_lt _ _ (fun _ => rfl) _ _ _ _ h5,
    allReal_of_all_abs_lt _ _ (fun _ => rfl) _ _ _ _ h6,
    allReal_of_all_abs_lt _ _ (fun _ => rfl) _ _ _ _ h7,
    allReal_of_all_abs_lt _ _ (fun _ => rfl) _ _ _ _ h8,
    allReal_of_all_abs_lt _ _ (fun _ => rfl) _ _ _ _ h9,
    allReal_of_all_abs_lt _ _ (fun _ => rfl) _ _ _ _ h10,
    allReal_of_all_abs_lt _ _ (fun _ => rfl) _ _ _ _ h11⟩

end Cert.Proof.PreReal

end
-- ==== Proof.KiHostIn.lean ====
/-
  The kernel program's first host stretch read at an index: what it lays out for the three regions.

  The two gathered operands are the feature rows of each edge's source and target node (the narrowing of the features
  is the identity over the extended reals); the first layer's weight is cut into its two halves, each transposed; the
  second layer's weight is transposed; the biases are laid out as rows. The operands of the later regions are written
  here and by nothing after, so they are read where they are used.
-/
import proofs.«128831_j68624987455985_2_alg».proof.Proof.KiWhole
import proofs.«128831_j68624987455985_2_alg».proof.Proof.RefValueLin
import Idealize.ShloMosaic.Lib.ValueLayout

noncomputable section

namespace Cert.KernelIdeal.HostV

open Idealize.ShloMosaic Idealize.ShloMosaic.TcCoe Idealize.SL.Sem Idealize.ShloMosaic.ValueIdx Idealize.ShloMosaic.StableHlo
open Cert.KernelIdeal Cert.KernelIdeal.Gen Cert.KernelIdeal.Whole Cert.Lib

variable (m : (ℓ : Loc nD τ sig) → Buf (Elt Ideal) ℓ)

/-! ## Buffers the later stretches and regions leave alone -/

/-- A buffer neither the second stretch nor the first region writes: at the second region's entry it is as the first
    stretch left it. -/
theorem W3_of_W1 (c : Dev nD) (r : Ref sig .tc) (h1 : r ∉ hostOps1_W) (h0 : ∀ w, Pipeline.arrRef spec0 w ≠ r) :
    W3 m c (Proc.devRef .tc r) = W1 m c (Proc.devRef .tc r) :=
  (StableHlo.after_of_writes_sub hostOps1 _ hostOps1_writes h1).trans (W2_of_ne m c r h0)

/-- The same up to the third region's entry. -/
theorem W5_of_W1 (c : Dev nD) (r : Ref sig .tc) (h2 : r ∉ hostOps2_W) (hr1 : ∀ w, Pipeline.arrRef spec1 w ≠ r)
    (h1 : r ∉ hostOps1_W) (h0 : ∀ w, Pipeline.arrRef spec0 w ≠ r) :
    W5 m c (Proc.devRef .tc r) = W1 m c (Proc.devRef .tc r) :=
  (StableHlo.after_of_writes_sub hostOps2 _ hostOps2_writes h2).trans ((W4_of_ne m c r hr1).trans (W3_of_W1 m c r h1 h0))

/-! ## The first stretch's results as terms of the arguments -/

set_option maxHeartbeats 4000000 in
theorem v9_eq (c : Dev nD) :
    (W1 m c (Proc.devRef .tc main_v9) : S600000x128.Idx → EReal)
      = Host.gather gather_S50000x128_S600000x1_S600000x128_1_0_n_n_0_1_1128 (truncf (F := Ideal) .bf16 (m ((c.tc : Thread nD τ).loc main_arg0)) bitsLt_bf16_f32)
          (Cert.ReferenceIdeal.RefRun.endpointCol 0 Cert.ReferenceIdeal.Gen.slices_S2x600000_S1x600000_0_0 (m ((c.tc : Thread nD τ).loc main_arg1))) := by
  show StableHlo.after hostOps0 (W0 m c) (Proc.devRef .tc main_v9) = _
  after_results_simp
  all_goals rfl

set_option maxHeartbeats 4000000 in
theorem v18_eq (c : Dev nD) :
    (W1 m c (Proc.devRef .tc main_v18) : S600000x128.Idx → EReal)
      = Host.gather gather_S50000x128_S600000x1_S600000x128_1_0_n_n_0_1_1128 (truncf (F := Ideal) .bf16 (m ((c.tc : Thread nD τ).loc main_arg0)) bitsLt_bf16_f32)
          (Cert.ReferenceIdeal.RefRun.endpointCol 1 Cert.ReferenceIdeal.Gen.slices_S2x600000_S1x600000_1_0 (m ((c.tc : Thread nD τ).loc main_arg1))) := by
  show StableHlo.after hostOps0 (W0 m c) (Proc.devRef .tc main_v18) = _
  after_results_simp
  all_goals rfl

set_option maxHeartbeats 4000000 in
theorem v21_eq (c : Dev nD) :
    (W1 m c (Proc.devRef .tc main_v21) : S128x128.Idx → EReal)
      = truncf (F := Ideal) .bf16 (transpose S128x128 [1, 0] (extractStridedSlice S128x128 ![0, 0] (m ((c.tc : Thread nD τ).loc main_arg2)) slices_S128x256_S128x128_0_0)
          transposes_S128x128_S128x128_1_0) bitsLt_bf16_f32 := by
  show StableHlo.after hostOps0 (W0 m c) (Proc.devRef .tc main_v21) = _
  after_results_simp
  all_goals rfl

set_option maxHeartbeats 4000000 in
theorem v24_eq (c : Dev nD) :
    (W1 m c (Proc.devRef .tc main_v24) : S128x128.Idx → EReal)
      = truncf (F := Ideal) .bf16 (transpose S128x128 [1, 0] (extractStridedSlice S128x128 ![0, 128] (m ((c.tc : Thread nD τ).loc main_arg2)) slices_S128x256_S128x128_0_128)
          transposes_S128x128_S128x128_1_0) bitsLt_bf16_f32 := by
  show StableHlo.after hostOps0 (W0 m c) (Proc.devRef .tc main_v24) = _
  after_results_simp
  all_goals rfl

set_option maxHeartbeats 4000000 in
theorem v25_eq (c : Dev nD) :
    (W1 m c (Proc.devRef .tc main_v25) : S1x128.Idx → EReal) = shapeCast S1x128 (m ((c.tc : Thread nD τ).loc main_arg3)) shapeCasts_S128_S1x128 := by
  show StableHlo.after hostOps0 (W0 m c) (Proc.devRef .tc main_v25) = _
  after_results_simp
  all_goals rfl

set_option maxHeartbeats 4000000 in
theorem v27_eq (c : Dev nD) :
    (W1 m c (Proc.devRef .tc main_v27) : S128x128.Idx → EReal)
      = truncf (F := Ideal) .bf16 (transpose S128x128 [1, 0] (m ((c.tc : Thread nD τ).loc main_arg6)) transposes_S128x128_S128x128_1_0) bitsLt_bf16_f32 := by
  show StableHlo.after hostOps0 (W0 m c) (Proc.devRef .tc main_v27) = _
  after_results_simp
  all_goals rfl

set_option maxHeartbeats 4000000 in
theorem v28_eq (c : Dev nD) :
    (W1 m c (Proc.devRef .tc main_v28) : S1x128.Idx → EReal) = shapeCast S1x128 (m ((c.tc : Thread nD τ).loc main_arg7)) shapeCasts_S128_S1x128 := by
  show StableHlo.after hostOps0 (W0 m c) (Proc.devRef .tc main_v28) = _
  after_results_simp
  all_goals rfl

set_option maxHeartbeats 4000000 in
theorem v29_eq (c : Dev nD) :
    (W1 m c (Proc.devRef .tc main_v29) : S1x128.Idx → EReal) = truncf (F := Ideal) .bf16 (m ((c.tc : Thread nD τ).loc main_arg10)) bitsLt_bf16_f32 := by
  show StableHlo.after hostOps0 (W0 m c) (Proc.devRef .tc main_v29) = _
  after_results_simp
  all_goals rfl

set_option maxHeartbeats 4000000 in
theorem v30_eq (c : Dev nD) :
    (W1 m c (Proc.devRef .tc main_v30) : S1x1.Idx → EReal) = shapeCast S1x1 (m ((c.tc : Thread nD τ).loc main_arg11)) shapeCasts_S1_S1x1 := by
  show StableHlo.after hostOps0 (W0 m c) (Proc.devRef .tc main_v30) = _
  after_results_simp
  all_goals rfl

/-! ## Read at an index -/

/-- The first gathered operand: the source node's feature row. -/
theorem v9_apply (c : Dev nD) (e : Fin 600000) (k : Fin 128) :
    Whole.V1 m c main_v9 (ix2 e k) = (m ((c.tc : Thread nD τ).loc main_arg0)) (ix2 (Cert.RefSpec.node (m ((c.tc : Thread nD τ).loc main_arg1)) 0 e) k) := by
  show W1 m c (Proc.devRef .tc main_v9) (ix2 e k) = _
  rw [v9_eq]
  exact Cert.ReferenceIdeal.RefValue.gatherRow_apply (truncf (F := Ideal) .bf16 (m ((c.tc : Thread nD τ).loc main_arg0)) bitsLt_bf16_f32) 0 (by decide) _
    (m ((c.tc : Thread nD τ).loc main_arg1)) e k

/-- The second gathered operand: the target node's feature row. -/
theorem v18_apply (c : Dev nD) (e : Fin 600000) (k : Fin 128) :
    Whole.V1 m c main_v18 (ix2 e k) = (m ((c.tc : Thread nD τ).loc main_arg0)) (ix2 (Cert.RefSpec.node (m ((c.tc : Thread nD τ).loc main_arg1)) 1 e) k) := by
  show W1 m c (Proc.devRef .tc main_v18) (ix2 e k) = _
  rw [v18_eq]
  exact Cert.ReferenceIdeal.RefValue.gatherRow_apply (truncf (F := Ideal) .bf16 (m ((c.tc : Thread nD τ).loc main_arg0)) bitsLt_bf16_f32) 1 (by decide) _
    (m ((c.tc : Thread nD τ).loc main_arg1)) e k

/-- The first half of the first weight, transposed: entry `(k, o)` is the weight at `(o, k)`. -/
theorem v21_apply (c : Dev nD) (k o : Fin 128) :
    Whole.V1 m c main_v21 (ix2 k o) = (m ((c.tc : Thread nD τ).loc main_arg2)) (ix2 o (⟨k.val, by have := k.isLt; omega⟩ : Fin 256)) := by
  show W1 m c (Proc.devRef .tc main_v21) (ix2 k o) = _
  rw [v21_eq]
  exact (transpose_ix2_apply (extractStridedSlice S128x128 ![0, 0] (m ((c.tc : Thread nD τ).loc main_arg2)) slices_S128x256_S128x128_0_0)
      transposes_S128x128_S128x128_1_0 k o).trans
    (slice2_axis1_apply 0 (m ((c.tc : Thread nD τ).loc main_arg2)) slices_S128x256_S128x128_0_0 o k (⟨k.val, by have := k.isLt; omega⟩ : Fin 256) (Nat.zero_add _).symm)

/-- The second half of the first weight, transposed: entry `(k, o)` is the weight at `(o, 128 + k)`. -/
theorem v24_apply (c : Dev nD) (k o : Fin 128) :
    Whole.V1 m c main_v24 (ix2 k o) = (m ((c.tc : Thread nD τ).loc main_arg2)) (ix2 o (⟨128 + k.val, by have := k.isLt; omega⟩ : Fin 256)) := by
  show W1 m c (Proc.devRef .tc main_v24) (ix2 k o) = _
  rw [v24_eq]
  exact (transpose_ix2_apply (extractStridedSlice S128x128 ![0, 128] (m ((c.tc : Thread nD τ).loc main_arg2)) slices_S128x256_S128x128_0_128)
      transposes_S128x128_S128x128_1_0 k o).trans
    (slice2_axis1_apply 128 (m ((c.tc : Thread nD τ).loc main_arg2)) slices_S128x256_S128x128_0_128 o k (⟨128 + k.val, by have := k.isLt; omega⟩ : Fin 256) rfl)

/-- The first bias as a row. -/
theorem v25_apply (c : Dev nD) (o : Fin 128) :
    Whole.V1 m c main_v25 (ix2 (0 : Fin 1) o) = (m ((c.tc : Thread nD τ).loc main_arg3)) (ix1 o) := by
  show W1 m c (Proc.devRef .tc main_v25) (ix2 (0 : Fin 1) o) = _
  rw [v25_eq]
  exact shapeCast_a_1a_apply (m ((c.tc : Thread nD τ).loc main_arg3)) shapeCasts_S128_S1x128 (0 : Fin 1) o

/-- The second weight, transposed, where the second region reads it. -/
theorem v27_apply (c : Dev nD) (k o : Fin 128) :
    Whole.V3 m c main_v27 (ix2 k o) = (m ((c.tc : Thread nD τ).loc main_arg6)) (ix2 o k) := by
  show W3 m c (Proc.devRef .tc main_v27) (ix2 k o) = _
  rw [W3_of_W1 m c main_v27 (by decide) (by decide), v27_eq]
  exact transpose_ix2_apply (m ((c.tc : Thread nD τ).loc main_arg6)) transposes_S128x128_S128x128_1_0 k o

/-- The second bias as a row, where the second region reads it. -/
theorem v28_apply (c : Dev nD) (o : Fin 128) :
    Whole.V3 m c main_v28 (ix2 (0 : Fin 1) o) = (m ((c.tc : Thread nD τ).loc main_arg7)) (ix1 o) := by
  show W3 m c (Proc.devRef .tc main_v28) (ix2 (0 : Fin 1) o) = _
  rw [W3_of_W1 m c main_v28 (by decide) (by decide), v28_eq]
  exact shapeCast_a_1a_apply (m ((c.tc : Thread nD τ).loc main_arg7)) shapeCasts_S128_S1x128 (0 : Fin 1) o

/-- The last weight, where the third region reads it. -/
theorem v29_apply (c : Dev nD) (k : Fin 128) :
    Whole.V5 m c main_v29 (ix2 (0 : Fin 1) k) = (m ((c.tc : Thread nD τ).loc main_arg10)) (ix2 (0 : Fin 1) k) := by
  show W5 m c (Proc.devRef .tc main_v29) (ix2 (0 : Fin 1) k) = _
  rw [W5_of_W1 m c main_v29 (by decide) (by decide) (by decide) (by decide), v29_eq]
  rfl

/-- The last bias as a one-entry row, where the third region reads it. -/
theorem v30_apply (c : Dev nD) :
    Whole.V5 m c main_v30 (ix2 (0 : Fin 1) (0 : Fin 1)) = (m ((c.tc : Thread nD τ).loc main_arg11)) (ix1 (0 : Fin 1)) := by
  show W5 m c (Proc.devRef .tc main_v30) (ix2 (0 : Fin 1) (0 : Fin 1)) = _
  rw [W5_of_W1 m c main_v30 (by decide) (by decide) (by decide) (by decide), v30_eq]
  exact shapeCast_a_1a_apply (m ((c.tc : Thread nD τ).loc main_arg11)) shapeCasts_S1_S1x1 (0 : Fin 1) (0 : Fin 1)

end Cert.KernelIdeal.HostV

end
-- ==== Proof.KiHostOut.lean ====
/-
  The kernel program's last host operation read at an index: the `[100, 1, 6000]` array the last region leaves, laid
  out as one vector of 600000 entries — entry `e` is block `e / 6000`, position `e % 6000`.
-/
import proofs.«128831_j68624987455985_2_alg».proof.Proof.KiWhole
import Idealize.ShloMosaic.Lib.Pipeline.Value
import Idealize.ShloMosaic.Lib.ValueIdx

noncomputable section

namespace Cert.KernelIdeal.HostV

open Idealize.ShloMosaic Idealize.ShloMosaic.TcCoe Idealize.SL.Sem Idealize.ShloMosaic.ValueIdx Idealize.ShloMosaic.StableHlo
open Cert.KernelIdeal Cert.KernelIdeal.Gen Cert.KernelIdeal.Whole

variable (m : (ℓ : Loc nD τ sig) → Buf (Elt Ideal) ℓ)

/-- The result array is the last region's output read in row-major order. -/
theorem v74_eq (c : Dev nD) :
    (W7 m c (Proc.devRef .tc main_v74) : S600000.Idx → EReal)
      = shapeCast S600000 (W6 m c (Proc.devRef .tc main_v73)) shapeCasts_S100x1x6000_S600000 := by
  show StableHlo.after hostOps3 (W6 m c) (Proc.devRef .tc main_v74) = _
  after_results
  rfl

/-- Entry `e` of the result is the last region's output at block `e / 6000`, position `e % 6000`. -/
theorem v74_apply (c : Dev nD) (e : Fin 600000) :
    W7 m c (Proc.devRef .tc main_v74) (ix1 e)
      = W6 m c (Proc.devRef .tc main_v73)
          (ix3 (⟨e.val / 6000, by have := e.isLt; omega⟩ : Fin 100) (0 : Fin 1) (⟨e.val % 6000, Nat.mod_lt _ (by decide)⟩ : Fin 6000)) := by
  rw [v74_eq]
  refine shapeCast_apply (s := S100x1x6000) (t := S600000) (W6 m c (Proc.devRef .tc main_v73)) shapeCasts_S100x1x6000_S600000 (ix1 e)
    (ix3 (⟨e.val / 6000, by have := e.isLt; omega⟩ : Fin 100) (0 : Fin 1) (⟨e.val % 6000, Nat.mod_lt _ (by decide)⟩ : Fin 6000)) ?_
  rw [Shape.rowMajor_val_three, Shape.rowMajor_val_one]
  show (e.val / 6000 * 1 + 0) * 6000 + e.val % 6000 = e.val
  omega

end Cert.KernelIdeal.HostV

end
-- ==== Proof.KiHostSpec.lean ====
/-
  Batch-normalisation coefficients from per-core partial sums, over the extended reals.

  Two cores each leave a row of column sums `S` and a row of column sums of squares `Q`, stacked as `[2, 1, 128]`. The
  mean of column `o` is zero plus the two partial sums over the row count; the second moment likewise; the variance is
  the second moment less the squared mean. The layer's scale is the weight times the reciprocal root of the shifted
  variance, and its shift is the bias less the mean times the scale. The literals stay as their words (`0x49127C00` the
  row count 600000, `0x3727C5AC` the variance's offset, `0x00000000` zero).
-/
import Idealize.ShloMosaic.PureOps.Ideal
import Idealize.ShloMosaic.Lib.ValueIdx

noncomputable section

open scoped BigOperators

namespace Cert.HostSpec

open Idealize.ShloMosaic Idealize.ShloMosaic.ValueIdx

/-- The mean of column `o` from the two cores' partial sums `S`. -/
def statMean (S : FVec Ideal ⟨3, ![2, 1, 128]⟩ .f32) (o : Fin 128) : EReal :=
  Ideal.div (Ideal.ofBits .f32 0x00000000#32 + ∑ c' : Fin 2, S (ix3 c' (0 : Fin 1) o)) (Ideal.ofBits .f32 0x49127C00#32)

/-- The variance of column `o`: the second moment (from the partial sums of squares `Q`) less the squared mean. -/
def statVar (S Q : FVec Ideal ⟨3, ![2, 1, 128]⟩ .f32) (o : Fin 128) : EReal :=
  statMean Q o - statMean S o * statMean S o

/-- The scale of column `o`: the weight times the reciprocal root of the shifted variance. -/
def scale (S Q : FVec Ideal ⟨3, ![2, 1, 128]⟩ .f32) (g : FVec Ideal ⟨1, ![128]⟩ .f32) (o : Fin 128) : EReal :=
  g (ix1 o) * Ideal.rsqrt (statVar S Q o + Ideal.ofBits .f32 0x3727C5AC#32)

/-- The shift of column `o`: the bias less the mean times the scale. -/
def shift (S Q : FVec Ideal ⟨3, ![2, 1, 128]⟩ .f32) (g be : FVec Ideal ⟨1, ![128]⟩ .f32) (o : Fin 128) : EReal :=
  be (ix1 o) - statMean S o * scale S Q g o

end Cert.HostSpec

end
-- ==== Proof.KiHostNorm.lean ====
/-
  The kernel program's two middle host stretches read at an index: from the two cores' partial column sums and partial
  column sums of squares, each stretch makes a normalisation's scale and shift rows.

  The partials `[2, 1, 128]` are laid as `[2, 128]` and summed down the two rows from zero, divided by the row count;
  the variance is the second moment less the squared mean; the scale is the weight times the reciprocal root of the
  shifted variance; the shift is the bias less the mean times the scale.
-/
import proofs.«128831_j68624987455985_2_alg».proof.Proof.KiWhole
import proofs.«128831_j68624987455985_2_alg».proof.Proof.KiHostSpec
import proofs.«128831_j68624987455985_2_alg».proof.Proof.LibAsRow
import proofs.«128831_j68624987455985_2_alg».proof.Proof.LibPair
import Idealize.ShloMosaic.Lib.ValueLayout
import Idealize.ShloMosaic.PureOps.Ideal.Laws

noncomputable section

open scoped BigOperators

namespace Cert.KernelIdeal.HostV

open Idealize.ShloMosaic Idealize.ShloMosaic.TcCoe Idealize.SL.Sem Idealize.ShloMosaic.ValueIdx Idealize.ShloMosaic.StableHlo
open Cert.KernelIdeal Cert.KernelIdeal.Gen Cert.KernelIdeal.Whole Cert.Lib

section Stages
variable {F : FTy → Type} [FloatOps F]

/-- The two cores' partial rows summed from zero, as a row. -/
def partSum (S : FVec F S2x1x128 .f32) : FVec F S1x128 .f32 :=
  broadcastInDim S1x128 ![1] bcast_S128_S1x128_1
    (Host.reduceAdd (shapeCast S2x128 S shapeCasts_S2x1x128_S2x128) (constant S_ .f32 0x00000000#32) reducesTo_S2x128_S128_d0 h_S_)

/-- That sum over the row count. -/
def meanRow (S : FVec F S2x1x128 .f32) : FVec F S1x128 .f32 :=
  Host.divf (partSum S) (broadcastInDim S1x128 ![] bcast_S_S1x128 (constant S_ .f32 0x49127C00#32))

/-- The scale row: the weight times the reciprocal root of the shifted variance. -/
def scaleRow (S Q : FVec F S2x1x128 .f32) (g : FVec F S128 .f32) : FVec F S1x128 .f32 :=
  mulf (shapeCast S1x128 g shapeCasts_S128_S1x128)
    (Host.rsqrt (addf (subf (meanRow Q) (mulf (meanRow S) (meanRow S)))
      (broadcastInDim S1x128 ![] bcast_S_S1x128 (constant S_ .f32 0x3727C5AC#32))))

/-- The shift row: the bias less the mean times the scale. -/
def shiftRow (S Q : FVec F S2x1x128 .f32) (g be : FVec F S128 .f32) : FVec F S1x128 .f32 :=
  subf (shapeCast S1x128 be shapeCasts_S128_S1x128) (mulf (meanRow S) (scaleRow S Q g))

attribute [local irreducible] Host.reduceAdd broadcastInDim in
set_option maxRecDepth 8192 in
set_option maxHeartbeats 4000000 in
/-- The second stretch leaves the first normalisation's scale row … -/
theorem hostOps1_scale (V : Valuation τ sig (Elt F)) :
    StableHlo.after hostOps1 V (Proc.devRef .tc main_v48)
      = scaleRow (V (Proc.devRef .tc main_v31_1)) (V (Proc.devRef .tc main_v31_2)) (V (Proc.devRef .tc main_arg4)) := by
  after_results_simp
  all_goals rfl

attribute [local irreducible] Host.reduceAdd broadcastInDim in
set_option maxRecDepth 8192 in
set_option maxHeartbeats 4000000 in
/-- … and its shift row. -/
theorem hostOps1_shift (V : Valuation τ sig (Elt F)) :
    StableHlo.after hostOps1 V (Proc.devRef .tc main_v51)
      = shiftRow (V (Proc.devRef .tc main_v31_1)) (V (Proc.devRef .tc main_v31_2)) (V (Proc.devRef .tc main_arg4))
          (V (Proc.devRef .tc main_arg5)) := by
  after_results_simp
  all_goals rfl

attribute [local irreducible] Host.reduceAdd broadcastInDim in
set_option maxRecDepth 8192 in
set_option maxHeartbeats 4000000 in
/-- The third stretch leaves the second normalisation's scale row … -/
theorem hostOps2_scale (V : Valuation τ sig (Elt F)) :
    StableHlo.after hostOps2 V (Proc.devRef .tc main_v69)
      = scaleRow (V (Proc.devRef .tc main_v52_1)) (V (Proc.devRef .tc main_v52_2)) (V (Proc.devRef .tc main_arg8)) := by
  after_results_simp
  all_goals rfl

attribute [local irreducible] Host.reduceAdd broadcastInDim in
set_option maxRecDepth 8192 in
set_option maxHeartbeats 4000000 in
/-- … and its shift row. -/
theorem hostOps2_shift (V : Valuation τ sig (Elt F)) :
    StableHlo.after hostOps2 V (Proc.devRef .tc main_v72)
      = shiftRow (V (Proc.devRef .tc main_v52_1)) (V (Proc.devRef .tc main_v52_2)) (V (Proc.devRef .tc main_arg8))
          (V (Proc.devRef .tc main_arg9)) := by
  after_results_simp
  all_goals rfl

end Stages

/-! ## The rows read at an index, over the extended reals -/

/-- Dropping the row axis of a `[2, 128]` array leaves the 128 columns. -/
theorem hRed2 : S2x128.Reduces [0] S128 := by decide

theorem lift2_eq (o : Fin 128) (k : Fin 2) : hRed2.lift (ix1 o) k = ix2 k o := by
  funext a
  refine Fin.ext ?_
  match a with
  | ⟨0, _⟩ => rfl
  | ⟨1, _⟩ => rfl

/-- A `[2, 1, 128]` array laid as `[2, 128]` reads, at `(k, o)`, the operand at `(k, 0, o)`. -/
theorem flat2_apply (S : FVec Ideal S2x1x128 .f32) (k : Fin 2) (o : Fin 128) :
    shapeCast S2x128 S shapeCasts_S2x1x128_S2x128 (ix2 k o) = S (ix3 k (0 : Fin 1) o) := by
  refine shapeCast_apply (s := S2x1x128) (t := S2x128) S shapeCasts_S2x1x128_S2x128 (ix2 k o) (ix3 k (0 : Fin 1) o) ?_
  rw [Shape.rowMajor_val_three, Shape.rowMajor_val_two]
  show (k.val * 1 + 0) * 128 + o.val = k.val * 128 + o.val
  omega

/-- The summed partials at column `o`. -/
theorem partSum_apply (S : FVec Ideal S2x1x128 .f32) (o : Fin 128) :
    partSum S (ix2 (0 : Fin 1) o) = Ideal.ofBits .f32 0x00000000#32 + ∑ c' : Fin 2, S (ix3 c' (0 : Fin 1) o) := by
  unfold partSum
  rw [congrFun (broadcastInDim_eq_asRow _ bcast_S128_S1x128_1) (ix2 (0 : Fin 1) o)]
  show Ideal.hostReduceAdd reducesTo_S2x128_S128_d0 (shapeCast S2x128 S shapeCasts_S2x1x128_S2x128)
      (Ideal.ofBits .f32 0x00000000#32) (ix1 o) = _
  rw [Ideal.hostReduceAdd_single reducesTo_S2x128_S128_d0 hRed2]
  exact congrArg (Ideal.ofBits .f32 0x00000000#32 + ·) (Finset.sum_congr rfl fun k _ =>
    (congrArg (shapeCast S2x128 S shapeCasts_S2x1x128_S2x128) (lift2_eq o k)).trans (flat2_apply S k o))

/-- The mean row at column `o`. -/
theorem meanRow_apply (S : FVec Ideal S2x1x128 .f32) (o : Fin 128) :
    meanRow S (ix2 (0 : Fin 1) o) = Cert.HostSpec.statMean S o := by
  show Ideal.div (partSum S (ix2 (0 : Fin 1) o))
      (broadcastInDim S1x128 ![] bcast_S_S1x128 (constant (F := Ideal) S_ .f32 0x49127C00#32) (ix2 (0 : Fin 1) o)) = _
  rw [partSum_apply, splat_apply]
  rfl

/-- The scale row at column `o`. -/
theorem scaleRow_apply (S Q : FVec Ideal S2x1x128 .f32) (g : FVec Ideal S128 .f32) (o : Fin 128) :
    scaleRow S Q g (ix2 (0 : Fin 1) o) = Cert.HostSpec.scale S Q g o := by
  show shapeCast S1x128 g shapeCasts_S128_S1x128 (ix2 (0 : Fin 1) o)
      * Ideal.rsqrt (meanRow Q (ix2 (0 : Fin 1) o) - meanRow S (ix2 (0 : Fin 1) o) * meanRow S (ix2 (0 : Fin 1) o)
          + broadcastInDim S1x128 ![] bcast_S_S1x128 (constant (F := Ideal) S_ .f32 0x3727C5AC#32) (ix2 (0 : Fin 1) o)) = _
  rw [shapeCast_a_1a_apply, meanRow_apply, meanRow_apply, splat_apply]
  rfl

/-- The shift row at column `o`. -/
theorem shiftRow_apply (S Q : FVec Ideal S2x1x128 .f32) (g be : FVec Ideal S128 .f32) (o : Fin 128) :
    shiftRow S Q g be (ix2 (0 : Fin 1) o) = Cert.HostSpec.shift S Q g be o := by
  show shapeCast S1x128 be shapeCasts_S128_S1x128 (ix2 (0 : Fin 1) o)
      - meanRow S (ix2 (0 : Fin 1) o) * scaleRow S Q g (ix2 (0 : Fin 1) o) = _
  rw [shapeCast_a_1a_apply, meanRow_apply, scaleRow_apply]
  rfl

/-! ## At the regions' entries -/

variable (m : (ℓ : Loc nD τ sig) → Buf (Elt Ideal) ℓ)

/-- An argument array at the first region's exit is as launched. -/
theorem W2_arg (c : Dev nD) (r : Ref sig .tc) (h0 : r ∉ hostOps0_W) (hr : ∀ w, Pipeline.arrRef spec0 w ≠ r) :
    W2 m c (Proc.devRef .tc r) = m ((c.tc : Thread nD τ).loc r) :=
  (W2_of_ne m c r hr).trans (StableHlo.after_of_writes_sub hostOps0 _ hostOps0_writes h0)

/-- An argument array at the second region's exit is as launched. -/
theorem W4_arg (c : Dev nD) (r : Ref sig .tc) (h0 : r ∉ hostOps0_W) (hr0 : ∀ w, Pipeline.arrRef spec0 w ≠ r)
    (h1 : r ∉ hostOps1_W) (hr1 : ∀ w, Pipeline.arrRef spec1 w ≠ r) :
    W4 m c (Proc.devRef .tc r) = m ((c.tc : Thread nD τ).loc r) :=
  (W4_of_ne m c r hr1).trans ((StableHlo.after_of_writes_sub hostOps1 _ hostOps1_writes h1).trans (W2_arg m c r h0 hr0))

/-- The first normalisation's scale, where the second region reads it. -/
theorem v48_apply (c : Dev nD) (o : Fin 128) :
    Whole.V3 m c main_v48 (ix2 (0 : Fin 1) o)
      = Cert.HostSpec.scale (W2 m c (Proc.devRef .tc main_v31_1)) (W2 m c (Proc.devRef .tc main_v31_2))
          (m ((c.tc : Thread nD τ).loc main_arg4)) o := by
  show StableHlo.after hostOps1 (W2 m c) (Proc.devRef .tc main_v48) (ix2 (0 : Fin 1) o) = _
  rw [hostOps1_scale, W2_arg m c main_arg4 (by decide) (by decide)]
  exact scaleRow_apply _ _ _ o

/-- The first normalisation's shift, where the second region reads it. -/
theorem v51_apply (c : Dev nD) (o : Fin 128) :
    Whole.V3 m c main_v51 (ix2 (0 : Fin 1) o)
      = Cert.HostSpec.shift (W2 m c (Proc.devRef .tc main_v31_1)) (W2 m c (Proc.devRef .tc main_v31_2))
          (m ((c.tc : Thread nD τ).loc main_arg4)) (m ((c.tc : Thread nD τ).loc main_arg5)) o := by
  show StableHlo.after hostOps1 (W2 m c) (Proc.devRef .tc main_v51) (ix2 (0 : Fin 1) o) = _
  rw [hostOps1_shift, W2_arg m c main_arg4 (by decide) (by decide), W2_arg m c main_arg5 (by decide) (by decide)]
  exact shiftRow_apply _ _ _ _ o

/-- The second stretch leaves the first region's main output alone. -/
theorem v31_0_kept (c : Dev nD) : Whole.V3 m c main_v31_0 = Whole.V2 m c main_v31_0 :=
  StableHlo.after_of_writes_sub hostOps1 _ hostOps1_writes (r := main_v31_0) (by decide)

/-- The second normalisation's scale, where the third region reads it. -/
theorem v69_apply (c : Dev nD) (o : Fin 128) :
    Whole.V5 m c main_v69 (ix2 (0 : Fin 1) o)
      = Cert.HostSpec.scale (W4 m c (Proc.devRef .tc main_v52_1)) (W4 m c (Proc.devRef .tc main_v52_2))
          (m ((c.tc : Thread nD τ).loc main_arg8)) o := by
  show StableHlo.after hostOps2 (W4 m c) (Proc.devRef .tc main_v69) (ix2 (0 : Fin 1) o) = _
  rw [hostOps2_scale, W4_arg m c main_arg8 (by decide) (by decide) (by decide) (by decide)]
  exact scaleRow_apply _ _ _ o

/-- The second normalisation's shift, where the third region reads it. -/
theorem v72_apply (c : Dev nD) (o : Fin 128) :
    Whole.V5 m c main_v72 (ix2 (0 : Fin 1) o)
      = Cert.HostSpec.shift (W4 m c (Proc.devRef .tc main_v52_1)) (W4 m c (Proc.devRef .tc main_v52_2))
          (m ((c.tc : Thread nD τ).loc main_arg8)) (m ((c.tc : Thread nD τ).loc main_arg9)) o := by
  show StableHlo.after hostOps2 (W4 m c) (Proc.devRef .tc main_v72) (ix2 (0 : Fin 1) o) = _
  rw [hostOps2_shift, W4_arg m c main_arg8 (by decide) (by decide) (by decide) (by decide),
    W4_arg m c main_arg9 (by decide) (by decide) (by decide) (by decide)]
  exact shiftRow_apply _ _ _ _ o

/-- The third stretch leaves the second region's main output alone. -/
theorem v52_0_kept (c : Dev nD) : Whole.V5 m c main_v52_0 = Whole.V4 m c main_v52_0 :=
  StableHlo.after_of_writes_sub hostOps2 _ hostOps2_writes (r := main_v52_0) (by decide)

end Cert.KernelIdeal.HostV

end
-- ==== Proof.KiL1Pieces.lean ====
/-
  The first pallas_call (first linear layer with running column sums): what each control case leaves in the output block of
  `h`, in the two running column sums and, at the last inner step, in the two sum outputs — each as one pure term of the
  five loaded blocks and of the sums the step before left. Every store of the body covers its whole buffer, so each
  buffer reads back as the payload of its last store; a load that follows a store of the same buffer reads that store's
  payload.
-/
import proofs.«128831_j68624987455985_2_alg».proof.Proof.KiL1Acc
import Idealize.ShloMosaic.Lib.Pipeline.Value
import Idealize.ShloMosaic.Lib.Tactic

set_option maxRecDepth 16384

noncomputable section

namespace Cert.KernelIdeal.Layer1V

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Layer1

variable {F : FTy → Type} [FloatOps F]

/-- The zero offsets of a rank-2 whole-buffer rectangle. -/
theorem hz2 : (![0, 0] : Fin 2 → Nat) = fun _ => 0 := funext fun a => by fin_cases a <;> rfl
/-- The zero offsets of a rank-3 whole-buffer rectangle. -/
theorem hz3 : (![0, 0, 0] : Fin 3 → Nat) = fun _ => 0 := funext fun a => by fin_cases a <;> rfl

/-- The block of `h` a first inner step leaves: the linear layer `x0·W1a + x1·W1b + b1` of the five loaded blocks, cast to bf16. -/
theorem out_A_5_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) :
    out_A_5 c i arg2 harg2 arg3 harg3 arg4 harg4 arg5 harg5 arg6 harg6 arg7 harg7 arg8 harg8 arg9 harg9 arg10 harg10 arg11 harg11 hc0 hc1 x0 x1 x2 x3 x4 = k0_pay2 (k0_pay7 x0 x1 x2 x3 x4) := by
  unfold out_A_5
  rw [View.read_writes_eq_canon _ _ _ (cover_A_5 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The block of `h` a middle inner step leaves: the same linear layer of the five loaded blocks, cast to bf16. -/
theorem out_B_5_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    out_B_5 c i arg2 harg2 arg3 harg3 arg4 harg4 arg5 harg5 arg6 harg6 arg7 harg7 arg8 harg8 arg9 harg9 arg10 harg10 arg11 harg11 hc0 hc1 x0 x1 x2 x3 x4 xs0 xs1 = k0_pay2 (k0_pay7 x0 x1 x2 x3 x4) := by
  unfold out_B_5
  rw [View.read_writes_eq_canon _ _ _ (cover_B_5 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The block of `h` a last inner step leaves: the same linear layer of the five loaded blocks, cast to bf16. -/
theorem out_C_5_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    out_C_5 c i arg2 harg2 arg3 harg3 arg4 harg4 arg5 harg5 arg6 harg6 arg7 harg7 arg8 harg8 arg9 harg9 arg10 harg10 arg11 harg11 hc0 hc1 x0 x1 x2 x3 x4 xs0 xs1 = k0_pay2 (k0_pay7 x0 x1 x2 x3 x4) := by
  unfold out_C_5
  rw [View.read_writes_eq_canon _ _ _ (cover_C_5 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a first inner step: the zero row stored first is what the later load reads back, so it is the zero row plus the column sums of this block's `h`. -/
theorem sout_A_0_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) :
    sout_A_0 c i arg2 harg2 arg3 harg3 arg4 harg4 arg5 harg5 arg6 harg6 arg7 harg7 arg8 harg8 arg9 harg9 arg10 harg10 arg11 harg11 hc0 hc1 x0 x1 x2 x3 x4 = k0_pay8 x0 x1 x2 x3 x4 k0_pay5 := by
  unfold sout_A_0
  rw [View.read_writes_eq_canon _ _ _ (scover_A_0 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a first inner step: the zero row plus the column sums of this block's `h·h`. -/
theorem sout_A_1_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S6000x128 .bf16) (x2 : Vec F S128x128 .bf16) (x3 : Vec F S128x128 .bf16) (x4 : Vec F S1x128 .f32) :
    sout_A_1 c i arg2 harg2 arg3 harg3 arg4 harg4 arg5 harg5 arg6 harg6 arg7 harg7 arg8 harg8 arg9 harg9 arg10 harg10 arg11 harg11 hc0 hc1 x0 x1 x2 x3 x4 = k0_pay1 (k0_pay9 x0 x1 x2 x3 x4 k0_pay6) := by
  unfold sout_A_1
  rw [View.read_writes_eq_canon _ _ _ (scover_A_1 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a middle inner step: what the step before left plus the column sums of this block's `h`. -/
theorem sout_B_0_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    sout_B_0 c i arg2 harg2 arg3 harg3 arg4 harg4 arg5 harg5 arg6 harg6 arg7 harg7 arg8 harg8 arg9 harg9 arg10 harg10 arg11 harg11 hc0 hc1 x0 x1 x2 x3 x4 xs0 xs1 = k0_pay8 x0 x1 x2 x3 x4 xs0 := by
  unfold sout_B_0
  rw [View.read_writes_eq_canon _ _ _ (scover_B_0 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a middle inner step: what the step before left plus the column sums of this block's `h·h`. -/
theorem sout_B_1_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    sout_B_1 c i arg2 harg2 arg3 harg3 arg4 harg4 arg5 harg5 arg6 harg6 arg7 harg7 arg8 harg8 arg9 harg9 arg10 harg10 arg11 harg11 hc0 hc1 x0 x1 x2 x3 x4 xs0 xs1 = k0_pay1 (k0_pay9 x0 x1 x2 x3 x4 xs1) := by
  unfold sout_B_1
  rw [View.read_writes_eq_canon _ _ _ (scover_B_1 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a last inner step: what the step before left plus the column sums of this block's `h`. -/
theorem sout_C_0_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    sout_C_0 c i arg2 harg2 arg3 harg3 arg4 harg4 arg5 harg5 arg6 harg6 arg7 harg7 arg8 harg8 arg9 harg9 arg10 harg10 arg11 harg11 hc0 hc1 x0 x1 x2 x3 x4 xs0 xs1 = k0_pay8 x0 x1 x2 x3 x4 xs0 := by
  unfold sout_C_0
  rw [View.read_writes_eq_canon _ _ _ (scover_C_0 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a last inner step: what the step before left plus the column sums of this block's `h·h`. -/
theorem sout_C_1_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    sout_C_1 c i arg2 harg2 arg3 harg3 arg4 harg4 arg5 harg5 arg6 harg6 arg7 harg7 arg8 harg8 arg9 harg9 arg10 harg10 arg11 harg11 hc0 hc1 x0 x1 x2 x3 x4 xs0 xs1 = k0_pay1 (k0_pay9 x0 x1 x2 x3 x4 xs1) := by
  unfold sout_C_1
  rw [View.read_writes_eq_canon _ _ _ (scover_C_1 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The first sum output at a last inner step: the running column sum of `h` just stored, read back and given a leading unit axis. -/
theorem out_C_6_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    out_C_6 c i arg2 harg2 arg3 harg3 arg4 harg4 arg5 harg5 arg6 harg6 arg7 harg7 arg8 harg8 arg9 harg9 arg10 harg10 arg11 harg11 hc0 hc1 x0 x1 x2 x3 x4 xs0 xs1 = k0_pay3 (k0_pay8 x0 x1 x2 x3 x4 xs0) := by
  unfold out_C_6
  rw [View.read_writes_eq_canon _ _ _ (cover_C_6 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The second sum output at a last inner step: the running column sum of `h·h` just stored, read back and given a leading unit axis. -/
theorem out_C_7_eq (c : Dev nD) (i : grid0.Coords) (arg2 : Memref sig .tc .vmem S6000x128 .bf16) (harg2 : arg2.IsWhole) (arg3 : Memref sig .tc .vmem S6000x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S6000x128 .bf16) (x2 : Vec F S128x128 .bf16) (x3 : Vec F S128x128 .bf16) (x4 : Vec F S1x128 .f32) (xs0 : Vec F S1x128 .f32) (xs1 : Vec F S1x128 .f32) :
    out_C_7 c i arg2 harg2 arg3 harg3 arg4 harg4 arg5 harg5 arg6 harg6 arg7 harg7 arg8 harg8 arg9 harg9 arg10 harg10 arg11 harg11 hc0 hc1 x0 x1 x2 x3 x4 xs0 xs1 = k0_pay4 (k0_pay1 (k0_pay9 x0 x1 x2 x3 x4 xs1)) := by
  unfold out_C_7
  rw [View.read_writes_eq_canon _ _ _ (cover_C_7 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

end Cert.KernelIdeal.Layer1V

end
-- ==== Proof.KiL1Pay.lean ====
/-
  The arithmetic of the first pallas_call's body read at an index, on the extended reals: the linear layer of a block of
  6000 edges at entry `(e, o)` is `(Σₖ x0[e,k]·W1a[k,o] + Σₖ x1[e,k]·W1b[k,o]) + b1[0,o]` (a product into the zero
  accumulator is the plain sum; a change of float format is the identity), the column sums that update the two running
  sums are plain sums over the block's 6000 rows, and the layout casts only rename indices.
-/
import proofs.«128831_j68624987455985_2_alg».proof.Proof.Gen.KernelIdeal.Skeleton
import Idealize.ShloMosaic.PureOps.Ideal.Laws
import Idealize.ShloMosaic.Lib.ValueIdx
import Idealize.ShloMosaic.Lib.ValueLayout

set_option maxRecDepth 16384

noncomputable section

namespace Cert.KernelIdeal.Layer1V

open Idealize.ShloMosaic Idealize.ShloMosaic.ValueIdx
open Cert.KernelIdeal Cert.KernelIdeal.Gen
open scoped BigOperators

/-- The dimension numbers of the layer's two products: rows of a block against columns of a weight half. -/
abbrev D1 : DotDims S6000x128 S128x128 S6000x128 := dot_S6000x128_S128x128_S6000x128_1_0_0_1_n_n

/-- Off the contracted axis the left operand is read at the result's row, -/
theorem dot_lhs_row (j : S6000x128.Idx) (κ : D1.contr.Idx) : (D1.lhsIdx j κ 0).val = (j 0).val := by
  unfold DotDims.lhsIdx
  rw [dif_neg (show ¬(0 : Fin S6000x128.rank) ∈ D1.lhsBatch from List.not_mem_nil),
    dif_pos (show (0 : Fin S6000x128.rank) ∈ D1.lhsNonContracting from List.mem_singleton.mpr rfl)]
  rfl

/-- and the right operand at the result's column. -/
theorem dot_rhs_col (j : S6000x128.Idx) (κ : D1.contr.Idx) : (D1.rhsIdx j κ 1).val = (j 1).val := by
  unfold DotDims.rhsIdx
  rw [dif_neg (show ¬(1 : Fin S128x128.rank) ∈ D1.rhsBatch from List.not_mem_nil),
    dif_pos (show (1 : Fin S128x128.rank) ∈ D1.rhsNonContracting from List.mem_singleton.mpr rfl)]
  rfl

/-- At result entry `(e, o)` and contraction position `k` the left operand is read at `(e, k)`, -/
theorem dot_lhsIdx (e : Fin 6000) (o : Fin 128) (k : Fin 128) :
    D1.lhsIdx (ix2 e o) ((contrEquiv1 D1 128 rfl rfl).symm k) = ix2 e k :=
  funext fun ax => Fin.ext (by
    match ax with
    | ⟨0, _⟩ => exact dot_lhs_row _ _
    | ⟨1, _⟩ => exact (D1.lhsIdx_val_of_single rfl _ _).trans (contrEquiv1_symm_val D1 128 rfl rfl k))

/-- and the right operand at `(k, o)`. -/
theorem dot_rhsIdx (e : Fin 6000) (o : Fin 128) (k : Fin 128) :
    D1.rhsIdx (ix2 e o) ((contrEquiv1 D1 128 rfl rfl).symm k) = ix2 k o :=
  funext fun ax => Fin.ext (by
    match ax with
    | ⟨0, _⟩ => exact (D1.rhsIdx_val_of_single rfl _ _).trans (contrEquiv1_symm_val D1 128 rfl rfl k)
    | ⟨1, _⟩ => exact dot_rhs_col _ _)

/-- The product into the zero accumulator, at `(e, o)`: the sum over `k` of row `e` against column `o`. -/
theorem matmul_zero_apply (l : FVec Ideal S6000x128 .bf16) (r : FVec Ideal S128x128 .bf16) (e : Fin 6000) (o : Fin 128) :
    matmul D1 none l r (constant (F := Ideal) S6000x128 .f32 0x00000000#32) (ix2 e o) = ∑ k : Fin 128, l (ix2 e k) * r (ix2 k o) := by
  show FloatOps.matmul D1 none l r (constant (F := Ideal) S6000x128 .f32 0x00000000#32) (ix2 e o) = _
  rw [Ideal.matmul_constant_zero_apply, ← Equiv.sum_comp (contrEquiv1 D1 128 rfl rfl).symm]
  refine Finset.sum_congr rfl fun k _ => ?_
  rw [dot_lhsIdx, dot_rhsIdx]

/-- The layer at one entry of a block: the two row-by-column sums and the bias. -/
theorem pay7_apply (x0 x1 : Vec Ideal S6000x128 .bf16) (x2 x3 : Vec Ideal S128x128 .bf16) (x4 : Vec Ideal S1x128 .f32) (e : Fin 6000) (o : Fin 128) :
    k0_pay7 x0 x1 x2 x3 x4 (ix2 e o)
      = ((∑ k : Fin 128, x0 (ix2 e k) * x2 (ix2 k o)) + (∑ k : Fin 128, x1 (ix2 e k) * x3 (ix2 k o))) + x4 (ix2 (0 : Fin 1) o) := by
  unfold k0_pay7
  simp only [shapeCast_self]
  refine (addf_apply _ _ _).trans ?_
  exact congrArg₂ (· + ·) ((addf_apply _ _ _).trans (congrArg₂ (· + ·) (matmul_zero_apply x0 x2 e o) (matmul_zero_apply x1 x3 e o)))
    (broadcastTo_1b_ab_apply x4 _ e o)

/-- The cast of the layer's block to the stored format keeps every entry. -/
theorem pay2_apply (v : FVec Ideal S6000x128 .f32) (j : S6000x128.Idx) : k0_pay2 v j = v j := rfl

/-- A sum over the 6000 rows of a block, at one channel. -/
theorem colsum_apply (src : FVec Ideal S6000x128 .f32) (hφ : FKind.Formats .f32)
    (hacc : (0x00000000#32 : BitVec 32) = FKind.add.neutral .f32 hφ) (o : Fin 128) :
    multiReduction .add [0] S128 src 0x00000000#32 reduces_S6000x128_S128 hφ hacc (ix1 o) = ∑ r : Fin 6000, src (ix2 r o) := by
  refine (Ideal.multiReduction_add_single src 0x00000000#32 reduces_S6000x128_S128 hφ hacc (ix1 o)).trans ?_
  refine Finset.sum_congr rfl fun r _ => congrArg src ?_
  funext a
  match a with
  | ⟨0, _⟩ => rfl
  | ⟨1, _⟩ => rfl

/-- The new running sum of `h` at one channel: the old one plus the block's column sum. -/
theorem pay8_apply (x0 x1 : Vec Ideal S6000x128 .bf16) (x2 x3 : Vec Ideal S128x128 .bf16) (x4 : Vec Ideal S1x128 .f32) (v18 : Vec Ideal S1x128 .f32) (u : Fin 1) (o : Fin 128) :
    k0_pay8 x0 x1 x2 x3 x4 v18 (ix2 u o) = v18 (ix2 u o) + ∑ r : Fin 6000, k0_pay7 x0 x1 x2 x3 x4 (ix2 r o) := by
  unfold k0_pay8
  simp only [shapeCast_self]
  refine (addf_apply _ _ _).trans (congrArg (v18 (ix2 u o) + ·) ?_)
  refine (shapeCast_a_1a_apply _ _ u o).trans ?_
  exact colsum_apply _ _ _ o

/-- The new running sum of `h·h` at one channel: the old one plus the column sum of the block's squares. -/
theorem pay9_apply (x0 x1 : Vec Ideal S6000x128 .bf16) (x2 x3 : Vec Ideal S128x128 .bf16) (x4 : Vec Ideal S1x128 .f32) (v25 : Vec Ideal S1x128 .f32) (u : Fin 1) (o : Fin 128) :
    k0_pay9 x0 x1 x2 x3 x4 v25 (ix2 u o)
      = v25 (ix2 u o) + ∑ r : Fin 6000, k0_pay7 x0 x1 x2 x3 x4 (ix2 r o) * k0_pay7 x0 x1 x2 x3 x4 (ix2 r o) := by
  unfold k0_pay9
  refine (addf_apply _ _ _).trans (congrArg (v25 (ix2 u o) + ·) ?_)
  refine (shapeCast_a_1a_apply _ _ u o).trans ?_
  refine (colsum_apply _ _ _ o).trans ?_
  exact Finset.sum_congr rfl fun r _ => mulf_apply _ _ _

/-- The cast of a running sum to its own shape keeps every entry. -/
theorem pay1_apply (v : FVec Ideal S1x128 .f32) (j : S1x128.Idx) : k0_pay1 v j = v j := by
  unfold k0_pay1
  rw [shapeCast_self]

/-- A running sum given a leading unit axis: entry `(·, ·, o)` is the sum's entry `(·, o)`. -/
theorem pay3_apply (v : Vec Ideal S1x128 .f32) (u0 u1 : Fin 1) (o : Fin 128) : k0_pay3 v (ix3 u0 u1 o) = v (ix2 u1 o) := by
  unfold k0_pay3
  exact shapeCast_ab_1ab_apply v _ u0 u1 o

/-- The same for the second running sum. -/
theorem pay4_apply (v : Vec Ideal S1x128 .f32) (u0 u1 : Fin 1) (o : Fin 128) : k0_pay4 v (ix3 u0 u1 o) = v (ix2 u1 o) := by
  unfold k0_pay4
  exact shapeCast_ab_1ab_apply v _ u0 u1 o

/-- The zero row the first inner step stores: the zero word everywhere. -/
theorem pay5_apply (j : S1x128.Idx) : k0_pay5 (F := Ideal) j = Ideal.ofBits .f32 0x00000000#32 := by
  unfold k0_pay5
  rw [shapeCast_self]
  rfl

/-- The same for the second running sum. -/
theorem pay6_apply (j : S1x128.Idx) : k0_pay6 (F := Ideal) j = Ideal.ofBits .f32 0x00000000#32 := by
  unfold k0_pay6
  rw [shapeCast_self]
  rfl

end Cert.KernelIdeal.Layer1V

end
-- ==== Proof.KiL1Value.lean ====
/-
  The first pallas_call's output `h`, as one function of the five arrays the region finds: at edge `e` and channel `o`
  it is `(Σₖ x0[e,k]·W1a[k,o] + Σₖ x1[e,k]·W1b[k,o]) + b1[0,o]`. Grid point `t` loads rows `6000·t … 6000·t + 5999` of the two
  gathered feature arrays and the whole weight halves and bias, so the block it writes back is block `t` of that
  function; every point writes its block back and the hundred blocks tile the 600000 rows.
-/
import proofs.«128831_j68624987455985_2_alg».proof.Proof.KiL1Pieces
import proofs.«128831_j68624987455985_2_alg».proof.Proof.KiL1Pay
import Idealize.ShloMosaic.Lib.Pipeline.Value

set_option maxRecDepth 16384

noncomputable section

namespace Cert.KernelIdeal.Layer1V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Layer1
open scoped BigOperators

variable (V : (c : Dev nD) → (b : Ref sig .tc) → Buf (Elt Ideal) ((c : Thread nD τ).loc b))

/-! ## The specification: the layer at one edge and one channel -/

/-- The first linear layer at edge `e`, channel `o`: the two gathered feature rows against the two weight halves, plus the bias. -/
def hAt (a0 a1 : Vec Ideal S600000x128 .bf16) (wa wb : Vec Ideal S128x128 .bf16) (b : Vec Ideal S1x128 .f32)
    (e : Fin 600000) (o : Fin 128) : EReal :=
  ((∑ k : Fin 128, a0 (ix2 e k) * wa (ix2 k o)) + (∑ k : Fin 128, a1 (ix2 e k) * wb (ix2 k o))) + b (ix2 (0 : Fin 1) o)

/-- The layer of the five arrays as the region finds them, per edge and channel. -/
abbrev hE (c : Dev nD) : Fin 600000 → Fin 128 → EReal :=
  hAt (V c main_v9) (V c main_v18) (V c main_v21) (V c main_v24) (V c main_v25)

/-- The layer over the whole edge array. -/
def hArr (c : Dev nD) : Vec Ideal S600000x128 .bf16 :=
  fun i => hE V c (i 0) (i 1)

/-- Row `r` of the block of grid point `t`, as a row of the whole edge array: blocks are 6000 consecutive rows. -/
def edge (t : Fin cfg0.N) (r : Fin 6000) : Fin 600000 :=
  ⟨6000 * t.val + r.val, by have h := t.isLt; have hN : cfg0.N = 100 := N_0; have := r.isLt; omega⟩

/-- Its row number. -/
theorem edge_val (t : Fin cfg0.N) (r : Fin 6000) : (edge t r).val = 6000 * t.val + r.val := rfl

/-! ## Where each window's block sits -/

/-- The printed index maps, decided once over the grid: the two feature windows and the output window of `h` are at
    block `t` on the row axis; the weights and the bias never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first feature window's block at `t`, read at `(r, k)`: row `6000·t + r` of its array. -/
theorem iblk0_apply (c : Dev nD) (t : Fin cfg0.N) (r : Fin 6000) (k : Fin 128) :
    iblk V c 0 t (ix2 r k) = V c main_v9 (ix2 (edge t r) k) := by
  obtain ⟨e0, e1, -⟩ := idx_facts t
  show V c main_v9 (((cfg0.win 0).blk t).view.emb (ix2 r k)) = V c main_v9 (ix2 (edge t r) k)
  refine congrArg (V c main_v9) (funext fun a => Fin.ext ?_)
  match a with
  | ⟨0, _⟩ => show win0_0.index t (0 : Fin 2) * 6000 + 1 * r.val = 6000 * t.val + r.val; rw [e0]; omega
  | ⟨1, _⟩ => show win0_0.index t (1 : Fin 2) * 128 + 1 * k.val = k.val; rw [e1]; omega

/-- The second feature window's block likewise. -/
theorem iblk1_apply (c : Dev nD) (t : Fin cfg0.N) (r : Fin 6000) (k : Fin 128) :
    iblk V c 1 t (ix2 r k) = V c main_v18 (ix2 (edge t r) k) := by
  obtain ⟨-, -, e0, e1, -⟩ := idx_facts t
  show V c main_v18 (((cfg0.win 1).blk t).view.emb (ix2 r k)) = V c main_v18 (ix2 (edge t r) k)
  refine congrArg (V c main_v18) (funext fun a => Fin.ext ?_)
  match a with
  | ⟨0, _⟩ => show win0_1.index t (0 : Fin 2) * 6000 + 1 * r.val = 6000 * t.val + r.val; rw [e0]; omega
  | ⟨1, _⟩ => show win0_1.index t (1 : Fin 2) * 128 + 1 * k.val = k.val; rw [e1]; omega

/-- The first weight half's block is the whole array. -/
theorem iblk2_apply (c : Dev nD) (t : Fin cfg0.N) (k : Fin 128) (o : Fin 128) :
    iblk V c 2 t (ix2 k o) = V c main_v21 (ix2 k o) := by
  obtain ⟨-, -, -, -, e0, e1, -⟩ := idx_facts t
  show V c main_v21 (((cfg0.win 2).blk t).view.emb (ix2 k o)) = V c main_v21 (ix2 k o)
  refine congrArg (V c main_v21) (funext fun a => Fin.ext ?_)
  match a with
  | ⟨0, _⟩ => show win0_2.index t (0 : Fin 2) * 128 + 1 * k.val = k.val; rw [e0]; omega
  | ⟨1, _⟩ => show win0_2.index t (1 : Fin 2) * 128 + 1 * o.val = o.val; rw [e1]; omega

/-- The second weight half's block is the whole array. -/
theorem iblk3_apply (c : Dev nD) (t : Fin cfg0.N) (k : Fin 128) (o : Fin 128) :
    iblk V c 3 t (ix2 k o) = V c main_v24 (ix2 k o) := by
  obtain ⟨-, -, -, -, -, -, e0, e1, -⟩ := idx_facts t
  show V c main_v24 (((cfg0.win 3).blk t).view.emb (ix2 k o)) = V c main_v24 (ix2 k o)
  refine congrArg (V c main_v24) (funext fun a => Fin.ext ?_)
  match a with
  | ⟨0, _⟩ => show win0_3.index t (0 : Fin 2) * 128 + 1 * k.val = k.val; rw [e0]; omega
  | ⟨1, _⟩ => show win0_3.index t (1 : Fin 2) * 128 + 1 * o.val = o.val; rw [e1]; omega

/-- The bias's block is the whole array. -/
theorem iblk4_apply (c : Dev nD) (t : Fin cfg0.N) (u : Fin 1) (o : Fin 128) :
    iblk V c 4 t (ix2 u o) = V c main_v25 (ix2 u o) := by
  obtain ⟨-, -, -, -, -, -, -, -, e0, e1, -⟩ := idx_facts t
  show V c main_v25 (((cfg0.win 4).blk t).view.emb (ix2 u o)) = V c main_v25 (ix2 u o)
  refine congrArg (V c main_v25) (funext fun a => Fin.ext ?_)
  match a with
  | ⟨0, _⟩ => show win0_4.index t (0 : Fin 2) * 1 + 1 * u.val = u.val; rw [e0]; omega
  | ⟨1, _⟩ => show win0_4.index t (1 : Fin 2) * 128 + 1 * o.val = o.val; rw [e1]; omega

/-! ## One block of `h` -/

/-- The layer of five loaded blocks that are block `t` of the two feature arrays, the whole weight halves and the bias, is
    block `t` of the layer over the whole edge array. -/
theorem block_h (x0 x1 : Vec Ideal S6000x128 .bf16) (x2 x3 : Vec Ideal S128x128 .bf16) (x4 : Vec Ideal S1x128 .f32)
    (a0 a1 : Vec Ideal S600000x128 .bf16) (wa wb : Vec Ideal S128x128 .bf16) (b : Vec Ideal S1x128 .f32) (t : Fin cfg0.N)
    (h0 : ∀ (r : Fin 6000) (k : Fin 128), x0 (ix2 r k) = a0 (ix2 (edge t r) k))
    (h1 : ∀ (r : Fin 6000) (k : Fin 128), x1 (ix2 r k) = a1 (ix2 (edge t r) k))
    (h2 : ∀ (k o : Fin 128), x2 (ix2 k o) = wa (ix2 k o))
    (h3 : ∀ (k o : Fin 128), x3 (ix2 k o) = wb (ix2 k o))
    (h4 : ∀ (u : Fin 1) (o : Fin 128), x4 (ix2 u o) = b (ix2 u o)) (r : Fin 6000) (o : Fin 128) :
    k0_pay7 x0 x1 x2 x3 x4 (ix2 r o) = hAt a0 a1 wa wb b (edge t r) o := by
  rw [pay7_apply]
  unfold hAt
  simp only [h0, h1, h2, h3, h4]

/-- What every grid point leaves in the staging buffer of `h`: the cast layer of the point's five blocks, whatever the case. -/
theorem after5_eq (c : Dev nD) (t : Fin cfg0.N) :
    (outsAt V c t.val t.isLt).1 = k0_pay2 (k0_pay7 (iblk V c 0 t) (iblk V c 1 t) (iblk V c 2 t) (iblk V c 3 t) (iblk V c 4 t)) := by
  by_cases h0 : t.val % 50 = 0
  · have h1 : ¬t.val % 50 = 49 := by omega
    rw [outsAt_A V c t h0 h1]
    unfold atA
    dsimp only
    exact out_A_5_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t)
  · by_cases h1 : t.val % 50 = 49
    · rw [outsAt_C V c t h0 h1]
      unfold atC
      dsimp only
      exact out_C_5_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2
    · rw [outsAt_B V c t h0 h1]
      unfold atB
      dsimp only
      exact out_B_5_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2

/-- The same with the block index left whole. -/
theorem block_h' (x0 x1 : Vec Ideal S6000x128 .bf16) (x2 x3 : Vec Ideal S128x128 .bf16) (x4 : Vec Ideal S1x128 .f32)
    (a0 a1 : Vec Ideal S600000x128 .bf16) (wa wb : Vec Ideal S128x128 .bf16) (b : Vec Ideal S1x128 .f32) (t : Fin cfg0.N)
    (h0 : ∀ (r : Fin 6000) (k : Fin 128), x0 (ix2 r k) = a0 (ix2 (edge t r) k))
    (h1 : ∀ (r : Fin 6000) (k : Fin 128), x1 (ix2 r k) = a1 (ix2 (edge t r) k))
    (h2 : ∀ (k o : Fin 128), x2 (ix2 k o) = wa (ix2 k o))
    (h3 : ∀ (k o : Fin 128), x3 (ix2 k o) = wb (ix2 k o))
    (h4 : ∀ (u : Fin 1) (o : Fin 128), x4 (ix2 u o) = b (ix2 u o)) (j : S6000x128.Idx) :
    k0_pay2 (k0_pay7 x0 x1 x2 x3 x4) j = hAt a0 a1 wa wb b (edge t (j 0)) (j 1) := by
  obtain ⟨r, o, rfl⟩ : ∃ (r : Fin 6000) (o : Fin 128), j = ix2 r o := ⟨j 0, j 1, eq_ix2 j⟩
  exact (pay2_apply _ _).trans (block_h x0 x1 x2 x3 x4 a0 a1 wa wb b t h0 h1 h2 h3 h4 r o)

/-! ## From blocks to the array of `h` -/

/-- WHAT POINT `t` WRITES BACK is block `t` of the layer over the whole edge array. -/
theorem flushed5_eq (c : Dev nD) (t : Fin cfg0.N) :
    (dat V c).flushed 5 t = ((cfg0.win 5).blk t).view.read (Elt Ideal) (hArr V c) := by
  show (cfg0.win 5).cut (grid0.coords t) ((dat V c).after 5 t) = _
  rw [after_5, after5_eq]
  obtain ⟨-, -, -, -, -, -, -, -, -, -, e0, e1⟩ := idx_facts t
  funext j
  show k0_pay2 (k0_pay7 (iblk V c 0 t) (iblk V c 1 t) (iblk V c 2 t) (iblk V c 3 t) (iblk V c 4 t)) j = hArr V c (((cfg0.win 5).blk t).view.emb j)
  have eemb : ((cfg0.win 5).blk t).view.emb j = ix2 (edge t (j 0)) (j 1) := by
    funext a; apply Fin.ext
    match a with
    | ⟨0, _⟩ => show win0_5.index t (0 : Fin 2) * 6000 + 1 * (j 0).val = 6000 * t.val + (j 0).val; rw [e0]; omega
    | ⟨1, _⟩ => show win0_5.index t (1 : Fin 2) * 128 + 1 * (j 1).val = (j 1).val; rw [e1]; omega
  rw [eemb]
  exact block_h' (iblk V c 0 t) (iblk V c 1 t) (iblk V c 2 t) (iblk V c 3 t) (iblk V c 4 t) (V c main_v9) (V c main_v18) (V c main_v21) (V c main_v24) (V c main_v25) t
    (iblk0_apply V c t) (iblk1_apply V c t) (iblk2_apply V c t) (iblk3_apply V c t) (iblk4_apply V c t) j

/-- An index of the array is in point `t`'s block iff each coordinate is in the block's range on its axis. -/
theorem mem_blk5 (t : Fin cfg0.N) (i : S600000x128.Idx) :
    i ∈ ((cfg0.win 5).blk t).view.set ↔ ∀ a : Fin 2, win0_5.index t a * S6000x128.size a ≤ (i a).val ∧ (i a).val < win0_5.index t a * S6000x128.size a + S6000x128.size a := by
  show i ∈ ((View.whole main_v31_0).slice (win0_5.rect t)).set ↔ _
  rw [View.set_slice_whole, Rect.mem_set_unit]
  exact Iff.rfl

/-- Every row of the edge array is in the block of the point its row number divided by 6000 names, and every point writes back. -/
theorem cover5 (i : S600000x128.Idx) :
    ∃ t : Fin cfg0.N, (cfg0.win 5).flush t = true ∧ i ∈ ((cfg0.win 5).blk t).view.set := by
  have hi0 : (i 0).val < 600000 := (i 0).isLt
  have hi1 : (i 1).val < 128 := (i 1).isLt
  have hN : cfg0.N = 100 := N_0
  have hq : (i 0).val / 6000 < cfg0.N := by rw [hN]; omega
  obtain ⟨-, -, -, -, -, -, -, -, -, -, e0, e1⟩ := idx_facts ⟨(i 0).val / 6000, hq⟩
  refine ⟨⟨(i 0).val / 6000, hq⟩, flush0_5 _, ?_⟩
  rw [mem_blk5]
  intro a
  match a with
  | ⟨0, _⟩ =>
    show win0_5.index ⟨(i 0).val / 6000, hq⟩ (0 : Fin 2) * 6000 ≤ (i 0).val ∧ (i 0).val < win0_5.index ⟨(i 0).val / 6000, hq⟩ (0 : Fin 2) * 6000 + 6000
    rw [e0]; show (i 0).val / 6000 * 6000 ≤ (i 0).val ∧ (i 0).val < (i 0).val / 6000 * 6000 + 6000; omega
  | ⟨1, _⟩ =>
    show win0_5.index ⟨(i 0).val / 6000, hq⟩ (1 : Fin 2) * 128 ≤ (i 1).val ∧ (i 1).val < win0_5.index ⟨(i 0).val / 6000, hq⟩ (1 : Fin 2) * 128 + 128
    rw [e1]; omega

/-- THE ARRAY OF `h` after the run: the layer over the whole edge array, of the five arrays as the region finds them. -/
theorem arrAt5 (c : Dev nD) : (dat V c).arrAt 5 cfg0.N = hArr V c :=
  (dat V c).arrAt_eq_of_cover 5 (hArr V c) (fun t _ => flushed5_eq V c t) cover5

/-- The same at an edge and a channel. -/
theorem arrAt5_apply (c : Dev nD) (e : Fin 600000) (o : Fin 128) :
    (dat V c).arrAt 5 cfg0.N (ix2 e o) = hE V c e o := by
  rw [arrAt5]; rfl

end Cert.KernelIdeal.Layer1V

end
-- ==== Proof.KSpec.lean ====
/-
  The kernel's value, element by element, over the extended reals.

  The same three-layer perceptron with training-mode batch normalisation as the reference computes, in the arrangement
  the kernel uses.  The 600000 edges are cut into 100 blocks of 6000 rows; block `50·c + i` belongs to half `c` (of two)
  and is that half's `i`-th block (of fifty), so row `r` of it is edge `6000·(50·c + i) + r`.  The first layer contracts
  the source node's 128 features against the first 128 columns of the weights and the target node's against the last
  128, and adds the two.  A column's statistics are accumulated: on each half a running sum starts at zero and takes in
  one block's column sum per step; the two halves' final values are added from zero; the same for the squares.  The mean
  is the total over the edge count, the variance the mean of the squares less the squared mean; the normalisation is
  applied as one multiplication by `scale = g · rsqrt(var + ε)` and one addition of `shift = be − mean · scale`, then
  clipped below at zero.  The last layer multiplies weight by feature (in that order) and adds the bias.

  Nothing here mentions a program: the arrays are functions of literal index types and the float literals stay as the
  bit patterns they are written with (`0x49127C00` the edge count 600000, `0x3727C5AC` the variance's offset,
  `0x00000000` zero).
-/
import proofs.«128831_j68624987455985_2_alg».proof.Proof.RefSpec
import Idealize.ShloMosaic.PureOps.Ideal
import Idealize.ShloMosaic.Lib.ValueIdx
import Mathlib

noncomputable section

open scoped BigOperators

namespace Cert.KSpec

open Idealize.ShloMosaic Idealize.ShloMosaic.ValueIdx
open Cert.RefSpec (node)

/-- Row `r` of the `i`-th block of half `c`: edge `6000·(50·c + i) + r`. -/
def edge (c : Fin 2) (i : Fin 50) (r : Fin 6000) : Fin 600000 :=
  ⟨6000 * (50 * c.val + i.val) + r.val, by have := c.isLt; have := i.isLt; have := r.isLt; omega⟩

/-- One block's column sum of a per-edge, per-channel quantity. -/
def blockSum (f : Fin 600000 → Fin 128 → EReal) (c : Fin 2) (o : Fin 128) (i : Fin 50) : EReal :=
  ∑ r : Fin 6000, f (edge c i r) o

/-- The running column sum on half `c` after inner step `i`: it starts at zero plus the first block's sum and takes in
    one more block's sum per step (steps from 50 on add nothing: there are fifty blocks). -/
def run (f : Fin 600000 → Fin 128 → EReal) (c : Fin 2) (o : Fin 128) : ℕ → EReal
  | 0 => Ideal.ofBits .f32 0x00000000#32 + blockSum f c o 0
  | i + 1 => run f c o i + (if h : i + 1 < 50 then blockSum f c o ⟨i + 1, h⟩ else 0)

/-- The running sum's first value. -/
theorem run_zero (f : Fin 600000 → Fin 128 → EReal) (c : Fin 2) (o : Fin 128) :
    run f c o 0 = Ideal.ofBits .f32 0x00000000#32 + ∑ r : Fin 6000, f (edge c 0 r) o := rfl

/-- The running sum's step. -/
theorem run_succ (f : Fin 600000 → Fin 128 → EReal) (c : Fin 2) (o : Fin 128) (i : ℕ) (h : i + 1 < 50) :
    run f c o (i + 1) = run f c o i + ∑ r : Fin 6000, f (edge c ⟨i + 1, h⟩ r) o := by
  rw [run, dif_pos h]; rfl

/-- The column total: zero plus the two halves' final running sums. -/
def total (f : Fin 600000 → Fin 128 → EReal) (o : Fin 128) : EReal :=
  Ideal.ofBits .f32 0x00000000#32 + ∑ c : Fin 2, run f c o 49

/-- The batch mean of a column: its total over the edge count. -/
def mean (f : Fin 600000 → Fin 128 → EReal) (o : Fin 128) : EReal :=
  Ideal.div (total f o) (Ideal.ofBits .f32 0x49127C00#32)

/-- The batch variance of a column: the mean of the squares less the squared mean. -/
def var (f : Fin 600000 → Fin 128 → EReal) (o : Fin 128) : EReal :=
  Ideal.div (total (fun e o => f e o * f e o) o) (Ideal.ofBits .f32 0x49127C00#32) - mean f o * mean f o

/-- The reciprocal standard deviation of a column. -/
def inv (f : Fin 600000 → Fin 128 → EReal) (o : Fin 128) : EReal :=
  Ideal.rsqrt (var f o + Ideal.ofBits .f32 0x3727C5AC#32)

/-- The factor the normalisation multiplies a column by. -/
def scale (f : Fin 600000 → Fin 128 → EReal) (g : FVec Ideal ⟨1, ![128]⟩ .f32) (o : Fin 128) : EReal :=
  g (ix1 o) * inv f o

/-- The term the normalisation adds to a column. -/
def shift (f : Fin 600000 → Fin 128 → EReal) (g be : FVec Ideal ⟨1, ![128]⟩ .f32) (o : Fin 128) : EReal :=
  be (ix1 o) - mean f o * scale f g o

/-- Scale, shift, clip below at zero. -/
def bnrelu (f : Fin 600000 → Fin 128 → EReal) (g be : FVec Ideal ⟨1, ![128]⟩ .f32) (e : Fin 600000) (o : Fin 128) : EReal :=
  max (f e o * scale f g o + shift f g be o) (Ideal.ofBits .f32 0x00000000#32)

variable (x : FVec Ideal ⟨2, ![50000, 128]⟩ .f32) (ei : IVec ⟨2, ![2, 600000]⟩ 32)
  (W1 : FVec Ideal ⟨2, ![128, 256]⟩ .f32) (b1 g1 be1 : FVec Ideal ⟨1, ![128]⟩ .f32)
  (W2 : FVec Ideal ⟨2, ![128, 128]⟩ .f32) (b2 g2 be2 : FVec Ideal ⟨1, ![128]⟩ .f32)
  (W3 : FVec Ideal ⟨2, ![1, 128]⟩ .f32) (b3 : FVec Ideal ⟨1, ![1]⟩ .f32)

/-- The first layer before normalisation: the source node's features against the weights' first 128 columns, plus the
    target node's against the last 128, plus the bias. -/
def h1 (e : Fin 600000) (o : Fin 128) : EReal :=
  ((∑ k : Fin 128, x (ix2 (node ei 0 e) k) * W1 (ix2 o (⟨k.val, by have := k.isLt; omega⟩ : Fin 256)))
      + (∑ k : Fin 128, x (ix2 (node ei 1 e) k) * W1 (ix2 o (⟨128 + k.val, by have := k.isLt; omega⟩ : Fin 256))))
    + b1 (ix1 o)
/-- The first layer's output. -/
def y1 : Fin 600000 → Fin 128 → EReal := bnrelu (h1 x ei W1 b1) g1 be1
/-- The second layer before normalisation. -/
def h2 (e : Fin 600000) (o : Fin 128) : EReal :=
  (∑ k : Fin 128, y1 x ei W1 b1 g1 be1 e k * W2 (ix2 o k)) + b2 (ix1 o)
/-- The second layer's output. -/
def y2 : Fin 600000 → Fin 128 → EReal := bnrelu (h2 x ei W1 b1 g1 be1 W2 b2) g2 be2
/-- The result at edge `e`: weight times feature, summed, plus the bias. -/
def out (e : Fin 600000) : EReal :=
  (∑ k : Fin 128, W3 (ix2 (0 : Fin 1) k) * y2 x ei W1 b1 g1 be1 W2 b2 g2 be2 e k) + b3 (ix1 (0 : Fin 1))

end Cert.KSpec

end
-- ==== Proof.KiL1Sums.lean ====
/-
  The first pallas_call's two sum outputs. On each half `c'` of the grid the two scratch rows carry, from one inner step
  to the next, the running column sums of the layer `h` and of `h·h`: they restart from the zero word at the first inner
  step and take in one block's column sums per step, so after inner step `i` they hold the spec's running sums
  `run … c' o i` (by induction on the inner step). The last inner step stores them, with a leading unit axis, into the
  block of the two sum outputs that the half names; only those points write back, and the two blocks tile each array.
-/
import proofs.«128831_j68624987455985_2_alg».proof.Proof.KiL1Value
import proofs.«128831_j68624987455985_2_alg».proof.Proof.KSpec

set_option maxRecDepth 16384

noncomputable section

namespace Cert.KernelIdeal.Layer1V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Layer1
open scoped BigOperators

variable (V : (c : Dev nD) → (b : Ref sig .tc) → Buf (Elt Ideal) ((c : Thread nD τ).loc b))

/-! ## One block's column sums -/

/-- Grid point `50·c' + i` is the `i`-th inner step of half `c'`: its rows are that step's edges. -/
theorem edge_eq (t : Fin cfg0.N) (c' : Fin 2) (i : Fin 50) (ht : t.val = 50 * c'.val + i.val) (r : Fin 6000) :
    edge t r = Cert.KSpec.edge c' i r :=
  Fin.ext (by show 6000 * t.val + r.val = 6000 * (50 * c'.val + i.val) + r.val; rw [ht])

/-- The column sum of the layer over the block of point `t`. -/
theorem colsum_block (c : Dev nD) (t : Fin cfg0.N) (c' : Fin 2) (i : Fin 50) (ht : t.val = 50 * c'.val + i.val) (o : Fin 128) :
    ∑ r : Fin 6000, k0_pay7 (iblk V c 0 t) (iblk V c 1 t) (iblk V c 2 t) (iblk V c 3 t) (iblk V c 4 t) (ix2 r o) = Cert.KSpec.blockSum (hE V c) c' o i := by
  unfold Cert.KSpec.blockSum
  refine Finset.sum_congr rfl fun r _ => ?_
  rw [← edge_eq t c' i ht r]
  exact block_h (iblk V c 0 t) (iblk V c 1 t) (iblk V c 2 t) (iblk V c 3 t) (iblk V c 4 t) (V c main_v9) (V c main_v18) (V c main_v21) (V c main_v24) (V c main_v25) t (iblk0_apply V c t) (iblk1_apply V c t) (iblk2_apply V c t) (iblk3_apply V c t) (iblk4_apply V c t) r o

/-- The column sum of the layer's squares over the block of point `t`. -/
theorem colsq_block (c : Dev nD) (t : Fin cfg0.N) (c' : Fin 2) (i : Fin 50) (ht : t.val = 50 * c'.val + i.val) (o : Fin 128) :
    ∑ r : Fin 6000, k0_pay7 (iblk V c 0 t) (iblk V c 1 t) (iblk V c 2 t) (iblk V c 3 t) (iblk V c 4 t) (ix2 r o) * k0_pay7 (iblk V c 0 t) (iblk V c 1 t) (iblk V c 2 t) (iblk V c 3 t) (iblk V c 4 t) (ix2 r o)
      = Cert.KSpec.blockSum (fun e o => hE V c e o * hE V c e o) c' o i := by
  unfold Cert.KSpec.blockSum
  refine Finset.sum_congr rfl fun r _ => ?_
  rw [← edge_eq t c' i ht r]
  exact congrArg₂ (· * ·) (block_h (iblk V c 0 t) (iblk V c 1 t) (iblk V c 2 t) (iblk V c 3 t) (iblk V c 4 t) (V c main_v9) (V c main_v18) (V c main_v21) (V c main_v24) (V c main_v25) t (iblk0_apply V c t) (iblk1_apply V c t) (iblk2_apply V c t) (iblk3_apply V c t) (iblk4_apply V c t) r o) (block_h (iblk V c 0 t) (iblk V c 1 t) (iblk V c 2 t) (iblk V c 3 t) (iblk V c 4 t) (V c main_v9) (V c main_v18) (V c main_v21) (V c main_v24) (V c main_v25) t (iblk0_apply V c t) (iblk1_apply V c t) (iblk2_apply V c t) (iblk3_apply V c t) (iblk4_apply V c t) r o)

/-- One step of the first running sum: what the point before left plus this block's column sum. -/
theorem sum0_step (c : Dev nD) (t : Fin cfg0.N) (c' : Fin 2) (i : Fin 50) (ht : t.val = 50 * c'.val + i.val)
    (p : Vec Ideal S1x128 .f32) (u : Fin 1) (o : Fin 128) :
    k0_pay8 (iblk V c 0 t) (iblk V c 1 t) (iblk V c 2 t) (iblk V c 3 t) (iblk V c 4 t) p (ix2 u o) = p (ix2 u o) + Cert.KSpec.blockSum (hE V c) c' o i :=
  (pay8_apply (iblk V c 0 t) (iblk V c 1 t) (iblk V c 2 t) (iblk V c 3 t) (iblk V c 4 t) p u o).trans (congrArg (p (ix2 u o) + ·) (colsum_block V c t c' i ht o))

/-- One step of the second running sum. -/
theorem sum1_step (c : Dev nD) (t : Fin cfg0.N) (c' : Fin 2) (i : Fin 50) (ht : t.val = 50 * c'.val + i.val)
    (p : Vec Ideal S1x128 .f32) (u : Fin 1) (o : Fin 128) :
    k0_pay1 (k0_pay9 (iblk V c 0 t) (iblk V c 1 t) (iblk V c 2 t) (iblk V c 3 t) (iblk V c 4 t) p) (ix2 u o) = p (ix2 u o) + Cert.KSpec.blockSum (fun e o => hE V c e o * hE V c e o) c' o i :=
  (pay1_apply _ _).trans ((pay9_apply (iblk V c 0 t) (iblk V c 1 t) (iblk V c 2 t) (iblk V c 3 t) (iblk V c 4 t) p u o).trans (congrArg (p (ix2 u o) + ·) (colsq_block V c t c' i ht o)))

/-! ## What each point leaves in the two running sums and, at a last inner step, in the two sum outputs -/

/-- At a first inner step the sums restart from the zero row. -/
theorem sums_first (c : Dev nD) (t : Fin cfg0.N) (h0 : t.val % 50 = 0) :
    (outsAt V c t.val t.isLt).2.2.2.1 = k0_pay8 (iblk V c 0 t) (iblk V c 1 t) (iblk V c 2 t) (iblk V c 3 t) (iblk V c 4 t) (k0_pay5 (F := Ideal))
    ∧ (outsAt V c t.val t.isLt).2.2.2.2 = k0_pay1 (k0_pay9 (iblk V c 0 t) (iblk V c 1 t) (iblk V c 2 t) (iblk V c 3 t) (iblk V c 4 t) (k0_pay6 (F := Ideal))) := by
  have h1 : ¬t.val % 50 = 49 := by omega
  rw [outsAt_A V c t h0 h1]
  unfold atA
  dsimp only
  exact ⟨sout_A_0_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t)⟩

/-- At a later inner step they take in this block on top of what the point before left. -/
theorem sums_later (c : Dev nD) (t : Fin cfg0.N) (h0 : ¬t.val % 50 = 0) :
    (outsAt V c t.val t.isLt).2.2.2.1 = k0_pay8 (iblk V c 0 t) (iblk V c 1 t) (iblk V c 2 t) (iblk V c 3 t) (iblk V c 4 t) (outsAt V c (t.val - 1) (Nat.lt_of_le_of_lt (Nat.sub_le _ _) t.isLt)).2.2.2.1
    ∧ (outsAt V c t.val t.isLt).2.2.2.2 = k0_pay1 (k0_pay9 (iblk V c 0 t) (iblk V c 1 t) (iblk V c 2 t) (iblk V c 3 t) (iblk V c 4 t) (outsAt V c (t.val - 1) (Nat.lt_of_le_of_lt (Nat.sub_le _ _) t.isLt)).2.2.2.2) := by
  by_cases h1 : t.val % 50 = 49
  · rw [outsAt_C V c t h0 h1]
    unfold atC
    dsimp only
    exact ⟨sout_C_0_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_1_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩
  · rw [outsAt_B V c t h0 h1]
    unfold atB
    dsimp only
    exact ⟨sout_B_0_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sout_B_1_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩

/-- At a last inner step the two sum outputs are the two running sums just stored, with a leading unit axis. -/
theorem outs_last (c : Dev nD) (t : Fin cfg0.N) (h1 : t.val % 50 = 49) :
    (outsAt V c t.val t.isLt).2.1 = k0_pay3 (k0_pay8 (iblk V c 0 t) (iblk V c 1 t) (iblk V c 2 t) (iblk V c 3 t) (iblk V c 4 t) (outsAt V c (t.val - 1) (Nat.lt_of_le_of_lt (Nat.sub_le _ _) t.isLt)).2.2.2.1)
    ∧ (outsAt V c t.val t.isLt).2.2.1 = k0_pay4 (k0_pay1 (k0_pay9 (iblk V c 0 t) (iblk V c 1 t) (iblk V c 2 t) (iblk V c 3 t) (iblk V c 4 t) (outsAt V c (t.val - 1) (Nat.lt_of_le_of_lt (Nat.sub_le _ _) t.isLt)).2.2.2.2)) := by
  have h0 : ¬t.val % 50 = 0 := by omega
  rw [outsAt_C V c t h0 h1]
  unfold atC
  dsimp only
  exact ⟨out_C_6_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_7_eq (F := Ideal) c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩

/-! ## The running sums along the inner steps of one half -/

/-- The accumulation along an equation of positions. -/
theorem outsAt_congr (c : Dev nD) {n n' : ℕ} (e : n = n') (h : n < cfg0.N) (h' : n' < cfg0.N) :
    outsAt V c n h = outsAt V c n' h' := by
  subst e; rfl

/-- Inner step `i` of half `c'` is a grid point. -/
theorem pt_lt (c' : Fin 2) (i : ℕ) (hi : i < 50) : 50 * c'.val + i < cfg0.N := by
  have hN : cfg0.N = 100 := N_0
  have := c'.isLt
  omega

/-- THE INVARIANT: after inner step `i` of half `c'` the two running sums hold, at every channel, the spec's running
    sums of the layer and of its square — by induction on the inner step. -/
theorem sums_inv (c : Dev nD) (u : Fin 1) (o : Fin 128) (c' : Fin 2) : ∀ (i : ℕ) (hi : i < 50),
    (outsAt V c (50 * c'.val + i) (pt_lt c' i hi)).2.2.2.1 (ix2 u o) = Cert.KSpec.run (hE V c) c' o i
    ∧ (outsAt V c (50 * c'.val + i) (pt_lt c' i hi)).2.2.2.2 (ix2 u o) = Cert.KSpec.run (fun e o => hE V c e o * hE V c e o) c' o i
  | 0, hi => by
    have h0 : (⟨50 * c'.val + 0, pt_lt c' 0 hi⟩ : Fin cfg0.N).val % 50 = 0 := by
      show (50 * c'.val + 0) % 50 = 0; omega
    obtain ⟨e0, e1⟩ := sums_first V c ⟨50 * c'.val + 0, pt_lt c' 0 hi⟩ h0
    constructor
    · refine (congrFun e0 (ix2 u o)).trans ?_
      refine (sum0_step V c ⟨50 * c'.val + 0, pt_lt c' 0 hi⟩ c' ⟨0, hi⟩ rfl (k0_pay5 (F := Ideal)) u o).trans ?_
      rw [pay5_apply]; rfl
    · refine (congrFun e1 (ix2 u o)).trans ?_
      refine (sum1_step V c ⟨50 * c'.val + 0, pt_lt c' 0 hi⟩ c' ⟨0, hi⟩ rfl (k0_pay6 (F := Ideal)) u o).trans ?_
      rw [pay6_apply]; rfl
  | i + 1, hi => by
    have hi' : i < 50 := by omega
    obtain ⟨ih0, ih1⟩ := sums_inv c u o c' i hi'
    have h0 : ¬(⟨50 * c'.val + (i + 1), pt_lt c' (i + 1) hi⟩ : Fin cfg0.N).val % 50 = 0 := by
      show ¬(50 * c'.val + (i + 1)) % 50 = 0; omega
    obtain ⟨e0, e1⟩ := sums_later V c ⟨50 * c'.val + (i + 1), pt_lt c' (i + 1) hi⟩ h0
    have ep := outsAt_congr V c (show (⟨50 * c'.val + (i + 1), pt_lt c' (i + 1) hi⟩ : Fin cfg0.N).val - 1 = 50 * c'.val + i from by
        show 50 * c'.val + (i + 1) - 1 = 50 * c'.val + i; omega)
      (Nat.lt_of_le_of_lt (Nat.sub_le _ _) (⟨50 * c'.val + (i + 1), pt_lt c' (i + 1) hi⟩ : Fin cfg0.N).isLt) (pt_lt c' i hi')
    rw [ep] at e0 e1
    constructor
    · refine (congrFun e0 (ix2 u o)).trans ?_
      refine (sum0_step V c ⟨50 * c'.val + (i + 1), pt_lt c' (i + 1) hi⟩ c' ⟨i + 1, hi⟩ rfl _ u o).trans ?_
      rw [Cert.KSpec.run_succ _ c' o i hi]
      exact congrArg₂ (· + ·) ih0 rfl
    · refine (congrFun e1 (ix2 u o)).trans ?_
      refine (sum1_step V c ⟨50 * c'.val + (i + 1), pt_lt c' (i + 1) hi⟩ c' ⟨i + 1, hi⟩ rfl _ u o).trans ?_
      rw [Cert.KSpec.run_succ _ c' o i hi]
      exact congrArg₂ (· + ·) ih1 rfl

/-! ## From the last inner steps to the two sum arrays -/

/-- The half a grid point belongs to. -/
def halfOf (t : Fin cfg0.N) : Fin 2 :=
  ⟨t.val / 50, by have := t.isLt; have hN : cfg0.N = 100 := N_0; omega⟩

/-- The printed index maps of the two sum outputs, decided once over the grid: the block is the half. -/
theorem idx_facts67 : ∀ t : Fin cfg0.N,
    win0_6.index t (0 : Fin 3) = t.val / 50 ∧ win0_6.index t (1 : Fin 3) = 0 ∧ win0_6.index t (2 : Fin 3) = 0
    ∧ win0_7.index t (0 : Fin 3) = t.val / 50 ∧ win0_7.index t (1 : Fin 3) = 0 ∧ win0_7.index t (2 : Fin 3) = 0 :=
  (by decide +kernel : ∀ t : Fin grid0.N, _)

/-- What a last inner step leaves in the two sum outputs: the spec's running sums after the fifty steps of its half. -/
theorem outs_read (c : Dev nD) (t : Fin cfg0.N) (h49 : t.val % 50 = 49) (j : S1x1x128.Idx) :
    (outsAt V c t.val t.isLt).2.1 j = Cert.KSpec.run (hE V c) (halfOf t) (j 2) 49
    ∧ (outsAt V c t.val t.isLt).2.2.1 j = Cert.KSpec.run (fun e o => hE V c e o * hE V c e o) (halfOf t) (j 2) 49 := by
  obtain ⟨u0, u1, o, rfl⟩ : ∃ (u0 u1 : Fin 1) (o : Fin 128), j = ix3 u0 u1 o := ⟨j 0, j 1, j 2, eq_ix3 j⟩
  have h0 : ¬t.val % 50 = 0 := by omega
  obtain ⟨e6, e7⟩ := outs_last V c t h49
  obtain ⟨s0, s1⟩ := sums_later V c t h0
  have ht : t.val = 50 * (halfOf t).val + 49 := by show t.val = 50 * (t.val / 50) + 49; omega
  obtain ⟨i0, i1⟩ := sums_inv V c u1 o (halfOf t) 49 (by decide)
  have ec := outsAt_congr V c ht t.isLt (pt_lt (halfOf t) 49 (by decide))
  constructor
  · refine (congrFun e6 (ix3 u0 u1 o)).trans ((pay3_apply _ u0 u1 o).trans ?_)
    exact (congrFun s0.symm (ix2 u1 o)).trans ((congrArg (fun z => z.2.2.2.1 (ix2 u1 o)) ec).trans i0)
  · refine (congrFun e7 (ix3 u0 u1 o)).trans ((pay4_apply _ u0 u1 o).trans ?_)
    exact (congrFun s1.symm (ix2 u1 o)).trans ((congrArg (fun z => z.2.2.2.2 (ix2 u1 o)) ec).trans i1)

/-- The first sum output over its whole array: at half `c'` and channel `o` the running sum of the layer after fifty steps. -/
def sumArr (c : Dev nD) : Vec Ideal S2x1x128 .f32 := fun i => Cert.KSpec.run (hE V c) (i 0) (i 2) 49
/-- The second sum output: the same for the layer's square. -/
def sqArr (c : Dev nD) : Vec Ideal S2x1x128 .f32 := fun i => Cert.KSpec.run (fun e o => hE V c e o * hE V c e o) (i 0) (i 2) 49

/-- WHAT A LAST INNER STEP WRITES BACK to the first sum output is its half's block of `sumArr`. -/
theorem flushed6_eq (c : Dev nD) (t : Fin cfg0.N) (hf : (cfg0.win 6).flush t = true) :
    (dat V c).flushed 6 t = ((cfg0.win 6).blk t).view.read (Elt Ideal) (sumArr V c) := by
  have h49 : t.val % 50 = 49 := (flush0_6 t).mp hf
  obtain ⟨f0, f1, f2, -⟩ := idx_facts67 t
  show (cfg0.win 6).cut (grid0.coords t) ((dat V c).after 6 t) = _
  rw [after_6]
  funext j
  show (outsAt V c t.val t.isLt).2.1 j = sumArr V c (((cfg0.win 6).blk t).view.emb j)
  have eemb : ((cfg0.win 6).blk t).view.emb j = ix3 (halfOf t) (j 1) (j 2) := by
    funext a; apply Fin.ext
    match a with
    | ⟨0, _⟩ => show win0_6.index t (0 : Fin 3) * 1 + 1 * (j 0).val = t.val / 50; rw [f0]; have hj : (j 0).val < 1 := (j 0).isLt; omega
    | ⟨1, _⟩ => show win0_6.index t (1 : Fin 3) * 1 + 1 * (j 1).val = (j 1).val; rw [f1]; omega
    | ⟨2, _⟩ => show win0_6.index t (2 : Fin 3) * 128 + 1 * (j 2).val = (j 2).val; rw [f2]; omega
  rw [eemb]
  exact (outs_read V c t h49 j).1

/-- The same for the second sum output. -/
theorem flushed7_eq (c : Dev nD) (t : Fin cfg0.N) (hf : (cfg0.win 7).flush t = true) :
    (dat V c).flushed 7 t = ((cfg0.win 7).blk t).view.read (Elt Ideal) (sqArr V c) := by
  have h49 : t.val % 50 = 49 := (flush0_7 t).mp hf
  obtain ⟨-, -, -, f0, f1, f2⟩ := idx_facts67 t
  show (cfg0.win 7).cut (grid0.coords t) ((dat V c).after 7 t) = _
  rw [after_7]
  funext j
  show (outsAt V c t.val t.isLt).2.2.1 j = sqArr V c (((cfg0.win 7).blk t).view.emb j)
  have eemb : ((cfg0.win 7).blk t).view.emb j = ix3 (halfOf t) (j 1) (j 2) := by
    funext a; apply Fin.ext
    match a with
    | ⟨0, _⟩ => show win0_7.index t (0 : Fin 3) * 1 + 1 * (j 0).val = t.val / 50; rw [f0]; have hj : (j 0).val < 1 := (j 0).isLt; omega
    | ⟨1, _⟩ => show win0_7.index t (1 : Fin 3) * 1 + 1 * (j 1).val = (j 1).val; rw [f1]; omega
    | ⟨2, _⟩ => show win0_7.index t (2 : Fin 3) * 128 + 1 * (j 2).val = (j 2).val; rw [f2]; omega
  rw [eemb]
  exact (outs_read V c t h49 j).2

/-- An index of a sum array is in point `t`'s block iff each coordinate is in the block's range on its axis. -/
theorem mem_blk6 (t : Fin cfg0.N) (i : S2x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v31_1).slice (win0_6.rect t)).set ↔ _
  rw [View.set_slice_whole, Rect.mem_set_unit]
  exact Iff.rfl

/-- The same for the second sum output. -/
theorem mem_blk7 (t : Fin cfg0.N) (i : S2x1x128.Idx) :
    i ∈ ((cfg0.win 7).blk t).view.set ↔ ∀ a : Fin 3, win0_7.index t a * S1x1x128.size a ≤ (i a).val ∧ (i a).val < win0_7.index t a * S1x1x128.size a + S1x1x128.size a := by
  show i ∈ ((View.whole main_v31_2).slice (win0_7.rect t)).set ↔ _
  rw [View.set_slice_whole, Rect.mem_set_unit]
  exact Iff.rfl

/-- Each half's row of a sum array is in the block of that half's last inner step, which writes back. -/
theorem cover6 (i : S2x1x128.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 128 := (i 2).isLt
  have hN : cfg0.N = 100 := N_0
  have hq : 50 * (i 0).val + 49 < cfg0.N := by rw [hN]; omega
  obtain ⟨f0, f1, f2, -⟩ := idx_facts67 ⟨50 * (i 0).val + 49, hq⟩
  refine ⟨⟨50 * (i 0).val + 49, hq⟩, (flush0_6 _).mpr (by show (50 * (i 0).val + 49) % 50 = 49; omega), ?_⟩
  rw [mem_blk6]
  intro a
  match a with
  | ⟨0, _⟩ =>
    show win0_6.index ⟨50 * (i 0).val + 49, hq⟩ (0 : Fin 3) * 1 ≤ (i 0).val ∧ (i 0).val < win0_6.index ⟨50 * (i 0).val + 49, hq⟩ (0 : Fin 3) * 1 + 1
    rw [f0]; show (50 * (i 0).val + 49) / 50 * 1 ≤ (i 0).val ∧ (i 0).val < (50 * (i 0).val + 49) / 50 * 1 + 1; omega
  | ⟨1, _⟩ =>
    show win0_6.index ⟨50 * (i 0).val + 49, hq⟩ (1 : Fin 3) * 1 ≤ (i 1).val ∧ (i 1).val < win0_6.index ⟨50 * (i 0).val + 49, hq⟩ (1 : Fin 3) * 1 + 1
    rw [f1]; omega
  | ⟨2, _⟩ =>
    show win0_6.index ⟨50 * (i 0).val + 49, hq⟩ (2 : Fin 3) * 128 ≤ (i 2).val ∧ (i 2).val < win0_6.index ⟨50 * (i 0).val + 49, hq⟩ (2 : Fin 3) * 128 + 128
    rw [f2]; omega

/-- The same for the second sum output. -/
theorem cover7 (i : S2x1x128.Idx) :
    ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 128 := (i 2).isLt
  have hN : cfg0.N = 100 := N_0
  have hq : 50 * (i 0).val + 49 < cfg0.N := by rw [hN]; omega
  obtain ⟨-, -, -, f0, f1, f2⟩ := idx_facts67 ⟨50 * (i 0).val + 49, hq⟩
  refine ⟨⟨50 * (i 0).val + 49, hq⟩, (flush0_7 _).mpr (by show (50 * (i 0).val + 49) % 50 = 49; omega), ?_⟩
  rw [mem_blk7]
  intro a
  match a with
  | ⟨0, _⟩ =>
    show win0_7.index ⟨50 * (i 0).val + 49, hq⟩ (0 : Fin 3) * 1 ≤ (i 0).val ∧ (i 0).val < win0_7.index ⟨50 * (i 0).val + 49, hq⟩ (0 : Fin 3) * 1 + 1
    rw [f0]; show (50 * (i 0).val + 49) / 50 * 1 ≤ (i 0).val ∧ (i 0).val < (50 * (i 0).val + 49) / 50 * 1 + 1; omega
  | ⟨1, _⟩ =>
    show win0_7.index ⟨50 * (i 0).val + 49, hq⟩ (1 : Fin 3) * 1 ≤ (i 1).val ∧ (i 1).val < win0_7.index ⟨50 * (i 0).val + 49, hq⟩ (1 : Fin 3) * 1 + 1
    rw [f1]; omega
  | ⟨2, _⟩ =>
    show win0_7.index ⟨50 * (i 0).val + 49, hq⟩ (2 : Fin 3) * 128 ≤ (i 2).val ∧ (i 2).val < win0_7.index ⟨50 * (i 0).val + 49, hq⟩ (2 : Fin 3) * 128 + 128
    rw [f2]; omega

/-- THE FIRST SUM ARRAY after the run. -/
theorem arrAt6 (c : Dev nD) : (dat V c).arrAt 6 cfg0.N = sumArr V c :=
  (dat V c).arrAt_eq_of_cover 6 (sumArr V c) (flushed6_eq V c) cover6

/-- THE SECOND SUM ARRAY after the run. -/
theorem arrAt7 (c : Dev nD) : (dat V c).arrAt 7 cfg0.N = sqArr V c :=
  (dat V c).arrAt_eq_of_cover 7 (sqArr V c) (flushed7_eq V c) cover7

/-- At half `c'` and channel `o`: the running sum of the layer after the fifty inner steps of that half. -/
theorem arrAt6_apply (c : Dev nD) (c' : Fin 2) (o : Fin 128) :
    (dat V c).arrAt 6 cfg0.N (ix3 c' (0 : Fin 1) o) = Cert.KSpec.run (hE V c) c' o 49 := by
  rw [arrAt6]; rfl

/-- The same for the layer's square. -/
theorem arrAt7_apply (c : Dev nD) (c' : Fin 2) (o : Fin 128) :
    (dat V c).arrAt 7 cfg0.N (ix3 c' (0 : Fin 1) o) = Cert.KSpec.run (fun e o => hE V c e o * hE V c e o) c' o 49 := by
  rw [arrAt7]; rfl

end Cert.KernelIdeal.Layer1V

end
-- ==== Proof.KiL2Pieces.lean ====
/-
  The second pallas_call (normalise, second linear layer, running column sums): what each control case leaves in the output block of
  `h`, in the two running column sums and, at the last inner step, in the two sum outputs — each as one pure term of the
  five loaded blocks and of the sums the step before left. Every store of the body covers its whole buffer, so each
  buffer reads back as the payload of its last store; a load that follows a store of the same buffer reads that store's
  payload.
-/
import proofs.«128831_j68624987455985_2_alg».proof.Proof.KiL2Acc
import Idealize.ShloMosaic.Lib.Pipeline.Value
import Idealize.ShloMosaic.Lib.Tactic

set_option maxRecDepth 16384

noncomputable section

namespace Cert.KernelIdeal.Layer2V

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Layer2

variable {F : FTy → Type} [FloatOps F]

/-- The zero offsets of a rank-2 whole-buffer rectangle. -/
theorem hz2 : (![0, 0] : Fin 2 → Nat) = fun _ => 0 := funext fun a => by fin_cases a <;> rfl
/-- The zero offsets of a rank-3 whole-buffer rectangle. -/
theorem hz3 : (![0, 0, 0] : Fin 3 → Nat) = fun _ => 0 := funext fun a => by fin_cases a <;> rfl

/-- The block of `h` a first inner step leaves: the layer `max(x0·scale + shift, 0)·W2 + b2` of the five loaded blocks, cast to bf16. -/
theorem out_A_5_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) :
    out_A_5 c i arg2 harg2 arg3 harg3 arg4 harg4 arg5 harg5 arg6 harg6 arg7 harg7 arg8 harg8 arg9 harg9 arg10 harg10 arg11 harg11 hc0 hc1 x0 x1 x2 x3 x4 = k1_pay2 (k1_pay7 x0 x1 x2 x3 x4) := by
  unfold out_A_5
  rw [View.read_writes_eq_canon _ _ _ (cover_A_5 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The block of `h` a middle inner step leaves: the same layer of the five loaded blocks, cast to bf16. -/
theorem out_B_5_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    out_B_5 c i arg2 harg2 arg3 harg3 arg4 harg4 arg5 harg5 arg6 harg6 arg7 harg7 arg8 harg8 arg9 harg9 arg10 harg10 arg11 harg11 hc0 hc1 x0 x1 x2 x3 x4 xs0 xs1 = k1_pay2 (k1_pay7 x0 x1 x2 x3 x4) := by
  unfold out_B_5
  rw [View.read_writes_eq_canon _ _ _ (cover_B_5 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The block of `h` a last inner step leaves: the same layer of the five loaded blocks, cast to bf16. -/
theorem out_C_5_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    out_C_5 c i arg2 harg2 arg3 harg3 arg4 harg4 arg5 harg5 arg6 harg6 arg7 harg7 arg8 harg8 arg9 harg9 arg10 harg10 arg11 harg11 hc0 hc1 x0 x1 x2 x3 x4 xs0 xs1 = k1_pay2 (k1_pay7 x0 x1 x2 x3 x4) := by
  unfold out_C_5
  rw [View.read_writes_eq_canon _ _ _ (cover_C_5 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S6000x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a first inner step: the zero row stored first is what the later load reads back, so it is the zero row plus the column sums of this block's `h`. -/
theorem sout_A_0_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) :
    sout_A_0 c i arg2 harg2 arg3 harg3 arg4 harg4 arg5 harg5 arg6 harg6 arg7 harg7 arg8 harg8 arg9 harg9 arg10 harg10 arg11 harg11 hc0 hc1 x0 x1 x2 x3 x4 = k1_pay8 x0 x1 x2 x3 x4 k1_pay5 := by
  unfold sout_A_0
  rw [View.read_writes_eq_canon _ _ _ (scover_A_0 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a first inner step: the zero row plus the column sums of this block's `h·h`. -/
theorem sout_A_1_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : cond_0 i) (hc1 : ¬cond_1 i)
    (x0 : Vec F S6000x128 .bf16) (x1 : Vec F S1x128 .f32) (x2 : Vec F S1x128 .f32) (x3 : Vec F S128x128 .bf16) (x4 : Vec F S1x128 .f32) :
    sout_A_1 c i arg2 harg2 arg3 harg3 arg4 harg4 arg5 harg5 arg6 harg6 arg7 harg7 arg8 harg8 arg9 harg9 arg10 harg10 arg11 harg11 hc0 hc1 x0 x1 x2 x3 x4 = k1_pay1 k1_pay6 (k1_pay9 x0 x1 x2 x3 x4) := by
  unfold sout_A_1
  rw [View.read_writes_eq_canon _ _ _ (scover_A_1 c i arg2 harg2 arg3 harg3 arg4 harg4 arg5 harg5 arg6 harg6 arg7 harg7 arg8 harg8 arg9 harg9 arg10 harg10 arg11 harg11 hc0 hc1 x0 x1 x2 x3 x4)]
  unfold kernelRun_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a middle inner step: what the step before left plus the column sums of this block's `h`. -/
theorem sout_B_0_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    sout_B_0 c i arg2 harg2 arg3 harg3 arg4 harg4 arg5 harg5 arg6 harg6 arg7 harg7 arg8 harg8 arg9 harg9 arg10 harg10 arg11 harg11 hc0 hc1 x0 x1 x2 x3 x4 xs0 xs1 = k1_pay8 x0 x1 x2 x3 x4 xs0 := by
  unfold sout_B_0
  rw [View.read_writes_eq_canon _ _ _ (scover_B_0 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a middle inner step: what the step before left plus the column sums of this block's `h·h`. -/
theorem sout_B_1_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : ¬cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    sout_B_1 c i arg2 harg2 arg3 harg3 arg4 harg4 arg5 harg5 arg6 harg6 arg7 harg7 arg8 harg8 arg9 harg9 arg10 harg10 arg11 harg11 hc0 hc1 x0 x1 x2 x3 x4 xs0 xs1 = k1_pay1 xs1 (k1_pay9 x0 x1 x2 x3 x4) := by
  unfold sout_B_1
  rw [View.read_writes_eq_canon _ _ _ (scover_B_1 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_B
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h` after a last inner step: what the step before left plus the column sums of this block's `h`. -/
theorem sout_C_0_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    sout_C_0 c i arg2 harg2 arg3 harg3 arg4 harg4 arg5 harg5 arg6 harg6 arg7 harg7 arg8 harg8 arg9 harg9 arg10 harg10 arg11 harg11 hc0 hc1 x0 x1 x2 x3 x4 xs0 xs1 = k1_pay8 x0 x1 x2 x3 x4 xs0 := by
  unfold sout_C_0
  rw [View.read_writes_eq_canon _ _ _ (scover_C_0 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The running column sum of `h·h` after a last inner step: what the step before left plus the column sums of this block's `h·h`. -/
theorem sout_C_1_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    sout_C_1 c i arg2 harg2 arg3 harg3 arg4 harg4 arg5 harg5 arg6 harg6 arg7 harg7 arg8 harg8 arg9 harg9 arg10 harg10 arg11 harg11 hc0 hc1 x0 x1 x2 x3 x4 xs0 xs1 = k1_pay1 xs1 (k1_pay9 x0 x1 x2 x3 x4) := by
  unfold sout_C_1
  rw [View.read_writes_eq_canon _ _ _ (scover_C_1 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x128) hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The first sum output at a last inner step: the running column sum of `h` just stored, read back and given a leading unit axis. -/
theorem out_C_6_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    out_C_6 c i arg2 harg2 arg3 harg3 arg4 harg4 arg5 harg5 arg6 harg6 arg7 harg7 arg8 harg8 arg9 harg9 arg10 harg10 arg11 harg11 hc0 hc1 x0 x1 x2 x3 x4 xs0 xs1 = k1_pay3 (k1_pay8 x0 x1 x2 x3 x4 xs0) := by
  unfold out_C_6
  rw [View.read_writes_eq_canon _ _ _ (cover_C_6 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

/-- The second sum output at a last inner step: the running column sum of `h·h` just stored, read back and given a leading unit axis. -/
theorem out_C_7_eq (c : Dev nD) (i : grid1.Coords) (arg2 : Memref sig .tc .vmem S6000x128 .bf16) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .bf16) (harg5 : arg5.IsWhole) (arg6 : Memref sig .tc .vmem S1x128 .f32) (harg6 : arg6.IsWhole) (arg7 : Memref sig .tc .vmem S6000x128 .bf16) (harg7 : arg7.IsWhole) (arg8 : Memref sig .tc .vmem S1x1x128 .f32) (harg8 : arg8.IsWhole) (arg9 : Memref sig .tc .vmem S1x1x128 .f32) (harg9 : arg9.IsWhole) (arg10 : Memref sig .tc .vmem S1x128 .f32) (harg10 : arg10.IsWhole) (arg11 : Memref sig .tc .vmem S1x128 .f32) (harg11 : arg11.IsWhole) (hc0 : ¬cond_0 i) (hc1 : cond_1 i)
    (x0 : Vec F S6000x128 .bf16) (x1 : Vec F S1x128 .f32) (x2 : Vec F S1x128 .f32) (x3 : Vec F S128x128 .bf16) (x4 : Vec F S1x128 .f32) (xs0 : Vec F S1x128 .f32) (xs1 : Vec F S1x128 .f32) :
    out_C_7 c i arg2 harg2 arg3 harg3 arg4 harg4 arg5 harg5 arg6 harg6 arg7 harg7 arg8 harg8 arg9 harg9 arg10 harg10 arg11 harg11 hc0 hc1 x0 x1 x2 x3 x4 xs0 xs1 = k1_pay4 (k1_pay1 xs1 (k1_pay9 x0 x1 x2 x3 x4)) := by
  unfold out_C_7
  rw [View.read_writes_eq_canon _ _ _ (cover_C_7 c i arg2 harg2 arg3 harg3 arg4 harg4 arg5 harg5 arg6 harg6 arg7 harg7 arg8 harg8 arg9 harg9 arg10 harg10 arg11 harg11 hc0 hc1 x0 x1 x2 x3 x4 xs0 xs1)]
  unfold kernelRun_C
  dsimp only
  sl_unfold_words
  rw [View.canon_unit_zero (S := S1x1x128) hz3, View.readCov_unit_zero (S := S1x128) _ hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S6000x128) hz2, View.ld_unit_zero (S := S128x128) hz2, View.ld_unit_zero (S := S1x128) hz2, View.ld_unit_zero (S := S1x1x128) hz3]

end Cert.KernelIdeal.Layer2V

end
-- ==== Proof.KiL2Pay.lean ====
/-
  The arithmetic of the second pallas_call's body read at an index, on the extended reals.  A block of 6000 rows of
  stored first-layer values is scaled and shifted column by column, clipped below at zero, and contracted against the
  second layer's weight; the bias is added.  At entry `(r, o)` this is
  `(Σₖ max (x[r,k]·scale[0,k] + shift[0,k]) 0 · W[k,o]) + b[0,o]`: a change of float format is the identity, a product
  into the zero accumulator is the plain sum over the contracted axis, the one-row arrays are read at their column, and
  the casts of a shape to itself move nothing.  The column sums that update the two running sums are plain sums over the
  block's 6000 rows (of the values, and of their squares), and the remaining casts only rename indices.
-/
import proofs.«128831_j68624987455985_2_alg».proof.Proof.Gen.KernelIdeal.Skeleton
import proofs.«128831_j68624987455985_2_alg».proof.Proof.KiL1Pay
import Idealize.ShloMosaic.PureOps.Ideal.Laws
import Idealize.ShloMosaic.Lib.ValueIdx
import Idealize.ShloMosaic.Lib.ValueLayout

set_option maxRecDepth 16384

noncomputable section

namespace Cert.KernelIdeal.Layer2Pay

open Idealize.ShloMosaic Idealize.ShloMosaic.ValueIdx
open Cert.KernelIdeal Cert.KernelIdeal.Gen
open Cert.KernelIdeal.Layer1V (D1 matmul_zero_apply colsum_apply)
open scoped BigOperators

/-- The layer at one entry of a block: row `r` of the scaled, shifted and clipped values against column `o` of the
    weight, plus the bias.  The zero the clip compares with is kept as its word. -/
theorem pay7_apply (x0 : Vec Ideal S6000x128 .bf16) (x1 x2 : Vec Ideal S1x128 .f32) (x3 : Vec Ideal S128x128 .bf16)
    (x4 : Vec Ideal S1x128 .f32) (r : Fin 6000) (o : Fin 128) :
    k1_pay7 x0 x1 x2 x3 x4 (ix2 r o)
      = (∑ k : Fin 128, max (x0 (ix2 r k) * x1 (ix2 (0 : Fin 1) k) + x2 (ix2 (0 : Fin 1) k)) (Ideal.ofBits .f32 0x00000000#32)
            * x3 (ix2 k o))
          + x4 (ix2 (0 : Fin 1) o) := by
  unfold k1_pay7
  simp only [shapeCast_self]
  refine (addf_apply _ _ _).trans ?_
  refine congrArg₂ (· + ·) ?_ (broadcastTo_1b_ab_apply x4 _ r o)
  -- the product into the zero accumulator is the sum over the contracted axis
  refine (matmul_zero_apply _ _ r o).trans ?_
  refine Finset.sum_congr rfl fun k _ => ?_
  -- the left operand at (r, k): the format changes are the identity, the scale and shift rows are read at column k
  show max (x0 (ix2 r k) * broadcastTo S6000x128 x1 broadcasts_S1x128_S6000x128 (ix2 r k)
      + broadcastTo S6000x128 x2 broadcasts_S1x128_S6000x128 (ix2 r k)) (Ideal.ofBits .f32 0x00000000#32) * x3 (ix2 k o) = _
  rw [broadcastTo_1b_ab_apply, broadcastTo_1b_ab_apply]

/-- The cast of the layer's block to the stored format keeps every entry. -/
theorem pay2_apply (v : FVec Ideal S6000x128 .f32) (j : S6000x128.Idx) : k1_pay2 v j = v j := rfl

/-- The new running sum at one channel: the old one plus the block's column sum. -/
theorem pay8_apply (x0 : Vec Ideal S6000x128 .bf16) (x1 x2 : Vec Ideal S1x128 .f32) (x3 : Vec Ideal S128x128 .bf16)
    (x4 : Vec Ideal S1x128 .f32) (v24 : Vec Ideal S1x128 .f32) (u : Fin 1) (o : Fin 128) :
    k1_pay8 x0 x1 x2 x3 x4 v24 (ix2 u o) = v24 (ix2 u o) + ∑ r : Fin 6000, k1_pay7 x0 x1 x2 x3 x4 (ix2 r o) := by
  unfold k1_pay8
  simp only [shapeCast_self]
  refine (addf_apply _ _ _).trans (congrArg (v24 (ix2 u o) + ·) ?_)
  refine (shapeCast_a_1a_apply _ _ u o).trans ?_
  exact colsum_apply _ _ _ o

/-- The column sum of the block's squares at one channel. -/
theorem pay9_apply (x0 : Vec Ideal S6000x128 .bf16) (x1 x2 : Vec Ideal S1x128 .f32) (x3 : Vec Ideal S128x128 .bf16)
    (x4 : Vec Ideal S1x128 .f32) (o : Fin 128) :
    k1_pay9 x0 x1 x2 x3 x4 (ix1 o)
      = ∑ r : Fin 6000, k1_pay7 x0 x1 x2 x3 x4 (ix2 r o) * k1_pay7 x0 x1 x2 x3 x4 (ix2 r o) := by
  unfold k1_pay9
  refine (colsum_apply _ _ _ o).trans ?_
  exact Finset.sum_congr rfl fun r _ => mulf_apply _ _ _

/-- The new running sum of squares at one channel: the old one plus the column sum just taken. -/
theorem pay1_apply (v31 : Vec Ideal S1x128 .f32) (v33 : FVec Ideal S128 .f32) (u : Fin 1) (o : Fin 128) :
    k1_pay1 v31 v33 (ix2 u o) = v31 (ix2 u o) + v33 (ix1 o) := by
  unfold k1_pay1
  simp only [shapeCast_self]
  refine (addf_apply _ _ _).trans (congrArg (v31 (ix2 u o) + ·) ?_)
  exact shapeCast_a_1a_apply _ _ u o

/-- A running sum given a leading unit axis: entry `(·, ·, o)` is the sum's entry `(·, o)`. -/
theorem pay3_apply (v : Vec Ideal S1x128 .f32) (u0 u1 : Fin 1) (o : Fin 128) : k1_pay3 v (ix3 u0 u1 o) = v (ix2 u1 o) := by
  unfold k1_pay3
  exact shapeCast_ab_1ab_apply v _ u0 u1 o

/-- The same for the second running sum. -/
theorem pay4_apply (v : Vec Ideal S1x128 .f32) (u0 u1 : Fin 1) (o : Fin 128) : k1_pay4 v (ix3 u0 u1 o) = v (ix2 u1 o) := by
  unfold k1_pay4
  exact shapeCast_ab_1ab_apply v _ u0 u1 o

/-- The zero row the first inner step stores: the zero word everywhere. -/
theorem pay5_apply (j : S1x128.Idx) : k1_pay5 (F := Ideal) j = Ideal.ofBits .f32 0x00000000#32 := by
  unfold k1_pay5
  rw [shapeCast_self]
  rfl

/-- The same for the second running sum. -/
theorem pay6_apply (j : S1x128.Idx) : k1_pay6 (F := Ideal) j = Ideal.ofBits .f32 0x00000000#32 := by
  unfold k1_pay6
  rw [shapeCast_self]
  rfl

end Cert.KernelIdeal.Layer2Pay

end
-- ==== Proof.KiL2Value.lean ====
/-
  The second pallas_call's output `h2`, as one function of the five arrays the region finds: at edge `e` and channel
  `o` it is `(Σₖ max (a[e,k]·scale[0,k] + shift[0,k]) 0 · W[k,o]) + b[0,o]`. Grid point `t` loads rows
  `6000·t … 6000·t + 5999` of the first layer's values and the whole scale row, shift row, weight and bias, so the block
  it writes back is block `t` of that function, whichever of the three control cases the point is in; every point
  writes its block back and the hundred blocks tile the 600000 rows.
-/
import proofs.«128831_j68624987455985_2_alg».proof.Proof.KiL2Pieces
import proofs.«128831_j68624987455985_2_alg».proof.Proof.KiL2Pay
import Idealize.ShloMosaic.Lib.Pipeline.Value

set_option maxRecDepth 16384

noncomputable section

namespace Cert.KernelIdeal.Layer2V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Layer2 Cert.KernelIdeal.Layer2Pay
open scoped BigOperators

/-! ## The specification: the layer at one edge and one channel -/

/-- The second linear layer at edge `e`, channel `o`: the edge's first-layer values scaled, shifted and clipped below
    at zero, against column `o` of the weight, plus the bias. The zero is kept as its word. -/
def H2 (a : S600000x128.Idx → Elt Ideal .bf16) (sc sh : S1x128.Idx → Elt Ideal .f32) (w : S128x128.Idx → Elt Ideal .bf16)
    (b : S1x128.Idx → Elt Ideal .f32) (e : Fin 600000) (o : Fin 128) : EReal :=
  (∑ k : Fin 128, max (a (ix2 e k) * sc (ix2 (0 : Fin 1) k) + sh (ix2 (0 : Fin 1) k)) (Ideal.ofBits .f32 0x00000000#32)
      * w (ix2 k o))
    + b (ix2 (0 : Fin 1) o)

variable (V : (c : Dev nD) → (b : Ref sig .tc) → Buf (Elt Ideal) ((c : Thread nD τ).loc b))

/-- The layer of the five arrays as the region finds them, per edge and channel. -/
abbrev h2E (c : Dev nD) : Fin 600000 → Fin 128 → EReal :=
  H2 (V c main_v31_0) (V c main_v48) (V c main_v51) (V c main_v27) (V c main_v28)

/-- The layer over the whole edge array. -/
def h2Arr (c : Dev nD) : Vec Ideal S600000x128 .bf16 :=
  fun i => h2E V c (i 0) (i 1)

/-- Row `r` of the block of grid point `t`, as a row of the whole edge array: blocks are 6000 consecutive rows. -/
def edge (t : Fin cfg1.N) (r : Fin 6000) : Fin 600000 :=
  ⟨6000 * t.val + r.val, by have h := t.isLt; have hN : cfg1.N = 100 := N_1; have := r.isLt; omega⟩

/-- Its row number. -/
theorem edge_val (t : Fin cfg1.N) (r : Fin 6000) : (edge t r).val = 6000 * t.val + r.val := rfl

/-! ## Where each window's block sits -/

/-- The printed index maps, decided once over the grid: the input window of the first layer's values and the output
    window of `h2` are at block `t` on the row axis; the scale, the shift, the weight and the bias never move. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first layer's values' block at `t`, read at `(r, k)`: row `6000·t + r` of the array. -/
theorem iblk0_apply (c : Dev nD) (t : Fin cfg1.N) (r : Fin 6000) (k : Fin 128) :
    iblk V c 0 t (ix2 r k) = V c main_v31_0 (ix2 (edge t r) k) := by
  obtain ⟨e0, e1, -⟩ := idx_facts t
  show V c main_v31_0 (((cfg1.win 0).blk t).view.emb (ix2 r k)) = V c main_v31_0 (ix2 (edge t r) k)
  refine congrArg (V c main_v31_0) (funext fun a => Fin.ext ?_)
  match a with
  | ⟨0, _⟩ => show win1_0.index t (0 : Fin 2) * 6000 + 1 * r.val = 6000 * t.val + r.val; rw [e0]; omega
  | ⟨1, _⟩ => show win1_0.index t (1 : Fin 2) * 128 + 1 * k.val = k.val; rw [e1]; omega

/-- The scale row's block is the whole row. -/
theorem iblk1_apply (c : Dev nD) (t : Fin cfg1.N) (u : Fin 1) (k : Fin 128) :
    iblk V c 1 t (ix2 u k) = V c main_v48 (ix2 u k) := by
  obtain ⟨-, -, e0, e1, -⟩ := idx_facts t
  show V c main_v48 (((cfg1.win 1).blk t).view.emb (ix2 u k)) = V c main_v48 (ix2 u k)
  refine congrArg (V c main_v48) (funext fun a => Fin.ext ?_)
  match a with
  | ⟨0, _⟩ => show win1_1.index t (0 : Fin 2) * 1 + 1 * u.val = u.val; rw [e0]; omega
  | ⟨1, _⟩ => show win1_1.index t (1 : Fin 2) * 128 + 1 * k.val = k.val; rw [e1]; omega

/-- The shift row's block is the whole row. -/
theorem iblk2_apply (c : Dev nD) (t : Fin cfg1.N) (u : Fin 1) (k : Fin 128) :
    iblk V c 2 t (ix2 u k) = V c main_v51 (ix2 u k) := by
  obtain ⟨-, -, -, -, e0, e1, -⟩ := idx_facts t
  show V c main_v51 (((cfg1.win 2).blk t).view.emb (ix2 u k)) = V c main_v51 (ix2 u k)
  refine congrArg (V c main_v51) (funext fun a => Fin.ext ?_)
  match a with
  | ⟨0, _⟩ => show win1_2.index t (0 : Fin 2) * 1 + 1 * u.val = u.val; rw [e0]; omega
  | ⟨1, _⟩ => show win1_2.index t (1 : Fin 2) * 128 + 1 * k.val = k.val; rw [e1]; omega

/-- The weight's block is the whole array. -/
theorem iblk3_apply (c : Dev nD) (t : Fin cfg1.N) (k : Fin 128) (o : Fin 128) :
    iblk V c 3 t (ix2 k o) = V c main_v27 (ix2 k o) := by
  obtain ⟨-, -, -, -, -, -, e0, e1, -⟩ := idx_facts t
  show V c main_v27 (((cfg1.win 3).blk t).view.emb (ix2 k o)) = V c main_v27 (ix2 k o)
  refine congrArg (V c main_v27) (funext fun a => Fin.ext ?_)
  match a with
  | ⟨0, _⟩ => show win1_3.index t (0 : Fin 2) * 128 + 1 * k.val = k.val; rw [e0]; omega
  | ⟨1, _⟩ => show win1_3.index t (1 : Fin 2) * 128 + 1 * o.val = o.val; rw [e1]; omega

/-- The bias's block is the whole row. -/
theorem iblk4_apply (c : Dev nD) (t : Fin cfg1.N) (u : Fin 1) (o : Fin 128) :
    iblk V c 4 t (ix2 u o) = V c main_v28 (ix2 u o) := by
  obtain ⟨-, -, -, -, -, -, -, -, e0, e1, -⟩ := idx_facts t
  show V c main_v28 (((cfg1.win 4).blk t).view.emb (ix2 u o)) = V c main_v28 (ix2 u o)
  refine congrArg (V c main_v28) (funext fun a => Fin.ext ?_)
  match a with
  | ⟨0, _⟩ => show win1_4.index t (0 : Fin 2) * 1 + 1 * u.val = u.val; rw [e0]; omega
  | ⟨1, _⟩ => show win1_4.index t (1 : Fin 2) * 128 + 1 * o.val = o.val; rw [e1]; omega

/-! ## One block of `h2` -/

/-- The layer of five loaded blocks that are block `t` of the first layer's values and the whole scale row, shift row,
    weight and bias, is block `t` of the layer over the whole edge array. -/
theorem block_h2 (x0 : Vec Ideal S6000x128 .bf16) (x1 x2 : Vec Ideal S1x128 .f32) (x3 : Vec Ideal S128x128 .bf16)
    (x4 : Vec Ideal S1x128 .f32)
    (a : S600000x128.Idx → Elt Ideal .bf16) (sc sh : S1x128.Idx → Elt Ideal .f32) (w : S128x128.Idx → Elt Ideal .bf16)
    (b : S1x128.Idx → Elt Ideal .f32) (t : Fin cfg1.N)
    (h0 : ∀ (r : Fin 6000) (k : Fin 128), x0 (ix2 r k) = a (ix2 (edge t r) k))
    (h1 : ∀ (u : Fin 1) (k : Fin 128), x1 (ix2 u k) = sc (ix2 u k))
    (h2 : ∀ (u : Fin 1) (k : Fin 128), x2 (ix2 u k) = sh (ix2 u k))
    (h3 : ∀ (k o : Fin 128), x3 (ix2 k o) = w (ix2 k o))
    (h4 : ∀ (u : Fin 1) (o : Fin 128), x4 (ix2 u o) = b (ix2 u o)) (r : Fin 6000) (o : Fin 128) :
    k1_pay7 x0 x1 x2 x3 x4 (ix2 r o) = H2 a sc sh w b (edge t r) o := by
  rw [pay7_apply]
  unfold H2
  simp only [h0, h1, h2, h3, h4]

/-- What every grid point leaves in the staging buffer of `h2`: the cast layer of the point's five blocks, whatever the case. -/
theorem after5_eq (c : Dev nD) (t : Fin cfg1.N) :
    (outsAt V c t.val t.isLt).1 = k1_pay2 (k1_pay7 (iblk V c 0 t) (iblk V c 1 t) (iblk V c 2 t) (iblk V c 3 t) (iblk V c 4 t)) := by
  by_cases h0 : t.val % 50 = 0
  · have h1 : ¬t.val % 50 = 49 := by omega
    rw [outsAt_A V c t h0 h1]
    unfold atA
    dsimp only
    exact out_A_5_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t)
  · by_cases h1 : t.val % 50 = 49
    · rw [outsAt_C V c t h0 h1]
      unfold atC
      dsimp only
      exact out_C_5_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2
    · rw [outsAt_B V c t h0 h1]
      unfold atB
      dsimp only
      exact out_B_5_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2

/-- The same block with the block index left whole. -/
theorem block_h2' (x0 : Vec Ideal S6000x128 .bf16) (x1 x2 : Vec Ideal S1x128 .f32) (x3 : Vec Ideal S128x128 .bf16)
    (x4 : Vec Ideal S1x128 .f32)
    (a : S600000x128.Idx → Elt Ideal .bf16) (sc sh : S1x128.Idx → Elt Ideal .f32) (w : S128x128.Idx → Elt Ideal .bf16)
    (b : S1x128.Idx → Elt Ideal .f32) (t : Fin cfg1.N)
    (h0 : ∀ (r : Fin 6000) (k : Fin 128), x0 (ix2 r k) = a (ix2 (edge t r) k))
    (h1 : ∀ (u : Fin 1) (k : Fin 128), x1 (ix2 u k) = sc (ix2 u k))
    (h2 : ∀ (u : Fin 1) (k : Fin 128), x2 (ix2 u k) = sh (ix2 u k))
    (h3 : ∀ (k o : Fin 128), x3 (ix2 k o) = w (ix2 k o))
    (h4 : ∀ (u : Fin 1) (o : Fin 128), x4 (ix2 u o) = b (ix2 u o)) (j : S6000x128.Idx) :
    k1_pay2 (k1_pay7 x0 x1 x2 x3 x4) j = H2 a sc sh w b (edge t (j 0)) (j 1) := by
  obtain ⟨r, o, rfl⟩ : ∃ (r : Fin 6000) (o : Fin 128), j = ix2 r o := ⟨j 0, j 1, eq_ix2 j⟩
  exact (pay2_apply _ _).trans (block_h2 x0 x1 x2 x3 x4 a sc sh w b t h0 h1 h2 h3 h4 r o)

/-! ## From blocks to the array of `h2` -/

/-- What point `t` writes back is block `t` of the layer over the whole edge array. -/
theorem flushed5_eq (c : Dev nD) (t : Fin cfg1.N) :
    (dat V c).flushed 5 t = ((cfg1.win 5).blk t).view.read (Elt Ideal) (h2Arr V c) := by
  show (cfg1.win 5).cut (grid1.coords t) ((dat V c).after 5 t) = _
  rw [after_5, after5_eq]
  obtain ⟨-, -, -, -, -, -, -, -, -, -, e0, e1⟩ := idx_facts t
  funext j
  show k1_pay2 (k1_pay7 (iblk V c 0 t) (iblk V c 1 t) (iblk V c 2 t) (iblk V c 3 t) (iblk V c 4 t)) j = h2Arr V c (((cfg1.win 5).blk t).view.emb j)
  have eemb : ((cfg1.win 5).blk t).view.emb j = ix2 (edge t (j 0)) (j 1) := by
    funext a; apply Fin.ext
    match a with
    | ⟨0, _⟩ => show win1_5.index t (0 : Fin 2) * 6000 + 1 * (j 0).val = 6000 * t.val + (j 0).val; rw [e0]; omega
    | ⟨1, _⟩ => show win1_5.index t (1 : Fin 2) * 128 + 1 * (j 1).val = (j 1).val; rw [e1]; omega
  rw [eemb]
  exact block_h2' (iblk V c 0 t) (iblk V c 1 t) (iblk V c 2 t) (iblk V c 3 t) (iblk V c 4 t) (V c main_v31_0) (V c main_v48) (V c main_v51) (V c main_v27) (V c main_v28) t
    (iblk0_apply V c t) (iblk1_apply V c t) (iblk2_apply V c t) (iblk3_apply V c t) (iblk4_apply V c t) j

/-- An index of the array is in point `t`'s block iff each coordinate is in the block's range on its axis. -/
theorem mem_blk5 (t : Fin cfg1.N) (i : S600000x128.Idx) :
    i ∈ ((cfg1.win 5).blk t).view.set ↔ ∀ a : Fin 2, win1_5.index t a * S6000x128.size a ≤ (i a).val ∧ (i a).val < win1_5.index t a * S6000x128.size a + S6000x128.size a := by
  show i ∈ ((View.whole main_v52_0).slice (win1_5.rect t)).set ↔ _
  rw [View.set_slice_whole, Rect.mem_set_unit]
  exact Iff.rfl

/-- Every row of the edge array is in the block of the point its row number divided by 6000 names, and every point writes back. -/
theorem cover5 (i : S600000x128.Idx) :
    ∃ t : Fin cfg1.N, (cfg1.win 5).flush t = true ∧ i ∈ ((cfg1.win 5).blk t).view.set := by
  have hi0 : (i 0).val < 600000 := (i 0).isLt
  have hi1 : (i 1).val < 128 := (i 1).isLt
  have hN : cfg1.N = 100 := N_1
  have hq : (i 0).val / 6000 < cfg1.N := by rw [hN]; omega
  obtain ⟨-, -, -, -, -, -, -, -, -, -, e0, e1⟩ := idx_facts ⟨(i 0).val / 6000, hq⟩
  refine ⟨⟨(i 0).val / 6000, hq⟩, flush1_5 _, ?_⟩
  rw [mem_blk5]
  intro a
  match a with
  | ⟨0, _⟩ =>
    show win1_5.index ⟨(i 0).val / 6000, hq⟩ (0 : Fin 2) * 6000 ≤ (i 0).val ∧ (i 0).val < win1_5.index ⟨(i 0).val / 6000, hq⟩ (0 : Fin 2) * 6000 + 6000
    rw [e0]; show (i 0).val / 6000 * 6000 ≤ (i 0).val ∧ (i 0).val < (i 0).val / 6000 * 6000 + 6000; omega
  | ⟨1, _⟩ =>
    show win1_5.index ⟨(i 0).val / 6000, hq⟩ (1 : Fin 2) * 128 ≤ (i 1).val ∧ (i 1).val < win1_5.index ⟨(i 0).val / 6000, hq⟩ (1 : Fin 2) * 128 + 128
    rw [e1]; omega

/-- The array of `h2` after the last point: the layer over the whole edge array, of the five arrays as the region finds them. -/
theorem arrAt5 (c : Dev nD) : (dat V c).arrAt 5 cfg1.N = h2Arr V c :=
  (dat V c).arrAt_eq_of_cover 5 (h2Arr V c) (fun t _ => flushed5_eq V c t) cover5

/-- The same at an edge and a channel. -/
theorem arrAt5_apply (c : Dev nD) (e : Fin 600000) (o : Fin 128) :
    (dat V c).arrAt 5 cfg1.N (ix2 e o)
      = H2 (V c main_v31_0) (V c main_v48) (V c main_v51) (V c main_v27) (V c main_v28) e o := by
  rw [arrAt5]; rfl

end Cert.KernelIdeal.Layer2V

end
-- ==== Proof.KiL2Sums.lean ====
/-
  The second pallas_call's two sum outputs. On each half `c'` of the grid the two scratch rows carry, from one inner step
  to the next, the running column sums of the second layer `h2` and of `h2·h2`: they restart from the zero word at the
  first inner step and take in one block's column sums per step, so after inner step `i` they hold the spec's running
  sums `run … c' o i` (by induction on the inner step). The last inner step stores them, with a leading unit axis, into
  the block of the two sum outputs that the half names; only those points write back, and the two blocks tile each array.
-/
import proofs.«128831_j68624987455985_2_alg».proof.Proof.KiL2Value
import proofs.«128831_j68624987455985_2_alg».proof.Proof.KSpec

set_option maxRecDepth 16384

noncomputable section

namespace Cert.KernelIdeal.Layer2V

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Layer2 Cert.KernelIdeal.Layer2Pay
open scoped BigOperators

variable (V : (c : Dev nD) → (b : Ref sig .tc) → Buf (Elt Ideal) ((c : Thread nD τ).loc b))

/-! ## One block's column sums -/

/-- Grid point `50·c' + i` is the `i`-th inner step of half `c'`: its rows are that step's edges. -/
theorem edge_eq (t : Fin cfg1.N) (c' : Fin 2) (i : Fin 50) (ht : t.val = 50 * c'.val + i.val) (r : Fin 6000) :
    edge t r = Cert.KSpec.edge c' i r :=
  Fin.ext (by show 6000 * t.val + r.val = 6000 * (50 * c'.val + i.val) + r.val; rw [ht])

/-- The column sum of the layer over the block of point `t`. -/
theorem colsum_block (c : Dev nD) (t : Fin cfg1.N) (c' : Fin 2) (i : Fin 50) (ht : t.val = 50 * c'.val + i.val) (o : Fin 128) :
    ∑ r : Fin 6000, k1_pay7 (iblk V c 0 t) (iblk V c 1 t) (iblk V c 2 t) (iblk V c 3 t) (iblk V c 4 t) (ix2 r o) = Cert.KSpec.blockSum (h2E V c) c' o i := by
  unfold Cert.KSpec.blockSum
  refine Finset.sum_congr rfl fun r _ => ?_
  rw [← edge_eq t c' i ht r]
  exact block_h2 (iblk V c 0 t) (iblk V c 1 t) (iblk V c 2 t) (iblk V c 3 t) (iblk V c 4 t) (V c main_v31_0) (V c main_v48) (V c main_v51) (V c main_v27) (V c main_v28) t (iblk0_apply V c t) (iblk1_apply V c t) (iblk2_apply V c t) (iblk3_apply V c t) (iblk4_apply V c t) r o

/-- The column sum of the layer's squares over the block of point `t`. -/
theorem colsq_block (c : Dev nD) (t : Fin cfg1.N) (c' : Fin 2) (i : Fin 50) (ht : t.val = 50 * c'.val + i.val) (o : Fin 128) :
    ∑ r : Fin 6000, k1_pay7 (iblk V c 0 t) (iblk V c 1 t) (iblk V c 2 t) (iblk V c 3 t) (iblk V c 4 t) (ix2 r o) * k1_pay7 (iblk V c 0 t) (iblk V c 1 t) (iblk V c 2 t) (iblk V c 3 t) (iblk V c 4 t) (ix2 r o)
      = Cert.KSpec.blockSum (fun e o => h2E V c e o * h2E V c e o) c' o i := by
  unfold Cert.KSpec.blockSum
  refine Finset.sum_congr rfl fun r _ => ?_
  rw [← edge_eq t c' i ht r]
  exact congrArg₂ (· * ·) (block_h2 (iblk V c 0 t) (iblk V c 1 t) (iblk V c 2 t) (iblk V c 3 t) (iblk V c 4 t) (V c main_v31_0) (V c main_v48) (V c main_v51) (V c main_v27) (V c main_v28) t (iblk0_apply V c t) (iblk1_apply V c t) (iblk2_apply V c t) (iblk3_apply V c t) (iblk4_apply V c t) r o) (block_h2 (iblk V c 0 t) (iblk V c 1 t) (iblk V c 2 t) (iblk V c 3 t) (iblk V c 4 t) (V c main_v31_0) (V c main_v48) (V c main_v51) (V c main_v27) (V c main_v28) t (iblk0_apply V c t) (iblk1_apply V c t) (iblk2_apply V c t) (iblk3_apply V c t) (iblk4_apply V c t) r o)

/-- One step of the first running sum: what the point before left plus this block's column sum. -/
theorem sum0_step (c : Dev nD) (t : Fin cfg1.N) (c' : Fin 2) (i : Fin 50) (ht : t.val = 50 * c'.val + i.val)
    (p : Vec Ideal S1x128 .f32) (u : Fin 1) (o : Fin 128) :
    k1_pay8 (iblk V c 0 t) (iblk V c 1 t) (iblk V c 2 t) (iblk V c 3 t) (iblk V c 4 t) p (ix2 u o) = p (ix2 u o) + Cert.KSpec.blockSum (h2E V c) c' o i :=
  (pay8_apply (iblk V c 0 t) (iblk V c 1 t) (iblk V c 2 t) (iblk V c 3 t) (iblk V c 4 t) p u o).trans (congrArg (p (ix2 u o) + ·) (colsum_block V c t c' i ht o))

/-- One step of the second running sum. -/
theorem sum1_step (c : Dev nD) (t : Fin cfg1.N) (c' : Fin 2) (i : Fin 50) (ht : t.val = 50 * c'.val + i.val)
    (p : Vec Ideal S1x128 .f32) (u : Fin 1) (o : Fin 128) :
    k1_pay1 p (k1_pay9 (iblk V c 0 t) (iblk V c 1 t) (iblk V c 2 t) (iblk V c 3 t) (iblk V c 4 t)) (ix2 u o) = p (ix2 u o) + Cert.KSpec.blockSum (fun e o => h2E V c e o * h2E V c e o) c' o i :=
  (pay1_apply p (k1_pay9 (iblk V c 0 t) (iblk V c 1 t) (iblk V c 2 t) (iblk V c 3 t) (iblk V c 4 t)) u o).trans (congrArg (p (ix2 u o) + ·) ((pay9_apply (iblk V c 0 t) (iblk V c 1 t) (iblk V c 2 t) (iblk V c 3 t) (iblk V c 4 t) o).trans (colsq_block V c t c' i ht o)))

/-! ## What each point leaves in the two running sums and, at a last inner step, in the two sum outputs -/

/-- At a first inner step the sums restart from the zero row. -/
theorem sums_first (c : Dev nD) (t : Fin cfg1.N) (h0 : t.val % 50 = 0) :
    (outsAt V c t.val t.isLt).2.2.2.1 = k1_pay8 (iblk V c 0 t) (iblk V c 1 t) (iblk V c 2 t) (iblk V c 3 t) (iblk V c 4 t) (k1_pay5 (F := Ideal))
    ∧ (outsAt V c t.val t.isLt).2.2.2.2 = k1_pay1 (k1_pay6 (F := Ideal)) (k1_pay9 (iblk V c 0 t) (iblk V c 1 t) (iblk V c 2 t) (iblk V c 3 t) (iblk V c 4 t)) := by
  have h1 : ¬t.val % 50 = 49 := by omega
  rw [outsAt_A V c t h0 h1]
  unfold atA
  dsimp only
  exact ⟨sout_A_0_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t), sout_A_1_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t) (iblk V c 4 t)⟩

/-- At a later inner step they take in this block on top of what the point before left. -/
theorem sums_later (c : Dev nD) (t : Fin cfg1.N) (h0 : ¬t.val % 50 = 0) :
    (outsAt V c t.val t.isLt).2.2.2.1 = k1_pay8 (iblk V c 0 t) (iblk V c 1 t) (iblk V c 2 t) (iblk V c 3 t) (iblk V c 4 t) (outsAt V c (t.val - 1) (Nat.lt_of_le_of_lt (Nat.sub_le _ _) t.isLt)).2.2.2.1
    ∧ (outsAt V c t.val t.isLt).2.2.2.2 = k1_pay1 (outsAt V c (t.val - 1) (Nat.lt_of_le_of_lt (Nat.sub_le _ _) t.isLt)).2.2.2.2 (k1_pay9 (iblk V c 0 t) (iblk V c 1 t) (iblk V c 2 t) (iblk V c 3 t) (iblk V c 4 t)) := by
  by_cases h1 : t.val % 50 = 49
  · rw [outsAt_C V c t h0 h1]
    unfold atC
    dsimp only
    exact ⟨sout_C_0_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sout_C_1_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩
  · rw [outsAt_B V c t h0 h1]
    unfold atB
    dsimp only
    exact ⟨sout_B_0_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, sout_B_1_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩

/-- At a last inner step the two sum outputs are the two running sums just stored, with a leading unit axis. -/
theorem outs_last (c : Dev nD) (t : Fin cfg1.N) (h1 : t.val % 50 = 49) :
    (outsAt V c t.val t.isLt).2.1 = k1_pay3 (k1_pay8 (iblk V c 0 t) (iblk V c 1 t) (iblk V c 2 t) (iblk V c 3 t) (iblk V c 4 t) (outsAt V c (t.val - 1) (Nat.lt_of_le_of_lt (Nat.sub_le _ _) t.isLt)).2.2.2.1)
    ∧ (outsAt V c t.val t.isLt).2.2.1 = k1_pay4 (k1_pay1 (outsAt V c (t.val - 1) (Nat.lt_of_le_of_lt (Nat.sub_le _ _) t.isLt)).2.2.2.2 (k1_pay9 (iblk V c 0 t) (iblk V c 1 t) (iblk V c 2 t) (iblk V c 3 t) (iblk V c 4 t))) := by
  have h0 : ¬t.val % 50 = 0 := by omega
  rw [outsAt_C V c t h0 h1]
  unfold atC
  dsimp only
  exact ⟨out_C_6_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2, out_C_7_eq (F := Ideal) c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (iblk V c 4 t) (outsAt V c (t.val - 1) (Nat.lt_of_le_of_lt (Nat.sub_le _ _) t.isLt)).2.2.2.1 (outsAt V c (t.val - 1) (Nat.lt_of_le_of_lt (Nat.sub_le _ _) t.isLt)).2.2.2.2⟩

/-! ## The running sums along the inner steps of one half -/

/-- The accumulation along an equation of positions. -/
theorem outsAt_congr (c : Dev nD) {n n' : ℕ} (e : n = n') (h : n < cfg1.N) (h' : n' < cfg1.N) :
    outsAt V c n h = outsAt V c n' h' := by
  subst e; rfl

/-- Inner step `i` of half `c'` is a grid point. -/
theorem pt_lt (c' : Fin 2) (i : ℕ) (hi : i < 50) : 50 * c'.val + i < cfg1.N := by
  have hN : cfg1.N = 100 := N_1
  have := c'.isLt
  omega

/-- THE INVARIANT: after inner step `i` of half `c'` the two running sums hold, at every channel, the spec's running
    sums of the layer and of its square — by induction on the inner step. -/
theorem sums_inv (c : Dev nD) (u : Fin 1) (o : Fin 128) (c' : Fin 2) : ∀ (i : ℕ) (hi : i < 50),
    (outsAt V c (50 * c'.val + i) (pt_lt c' i hi)).2.2.2.1 (ix2 u o) = Cert.KSpec.run (h2E V c) c' o i
    ∧ (outsAt V c (50 * c'.val + i) (pt_lt c' i hi)).2.2.2.2 (ix2 u o) = Cert.KSpec.run (fun e o => h2E V c e o * h2E V c e o) c' o i
  | 0, hi => by
    have h0 : (⟨50 * c'.val + 0, pt_lt c' 0 hi⟩ : Fin cfg1.N).val % 50 = 0 := by
      show (50 * c'.val + 0) % 50 = 0; omega
    obtain ⟨e0, e1⟩ := sums_first V c ⟨50 * c'.val + 0, pt_lt c' 0 hi⟩ h0
    constructor
    · refine (congrFun e0 (ix2 u o)).trans ?_
      refine (sum0_step V c ⟨50 * c'.val + 0, pt_lt c' 0 hi⟩ c' ⟨0, hi⟩ rfl (k1_pay5 (F := Ideal)) u o).trans ?_
      rw [pay5_apply]; rfl
    · refine (congrFun e1 (ix2 u o)).trans ?_
      refine (sum1_step V c ⟨50 * c'.val + 0, pt_lt c' 0 hi⟩ c' ⟨0, hi⟩ rfl (k1_pay6 (F := Ideal)) u o).trans ?_
      rw [pay6_apply]; rfl
  | i + 1, hi => by
    have hi' : i < 50 := by omega
    obtain ⟨ih0, ih1⟩ := sums_inv c u o c' i hi'
    have h0 : ¬(⟨50 * c'.val + (i + 1), pt_lt c' (i + 1) hi⟩ : Fin cfg1.N).val % 50 = 0 := by
      show ¬(50 * c'.val + (i + 1)) % 50 = 0; omega
    obtain ⟨e0, e1⟩ := sums_later V c ⟨50 * c'.val + (i + 1), pt_lt c' (i + 1) hi⟩ h0
    have ep := outsAt_congr V c (show (⟨50 * c'.val + (i + 1), pt_lt c' (i + 1) hi⟩ : Fin cfg1.N).val - 1 = 50 * c'.val + i from by
        show 50 * c'.val + (i + 1) - 1 = 50 * c'.val + i; omega)
      (Nat.lt_of_le_of_lt (Nat.sub_le _ _) (⟨50 * c'.val + (i + 1), pt_lt c' (i + 1) hi⟩ : Fin cfg1.N).isLt) (pt_lt c' i hi')
    rw [ep] at e0 e1
    constructor
    · refine (congrFun e0 (ix2 u o)).trans ?_
      refine (sum0_step V c ⟨50 * c'.val + (i + 1), pt_lt c' (i + 1) hi⟩ c' ⟨i + 1, hi⟩ rfl _ u o).trans ?_
      rw [Cert.KSpec.run_succ _ c' o i hi]
      exact congrArg₂ (· + ·) ih0 rfl
    · refine (congrFun e1 (ix2 u o)).trans ?_
      refine (sum1_step V c ⟨50 * c'.val + (i + 1), pt_lt c' (i + 1) hi⟩ c' ⟨i + 1, hi⟩ rfl _ u o).trans ?_
      rw [Cert.KSpec.run_succ _ c' o i hi]
      exact congrArg₂ (· + ·) ih1 rfl

/-! ## From the last inner steps to the two sum arrays -/

/-- The half a grid point belongs to. -/
def halfOf (t : Fin cfg1.N) : Fin 2 :=
  ⟨t.val / 50, by have := t.isLt; have hN : cfg1.N = 100 := N_1; omega⟩

/-- The printed index maps of the two sum outputs, decided once over the grid: the block is the half. -/
theorem idx_facts67 : ∀ t : Fin cfg1.N,
    win1_6.index t (0 : Fin 3) = t.val / 50 ∧ win1_6.index t (1 : Fin 3) = 0 ∧ win1_6.index t (2 : Fin 3) = 0
    ∧ win1_7.index t (0 : Fin 3) = t.val / 50 ∧ win1_7.index t (1 : Fin 3) = 0 ∧ win1_7.index t (2 : Fin 3) = 0 :=
  (by decide +kernel : ∀ t : Fin grid1.N, _)

/-- What a last inner step leaves in the two sum outputs: the spec's running sums after the fifty steps of its half. -/
theorem outs_read (c : Dev nD) (t : Fin cfg1.N) (h49 : t.val % 50 = 49) (j : S1x1x128.Idx) :
    (outsAt V c t.val t.isLt).2.1 j = Cert.KSpec.run (h2E V c) (halfOf t) (j 2) 49
    ∧ (outsAt V c t.val t.isLt).2.2.1 j = Cert.KSpec.run (fun e o => h2E V c e o * h2E V c e o) (halfOf t) (j 2) 49 := by
  obtain ⟨u0, u1, o, rfl⟩ : ∃ (u0 u1 : Fin 1) (o : Fin 128), j = ix3 u0 u1 o := ⟨j 0, j 1, j 2, eq_ix3 j⟩
  have h0 : ¬t.val % 50 = 0 := by omega
  obtain ⟨e6, e7⟩ := outs_last V c t h49
  obtain ⟨s0, s1⟩ := sums_later V c t h0
  have ht : t.val = 50 * (halfOf t).val + 49 := by show t.val = 50 * (t.val / 50) + 49; omega
  obtain ⟨i0, i1⟩ := sums_inv V c u1 o (halfOf t) 49 (by decide)
  have ec := outsAt_congr V c ht t.isLt (pt_lt (halfOf t) 49 (by decide))
  constructor
  · refine (congrFun e6 (ix3 u0 u1 o)).trans ((pay3_apply _ u0 u1 o).trans ?_)
    exact (congrFun s0.symm (ix2 u1 o)).trans ((congrArg (fun z => z.2.2.2.1 (ix2 u1 o)) ec).trans i0)
  · refine (congrFun e7 (ix3 u0 u1 o)).trans ((pay4_apply _ u0 u1 o).trans ?_)
    exact (congrFun s1.symm (ix2 u1 o)).trans ((congrArg (fun z => z.2.2.2.2 (ix2 u1 o)) ec).trans i1)

/-- The first sum output over its whole array: at half `c'` and channel `o` the running sum of the layer after fifty steps. -/
def sumArr (c : Dev nD) : Vec Ideal S2x1x128 .f32 := fun i => Cert.KSpec.run (h2E V c) (i 0) (i 2) 49
/-- The second sum output: the same for the layer's square. -/
def sqArr (c : Dev nD) : Vec Ideal S2x1x128 .f32 := fun i => Cert.KSpec.run (fun e o => h2E V c e o * h2E V c e o) (i 0) (i 2) 49

/-- WHAT A LAST INNER STEP WRITES BACK to the first sum output is its half's block of `sumArr`. -/
theorem flushed6_eq (c : Dev nD) (t : Fin cfg1.N) (hf : (cfg1.win 6).flush t = true) :
    (dat V c).flushed 6 t = ((cfg1.win 6).blk t).view.read (Elt Ideal) (sumArr V c) := by
  have h49 : t.val % 50 = 49 := (flush1_6 t).mp hf
  obtain ⟨f0, f1, f2, -⟩ := idx_facts67 t
  show (cfg1.win 6).cut (grid1.coords t) ((dat V c).after 6 t) = _
  rw [after_6]
  funext j
  show (outsAt V c t.val t.isLt).2.1 j = sumArr V c (((cfg1.win 6).blk t).view.emb j)
  have eemb : ((cfg1.win 6).blk t).view.emb j = ix3 (halfOf t) (j 1) (j 2) := by
    funext a; apply Fin.ext
    match a with
    | ⟨0, _⟩ => show win1_6.index t (0 : Fin 3) * 1 + 1 * (j 0).val = t.val / 50; rw [f0]; have hj : (j 0).val < 1 := (j 0).isLt; omega
    | ⟨1, _⟩ => show win1_6.index t (1 : Fin 3) * 1 + 1 * (j 1).val = (j 1).val; rw [f1]; omega
    | ⟨2, _⟩ => show win1_6.index t (2 : Fin 3) * 128 + 1 * (j 2).val = (j 2).val; rw [f2]; omega
  rw [eemb]
  exact (outs_read V c t h49 j).1

/-- The same for the second sum output. -/
theorem flushed7_eq (c : Dev nD) (t : Fin cfg1.N) (hf : (cfg1.win 7).flush t = true) :
    (dat V c).flushed 7 t = ((cfg1.win 7).blk t).view.read (Elt Ideal) (sqArr V c) := by
  have h49 : t.val % 50 = 49 := (flush1_7 t).mp hf
  obtain ⟨-, -, -, f0, f1, f2⟩ := idx_facts67 t
  show (cfg1.win 7).cut (grid1.coords t) ((dat V c).after 7 t) = _
  rw [after_7]
  funext j
  show (outsAt V c t.val t.isLt).2.2.1 j = sqArr V c (((cfg1.win 7).blk t).view.emb j)
  have eemb : ((cfg1.win 7).blk t).view.emb j = ix3 (halfOf t) (j 1) (j 2) := by
    funext a; apply Fin.ext
    match a with
    | ⟨0, _⟩ => show win1_7.index t (0 : Fin 3) * 1 + 1 * (j 0).val = t.val / 50; rw [f0]; have hj : (j 0).val < 1 := (j 0).isLt; omega
    | ⟨1, _⟩ => show win1_7.index t (1 : Fin 3) * 1 + 1 * (j 1).val = (j 1).val; rw [f1]; omega
    | ⟨2, _⟩ => show win1_7.index t (2 : Fin 3) * 128 + 1 * (j 2).val = (j 2).val; rw [f2]; omega
  rw [eemb]
  exact (outs_read V c t h49 j).2

/-- An index of a sum array is in point `t`'s block iff each coordinate is in the block's range on its axis. -/
theorem mem_blk6 (t : Fin cfg1.N) (i : S2x1x128.Idx) :
    i ∈ ((cfg1.win 6).blk t).view.set ↔ ∀ a : Fin 3, win1_6.index t a * S1x1x128.size a ≤ (i a).val ∧ (i a).val < win1_6.index t a * S1x1x128.size a + S1x1x128.size a := by
  show i ∈ ((View.whole main_v52_1).slice (win1_6.rect t)).set ↔ _
  rw [View.set_slice_whole, Rect.mem_set_unit]
  exact Iff.rfl

/-- The same for the second sum output. -/
theorem mem_blk7 (t : Fin cfg1.N) (i : S2x1x128.Idx) :
    i ∈ ((cfg1.win 7).blk t).view.set ↔ ∀ a : Fin 3, win1_7.index t a * S1x1x128.size a ≤ (i a).val ∧ (i a).val < win1_7.index t a * S1x1x128.size a + S1x1x128.size a := by
  show i ∈ ((View.whole main_v52_2).slice (win1_7.rect t)).set ↔ _
  rw [View.set_slice_whole, Rect.mem_set_unit]
  exact Iff.rfl

/-- Each half's row of a sum array is in the block of that half's last inner step, which writes back. -/
theorem cover6 (i : S2x1x128.Idx) :
    ∃ t : Fin cfg1.N, (cfg1.win 6).flush t = true ∧ i ∈ ((cfg1.win 6).blk t).view.set := by
  have hi0 : (i 0).val < 2 := (i 0).isLt
  have hi1 : (i 1).val < 1 := (i 1).isLt
  have hi2 : (i 2).val < 128 := (i 2).isLt
  have hN : cfg1.N = 100 := N_1
  have hq : 50 * (i 0).val + 49 < cfg1.N := by rw [hN]; omega
  obtain ⟨f0, f1, f2, -⟩ := idx_facts67 ⟨50 * (i 0).val + 49, hq⟩
  refine ⟨⟨50 * (i 0).val + 49, hq⟩, (flush1_6 _).mpr (by show (50 * (i 0).val + 49) % 50 = 49; omega), ?_⟩
  rw [mem_blk6]
  intro a
  match a with
  | ⟨0, _⟩ =>
    show win1_6.index ⟨50 * (i 0).val + 49, hq⟩ (0 : Fin 3) * 1 ≤ (i 0).val ∧ (i 0).val < win1_6.index ⟨50 * (i 0).val + 49, hq⟩ (0 : Fin 3) * 1 + 1
    rw [f0]; show (50 * (i 0).val + 49) / 50 * 1 ≤ (i 0).val ∧ (i 0).val < (50 * (i 0).val + 49) / 50 * 1 + 1; omega
  | ⟨1, _⟩ =>
    show win1_6.index ⟨50 * (i 0).val + 49, hq⟩ (1 : Fin 3) * 1 ≤ (i 1).val ∧ (i 1).val < win1_6.index ⟨50 * (i 0).val + 49, hq⟩ (1 : Fin 3) * 1 + 1
    rw [f1]; omega
  | ⟨2, _⟩ =>
    show win1_6.index ⟨50 * (i 0).val + 49, hq⟩ (2 : Fin 3) * 128 ≤ (i 2).val ∧ (i 2).val < win1_6.index ⟨50 * (i 0).val + 49, hq⟩ (2 : Fin 3) * 128 + 128
    rw [f2]; omega

/-- The same for the second sum output. -/
theorem cover7 (i : S2x1x128.Idx) :
    ∃ t : Fin cfg1.N, (cfg1.win 7).flush t = true ∧ i ∈ ((cfg1.win 7).blk t).view.set := by
  have hi0 : (i 0).val < 2 := (i 0).isLt
  have hi1 : (i 1).val < 1 := (i 1).isLt
  have hi2 : (i 2).val < 128 := (i 2).isLt
  have hN : cfg1.N = 100 := N_1
  have hq : 50 * (i 0).val + 49 < cfg1.N := by rw [hN]; omega
  obtain ⟨-, -, -, f0, f1, f2⟩ := idx_facts67 ⟨50 * (i 0).val + 49, hq⟩
  refine ⟨⟨50 * (i 0).val + 49, hq⟩, (flush1_7 _).mpr (by show (50 * (i 0).val + 49) % 50 = 49; omega), ?_⟩
  rw [mem_blk7]
  intro a
  match a with
  | ⟨0, _⟩ =>
    show win1_7.index ⟨50 * (i 0).val + 49, hq⟩ (0 : Fin 3) * 1 ≤ (i 0).val ∧ (i 0).val < win1_7.index ⟨50 * (i 0).val + 49, hq⟩ (0 : Fin 3) * 1 + 1
    rw [f0]; show (50 * (i 0).val + 49) / 50 * 1 ≤ (i 0).val ∧ (i 0).val < (50 * (i 0).val + 49) / 50 * 1 + 1; omega
  | ⟨1, _⟩ =>
    show win1_7.index ⟨50 * (i 0).val + 49, hq⟩ (1 : Fin 3) * 1 ≤ (i 1).val ∧ (i 1).val < win1_7.index ⟨50 * (i 0).val + 49, hq⟩ (1 : Fin 3) * 1 + 1
    rw [f1]; omega
  | ⟨2, _⟩ =>
    show win1_7.index ⟨50 * (i 0).val + 49, hq⟩ (2 : Fin 3) * 128 ≤ (i 2).val ∧ (i 2).val < win1_7.index ⟨50 * (i 0).val + 49, hq⟩ (2 : Fin 3) * 128 + 128
    rw [f2]; omega

/-- THE FIRST SUM ARRAY after the run. -/
theorem arrAt6 (c : Dev nD) : (dat V c).arrAt 6 cfg1.N = sumArr V c :=
  (dat V c).arrAt_eq_of_cover 6 (sumArr V c) (flushed6_eq V c) cover6

/-- THE SECOND SUM ARRAY after the run. -/
theorem arrAt7 (c : Dev nD) : (dat V c).arrAt 7 cfg1.N = sqArr V c :=
  (dat V c).arrAt_eq_of_cover 7 (sqArr V c) (flushed7_eq V c) cover7

/-- At half `c'` and channel `o`: the running sum of the layer after the fifty inner steps of that half. -/
theorem arrAt6_apply (c : Dev nD) (c' : Fin 2) (o : Fin 128) :
    (dat V c).arrAt 6 cfg1.N (ix3 c' (0 : Fin 1) o) = Cert.KSpec.run (h2E V c) c' o 49 := by
  rw [arrAt6]; rfl

/-- The same for the layer's square. -/
theorem arrAt7_apply (c : Dev nD) (c' : Fin 2) (o : Fin 128) :
    (dat V c).arrAt 7 cfg1.N (ix3 c' (0 : Fin 1) o) = Cert.KSpec.run (fun e o => h2E V c e o * h2E V c e o) c' o 49 := by
  rw [arrAt7]; rfl

end Cert.KernelIdeal.Layer2V

end
-- ==== Proof.KiProjPay.lean ====
/-
  The output projection's arithmetic at one lane. The body of the third kernel takes a block of 6000 rows of
  activations (128 columns each), scales and shifts every column, clamps below at zero, and contracts the 128 columns
  of each row against one weight row; a bias is added and the 6000 results are laid along the last axis of a
  [1, 1, 6000] block. Read at lane `r` of that block this is the sum over the 128 columns `k` of
  `w k · max (x r k · scale k + shift k) 0`, plus the bias: the widening and narrowing of formats are the identity on
  extended reals, the transposed activations are read back at `(r, k)`, the contraction into the zero accumulator is
  the plain sum over its one contracted axis, and the casts and broadcasts move no value.
-/
import proofs.«128831_j68624987455985_2_alg».proof.Proof.Gen.KernelIdeal.Skeleton
import Idealize.ShloMosaic.Lib.ValueLayout
import Idealize.ShloMosaic.PureOps.Ideal.Laws

noncomputable section

namespace Cert.KernelIdeal.ProjValue

open Idealize.ShloMosaic Idealize.ShloMosaic.ValueIdx
open Cert.KernelIdeal Cert.KernelIdeal.Gen
open scoped BigOperators

/-- The stored block at lane `r`: the weight row contracted against row `r` of the scaled, shifted and clamped
    activations, plus the bias. The zero the clamp compares with is kept as its word. -/
theorem pay_apply (x0 : Vec Ideal S6000x128 .bf16) (x1 x2 : Vec Ideal S1x128 .f32) (x3 : Vec Ideal S1x128 .bf16)
    (x4 : Vec Ideal S1x1 .f32) (r : Fin 6000) :
    k2_pay1 x0 x1 x2 x3 x4 (ix3 (0 : Fin 1) (0 : Fin 1) r)
      = (∑ k : Fin 128, x3 (ix2 (0 : Fin 1) k)
            * max (x0 (ix2 r k) * x1 (ix2 (0 : Fin 1) k) + x2 (ix2 (0 : Fin 1) k)) (Ideal.ofBits .f32 0x00000000#32))
          + x4 (ix2 (0 : Fin 1) (0 : Fin 1)) := by
  unfold k2_pay1
  -- the [1, 6000] row laid as [1, 1, 6000]: lane r is column r
  refine (shapeCast_ab_1ab_apply _ _ (0 : Fin 1) (0 : Fin 1) r).trans ?_
  simp only [shapeCast_self]
  rw [addf_apply]
  refine congrArg₂ (fun a b : EReal => a + b) ?_ ?_
  · -- the contraction into the zero accumulator is the sum over the one contracted axis, of extent 128
    refine (Ideal.matmul_constant_zero_apply dot_S1x128_S128x6000_S1x6000_1_0_0_1_n_n none _ _ (ix2 (0 : Fin 1) r)).trans ?_
    rw [← Equiv.sum_comp (contrEquiv1 dot_S1x128_S128x6000_S1x6000_1_0_0_1_n_n 128 rfl rfl).symm]
    refine Finset.sum_congr rfl fun k _ => ?_
    have ck := contrEquiv1_symm_val dot_S1x128_S128x6000_S1x6000_1_0_0_1_n_n 128 rfl rfl k
    -- the left operand is read at (0, k) …
    have hl : dot_S1x128_S128x6000_S1x6000_1_0_0_1_n_n.lhsIdx (ix2 (0 : Fin 1) r)
        ((contrEquiv1 dot_S1x128_S128x6000_S1x6000_1_0_0_1_n_n 128 rfl rfl).symm k) = ix2 (0 : Fin 1) k := by
      funext ax; apply Fin.ext
      match ax with
      | ⟨0, h0⟩ =>
        have hlt := (dot_S1x128_S128x6000_S1x6000_1_0_0_1_n_n.lhsIdx (ix2 (0 : Fin 1) r)
          ((contrEquiv1 dot_S1x128_S128x6000_S1x6000_1_0_0_1_n_n 128 rfl rfl).symm k) ⟨0, h0⟩).isLt
        exact Nat.lt_one_iff.mp hlt
      | ⟨1, h1⟩ =>
        exact (DotDims.lhsIdx_val_of_single (d := dot_S1x128_S128x6000_S1x6000_1_0_0_1_n_n) (cl := ⟨1, h1⟩) rfl _ _).trans ck
    -- … and the right operand at (k, r)
    have hr : dot_S1x128_S128x6000_S1x6000_1_0_0_1_n_n.rhsIdx (ix2 (0 : Fin 1) r)
        ((contrEquiv1 dot_S1x128_S128x6000_S1x6000_1_0_0_1_n_n 128 rfl rfl).symm k) = ix2 k r := by
      funext ax; apply Fin.ext
      match ax with
      | ⟨0, h0⟩ =>
        exact (DotDims.rhsIdx_val_of_single (d := dot_S1x128_S128x6000_S1x6000_1_0_0_1_n_n) (cr := ⟨0, h0⟩) rfl _ _).trans ck
      | ⟨1, h1⟩ => rfl
    -- the transposed activations at (k, r) are the activations at (r, k); the scale and shift rows are read at column k
    rw [hl, hr, transpose_ix2_apply]
    show x3 (ix2 (0 : Fin 1) k) * max (x0 (ix2 r k) * broadcastTo S6000x128 x1 broadcasts_S1x128_S6000x128 (ix2 r k)
        + broadcastTo S6000x128 x2 broadcasts_S1x128_S6000x128 (ix2 r k)) (Ideal.ofBits .f32 0x00000000#32) = _
    rw [broadcastTo_1b_ab_apply, broadcastTo_1b_ab_apply]
  · -- the one bias entry is read at every lane
    refine broadcastTo_apply x4 _ (ix2 (0 : Fin 1) r) (ix2 (0 : Fin 1) (0 : Fin 1)) fun ax => ?_
    match ax with
    | ⟨0, _⟩ => rfl
    | ⟨1, _⟩ => rfl

end Cert.KernelIdeal.ProjValue

end
-- ==== Proof.KiProjValue.lean ====
/-
  The output projection's result array as one function of the arrays the region is entered with. The grid has 100
  points; point `t` reads rows `6000·t … 6000·t + 5999` of the activations, the same scale row, shift row, weight
  row and bias at every point, and writes slab `t` of the [100, 1, 6000] output. Lane `r` of slab `t` therefore
  holds the projection of edge `6000·t + r`: the sum over the 128 columns `k` of
  `w k · max (h (6000·t + r) k · scale k + shift k) 0`, plus the bias. The 100 slabs tile the output, so after the
  last point the array is that function at every index.
-/
import proofs.«128831_j68624987455985_2_alg».proof.Proof.KiProj
import proofs.«128831_j68624987455985_2_alg».proof.Proof.KiProjPay
import Idealize.ShloMosaic.Lib.Pipeline.Value

noncomputable section

namespace Cert.KernelIdeal.ProjValue

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

/-! ## The result as a function of the arrays -/

/-- The edge that lane `r` of slab `t` holds: row `6000·t + r` of the activations. -/
def edge (t : Fin 100) (r : Fin 6000) : Fin 600000 := ⟨6000 * t.val + r.val, by omega⟩

theorem edge_val (t : Fin 100) (r : Fin 6000) : (edge t r).val = 6000 * t.val + r.val := rfl

/-- The projection of the edge at slab `t`, lane `r`: its activations scaled, shifted and clamped below at zero,
    contracted against the weight row, plus the bias. The zero is kept as its word. -/
def proj (h2 : S600000x128.Idx → Elt Ideal .bf16) (sc sh : S1x128.Idx → Elt Ideal .f32)
    (w3 : S1x128.Idx → Elt Ideal .bf16) (b3 : S1x1.Idx → Elt Ideal .f32) (t : Fin 100) (r : Fin 6000) : EReal :=
  (∑ k : Fin 128, w3 (ix2 (0 : Fin 1) k)
      * max (h2 (ix2 (edge t r) k) * sc (ix2 (0 : Fin 1) k) + sh (ix2 (0 : Fin 1) k)) (Ideal.ofBits .f32 0x00000000#32))
    + b3 (ix2 (0 : Fin 1) (0 : Fin 1))

/-- The whole output array: at slab `j 0`, lane `j 2`, the projection of that edge. -/
def G (h2 : S600000x128.Idx → Elt Ideal .bf16) (sc sh : S1x128.Idx → Elt Ideal .f32)
    (w3 : S1x128.Idx → Elt Ideal .bf16) (b3 : S1x1.Idx → Elt Ideal .f32) : S100x1x6000.Idx → Elt Ideal .f32 :=
  fun j => proj h2 sc sh w3 b3 (j 0) (j 2)

/-- `G` at an index given by its coordinates, written out. -/
theorem G_ix3 (h2 : S600000x128.Idx → Elt Ideal .bf16) (sc sh : S1x128.Idx → Elt Ideal .f32)
    (w3 : S1x128.Idx → Elt Ideal .bf16) (b3 : S1x1.Idx → Elt Ideal .f32) (t : Fin 100) (u : Fin 1) (r : Fin 6000) :
    G h2 sc sh w3 b3 (ix3 t u r)
      = (∑ k : Fin 128, w3 (ix2 (0 : Fin 1) k)
          * max (h2 (ix2 (⟨6000 * t.val + r.val, by omega⟩ : Fin 600000) k) * sc (ix2 (0 : Fin 1) k) + sh (ix2 (0 : Fin 1) k)) (Ideal.ofBits .f32 0x00000000#32))
        + b3 (ix2 (0 : Fin 1) (0 : Fin 1)) := rfl

variable (V : (c : Dev nD) → (b : Ref sig .tc) → Buf (Elt Ideal) ((c : Thread nD τ).loc b))

/-! ## The blocks a point reads -/

/-- Zero offsets on two axes, however spelt. -/
theorem hz2 : (![0, 0] : Fin 2 → Nat) = fun _ => 0 := funext fun a => by fin_cases a <;> rfl
/-- Zero offsets on three axes, however spelt. -/
theorem hz3 : (![0, 0, 0] : Fin 3 → Nat) = fun _ => 0 := funext fun a => by fin_cases a <;> rfl

/-- The block indices at every one of the 100 points: the activations' and the output's leading block index is the
    point's own number, every other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val ∧ win2_5.index t (1 : Fin 3) = 0 ∧ win2_5.index t (2 : Fin 3) = 0 :=
  (by decide +kernel : ∀ t : Fin grid2.N, _)

/-- Block `t` of the activations is rows `6000·t …` of the array: its entry `(r, k)` is the array's at
    `(6000·t + r, k)`. -/
theorem iblk0_apply (c : Dev nD) (t : Fin cfg2.N) (t' : Fin 100) (ht : t'.val = t.val) (r : Fin 6000) (k : Fin 128) :
    (Proj.iblk V c 0 t : Vec Ideal S6000x128 .bf16) (ix2 r k)
      = (V c main_v52_0 : S600000x128.Idx → Elt Ideal .bf16) (ix2 (edge t' r) k) := by
  obtain ⟨e0, e1, -⟩ := idx_facts t
  unfold Proj.iblk
  rw [View.read_apply]
  show V c main_v52_0 _ = V c main_v52_0 _
  refine congrArg (V c main_v52_0) ?_
  funext a
  apply Fin.ext
  match a with
  | ⟨0, _⟩ => show win2_0.index t (0 : Fin 2) * 6000 + 1 * r.val = 6000 * t'.val + r.val; rw [e0, ht]; omega
  | ⟨1, _⟩ => show win2_0.index t (1 : Fin 2) * 128 + 1 * k.val = k.val; rw [e1]; omega

/-- The scale row's block at any point is the row itself. -/
theorem iblk1_apply (c : Dev nD) (t : Fin cfg2.N) (k : Fin 128) :
    (Proj.iblk V c 1 t : Vec Ideal S1x128 .f32) (ix2 (0 : Fin 1) k)
      = (V c main_v69 : S1x128.Idx → Elt Ideal .f32) (ix2 (0 : Fin 1) k) := by
  obtain ⟨-, -, e0, e1, -⟩ := idx_facts t
  unfold Proj.iblk
  rw [View.read_apply]
  show V c main_v69 _ = V c main_v69 _
  refine congrArg (V c main_v69) ?_
  funext a
  apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- The shift row's block at any point is the row itself. -/
theorem iblk2_apply (c : Dev nD) (t : Fin cfg2.N) (k : Fin 128) :
    (Proj.iblk V c 2 t : Vec Ideal S1x128 .f32) (ix2 (0 : Fin 1) k)
      = (V c main_v72 : S1x128.Idx → Elt Ideal .f32) (ix2 (0 : Fin 1) k) := by
  obtain ⟨-, -, -, -, e0, e1, -⟩ := idx_facts t
  unfold Proj.iblk
  rw [View.read_apply]
  show V c main_v72 _ = V c main_v72 _
  refine congrArg (V c main_v72) ?_
  funext a
  apply Fin.ext
  match a with
  | ⟨0, _⟩ => show win2_2.index t (0 : Fin 2) * 1 + 1 * 0 = 0; rw [e0]
  | ⟨1, _⟩ => show win2_2.index t (1 : Fin 2) * 128 + 1 * k.val = k.val; rw [e1]; omega

/-- The weight row's block at any point is the row itself. -/
theorem iblk3_apply (c : Dev nD) (t : Fin cfg2.N) (k : Fin 128) :
    (Proj.iblk V c 3 t : Vec Ideal S1x128 .bf16) (ix2 (0 : Fin 1) k)
      = (V c main_v29 : S1x128.Idx → Elt Ideal .bf16) (ix2 (0 : Fin 1) k) := by
  obtain ⟨-, -, -, -, -, -, e0, e1, -⟩ := idx_facts t
  unfold Proj.iblk
  rw [View.read_apply]
  show V c main_v29 _ = V c main_v29 _
  refine congrArg (V c main_v29) ?_
  funext a
  apply Fin.ext
  match a with
  | ⟨0, _⟩ => show win2_3.index t (0 : Fin 2) * 1 + 1 * 0 = 0; rw [e0]
  | ⟨1, _⟩ => show win2_3.index t (1 : Fin 2) * 128 + 1 * k.val = k.val; rw [e1]; omega

/-- The bias' block at any point is the bias. -/
theorem iblk4_apply (c : Dev nD) (t : Fin cfg2.N) :
    (Proj.iblk V c 4 t : Vec Ideal S1x1 .f32) (ix2 (0 : Fin 1) (0 : Fin 1))
      = (V c main_v30 : S1x1.Idx → Elt Ideal .f32) (ix2 (0 : Fin 1) (0 : Fin 1)) := by
  obtain ⟨-, -, -, -, -, -, -, -, e0, e1, -⟩ := idx_facts t
  unfold Proj.iblk
  rw [View.read_apply]
  show V c main_v30 _ = V c main_v30 _
  refine congrArg (V c main_v30) ?_
  funext a
  apply Fin.ext
  match a with
  | ⟨0, _⟩ => show win2_4.index t (0 : Fin 2) * 1 + 1 * 0 = 0; rw [e0]
  | ⟨1, _⟩ => show win2_4.index t (1 : Fin 2) * 1 + 1 * 0 = 0; rw [e1]

/-! ## What a point writes back -/

/-- Blocks that are rows `6000·t …` of the activations and the four small arrays themselves give, at the block
    index `q`, the whole-array function at any array index `j` in slab `t` with `q`'s lane. -/
theorem point_eq (h2 : S600000x128.Idx → Elt Ideal .bf16) (sc sh : S1x128.Idx → Elt Ideal .f32)
    (w3 : S1x128.Idx → Elt Ideal .bf16) (b3 : S1x1.Idx → Elt Ideal .f32)
    (x0 : Vec Ideal S6000x128 .bf16) (x1 x2 : Vec Ideal S1x128 .f32) (x3 : Vec Ideal S1x128 .bf16) (x4 : Vec Ideal S1x1 .f32)
    (t : Fin 100)
    (e0 : ∀ (r : Fin 6000) (k : Fin 128), x0 (ix2 r k) = h2 (ix2 (edge t r) k))
    (e1 : ∀ k : Fin 128, x1 (ix2 (0 : Fin 1) k) = sc (ix2 (0 : Fin 1) k))
    (e2 : ∀ k : Fin 128, x2 (ix2 (0 : Fin 1) k) = sh (ix2 (0 : Fin 1) k))
    (e3 : ∀ k : Fin 128, x3 (ix2 (0 : Fin 1) k) = w3 (ix2 (0 : Fin 1) k))
    (e4 : x4 (ix2 (0 : Fin 1) (0 : Fin 1)) = b3 (ix2 (0 : Fin 1) (0 : Fin 1)))
    (q : S1x1x6000.Idx) (j : S100x1x6000.Idx) (hj0 : (j 0).val = t.val) (hj2 : (j 2).val = (q 2).val) :
    k2_pay1 x0 x1 x2 x3 x4 q = G h2 sc sh w3 b3 j := by
  obtain ⟨r, rfl⟩ : ∃ r : Fin 6000, q = ix3 (0 : Fin 1) (0 : Fin 1) r := ⟨⟨(q 2).val, (q 2).isLt⟩, by
    funext a; apply Fin.ext
    match a with
    | ⟨0, _⟩ => exact Nat.lt_one_iff.mp (q 0).isLt
    | ⟨1, _⟩ => exact Nat.lt_one_iff.mp (q 1).isLt
    | ⟨2, _⟩ => rfl⟩
  obtain rfl : j = ix3 t (0 : Fin 1) r := by
    funext a; apply Fin.ext
    match a with
    | ⟨0, _⟩ => exact hj0
    | ⟨1, _⟩ => exact Nat.lt_one_iff.mp (j 1).isLt
    | ⟨2, _⟩ => exact hj2
  rw [pay_apply]
  show _ = proj h2 sc sh w3 b3 t r
  unfold proj
  rw [e4]
  refine congrArg (fun s : EReal => s + b3 (ix2 (0 : Fin 1) (0 : Fin 1))) ?_
  refine Finset.sum_congr rfl fun k _ => ?_
  rw [e0, e1, e2, e3]

/-- Point `t` writes back slab `t` of `G` of the arrays the region is entered with. -/
theorem flushed_eq (c : Dev nD) (t : Fin cfg2.N) :
    (Proj.dat (F := Ideal) V c).flushed 5 t = ((cfg2.win 5).blk t).view.read (Elt Ideal)
      (G (V c main_v52_0) (V c main_v69) (V c main_v72) (V c main_v29) (V c main_v30)) := by
  show (cfg2.win 5).cut (grid2.coords t) ((Proj.dat (F := Ideal) V c).after 5 t) = _
  rw [Proj.after_5]
  unfold Proj.out5
  rw [View.canon_unit_zero hz3]
  simp only [View.ld_unit_zero (S := S6000x128) hz2, View.ld_unit_zero (S := S1x128) hz2, View.ld_unit_zero (S := S1x1) hz2]
  have htN : t.val < 100 := lt_of_lt_of_eq t.isLt N_2
  obtain ⟨-, -, -, -, -, -, -, -, -, -, f0, f1, f2⟩ := idx_facts t
  funext y
  rw [View.read_apply]
  refine point_eq (V c main_v52_0) (V c main_v69) (V c main_v72) (V c main_v29) (V c main_v30)
    (Proj.iblk V c 0 t) (Proj.iblk V c 1 t) (Proj.iblk V c 2 t) (Proj.iblk V c 3 t) (Proj.iblk V c 4 t) ⟨t.val, htN⟩
    (fun r k => iblk0_apply V c t ⟨t.val, htN⟩ rfl r k) (fun k => iblk1_apply V c t k) (fun k => iblk2_apply V c t k)
    (fun k => iblk3_apply V c t k) (iblk4_apply V c t)
    ((cfg2.win 5).xinj (grid2.coords t) y) (((cfg2.win 5).blk t).view.emb y) ?_ ?_
  · have hy0 : (y 0).val < 1 := (y 0).isLt
    show win2_5.index t (0 : Fin 3) * 1 + 1 * (y 0).val = t.val
    rw [f0]; omega
  · show win2_5.index t (2 : Fin 3) * 6000 + 1 * (y 2).val = (y 2).val
    rw [f2]; omega

/-! ## The slabs tile the output -/

/-- An index of the output is in point `t`'s block iff each coordinate is in the block's range on its axis. -/
theorem mem_blk (t : Fin cfg2.N) (i : S100x1x6000.Idx) :
    i ∈ ((cfg2.win 5).blk t).view.set ↔ ∀ a : Fin 3, win2_5.index t a * S1x1x6000.size a ≤ (i a).val
      ∧ (i a).val < win2_5.index t a * S1x1x6000.size a + S1x1x6000.size a := by
  show i ∈ ((View.whole main_v73).slice (win2_5.rect t)).set ↔ _
  rw [View.set_slice_whole, Rect.mem_set_unit]
  exact Iff.rfl

/-- Every index `i` of the output is in the block of the point numbered by its first coordinate. -/
theorem cover (i : S100x1x6000.Idx) : ∃ t : Fin cfg2.N, (cfg2.win 5).flush t = true ∧ i ∈ ((cfg2.win 5).blk t).view.set := by
  have hi0 : (i 0).val < 100 := (i 0).isLt
  have hi1 : (i 1).val < 1 := (i 1).isLt
  have hi2 : (i 2).val < 6000 := (i 2).isLt
  have hN : (i 0).val < cfg2.N := lt_of_lt_of_eq hi0 N_2.symm
  refine ⟨⟨(i 0).val, hN⟩, flush2_5 _, ?_⟩
  rw [mem_blk]
  obtain ⟨-, -, -, -, -, -, -, -, -, -, f0, f1, f2⟩ := idx_facts ⟨(i 0).val, hN⟩
  intro a
  match a with
  | ⟨0, _⟩ =>
    show win2_5.index ⟨(i 0).val, hN⟩ (0 : Fin 3) * 1 ≤ (i 0).val ∧ (i 0).val < win2_5.index ⟨(i 0).val, hN⟩ (0 : Fin 3) * 1 + 1
    rw [f0]; show (i 0).val * 1 ≤ (i 0).val ∧ (i 0).val < (i 0).val * 1 + 1; omega
  | ⟨1, _⟩ =>
    show win2_5.index ⟨(i 0).val, hN⟩ (1 : Fin 3) * 1 ≤ (i 1).val ∧ (i 1).val < win2_5.index ⟨(i 0).val, hN⟩ (1 : Fin 3) * 1 + 1
    rw [f1]; omega
  | ⟨2, _⟩ =>
    show win2_5.index ⟨(i 0).val, hN⟩ (2 : Fin 3) * 6000 ≤ (i 2).val ∧ (i 2).val < win2_5.index ⟨(i 0).val, hN⟩ (2 : Fin 3) * 6000 + 6000
    rw [f2]; omega

/-! ## The array after the last point -/

/-- After the 100 points the output array is `G` of the arrays the region is entered with. -/
theorem final (c : Dev nD) :
    (Proj.dat (F := Ideal) V c).arrAt 5 cfg2.N
      = G (V c main_v52_0) (V c main_v69) (V c main_v72) (V c main_v29) (V c main_v30) :=
  (Proj.dat (F := Ideal) V c).arrAt_eq_of_cover 5 (G (V c main_v52_0) (V c main_v69) (V c main_v72) (V c main_v29) (V c main_v30))
    (fun t _ => flushed_eq V c t) cover

/-- The same with the index spelt. -/
theorem final_fun (c : Dev nD) :
    (Proj.dat (F := Ideal) V c).arrAt 5 cfg2.N
      = fun j => G (V c main_v52_0) (V c main_v69) (V c main_v72) (V c main_v29) (V c main_v30) j :=
  final V c

/-- The output at slab `t`, lane `r`: the projection of edge `6000·t + r`. -/
theorem final_apply (c : Dev nD) (t : Fin 100) (u : Fin 1) (r : Fin 6000) :
    ((Proj.dat (F := Ideal) V c).arrAt 5 cfg2.N : S100x1x6000.Idx → Elt Ideal .f32) (ix3 t u r)
      = proj (V c main_v52_0) (V c main_v69) (V c main_v72) (V c main_v29) (V c main_v30) t r := by
  rw [final V c]
  rfl

end Cert.KernelIdeal.ProjValue

end
-- ==== Proof.KSums.lean ====
/-
  Two regroupings of sums, valid on the extended reals without any finiteness (only commutativity and associativity of
  addition and its neutral zero are used).

  * The 600000 edges are the triples (half, block, row): edge `6000·(50·c + i) + r` determines `c = e / 300000`,
    `i = e / 6000 mod 50`, `r = e mod 6000` and is determined by them.  Hence a sum over the halves of the sums over
    a half's blocks of the sums over a block's rows is the sum over all edges; a running sum that starts at zero and takes
    in one block's sum per step is, after the fiftieth step, the sum over the half's blocks; and the column total the
    kernel accumulates is the plain column sum.
  * A sum over 256 columns is the sum over the first 128 plus the sum over the last 128, and the feature row of an edge
    is the source node's row on the first 128 columns and the target node's on the last: the first layer's two half
    contractions add up to the reference's one contraction.
-/
import proofs.«128831_j68624987455985_2_alg».proof.Proof.KSpec
import Idealize.ShloMosaic.PureOps.Ideal.Laws

noncomputable section

open scoped BigOperators

namespace Cert.KSpec

open Idealize.ShloMosaic Idealize.ShloMosaic.ValueIdx
open Cert.RefSpec (node)

/-- The edges as triples (half, block of the half, row of the block). -/
def edgeEquiv : Fin 2 × Fin 50 × Fin 6000 ≃ Fin 600000 where
  toFun p := edge p.1 p.2.1 p.2.2
  invFun e := (⟨e.val / 300000, by have := e.isLt; omega⟩, ⟨e.val / 6000 % 50, Nat.mod_lt _ (by decide)⟩,
    ⟨e.val % 6000, Nat.mod_lt _ (by decide)⟩)
  left_inv := by
    rintro ⟨c, i, r⟩
    have := c.isLt; have := i.isLt; have := r.isLt
    refine Prod.ext (Fin.ext ?_) (Prod.ext (Fin.ext ?_) (Fin.ext ?_))
    · show (6000 * (50 * c.val + i.val) + r.val) / 300000 = c.val
      omega
    · show (6000 * (50 * c.val + i.val) + r.val) / 6000 % 50 = i.val
      omega
    · show (6000 * (50 * c.val + i.val) + r.val) % 6000 = r.val
      omega
  right_inv := by
    intro e
    refine Fin.ext ?_
    show 6000 * (50 * (e.val / 300000) + e.val / 6000 % 50) + e.val % 6000 = e.val
    omega

/-- Summing over halves, blocks and rows is summing over the edges. -/
theorem sum_edges (F : Fin 600000 → EReal) :
    ∑ c : Fin 2, ∑ i : Fin 50, ∑ r : Fin 6000, F (edge c i r) = ∑ e : Fin 600000, F e := by
  rw [← Equiv.sum_comp edgeEquiv F, Fintype.sum_prod_type]
  refine Finset.sum_congr rfl fun c _ => ?_
  rw [Fintype.sum_prod_type]
  exact Finset.sum_congr rfl fun i _ => Finset.sum_congr rfl fun r _ => rfl

/-- A block's column sum with the block numbered by a natural: nothing from block 50 on. -/
def blockSumN (f : Fin 600000 → Fin 128 → EReal) (c : Fin 2) (o : Fin 128) (j : ℕ) : EReal :=
  if h : j < 50 then blockSum f c o ⟨j, h⟩ else 0

/-- After step `i` the running sum is the sum of the block sums up to block `i`. -/
theorem run_eq_range (f : Fin 600000 → Fin 128 → EReal) (c : Fin 2) (o : Fin 128) (i : ℕ) :
    run f c o i = ∑ j ∈ Finset.range (i + 1), blockSumN f c o j := by
  induction i with
  | zero =>
    show run f c o 0 = ∑ j ∈ Finset.range 1, blockSumN f c o j
    rw [Finset.sum_range_one, run, Ideal.ofBits_zero_f32, zero_add, blockSumN, dif_pos (by decide : 0 < 50)]
    rfl
  | succ i ih =>
    rw [Finset.sum_range_succ, ← ih, run]
    rfl

/-- After the last step the running sum is the sum over the half's fifty blocks. -/
theorem run_last (f : Fin 600000 → Fin 128 → EReal) (c : Fin 2) (o : Fin 128) :
    run f c o 49 = ∑ i : Fin 50, blockSum f c o i := by
  rw [run_eq_range]
  show ∑ j ∈ Finset.range 50, blockSumN f c o j = ∑ i : Fin 50, blockSum f c o i
  rw [← Fin.sum_univ_eq_sum_range (fun j => blockSumN f c o j) 50]
  refine Finset.sum_congr rfl fun i _ => ?_
  rw [blockSumN, dif_pos i.isLt]

/-- The accumulated column total is the column sum. -/
theorem total_eq (f : Fin 600000 → Fin 128 → EReal) (o : Fin 128) : total f o = ∑ e : Fin 600000, f e o := by
  unfold total
  rw [Ideal.ofBits_zero_f32, zero_add, ← sum_edges (fun e => f e o)]
  refine Finset.sum_congr rfl fun c _ => ?_
  rw [run_last]
  rfl

/-- A sum over 256 columns is the sum over the first 128 plus the sum over the last 128. -/
theorem sum_256_split (F : Fin 256 → EReal) :
    ∑ k : Fin 256, F k
      = (∑ k : Fin 128, F ⟨k.val, by have := k.isLt; omega⟩) + ∑ k : Fin 128, F ⟨128 + k.val, by have := k.isLt; omega⟩ :=
  Fin.sum_univ_add (fun k : Fin (128 + 128) => F k)

variable (x : FVec Ideal ⟨2, ![50000, 128]⟩ .f32) (ei : IVec ⟨2, ![2, 600000]⟩ 32)
  (W1 : FVec Ideal ⟨2, ![128, 256]⟩ .f32) (b1 : FVec Ideal ⟨1, ![128]⟩ .f32)

/-- On the first 128 columns an edge's feature row is its source node's row. -/
theorem row_lo (e : Fin 600000) (k : Fin 128) :
    Cert.RefSpec.row x ei e ⟨k.val, by have := k.isLt; omega⟩ = x (ix2 (node ei 0 e) k) := by
  unfold Cert.RefSpec.row
  rw [dif_pos (show k.val < 128 from k.isLt)]

/-- On the last 128 columns an edge's feature row is its target node's row. -/
theorem row_hi (e : Fin 600000) (k : Fin 128) :
    Cert.RefSpec.row x ei e ⟨128 + k.val, by have := k.isLt; omega⟩ = x (ix2 (node ei 1 e) k) := by
  unfold Cert.RefSpec.row
  rw [dif_neg (show ¬ 128 + k.val < 128 by omega)]
  exact congrArg (fun j : Fin 128 => x (ix2 (node ei 1 e) j)) (Fin.ext (show 128 + k.val - 128 = k.val by omega))

/-- The first layer's two half contractions are the reference's one contraction over the joined row. -/
theorem h1_eq (e : Fin 600000) (o : Fin 128) : h1 x ei W1 b1 e o = Cert.RefSpec.h1 x ei W1 b1 e o := by
  unfold h1 Cert.RefSpec.h1 Cert.RefSpec.affine
  rw [sum_256_split]
  simp only [row_lo, row_hi]

end Cert.KSpec

end
-- ==== Proof.KGlue.lean ====
/-
  Restatements of the kernel-side specification for rewriting, and two facts about edge numbers.

  An edge number `e` below 600000 is `6000·(e / 6000) + e mod 6000`: block `e / 6000` (of 100) and row `e mod 6000`
  (of 6000) name it; and it is row `e mod 6000` of block `e / 6000 mod 50` of half `e / 300000`.  The statistics of a
  column are written out over the two halves' final running sums: the mean is zero plus the two partial sums over the
  edge count, the variance the same for the squares less the squared mean, and so on down to the result.  Every
  restatement is the definition itself.
-/
import proofs.«128831_j68624987455985_2_alg».proof.Proof.KSpec
import proofs.«128831_j68624987455985_2_alg».proof.Proof.KSums

noncomputable section

open scoped BigOperators

namespace Cert.KSpec

open Idealize.ShloMosaic Idealize.ShloMosaic.ValueIdx
open Cert.RefSpec (node)

/-! ## Edge numbers -/

/-- An edge number is 6000 times its block number plus its row number. -/
theorem div_mod_val (e : Fin 600000) : 6000 * (e.val / 6000) + e.val % 6000 = e.val := Nat.div_add_mod _ _

/-- The block number of an edge is below 100. -/
theorem div_lt (e : Fin 600000) : e.val / 6000 < 100 := by have := e.isLt; omega

/-- The row number of an edge is below 6000. -/
theorem mod_lt (e : Fin 600000) : e.val % 6000 < 6000 := Nat.mod_lt _ (by decide)

/-- Row `e mod 6000` of block `e / 6000` is edge `e`: for any block `t` and row `r` with those values. -/
theorem edge_of_div_mod (e : Fin 600000) (t : Fin 100) (r : Fin 6000) (ht : t.val = e.val / 6000) (hr : r.val = e.val % 6000)
    (h : 6000 * t.val + r.val < 600000) : (⟨6000 * t.val + r.val, h⟩ : Fin 600000) = e :=
  Fin.ext (by show 6000 * t.val + r.val = e.val; rw [ht, hr]; exact Nat.div_add_mod _ _)

/-- The same with the block and the row written as the quotient and the remainder, whatever the proofs of their bounds. -/
theorem edge_div_mod (e : Fin 600000) (h1 : e.val / 6000 < 100) (h2 : e.val % 6000 < 6000)
    (h : 6000 * (⟨e.val / 6000, h1⟩ : Fin 100).val + (⟨e.val % 6000, h2⟩ : Fin 6000).val < 600000) :
    (⟨6000 * (⟨e.val / 6000, h1⟩ : Fin 100).val + (⟨e.val % 6000, h2⟩ : Fin 6000).val, h⟩ : Fin 600000) = e :=
  edge_of_div_mod e ⟨e.val / 6000, h1⟩ ⟨e.val % 6000, h2⟩ rfl rfl h

/-- The number of row `r` of block `i` of half `c`. -/
theorem edge_val (c : Fin 2) (i : Fin 50) (r : Fin 6000) : (edge c i r).val = 6000 * (50 * c.val + i.val) + r.val := rfl

/-- Edge `e` is row `e mod 6000` of block `e / 6000 mod 50` of half `e / 300000`, whatever the proofs of the bounds. -/
theorem edge_of_halves (e : Fin 600000) (h0 : e.val / 300000 < 2) (h1 : e.val / 6000 % 50 < 50) (h2 : e.val % 6000 < 6000) :
    edge ⟨e.val / 300000, h0⟩ ⟨e.val / 6000 % 50, h1⟩ ⟨e.val % 6000, h2⟩ = e :=
  Fin.ext (by
    show 6000 * (50 * (e.val / 300000) + e.val / 6000 % 50) + e.val % 6000 = e.val
    omega)

/-! ## The definitions, restated -/

variable (f : Fin 600000 → Fin 128 → EReal) (g be : FVec Ideal ⟨1, ![128]⟩ .f32)

theorem blockSum_def (c : Fin 2) (o : Fin 128) (i : Fin 50) : blockSum f c o i = ∑ r : Fin 6000, f (edge c i r) o := rfl

theorem total_def (o : Fin 128) : total f o = Ideal.ofBits .f32 0x00000000#32 + ∑ c' : Fin 2, run f c' o 49 := rfl

theorem mean_def (o : Fin 128) :
    mean f o = Ideal.div (Ideal.ofBits .f32 0x00000000#32 + ∑ c' : Fin 2, run f c' o 49) (Ideal.ofBits .f32 0x49127C00#32) := rfl

theorem var_def (o : Fin 128) :
    var f o = Ideal.div (Ideal.ofBits .f32 0x00000000#32 + ∑ c' : Fin 2, run (fun e o => f e o * f e o) c' o 49)
        (Ideal.ofBits .f32 0x49127C00#32) - mean f o * mean f o := rfl

theorem inv_def (o : Fin 128) : inv f o = Ideal.rsqrt (var f o + Ideal.ofBits .f32 0x3727C5AC#32) := rfl

theorem scale_def (o : Fin 128) : scale f g o = g (ix1 o) * Ideal.rsqrt (var f o + Ideal.ofBits .f32 0x3727C5AC#32) := rfl

theorem shift_def (o : Fin 128) : shift f g be o = be (ix1 o) - mean f o * scale f g o := rfl

theorem bnrelu_def (e : Fin 600000) (o : Fin 128) :
    bnrelu f g be e o = max (f e o * scale f g o + shift f g be o) (Ideal.ofBits .f32 0x00000000#32) := rfl

variable (x : FVec Ideal ⟨2, ![50000, 128]⟩ .f32) (ei : IVec ⟨2, ![2, 600000]⟩ 32)
  (W1 : FVec Ideal ⟨2, ![128, 256]⟩ .f32) (b1 g1 be1 : FVec Ideal ⟨1, ![128]⟩ .f32)
  (W2 : FVec Ideal ⟨2, ![128, 128]⟩ .f32) (b2 g2 be2 : FVec Ideal ⟨1, ![128]⟩ .f32)
  (W3 : FVec Ideal ⟨2, ![1, 128]⟩ .f32) (b3 : FVec Ideal ⟨1, ![1]⟩ .f32)

theorem h1_def (e : Fin 600000) (o : Fin 128) :
    h1 x ei W1 b1 e o
      = ((∑ k : Fin 128, x (ix2 (node ei 0 e) k) * W1 (ix2 o (⟨k.val, by have := k.isLt; omega⟩ : Fin 256)))
          + (∑ k : Fin 128, x (ix2 (node ei 1 e) k) * W1 (ix2 o (⟨128 + k.val, by have := k.isLt; omega⟩ : Fin 256))))
        + b1 (ix1 o) := rfl

theorem y1_def : y1 x ei W1 b1 g1 be1 = bnrelu (h1 x ei W1 b1) g1 be1 := rfl

theorem h2_def (e : Fin 600000) (o : Fin 128) :
    h2 x ei W1 b1 g1 be1 W2 b2 e o = (∑ k : Fin 128, y1 x ei W1 b1 g1 be1 e k * W2 (ix2 o k)) + b2 (ix1 o) := rfl

theorem y2_def : y2 x ei W1 b1 g1 be1 W2 b2 g2 be2 = bnrelu (h2 x ei W1 b1 g1 be1 W2 b2) g2 be2 := rfl

theorem out_def (e : Fin 600000) :
    out x ei W1 b1 g1 be1 W2 b2 g2 be2 W3 b3 e
      = (∑ k : Fin 128, W3 (ix2 (0 : Fin 1) k) * y2 x ei W1 b1 g1 be1 W2 b2 g2 be2 e k) + b3 (ix1 (0 : Fin 1)) := rfl

end Cert.KSpec

end
-- ==== Proof.KReal.lean ====
/-
  Extended reals that are real numbers, and the operations that keep them so.

  Sums, differences, products and maxima of real numbers are real numbers, and so is a finite sum of them.  On the
  extended reals this is what lets a law of the real field (distributivity, cancelling) be used: each quantity is first
  shown to be the image of a real.
-/
import Mathlib.Data.EReal.Basic
import Mathlib.Algebra.BigOperators.Group.Finset.Basic

noncomputable section

open scoped BigOperators

namespace Cert.KSpec

/-- An extended real that is the image of a real number. -/
def IsReal (v : EReal) : Prop := ∃ r : ℝ, v = (r : EReal)

theorem IsReal.coe (r : ℝ) : IsReal (r : EReal) := ⟨r, rfl⟩

theorem IsReal.zero : IsReal (0 : EReal) := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases max_choice a b with h | h <;> rw [h] <;> assumption

/-- A finite sum of reals is a real. -/
theorem IsReal.sum {ι : Type*} (s : Finset ι) (f : ι → EReal) (hf : ∀ i, IsReal (f i)) : IsReal (∑ i ∈ s, f i) := by
  classical
  refine Finset.induction_on s ⟨0, by simp⟩ ?_
  intro a s ha ih
  rw [Finset.sum_insert ha]
  exact (hf a).add ih

end Cert.KSpec

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.KNorm.lean ====
/-
  The two spellings of batch normalisation agree on a column of real entries.

  The kernel normalises a column by one multiplication and one addition, `h · (g · r) + (be − μ · (g · r))` with
  `r = rsqrt(E[h²] − μ² + ε)`, the mean `μ` and the mean of squares `E[h²]` taken from accumulated totals; the reference
  centres first, `(h − μ) · rsqrt(E[(h − μ)²] + ε) · g + be`.  The accumulated totals are the plain column sums, the edge
  count's bit pattern is the real 600000 and the offset's a positive real, the reference's divisor `600000 − 0` is
  positive so its variance is the quotient and not the fallback; what is left is the identity between the two
  spellings over the reals (mean of squares less squared mean is the mean squared deviation, whose sum with a positive
  offset is positive, so the reciprocal root is a real; then distributivity).  It needs every entry of the column, `g`
  and `be` to be real: at an infinite entry distributivity fails.  The common value is a real, and so is its maximum
  with zero.
-/
import proofs.«128831_j68624987455985_2_alg».proof.Proof.KSpec
import proofs.«128831_j68624987455985_2_alg».proof.Proof.KReal
import proofs.«128831_j68624987455985_2_alg».proof.Proof.KSums
import proofs.«128831_j68624987455985_2_alg».proof.Proof.LibBatchNormForms
import Idealize.ShloMosaic.PureOps.Ideal.Laws

noncomputable section

open scoped BigOperators

namespace Cert.KSpec

open Idealize.ShloMosaic Idealize.ShloMosaic.ValueIdx

/-- The edge count's bit pattern is the real 600000: exponent 146 − 127 = 19, significand 2²³ + 1211392, so
    9600000 · 2⁻⁴. -/
theorem count_word : Ideal.ofBits .f32 0x49127C00#32 = ((600000 : ℝ) : EReal) := by
  simp [Ideal.ofBits, Ideal.ieee, -EReal.coe_mul]; norm_num

/-- The variance offset's bit pattern is a positive real: exponent 110 − 127 = −17, significand 2²³ + 2606508, so
    10995116 · 2⁻⁴⁰. -/
theorem eps_word : ∃ ε : ℝ, 0 < ε ∧ Ideal.ofBits .f32 0x3727C5AC#32 = (ε : EReal) := by
  refine ⟨10995116 * (2 : ℝ) ^ (-40 : ℤ), by positivity, ?_⟩
  simp [Ideal.ofBits, Ideal.ieee, -EReal.coe_mul]

/-- The reference's divisor of the variance, the edge count less the integer zero, is the real 600000. -/
theorem varCount_eq : Cert.RefSpec.varCount = ((600000 : ℝ) : EReal) := by
  unfold Cert.RefSpec.varCount
  rw [count_word]
  have h0 : (((0#32 : BitVec 32).toInt : ℝ) : EReal) = 0 := by simp
  rw [h0, sub_zero]

/-- The reference's test "the divisor is positive" succeeds. -/
theorem cmp_varCount : Ideal.cmp .ogt Cert.RefSpec.varCount (Ideal.ofBits .f32 0x00000000#32) = 1#1 := by
  rw [varCount_eq, Ideal.ofBits_zero_f32]
  have h : (0 : EReal) < ((600000 : ℝ) : EReal) := by exact_mod_cast (by norm_num : (0 : ℝ) < 600000)
  simp [Ideal.cmp, h]

/-- On a family of real columns with real `g` and `be`, the kernel's normalised and clipped value is the reference's,
    and it is a real. -/
theorem bnrelu_eq (f : Fin 600000 → Fin 128 → EReal) (g be : FVec Ideal ⟨1, ![128]⟩ .f32)
    (hf : ∀ e o, IsReal (f e o)) (hg : ∀ i, IsReal (g i)) (hbe : ∀ i, IsReal (be i)) (e : Fin 600000) (o : Fin 128) :
    bnrelu f g be e o = Cert.RefSpec.bnrelu f g be e o ∧ IsReal (Cert.RefSpec.bnrelu f g be e o) := by
  obtain ⟨ε, hε, hew⟩ := eps_word
  have hf' : ∀ e, ∃ r : ℝ, f e o = (r : EReal) := fun e => hf e o
  choose hr hhr using hf'
  obtain ⟨γ, hγ⟩ : ∃ r : ℝ, g (ix1 o) = (r : EReal) := hg (ix1 o)
  obtain ⟨β, hβ⟩ : ∃ r : ℝ, be (ix1 o) = (r : EReal) := hbe (ix1 o)
  -- the two spellings over the reals, both with the column sums, the real 600000 and the real offset in place
  have key := Cert.Lib.bn_ereal (fun e => f e o) hr hhr (600000 : ℝ) (by norm_num) (by simp) γ β ε hε e
  -- the reference's mean and variance with the literals evaluated
  have hm : Cert.RefSpec.mean f o = Ideal.div (0 + ∑ e, f e o) ((600000 : ℝ) : EReal) := by
    unfold Cert.RefSpec.mean
    rw [Ideal.ofBits_zero_f32, count_word]
  have hv : Cert.RefSpec.var f o
      = Ideal.div (0 + ∑ e', (f e' o - Cert.RefSpec.mean f o) * (f e' o - Cert.RefSpec.mean f o)) ((600000 : ℝ) : EReal) := by
    unfold Cert.RefSpec.var
    rw [cmp_varCount, varCount_eq, Ideal.ofBits_zero_f32]
    exact if_pos rfl
  -- the reference's value before the clip is a real
  have hreal : IsReal ((f e o - Cert.RefSpec.mean f o) * Ideal.rsqrt (Cert.RefSpec.var f o + Ideal.ofBits .f32 0x3727C5AC#32)
      * g (ix1 o) + be (ix1 o)) := by
    rw [hv, hm, hew, hγ, hβ]
    exact ⟨_, key.2⟩
  -- the kernel's value before the clip is the reference's
  have hpre : f e o * scale f g o + shift f g be o
      = (f e o - Cert.RefSpec.mean f o) * Ideal.rsqrt (Cert.RefSpec.var f o + Ideal.ofBits .f32 0x3727C5AC#32)
          * g (ix1 o) + be (ix1 o) := by
    rw [hv, hm]
    unfold shift scale inv var mean
    rw [total_eq, total_eq, count_word, hew, hγ, hβ]
    exact key.1.trans key.2.symm
  unfold bnrelu Cert.RefSpec.bnrelu
  rw [hpre, Ideal.ofBits_zero_f32]
  exact ⟨rfl, hreal.max IsReal.zero⟩

end Cert.KSpec

end
-- ==== Proof.KBridge.lean ====
/-
  The kernel's arrangement computes the reference's value, for real inputs.

  Layer by layer.  The first layer's two half contractions are the reference's one contraction (no finiteness needed),
  and the value is a real because the features, weights and bias are.  On real columns the two spellings of the batch
  normalisation agree and give reals.  The second layer is the same affine map of equal inputs, again real; its
  normalisation agrees likewise.  The last layer differs only in the order of the two factors of each product.
-/
import proofs.«128831_j68624987455985_2_alg».proof.Proof.KSpec
import proofs.«128831_j68624987455985_2_alg».proof.Proof.KReal
import proofs.«128831_j68624987455985_2_alg».proof.Proof.KSums
import proofs.«128831_j68624987455985_2_alg».proof.Proof.KNorm

noncomputable section

open scoped BigOperators

namespace Cert.KSpec

open Idealize.ShloMosaic Idealize.ShloMosaic.ValueIdx

variable (x : FVec Ideal ⟨2, ![50000, 128]⟩ .f32) (ei : IVec ⟨2, ![2, 600000]⟩ 32)
  (W1 : FVec Ideal ⟨2, ![128, 256]⟩ .f32) (b1 g1 be1 : FVec Ideal ⟨1, ![128]⟩ .f32)
  (W2 : FVec Ideal ⟨2, ![128, 128]⟩ .f32) (b2 g2 be2 : FVec Ideal ⟨1, ![128]⟩ .f32)
  (W3 : FVec Ideal ⟨2, ![1, 128]⟩ .f32) (b3 : FVec Ideal ⟨1, ![1]⟩ .f32)

/-- The first layer before normalisation, as a function, is the reference's. -/
theorem h1_fun_eq : h1 x ei W1 b1 = Cert.RefSpec.h1 x ei W1 b1 :=
  funext fun e => funext fun o => h1_eq x ei W1 b1 e o

/-- The first layer before normalisation is real for real features, weights and bias. -/
theorem h1_real (hx : ∀ i, ∃ r : ℝ, x i = (r : EReal)) (hW1 : ∀ i, ∃ r : ℝ, W1 i = (r : EReal))
    (hb1 : ∀ i, ∃ r : ℝ, b1 i = (r : EReal)) (e : Fin 600000) (o : Fin 128) :
    IsReal (Cert.RefSpec.h1 x ei W1 b1 e o) := by
  rw [← h1_eq]
  unfold h1
  exact ((IsReal.sum _ _ fun k => IsReal.mul (hx _) (hW1 _)).add
    (IsReal.sum _ _ fun k => IsReal.mul (hx _) (hW1 _))).add (hb1 _)

/-- The first layer's output is the reference's, and real. -/
theorem y1_eq (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (e : Fin 600000) (o : Fin 128) :
    y1 x ei W1 b1 g1 be1 e o = Cert.RefSpec.y1 x ei W1 b1 g1 be1 e o ∧ IsReal (Cert.RefSpec.y1 x ei W1 b1 g1 be1 e o) := by
  unfold y1 Cert.RefSpec.y1
  rw [h1_fun_eq]
  exact bnrelu_eq _ g1 be1 (h1_real x ei W1 b1 hx hW1 hb1) hg1 hbe1 e o

/-- The second layer before normalisation is the reference's, and real. -/
theorem h2_eq (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (hW2 : ∀ i, ∃ r : ℝ, W2 i = (r : EReal))
    (hb2 : ∀ i, ∃ r : ℝ, b2 i = (r : EReal)) :
    h2 x ei W1 b1 g1 be1 W2 b2 = Cert.RefSpec.h2 x ei W1 b1 g1 be1 W2 b2
      ∧ ∀ e o, IsReal (Cert.RefSpec.h2 x ei W1 b1 g1 be1 W2 b2 e o) := by
  have hy : y1 x ei W1 b1 g1 be1 = Cert.RefSpec.y1 x ei W1 b1 g1 be1 :=
    funext fun e => funext fun o => (y1_eq x ei W1 b1 g1 be1 hx hW1 hb1 hg1 hbe1 e o).1
  refine ⟨funext fun e => funext fun o => ?_, fun e o => ?_⟩
  · unfold h2 Cert.RefSpec.h2 Cert.RefSpec.affine
    rw [hy]
  · unfold Cert.RefSpec.h2 Cert.RefSpec.affine
    exact (IsReal.sum _ _ fun k => IsReal.mul (y1_eq x ei W1 b1 g1 be1 hx hW1 hb1 hg1 hbe1 e k).2 (hW2 _)).add (hb2 _)

/-- The second layer's output, as a function, is the reference's. -/
theorem y2_eq (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (hW2 : ∀ i, ∃ r : ℝ, W2 i = (r : EReal))
    (hb2 : ∀ i, ∃ r : ℝ, b2 i = (r : EReal)) (hg2 : ∀ i, ∃ r : ℝ, g2 i = (r : EReal))
    (hbe2 : ∀ i, ∃ r : ℝ, be2 i = (r : EReal)) :
    y2 x ei W1 b1 g1 be1 W2 b2 g2 be2 = Cert.RefSpec.y2 x ei W1 b1 g1 be1 W2 b2 g2 be2 := by
  obtain ⟨hh, hreal⟩ := h2_eq x ei W1 b1 g1 be1 W2 b2 hx hW1 hb1 hg1 hbe1 hW2 hb2
  funext e o
  unfold y2 Cert.RefSpec.y2
  rw [hh]
  exact (bnrelu_eq _ g2 be2 hreal hg2 hbe2 e o).1

/-- For real inputs the kernel's arrangement gives the reference's result at every edge. -/
theorem out_eq_ref (hx : ∀ i, ∃ r : ℝ, x i = (r : EReal)) (hW1 : ∀ i, ∃ r : ℝ, W1 i = (r : EReal))
    (hb1 : ∀ i, ∃ r : ℝ, b1 i = (r : EReal)) (hg1 : ∀ i, ∃ r : ℝ, g1 i = (r : EReal))
    (hbe1 : ∀ i, ∃ r : ℝ, be1 i = (r : EReal)) (hW2 : ∀ i, ∃ r : ℝ, W2 i = (r : EReal))
    (hb2 : ∀ i, ∃ r : ℝ, b2 i = (r : EReal)) (hg2 : ∀ i, ∃ r : ℝ, g2 i = (r : EReal))
    (hbe2 : ∀ i, ∃ r : ℝ, be2 i = (r : EReal)) (hW3 : ∀ i, ∃ r : ℝ, W3 i = (r : EReal))
    (hb3 : ∀ i, ∃ r : ℝ, b3 i = (r : EReal)) (e : Fin 600000) :
    Cert.KSpec.out x ei W1 b1 g1 be1 W2 b2 g2 be2 W3 b3 e = Cert.RefSpec.out x ei W1 b1 g1 be1 W2 b2 g2 be2 W3 b3 e := by
  unfold out Cert.RefSpec.out Cert.RefSpec.affine
  rw [y2_eq x ei W1 b1 g1 be1 W2 b2 g2 be2 hx hW1 hb1 hg1 hbe1 hW2 hb2 hg2 hbe2]
  exact congrArg (· + b3 (ix1 (0 : Fin 1))) (Finset.sum_congr rfl fun k _ => mul_comm _ _)

end Cert.KSpec

end
-- ==== Proof.KiStat.lean ====
/-
  The host's normalisation constants, computed from the two arrays of per-outer-index partial sums, are the blockwise
  formula's scale and shift when those arrays hold the running sums after the last inner step.
-/
import proofs.«128831_j68624987455985_2_alg».proof.Proof.KiHostSpec
import proofs.«128831_j68624987455985_2_alg».proof.Proof.KSpec
import proofs.«128831_j68624987455985_2_alg».proof.Proof.KGlue

noncomputable section

namespace Cert.HostSpec

open Idealize.ShloMosaic Idealize.ShloMosaic.ValueIdx
open BigOperators

variable (f : Fin 600000 → Fin 128 → EReal) (S Q : FVec Ideal ⟨3, ![2, 1, 128]⟩ .f32) (g be : FVec Ideal ⟨1, ![128]⟩ .f32) (o : Fin 128)

theorem statMean_eq (hS : ∀ c' : Fin 2, S (ix3 c' (0 : Fin 1) o) = Cert.KSpec.run f c' o 49) : statMean S o = Cert.KSpec.mean f o := by
  rw [Cert.KSpec.mean_def]; unfold statMean; simp only [hS]

theorem scale_eq (hS : ∀ c' : Fin 2, S (ix3 c' (0 : Fin 1) o) = Cert.KSpec.run f c' o 49)
    (hQ : ∀ c' : Fin 2, Q (ix3 c' (0 : Fin 1) o) = Cert.KSpec.run (fun e o => f e o * f e o) c' o 49) :
    scale S Q g o = Cert.KSpec.scale f g o := by
  rw [Cert.KSpec.scale_def, Cert.KSpec.var_def, ← statMean_eq f S o hS]
  unfold scale statVar
  rw [show statMean Q o = Ideal.div (Ideal.ofBits .f32 0x00000000#32 + ∑ c' : Fin 2, Cert.KSpec.run (fun e o => f e o * f e o) c' o 49) (Ideal.ofBits .f32 0x49127C00#32) from by
    unfold statMean; simp only [hQ]]

theorem shift_eq (hS : ∀ c' : Fin 2, S (ix3 c' (0 : Fin 1) o) = Cert.KSpec.run f c' o 49)
    (hQ : ∀ c' : Fin 2, Q (ix3 c' (0 : Fin 1) o) = Cert.KSpec.run (fun e o => f e o * f e o) c' o 49) :
    shift S Q g be o = Cert.KSpec.shift f g be o := by
  rw [Cert.KSpec.shift_def, ← scale_eq f S Q g o hS hQ, ← statMean_eq f S o hS]
  rfl

end Cert.HostSpec

end
-- ==== Proof.KiValue.lean ====
/-
  The kernel program's result array, read through its three pallas_calls and the host operations between them, is the
  blockwise formula: each layer's activations are the linear layer of the layer before; the per-channel sums the host
  normalises with are the running sums over the 50 inner steps of each of the 2 outer indices; the last reshape lays
  the 100 blocks of 6000 edges end to end. For real inputs that blockwise formula is the reference's.
-/
import proofs.«128831_j68624987455985_2_alg».proof.Proof.KiWhole
import proofs.«128831_j68624987455985_2_alg».proof.Proof.KiHostIn
import proofs.«128831_j68624987455985_2_alg».proof.Proof.KiHostOut
import proofs.«128831_j68624987455985_2_alg».proof.Proof.KiHostNorm
import proofs.«128831_j68624987455985_2_alg».proof.Proof.KiL1Value
import proofs.«128831_j68624987455985_2_alg».proof.Proof.KiL1Sums
import proofs.«128831_j68624987455985_2_alg».proof.Proof.KiL2Value
import proofs.«128831_j68624987455985_2_alg».proof.Proof.KiL2Sums
import proofs.«128831_j68624987455985_2_alg».proof.Proof.KiProjValue
import proofs.«128831_j68624987455985_2_alg».proof.Proof.KSpec
import proofs.«128831_j68624987455985_2_alg».proof.Proof.KGlue
import proofs.«128831_j68624987455985_2_alg».proof.Proof.KBridge
import proofs.«128831_j68624987455985_2_alg».proof.Proof.KiStat
import proofs.«128831_j68624987455985_2_alg».proof.Proof.LibRealEntries
import proofs.«128831_j68624987455985_2_alg».proof.Proof.RefSpec

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Whole
open BigOperators

variable (m : (ℓ : Loc nD τ sig) → Buf (Elt Ideal) ℓ) (c : Dev nD)

/-! ## The first layer -/

/-- The first pallas_call's linear layer over the arrays the host hands it is the blockwise formula's first layer. -/
theorem hE1_eq : Cert.KernelIdeal.Layer1V.hE (Whole.V1 m) c = Cert.KSpec.h1 (m ((c.tc : Thread nD τ).loc main_arg0)) (m ((c.tc : Thread nD τ).loc main_arg1)) (m ((c.tc : Thread nD τ).loc main_arg2)) (m ((c.tc : Thread nD τ).loc main_arg3)) := by
  funext e o
  unfold Cert.KernelIdeal.Layer1V.hE Cert.KernelIdeal.Layer1V.hAt Cert.KSpec.h1
  refine congrArg₂ (· + ·) (congrArg₂ (· + ·) (Finset.sum_congr rfl fun k _ => ?_) (Finset.sum_congr rfl fun k _ => ?_)) ?_
  · exact congrArg₂ (· * ·) (Cert.KernelIdeal.HostV.v9_apply m c e k) (Cert.KernelIdeal.HostV.v21_apply m c k o)
  · exact congrArg₂ (· * ·) (Cert.KernelIdeal.HostV.v18_apply m c e k) (Cert.KernelIdeal.HostV.v24_apply m c k o)
  · exact Cert.KernelIdeal.HostV.v25_apply m c o

theorem h1_apply (e : Fin 600000) (o : Fin 128) :
    Whole.V2 m c main_v31_0 (ix2 e o) = Cert.KSpec.h1 (m ((c.tc : Thread nD τ).loc main_arg0)) (m ((c.tc : Thread nD τ).loc main_arg1)) (m ((c.tc : Thread nD τ).loc main_arg2)) (m ((c.tc : Thread nD τ).loc main_arg3)) e o :=
  ((congrFun (W2_arr m c 5) (ix2 e o)).trans (Cert.KernelIdeal.Layer1V.arrAt5_apply (Whole.V1 m) c e o)).trans (congrFun (congrFun (hE1_eq m c) e) o)

/-- The first pallas_call's two sum outputs hold the running sums of the first layer after the last inner step. -/
theorem sum1_apply (c' : Fin 2) (o : Fin 128) :
    W2 m c (Proc.devRef .tc main_v31_1) (ix3 c' (0 : Fin 1) o) = Cert.KSpec.run (Cert.KSpec.h1 (m ((c.tc : Thread nD τ).loc main_arg0)) (m ((c.tc : Thread nD τ).loc main_arg1)) (m ((c.tc : Thread nD τ).loc main_arg2)) (m ((c.tc : Thread nD τ).loc main_arg3))) c' o 49 :=
  ((congrFun (W2_arr m c 6) (ix3 c' (0 : Fin 1) o)).trans (Cert.KernelIdeal.Layer1V.arrAt6_apply (Whole.V1 m) c c' o)).trans (by rw [hE1_eq])

theorem sq1_apply (c' : Fin 2) (o : Fin 128) :
    W2 m c (Proc.devRef .tc main_v31_2) (ix3 c' (0 : Fin 1) o)
      = Cert.KSpec.run (fun e o => Cert.KSpec.h1 (m ((c.tc : Thread nD τ).loc main_arg0)) (m ((c.tc : Thread nD τ).loc main_arg1)) (m ((c.tc : Thread nD τ).loc main_arg2)) (m ((c.tc : Thread nD τ).loc main_arg3)) e o * Cert.KSpec.h1 (m ((c.tc : Thread nD τ).loc main_arg0)) (m ((c.tc : Thread nD τ).loc main_arg1)) (m ((c.tc : Thread nD τ).loc main_arg2)) (m ((c.tc : Thread nD τ).loc main_arg3)) e o) c' o 49 :=
  ((congrFun (W2_arr m c 7) (ix3 c' (0 : Fin 1) o)).trans (Cert.KernelIdeal.Layer1V.arrAt7_apply (Whole.V1 m) c c' o)).trans (by rw [hE1_eq])

theorem scale1_apply (o : Fin 128) :
    Whole.V3 m c main_v48 (ix2 (0 : Fin 1) o) = Cert.KSpec.scale (Cert.KSpec.h1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) o :=
  (Cert.KernelIdeal.HostV.v48_apply m c o).trans (Cert.HostSpec.scale_eq _ _ _ _ o (fun c' => sum1_apply m c c' o) (fun c' => sq1_apply m c c' o))

theorem shift1_apply (o : Fin 128) :
    Whole.V3 m c main_v51 (ix2 (0 : Fin 1) o) = Cert.KSpec.shift (Cert.KSpec.h1 (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) o :=
  (Cert.KernelIdeal.HostV.v51_apply m c o).trans (Cert.HostSpec.shift_eq _ _ _ _ _ o (fun c' => sum1_apply m c c' o) (fun c' => sq1_apply m c c' o))

/-! ## The second layer -/

/-- The second pallas_call's layer over the arrays it is handed is the blockwise formula's second layer. -/
theorem hE2_eq : Cert.KernelIdeal.Layer2V.h2E (Whole.V3 m) c = Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext e o
  unfold Cert.KernelIdeal.Layer2V.h2E Cert.KernelIdeal.Layer2V.H2
  rw [Cert.KSpec.h2_def]
  refine congrArg₂ (· + ·) (Finset.sum_congr rfl fun k _ => congrArg₂ (· * ·) ?_ (Cert.KernelIdeal.HostV.v27_apply m c k o)) (Cert.KernelIdeal.HostV.v28_apply m c o)
  rw [Cert.KSpec.y1_def, Cert.KSpec.bnrelu_def]
  refine congrArg₂ max (congrArg₂ (· + ·) (congrArg₂ (· * ·) ?_ (scale1_apply m c k)) (shift1_apply m c k)) rfl
  exact (congrFun (Cert.KernelIdeal.HostV.v31_0_kept m c) (ix2 e k)).trans (h1_apply m c e k)

theorem h2_apply (e : Fin 600000) (o : Fin 128) :
    Whole.V4 m c main_v52_0 (ix2 e o) = Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) e o :=
  ((congrFun (W4_arr m c 5) (ix2 e o)).trans (Cert.KernelIdeal.Layer2V.arrAt5_apply (Whole.V3 m) c e o)).trans (congrFun (congrFun (hE2_eq m c) e) o)

theorem sum2_apply (c' : Fin 2) (o : Fin 128) :
    W4 m c (Proc.devRef .tc main_v52_1) (ix3 c' (0 : Fin 1) o) = Cert.KSpec.run (Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) c' o 49 :=
  ((congrFun (W4_arr m c 6) (ix3 c' (0 : Fin 1) o)).trans (Cert.KernelIdeal.Layer2V.arrAt6_apply (Whole.V3 m) c c' o)).trans (by rw [hE2_eq])

theorem sq2_apply (c' : Fin 2) (o : Fin 128) :
    W4 m c (Proc.devRef .tc main_v52_2) (ix3 c' (0 : Fin 1) o)
      = Cert.KSpec.run (fun e o => Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) e o * Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) e o) c' o 49 :=
  ((congrFun (W4_arr m c 7) (ix3 c' (0 : Fin 1) o)).trans (Cert.KernelIdeal.Layer2V.arrAt7_apply (Whole.V3 m) c c' o)).trans (by rw [hE2_eq])

theorem scale2_apply (o : Fin 128) :
    Whole.V5 m c main_v69 (ix2 (0 : Fin 1) o) = Cert.KSpec.scale (Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) o :=
  (Cert.KernelIdeal.HostV.v69_apply m c o).trans (Cert.HostSpec.scale_eq _ _ _ _ o (fun c' => sum2_apply m c c' o) (fun c' => sq2_apply m c c' o))

theorem shift2_apply (o : Fin 128) :
    Whole.V5 m c main_v72 (ix2 (0 : Fin 1) o) = Cert.KSpec.shift (Cert.KSpec.h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg9)) o :=
  (Cert.KernelIdeal.HostV.v72_apply m c o).trans (Cert.HostSpec.shift_eq _ _ _ _ _ o (fun c' => sum2_apply m c c' o) (fun c' => sq2_apply m c c' o))

/-! ## The result -/

/-- The result array at edge `e` is the blockwise formula: the reshape lays block `e / 6000`, lane `e % 6000` at `e`. -/
theorem out_apply (e : Fin 600000) :
    W7 m c (Proc.devRef .tc main_v74) (ix1 e) = Cert.KSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) e := by
  rw [Cert.KernelIdeal.HostV.v74_apply m c e]
  refine ((congrFun (W6_arr m c 5) _).trans (Cert.KernelIdeal.ProjValue.final_apply (Whole.V5 m) c _ _ _)).trans ?_
  unfold Cert.KernelIdeal.ProjValue.proj
  rw [Cert.KSpec.out_def]
  refine congrArg₂ (· + ·) (Finset.sum_congr rfl fun k _ => congrArg₂ (· * ·) (Cert.KernelIdeal.HostV.v29_apply m c k) ?_) (Cert.KernelIdeal.HostV.v30_apply m c)
  rw [Cert.KSpec.y2_def, Cert.KSpec.bnrelu_def]
  refine congrArg₂ max (congrArg₂ (· + ·) (congrArg₂ (· * ·) ?_ (scale2_apply m c k)) (shift2_apply m c k)) rfl
  rw [show Cert.KernelIdeal.ProjValue.edge ⟨e.val / 6000, Cert.KSpec.div_lt e⟩ ⟨e.val % 6000, Cert.KSpec.mod_lt e⟩ = e from Cert.KSpec.edge_div_mod e _ _ _]
  exact (congrFun (Cert.KernelIdeal.HostV.v52_0_kept m c) (ix2 e k)).trans (h2_apply m c e k)

/-- For real inputs the result array is the reference's formula, index by index. -/
theorem out_eq (hr : Cert.Lib.AllReal (m ((c.tc : Thread nD τ).loc main_arg0)) ∧ Cert.Lib.AllReal (m ((c.tc : Thread nD τ).loc main_arg2)) ∧ Cert.Lib.AllReal (m ((c.tc : Thread nD τ).loc main_arg3)) ∧ Cert.Lib.AllReal (m ((c.tc : Thread nD τ).loc main_arg4)) ∧ Cert.Lib.AllReal (m ((c.tc : Thread nD τ).loc main_arg5)) ∧ Cert.Lib.AllReal (m ((c.tc : Thread nD τ).loc main_arg6)) ∧ Cert.Lib.AllReal (m ((c.tc : Thread nD τ).loc main_arg7)) ∧ Cert.Lib.AllReal (m ((c.tc : Thread nD τ).loc main_arg8)) ∧ Cert.Lib.AllReal (m ((c.tc : Thread nD τ).loc main_arg9)) ∧ Cert.Lib.AllReal (m ((c.tc : Thread nD τ).loc main_arg10)) ∧ Cert.Lib.AllReal (m ((c.tc : Thread nD τ).loc main_arg11))) :
    W7 m c (Proc.devRef .tc main_v74) = fun i => Cert.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (i 0) := by
  obtain ⟨h0, h2, h3, h4, h5, h6, h7, h8, h9, h10, h11⟩ := hr
  funext i
  obtain ⟨e, rfl⟩ : ∃ e : Fin 600000, i = ix1 e := ⟨i 0, eq_ix1 i⟩
  exact (out_apply m c e).trans (Cert.KSpec.out_eq_ref _ _ _ _ _ _ _ _ _ _ _ _ h0 h2 h3 h4 h5 h6 h7 h8 h9 h10 h11 e)

end Cert.KernelIdeal.Value

end
-- ==== Proof.lean ====
/-
  The certificate: the three-layer edge MLP with training-mode batch normalisation, computed by three pallas_calls
  (per-block linear layers keeping per-channel running sums; a final projection) against its plain reference.
  Each program's frame is its whole run with the result dropped; the idealization rewrote nothing; at the ideal
  instance both programs end with the same extended reals because, for real inputs, the blockwise sums are the whole
  sums and the two spellings of batch normalisation agree.
-/
import proofs.«128831_j68624987455985_2_alg».proof.Defs
import proofs.«128831_j68624987455985_2_alg».proof.Proof.Gen.Kernel
import proofs.«128831_j68624987455985_2_alg».proof.Proof.Gen.KernelIdeal
import proofs.«128831_j68624987455985_2_alg».proof.Proof.Gen.ReferenceIdeal
import proofs.«128831_j68624987455985_2_alg».proof.Proof.Gen.Pre_finite_inputs
import proofs.«128831_j68624987455985_2_alg».proof.Proof.KbWhole
import proofs.«128831_j68624987455985_2_alg».proof.Proof.KiWhole
import proofs.«128831_j68624987455985_2_alg».proof.Proof.RefRun
import proofs.«128831_j68624987455985_2_alg».proof.Proof.RefRunSpec
import proofs.«128831_j68624987455985_2_alg».proof.Proof.KiPreReal
import proofs.«128831_j68624987455985_2_alg».proof.Proof.KiValue
import proofs.«128831_j68624987455985_2_alg».proof.Proof.RefSpec
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Whole.frame (F := Bits) m ρ

theorem frame_ki : @Cert.frame_KernelIdeal Cert.KernelIdeal.Gen.facts Cert.Pre_finite_inputs.Gen.facts :=
  fun m ρ _ => Cert.KernelIdeal.Whole.frame (F := Ideal) m ρ

theorem frame_ri : @Cert.frame_ReferenceIdeal Cert.ReferenceIdeal.Gen.facts Cert.Pre_finite_inputs.Gen.facts :=
  fun m ρ _ => Cert.ReferenceIdeal.RefRun.frame (F := Ideal) m ρ

theorem preserves : Cert.preserves_Kernel_KernelIdeal := trivial

theorem algebraic : @Cert.algebraic_KernelIdeal_ReferenceIdeal Cert.KernelIdeal.Gen.facts Cert.ReferenceIdeal.Gen.facts Cert.Pre_finite_inputs.Gen.facts :=
  by
  intro m ρ m' ρ' hpre hagree
  refine ⟨fun c => (fun i => Cert.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0)), ?_, ?_⟩
  · exact (θ_run Cert.KernelIdeal.defs _ _).mono
      (fun r h c => ⟨(h c).1.trans (Cert.KernelIdeal.Value.out_eq m c (Cert.Proof.PreReal.reals_of_pre m hpre c)), (h c).2⟩)
      (Cert.KernelIdeal.Whole.run_result (F := Ideal) m ρ)
  · refine (θ_run Cert.ReferenceIdeal.defs _ _).mono (fun r h c => ⟨?_, (h c).2⟩) (Cert.ReferenceIdeal.RefValue.run_spec m' ρ')
    obtain ⟨a0, a1, a2, a3, a4, a5, a6, a7, a8, a9, a10, a11⟩ := hagree c
    rw [(h c).1, a0, a1, a2, a3, a4, a5, a6, a7, a8, a9, a10, a11]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
